-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v130)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v130) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1200000 : Shape := ⟨2, ![2, 1200000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S65x64 : Shape := ⟨2, ![65, 64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000 : S_.BroadcastsInDim S100000 (![] : Fin 0 → Fin S100000.rank)
  reducesTo_S100000_S_d0 : S100000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S65x64 : S_.BroadcastsInDim S65x64 (![] : Fin 0 → Fin S65x64.rank)
  reducesTo_S65x64_S_d0_1 : S65x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_v98 : IVec S_ 1) (main_v101 : IVec S1 1) (main_c_39 : IVec S_ 1) : IVec S_ 1 :=
  let main_v102 : IVec S_ 1 := (fun x v => Host.reduce IntOp.andi x v reducesTo_S1_S_d0 h_S_) main_v101 main_c_39
  let main_v103 : IVec S_ 1 := andi main_v98 main_v102
  main_v103

def fn_part5 {F : FTy → Type} [FloatOps F] (main_arg19 : FVec F S64 .f32) (main_arg20 : FVec F S64x1 .f32) (main_arg21 : FVec F S1 .f32) (main_v83 : IVec S_ 1) (main_v84 : FVec F S65x64 .f32) (main_cst_32 : FVec F S_ .f32) : IVec S_ 1 :=
  let main_v85 : FVec F S65x64 .f32 := broadcastInDim S65x64 ![] bcast_S_S65x64 main_cst_32
  let main_v86 : IVec S65x64 1 := cmpf .olt main_v84 main_v85
  let main_c_33 : IVec S_ 1 := constantI S_ 1 1#1
  let main_v87 : IVec S_ 1 := (fun x v => Host.reduce IntOp.andi x v reducesTo_S65x64_S_d0_1 h_S_) main_v86 main_c_33
  let main_v88 : IVec S_ 1 := andi main_v83 main_v87
  let main_v89 : FVec F S64 .f32 := Host.absf main_arg19
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S64x1 .f32 := Host.absf main_arg20
  let main_cst_36 : FVec F S_ .f32 := constant S_ .f32 0x7F800000#32
  let main_v95 : FVec F S64x1 .f32 := broadcastInDim S64x1 ![] bcast_S_S64x1 main_cst_36
  let main_v96 : IVec S64x1 1 := cmpf .olt main_v94 main_v95
  let main_c_37 : IVec S_ 1 := constantI S_ 1 1#1
  let main_v97 : IVec S_ 1 := (fun x v => Host.reduce IntOp.andi x v reducesTo_S64x1_S_d0_1 h_S_) main_v96 main_c_37
  let main_v98 : IVec S_ 1 := andi main_v93 main_v97
  let main_v99 : FVec F S1 .f32 := Host.absf main_arg21
  let main_cst_38 : FVec F S_ .f32 := constant S_ .f32 0x7F800000#32
  let main_v100 : FVec F S1 .f32 := broadcastInDim S1 ![] bcast_S_S1 main_cst_38
  let main_v101 : IVec S1 1 := cmpf .olt main_v99 main_v100
  let main_c_39 : IVec S_ 1 := constantI S_ 1 1#1
  fn_part6 (F := F) main_v98 main_v101 main_c_39

def fn_part4 {F : FTy → Type} [FloatOps F] (main_arg15 : FVec F S64x64 .f32) (main_arg16 : FVec F S64 .f32) (main_arg17 : FVec F S64 .f32) (main_arg18 : FVec F S65x64 .f32) (main_arg19 : FVec F S64 .f32) (main_arg20 : FVec F S64x1 .f32) (main_arg21 : FVec F S1 .f32) (main_v63 : IVec S_ 1) (main_v67 : IVec S_ 1) : IVec S_ 1 :=
  let main_v68 : IVec S_ 1 := andi main_v63 main_v67
  let main_v69 : FVec F S64x64 .f32 := Host.absf main_arg15
  let main_cst_26 : FVec F S_ .f32 := constant S_ .f32 0x7F800000#32
  let main_v70 : FVec F S64x64 .f32 := broadcastInDim S64x64 ![] bcast_S_S64x64 main_cst_26
  let main_v71 : IVec S64x64 1 := cmpf .olt main_v69 main_v70
  let main_c_27 : IVec S_ 1 := constantI S_ 1 1#1
  let main_v72 : IVec S_ 1 := (fun x v => Host.reduce IntOp.andi x v reducesTo_S64x64_S_d0_1 h_S_) main_v71 main_c_27
  let main_v73 : IVec S_ 1 := andi main_v68 main_v72
  let main_v74 : FVec F S64 .f32 := Host.absf main_arg16
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64 .f32 := Host.absf main_arg17
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S65x64 .f32 := Host.absf main_arg18
  let main_cst_32 : FVec F S_ .f32 := constant S_ .f32 0x7F800000#32
  fn_part5 (F := F) main_arg19 main_arg20 main_arg21 main_v83 main_v84 main_cst_32

def fn_part3 {F : FTy → Type} [FloatOps F] (main_arg12 : FVec F S64 .f32) (main_arg13 : FVec F S64x64 .f32) (main_arg14 : FVec F S64 .f32) (main_arg15 : FVec F S64x64 .f32) (main_arg16 : FVec F S64 .f32) (main_arg17 : FVec F S64 .f32) (main_arg18 : FVec F S65x64 .f32) (main_arg19 : FVec F S64 .f32) (main_arg20 : FVec F S64x1 .f32) (main_arg21 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg13
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg15 main_arg16 main_arg17 main_arg18 main_arg19 main_arg20 main_arg21 main_v63 main_v67

def fn_part2 {F : FTy → Type} [FloatOps F] (main_arg8 : FVec F S64x64 .f32) (main_arg9 : FVec F S64 .f32) (main_arg10 : FVec F S64x64 .f32) (main_arg11 : FVec F S64 .f32) (main_arg12 : FVec F S64 .f32) (main_arg13 : FVec F S64x64 .f32) (main_arg14 : FVec F S64 .f32) (main_arg15 : FVec F S64x64 .f32) (main_arg16 : FVec F S64 .f32) (main_arg17 : FVec F S64 .f32) (main_arg18 : FVec F S65x64 .f32) (main_arg19 : FVec F S64 .f32) (main_arg20 : FVec F S64x1 .f32) (main_arg21 : FVec F S1 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_arg14 main_arg15 main_arg16 main_arg17 main_arg18 main_arg19 main_arg20 main_arg21 main_v48 main_v49 main_v50

def fn_part1 {F : FTy → Type} [FloatOps F] (main_arg5 : FVec F S128x64 .f32) (main_arg6 : FVec F S64 .f32) (main_arg7 : FVec F S64 .f32) (main_arg8 : FVec F S64x64 .f32) (main_arg9 : FVec F S64 .f32) (main_arg10 : FVec F S64x64 .f32) (main_arg11 : FVec F S64 .f32) (main_arg12 : FVec F S64 .f32) (main_arg13 : FVec F S64x64 .f32) (main_arg14 : FVec F S64 .f32) (main_arg15 : FVec F S64x64 .f32) (main_arg16 : FVec F S64 .f32) (main_arg17 : FVec F S64 .f32) (main_arg18 : FVec F S65x64 .f32) (main_arg19 : FVec F S64 .f32) (main_arg20 : FVec F S64x1 .f32) (main_arg21 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_v33

def fn {F : FTy → Type} [FloatOps F] (main_arg0 : FVec F S100000x128 .f32) (main_arg1 : IVec S2x1200000 32) (main_arg2 : FVec F S100000 .f32) (main_arg3 : FVec F S128x64 .f32) (main_arg4 : FVec F S64 .f32) (main_arg5 : FVec F S128x64 .f32) (main_arg6 : FVec F S64 .f32) (main_arg7 : FVec F S64 .f32) (main_arg8 : FVec F S64x64 .f32) (main_arg9 : FVec F S64 .f32) (main_arg10 : FVec F S64x64 .f32) (main_arg11 : FVec F S64 .f32) (main_arg12 : FVec F S64 .f32) (main_arg13 : FVec F S64x64 .f32) (main_arg14 : FVec F S64 .f32) (main_arg15 : FVec F S64x64 .f32) (main_arg16 : FVec F S64 .f32) (main_arg17 : FVec F S64 .f32) (main_arg18 : FVec F S65x64 .f32) (main_arg19 : FVec F S64 .f32) (main_arg20 : FVec F S64x1 .f32) (main_arg21 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000 .f32 := Host.absf main_arg2
  let main_cst_0 : FVec F S_ .f32 := constant S_ .f32 0x7F800000#32
  let main_v5 : FVec F S100000 .f32 := broadcastInDim S100000 ![] bcast_S_S100000 main_cst_0
  let main_v6 : IVec S100000 1 := cmpf .olt main_v4 main_v5
  let main_c_1 : IVec S_ 1 := constantI S_ 1 1#1
  let main_v7 : IVec S_ 1 := (fun x v => Host.reduce IntOp.andi x v reducesTo_S100000_S_d0 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S100000x128 : Shape := ⟨2, ![100000, 128]⟩
abbrev S2x1200000 : Shape := ⟨2, ![2, 1200000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S65x64 : Shape := ⟨2, ![65, 64]⟩
abbrev S64x1 : Shape := ⟨2, ![64, 1]⟩
abbrev S1 : Shape := ⟨1, ![1]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x128 : Shape := ⟨2, ![1200000, 128]⟩
abbrev S100000x1 : Shape := ⟨2, ![100000, 1]⟩
abbrev S1x64 : Shape := ⟨2, ![1, 64]⟩
abbrev S100000x64 : Shape := ⟨2, ![100000, 64]⟩
abbrev S5000x128 : Shape := ⟨2, ![5000, 128]⟩
abbrev S5000x1 : Shape := ⟨2, ![5000, 1]⟩
abbrev S5000x64 : Shape := ⟨2, ![5000, 64]⟩
abbrev S50000x128 : Shape := ⟨2, ![50000, 128]⟩
abbrev S2x64 : Shape := ⟨2, ![2, 64]⟩
abbrev S128 : Shape := ⟨1, ![128]⟩
abbrev S1x128 : Shape := ⟨2, ![1, 128]⟩
abbrev S2000x128 : Shape := ⟨2, ![2000, 128]⟩
abbrev S1200000x64 : Shape := ⟨2, ![1200000, 64]⟩
abbrev S1x1 : Shape := ⟨2, ![1, 1]⟩

abbrev nBuf : Space → Nat
  | .hbm => 255
  | .vmem => 64
  | .smem => 0
  | _ => 0

abbrev hbmTy0_0 (i : Nat) : BufTy := match i % 128 with
  | 0 => ⟨S100000x128, .f32⟩
  | 1 => ⟨S2x1200000, .i32⟩
  | 2 => ⟨S100000, .f32⟩
  | 3 => ⟨S128x64, .f32⟩
  | 4 => ⟨S64, .f32⟩
  | 5 => ⟨S128x64, .f32⟩
  | 6 => ⟨S64, .f32⟩
  | 7 => ⟨S64, .f32⟩
  | 8 => ⟨S64x64, .f32⟩
  | 9 => ⟨S64, .f32⟩
  | 10 => ⟨S64x64, .f32⟩
  | 11 => ⟨S64, .f32⟩
  | 12 => ⟨S64, .f32⟩
  | 13 => ⟨S64x64, .f32⟩
  | 14 => ⟨S64, .f32⟩
  | 15 => ⟨S64x64, .f32⟩
  | 16 => ⟨S64, .f32⟩
  | 17 => ⟨S64, .f32⟩
  | 18 => ⟨S65x64, .f32⟩
  | 19 => ⟨S64, .f32⟩
  | 20 => ⟨S64x1, .f32⟩
  | 21 => ⟨S1, .f32⟩
  | 22 => ⟨S1x1200000, .i32⟩
  | 23 => ⟨S1200000, .i32⟩
  | 24 => ⟨S1x1200000, .i32⟩
  | 25 => ⟨S1200000, .i32⟩
  | 26 => ⟨S_, .i32⟩
  | 27 => ⟨S1200000, .i32⟩
  | 28 => ⟨S1200000, .i1⟩
  | 29 => ⟨S_, .i32⟩
  | 30 => ⟨S1200000, .i32⟩
  | 31 => ⟨S1200000, .i32⟩
  | 32 => ⟨S1200000, .i32⟩
  | 33 => ⟨S1200000x1, .i32⟩
  | 34 => ⟨S1200000x128, .f32⟩
  | 35 => ⟨S_, .f32⟩
  | 36 => ⟨S100000x128, .f32⟩
  | 37 => ⟨S1200000x1, .i32⟩
  | 38 => ⟨S100000x128, .f32⟩
  | 39 => ⟨S_, .f32⟩
  | 40 => ⟨S1200000, .f32⟩
  | 41 => ⟨S_, .f32⟩
  | 42 => ⟨S100000, .f32⟩
  | 43 => ⟨S1200000x1, .i32⟩
  | 44 => ⟨S100000, .f32⟩
  | 45 => ⟨S_, .f32⟩
  | 46 => ⟨S_, .f32⟩
  | 47 => ⟨S100000, .f32⟩
  | 48 => ⟨S100000, .f32⟩
  | 49 => ⟨S_, .f32⟩
  | 50 => ⟨S100000, .f32⟩
  | 51 => ⟨S100000, .f32⟩
  | 52 => ⟨S100000x1, .f32⟩
  | 53 => ⟨S1x64, .f32⟩
  | 54 => ⟨S100000x64, .f32⟩
  | 55 => ⟨S_, .f32⟩
  | 56 => ⟨S64, .f32⟩
  | 57 => ⟨S_, .f32⟩
  | 58 => ⟨S64, .f32⟩
  | 59 => ⟨S64, .f32⟩
  | 60 => ⟨S_, .i32⟩
  | 61 => ⟨S_, .f32⟩
  | 62 => ⟨S64, .f32⟩
  | 63 => ⟨S1x64, .f32⟩
  | 64 => ⟨S_, .f32⟩
  | 65 => ⟨S1x64, .f32⟩
  | 66 => ⟨S1x64, .f32⟩
  | 67 => ⟨S100000x64, .f32⟩
  | 68 => ⟨S100000x64, .f32⟩
  | 69 => ⟨S100000x64, .f32⟩
  | 70 => ⟨S_, .f32⟩
  | 71 => ⟨S_, .f32⟩
  | 72 => ⟨S_, .f32⟩
  | 73 => ⟨S_, .f32⟩
  | 74 => ⟨S64, .f32⟩
  | 75 => ⟨S64, .f32⟩
  | 76 => ⟨S64, .f32⟩
  | 77 => ⟨S_, .f32⟩
  | 78 => ⟨S_, .i1⟩
  | 79 => ⟨S_, .f32⟩
  | 80 => ⟨S_, .f32⟩
  | 81 => ⟨S64, .f32⟩
  | 82 => ⟨S64, .f32⟩
  | 83 => ⟨S_, .f32⟩
  | 84 => ⟨S64, .f32⟩
  | 85 => ⟨S64, .f32⟩
  | 86 => ⟨S50000x128, .f32⟩
  | 87 => ⟨S1x64, .f32⟩
  | 88 => ⟨S2x64, .f32⟩
  | 89 => ⟨S128, .f32⟩
  | 90 => ⟨S1x128, .f32⟩
  | 91 => ⟨S1x64, .f32⟩
  | 92 => ⟨S2x64, .f32⟩
  | 93 => ⟨S128, .f32⟩
  | 94 => ⟨S1x128, .f32⟩
  | 95 => ⟨S1x64, .f32⟩
  | 96 => ⟨S2x64, .f32⟩
  | 97 => ⟨S128, .f32⟩
  | 98 => ⟨S1x128, .f32⟩
  | 99 => ⟨S1x64, .f32⟩
  | 100 => ⟨S2x64, .f32⟩
  | 101 => ⟨S128, .f32⟩
  | 102 => ⟨S1x128, .f32⟩
  | 103 => ⟨S50000x128, .f32⟩
  | 104 => ⟨S100000x64, .f32⟩
  | 105 => ⟨S_, .i32⟩
  | 106 => ⟨S1200000, .i32⟩
  | 107 => ⟨S1200000, .i1⟩
  | 108 => ⟨S_, .i32⟩
  | 109 => ⟨S1200000, .i32⟩
  | 110 => ⟨S1200000, .i32⟩
  | 111 => ⟨S1200000, .i32⟩
  | 112 => ⟨S1200000x1, .i32⟩
  | 113 => ⟨S1200000x64, .f32⟩
  | 114 => ⟨S_, .f32⟩
  | 115 => ⟨S100000x64, .f32⟩
  | 116 => ⟨S1200000x1, .i32⟩
  | 117 => ⟨S100000x64, .f32⟩
  | 118 => ⟨S_, .f32⟩
  | 119 => ⟨S1200000, .f32⟩
  | 120 => ⟨S_, .f32⟩
  | 121 => ⟨S100000, .f32⟩
  | 122 => ⟨S1200000x1, .i32⟩
  | 123 => ⟨S100000, .f32⟩
  | 124 => ⟨S_, .f32⟩
  | 125 => ⟨S_, .f32⟩
  | 126 => ⟨S100000, .f32⟩
  | 127 => ⟨S100000, .f32⟩
  | _ => ⟨S100000x128, .f32⟩

abbrev hbmTy0_1 (i : Nat) : BufTy := match i % 128 with
  | 0 => ⟨S_, .f32⟩
  | 1 => ⟨S100000, .f32⟩
  | 2 => ⟨S100000, .f32⟩
  | 3 => ⟨S100000x1, .f32⟩
  | 4 => ⟨S1x64, .f32⟩
  | 5 => ⟨S100000x64, .f32⟩
  | 6 => ⟨S_, .f32⟩
  | 7 => ⟨S64, .f32⟩
  | 8 => ⟨S_, .f32⟩
  | 9 => ⟨S64, .f32⟩
  | 10 => ⟨S64, .f32⟩
  | 11 => ⟨S_, .i32⟩
  | 12 => ⟨S_, .f32⟩
  | 13 => ⟨S64, .f32⟩
  | 14 => ⟨S1x64, .f32⟩
  | 15 => ⟨S_, .f32⟩
  | 16 => ⟨S1x64, .f32⟩
  | 17 => ⟨S1x64, .f32⟩
  | 18 => ⟨S100000x64, .f32⟩
  | 19 => ⟨S100000x64, .f32⟩
  | 20 => ⟨S100000x64, .f32⟩
  | 21 => ⟨S_, .f32⟩
  | 22 => ⟨S_, .f32⟩
  | 23 => ⟨S_, .f32⟩
  | 24 => ⟨S_, .f32⟩
  | 25 => ⟨S64, .f32⟩
  | 26 => ⟨S64, .f32⟩
  | 27 => ⟨S64, .f32⟩
  | 28 => ⟨S_, .f32⟩
  | 29 => ⟨S_, .i1⟩
  | 30 => ⟨S_, .f32⟩
  | 31 => ⟨S_, .f32⟩
  | 32 => ⟨S64, .f32⟩
  | 33 => ⟨S64, .f32⟩
  | 34 => ⟨S_, .f32⟩
  | 35 => ⟨S64, .f32⟩
  | 36 => ⟨S64, .f32⟩
  | 37 => ⟨S50000x128, .f32⟩
  | 38 => ⟨S1x64, .f32⟩
  | 39 => ⟨S2x64, .f32⟩
  | 40 => ⟨S128, .f32⟩
  | 41 => ⟨S1x128, .f32⟩
  | 42 => ⟨S1x64, .f32⟩
  | 43 => ⟨S2x64, .f32⟩
  | 44 => ⟨S128, .f32⟩
  | 45 => ⟨S1x128, .f32⟩
  | 46 => ⟨S1x64, .f32⟩
  | 47 => ⟨S2x64, .f32⟩
  | 48 => ⟨S128, .f32⟩
  | 49 => ⟨S1x128, .f32⟩
  | 50 => ⟨S1x64, .f32⟩
  | 51 => ⟨S2x64, .f32⟩
  | 52 => ⟨S128, .f32⟩
  | 53 => ⟨S1x128, .f32⟩
  | 54 => ⟨S50000x128, .f32⟩
  | 55 => ⟨S100000x64, .f32⟩
  | 56 => ⟨S_, .i32⟩
  | 57 => ⟨S1200000, .i32⟩
  | 58 => ⟨S1200000, .i1⟩
  | 59 => ⟨S_, .i32⟩
  | 60 => ⟨S1200000, .i32⟩
  | 61 => ⟨S1200000, .i32⟩
  | 62 => ⟨S1200000, .i32⟩
  | 63 => ⟨S1200000x1, .i32⟩
  | 64 => ⟨S1200000x64, .f32⟩
  | 65 => ⟨S_, .f32⟩
  | 66 => ⟨S100000x64, .f32⟩
  | 67 => ⟨S1200000x1, .i32⟩
  | 68 => ⟨S100000x64, .f32⟩
  | 69 => ⟨S_, .f32⟩
  | 70 => ⟨S1200000, .f32⟩
  | 71 => ⟨S_, .f32⟩
  | 72 => ⟨S100000, .f32⟩
  | 73 => ⟨S1200000x1, .i32⟩
  | 74 => ⟨S100000, .f32⟩
  | 75 => ⟨S_, .f32⟩
  | 76 => ⟨S_, .f32⟩
  | 77 => ⟨S100000, .f32⟩
  | 78 => ⟨S100000, .f32⟩
  | 79 => ⟨S_, .f32⟩
  | 80 => ⟨S100000, .f32⟩
  | 81 => ⟨S100000, .f32⟩
  | 82 => ⟨S100000x1, .f32⟩
  | 83 => ⟨S1x64, .f32⟩
  | 84 => ⟨S100000x64, .f32⟩
  | 85 => ⟨S_, .f32⟩
  | 86 => ⟨S64, .f32⟩
  | 87 => ⟨S_, .f32⟩
  | 88 => ⟨S64, .f32⟩
  | 89 => ⟨S64, .f32⟩
  | 90 => ⟨S_, .i32⟩
  | 91 => ⟨S_, .f32⟩
  | 92 => ⟨S64, .f32⟩
  | 93 => ⟨S1x64, .f32⟩
  | 94 => ⟨S_, .f32⟩
  | 95 => ⟨S1x64, .f32⟩
  | 96 => ⟨S1x64, .f32⟩
  | 97 => ⟨S100000x64, .f32⟩
  | 98 => ⟨S100000x64, .f32⟩
  | 99 => ⟨S100000x64, .f32⟩
  | 100 => ⟨S_, .f32⟩
  | 101 => ⟨S_, .f32⟩
  | 102 => ⟨S_, .f32⟩
  | 103 => ⟨S_, .f32⟩
  | 104 => ⟨S64, .f32⟩
  | 105 => ⟨S64, .f32⟩
  | 106 => ⟨S64, .f32⟩
  | 107 => ⟨S_, .f32⟩
  | 108 => ⟨S_, .i1⟩
  | 109 => ⟨S_, .f32⟩
  | 110 => ⟨S_, .f32⟩
  | 111 => ⟨S64, .f32⟩
  | 112 => ⟨S64, .f32⟩
  | 113 => ⟨S_, .f32⟩
  | 114 => ⟨S64, .f32⟩
  | 115 => ⟨S64, .f32⟩
  | 116 => ⟨S100000x1, .f32⟩
  | 117 => ⟨S1x64, .f32⟩
  | 118 => ⟨S1x64, .f32⟩
  | 119 => ⟨S1x64, .f32⟩
  | 120 => ⟨S1x64, .f32⟩
  | 121 => ⟨S64x64, .f32⟩
  | 122 => ⟨S1x64, .f32⟩
  | 123 => ⟨S1x64, .f32⟩
  | 124 => ⟨S1x1, .f32⟩
  | 125 => ⟨S100000x1, .f32⟩
  | 126 => ⟨S100000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S128x64, .f32⟩
  | .local _ .vmem, ⟨7, _⟩ => ⟨S1x64, .f32⟩
  | .local _ .vmem, ⟨8, _⟩ => ⟨S128x64, .f32⟩
  | .local _ .vmem, ⟨9, _⟩ => ⟨S5000x64, .f32⟩
  | .local _ .vmem, ⟨10, _⟩ => ⟨S5000x64, .f32⟩
  | .local _ .vmem, ⟨11, _⟩ => ⟨S2000x128, .f32⟩
  | .local _ .vmem, ⟨12, _⟩ => ⟨S2000x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S2000x128, .f32⟩
  | .local _ .vmem, ⟨18, _⟩ => ⟨S2000x128, .f32⟩
  | .local _ .vmem, ⟨19, _⟩ => ⟨S5000x64, .f32⟩
  | .local _ .vmem, ⟨20, _⟩ => ⟨S5000x64, .f32⟩
  | .local _ .vmem, ⟨21, _⟩ => ⟨S5000x1, .f32⟩
  | .local _ .vmem, ⟨22, _⟩ => ⟨S5000x1, .f32⟩
  | .local _ .vmem, ⟨23, _⟩ => ⟨S5000x64, .f32⟩
  | .local _ .vmem, ⟨24, _⟩ => ⟨S5000x64, .f32⟩
  | .local _ .vmem, ⟨25, _⟩ => ⟨S64x64, .f32⟩
  | .local _ .vmem, ⟨26, _⟩ => ⟨S1x64, .f32⟩
  | .local _ .vmem, ⟨27, _⟩ => ⟨S64x64, .f32⟩
  | .local _ .vmem, ⟨28, _⟩ => ⟨S5000x64, .f32⟩
  | .local _ .vmem, ⟨29, _⟩ => ⟨S5000x64, .f32⟩
  | .local _ .vmem, ⟨30, _⟩ => ⟨S2000x128, .f32⟩
  | .local _ .vmem, ⟨31, _⟩ => ⟨S2000x128, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S2000x128, .f32⟩
  | .local _ .vmem, ⟨37, _⟩ => ⟨S2000x128, .f32⟩
  | .local _ .vmem, ⟨38, _⟩ => ⟨S5000x64, .f32⟩
  | .local _ .vmem, ⟨39, _⟩ => ⟨S5000x64, .f32⟩
  | .local _ .vmem, ⟨40, _⟩ => ⟨S5000x1, .f32⟩
  | .local _ .vmem, ⟨41, _⟩ => ⟨S5000x1, .f32⟩
  | .local _ .vmem, ⟨42, _⟩ => ⟨S5000x64, .f32⟩
  | .local _ .vmem, ⟨43, _⟩ => ⟨S5000x64, .f32⟩
  | .local _ .vmem, ⟨44, _⟩ => ⟨S64x64, .f32⟩
  | .local _ .vmem, ⟨45, _⟩ => ⟨S1x64, .f32⟩
  | .local _ .vmem, ⟨46, _⟩ => ⟨S64x64, .f32⟩
  | .local _ .vmem, ⟨47, _⟩ => ⟨S5000x64, .f32⟩
  | .local _ .vmem, ⟨48, _⟩ => ⟨S5000x64, .f32⟩
  | .local _ .vmem, ⟨49, _⟩ => ⟨S5000x64, .f32⟩
  | .local _ .vmem, ⟨50, _⟩ => ⟨S5000x64, .f32⟩
  | .local _ .vmem, ⟨51, _⟩ => ⟨S1x64, .f32⟩
  | .local _ .vmem, ⟨52, _⟩ => ⟨S1x64, .f32⟩
  | .local _ .vmem, ⟨53, _⟩ => ⟨S1x64, .f32⟩
  | .local _ .vmem, ⟨54, _⟩ => ⟨S1x64, .f32⟩
  | .local _ .vmem, ⟨55, _⟩ => ⟨S5000x1, .f32⟩
  | .local _ .vmem, ⟨56, _⟩ => ⟨S5000x1, .f32⟩
  | .local _ .vmem, ⟨57, _⟩ => ⟨S64x64, .f32⟩
  | .local _ .vmem, ⟨58, _⟩ => ⟨S1x64, .f32⟩
  | .local _ .vmem, ⟨59, _⟩ => ⟨S1x64, .f32⟩
  | .local _ .vmem, ⟨60, _⟩ => ⟨S64x1, .f32⟩
  | .local _ .vmem, ⟨61, _⟩ => ⟨S1x1, .f32⟩
  | .local _ .vmem, ⟨62, _⟩ => ⟨S5000x1, .f32⟩
  | .local _ .vmem, ⟨63, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_c : Ref sig .tc := ⟨.hbm, 26, rfl⟩
abbrev main_v4 : Ref sig .tc := ⟨.hbm, 27, rfl⟩
abbrev main_v5 : Ref sig .tc := ⟨.hbm, 28, rfl⟩
abbrev main_c_0 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_cst_1 : Ref sig .tc := ⟨.hbm, 39, rfl⟩
abbrev main_v14 : Ref sig .tc := ⟨.hbm, 40, rfl⟩
abbrev main_cst_2 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_cst_3 : Ref sig .tc := ⟨.hbm, 45, rfl⟩
abbrev main_call0_v0 : Ref sig .tc := ⟨.hbm, 46, rfl⟩
abbrev main_call0_v1 : Ref sig .tc := ⟨.hbm, 47, rfl⟩
abbrev main_v18 : Ref sig .tc := ⟨.hbm, 48, rfl⟩
abbrev main_cst_4 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_cst_5 : Ref sig .tc := ⟨.hbm, 55, rfl⟩
abbrev main_v24 : Ref sig .tc := ⟨.hbm, 56, rfl⟩
abbrev main_cst_6 : Ref sig .tc := ⟨.hbm, 57, rfl⟩
abbrev main_v25 : Ref sig .tc := ⟨.hbm, 58, rfl⟩
abbrev main_v26 : Ref sig .tc := ⟨.hbm, 59, rfl⟩
abbrev main_c_7 : Ref sig .tc := ⟨.hbm, 60, rfl⟩
abbrev main_call1_cst : Ref sig .tc := ⟨.hbm, 61, rfl⟩
abbrev main_call1_v0 : Ref sig .tc := ⟨.hbm, 62, rfl⟩
abbrev main_call1_v1 : Ref sig .tc := ⟨.hbm, 63, rfl⟩
abbrev main_call1_cst_0 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_call1_v5 : Ref sig .tc := ⟨.hbm, 68, rfl⟩
abbrev main_call1_v6 : Ref sig .tc := ⟨.hbm, 69, rfl⟩
abbrev main_call1_v7 : Ref sig .tc := ⟨.hbm, 70, rfl⟩
abbrev main_call1_cst_1 : Ref sig .tc := ⟨.hbm, 71, rfl⟩
abbrev main_call1_v8 : Ref sig .tc := ⟨.hbm, 72, rfl⟩
abbrev main_call1_cst_2 : Ref sig .tc := ⟨.hbm, 73, rfl⟩
abbrev main_call1_v9 : Ref sig .tc := ⟨.hbm, 74, rfl⟩
abbrev main_call1_v10 : Ref sig .tc := ⟨.hbm, 75, rfl⟩
abbrev main_call1_v11 : Ref sig .tc := ⟨.hbm, 76, rfl⟩
abbrev main_call1_cst_3 : Ref sig .tc := ⟨.hbm, 77, rfl⟩
abbrev main_call1_v12 : Ref sig .tc := ⟨.hbm, 78, rfl⟩
abbrev main_call1_cst_4 : Ref sig .tc := ⟨.hbm, 79, rfl⟩
abbrev main_call1_call0_v0 : Ref sig .tc := ⟨.hbm, 80, rfl⟩
abbrev main_call1_call0_v1 : Ref sig .tc := ⟨.hbm, 81, rfl⟩
abbrev main_v27 : Ref sig .tc := ⟨.hbm, 82, rfl⟩
abbrev main_cst_8 : Ref sig .tc := ⟨.hbm, 83, rfl⟩
abbrev main_v28 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩
abbrev main_v32 : Ref sig .tc := ⟨.hbm, 88, rfl⟩
abbrev main_v33 : Ref sig .tc := ⟨.hbm, 89, rfl⟩
abbrev main_v34 : Ref sig .tc := ⟨.hbm, 90, rfl⟩
abbrev main_v35 : Ref sig .tc := ⟨.hbm, 91, rfl⟩
abbrev main_v36 : Ref sig .tc := ⟨.hbm, 92, rfl⟩
abbrev main_v37 : Ref sig .tc := ⟨.hbm, 93, rfl⟩
abbrev main_v38 : Ref sig .tc := ⟨.hbm, 94, rfl⟩
abbrev main_v39 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩
abbrev main_v44 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩
abbrev main_v48 : Ref sig .tc := ⟨.hbm, 104, rfl⟩
abbrev main_c_9 : Ref sig .tc := ⟨.hbm, 105, rfl⟩
abbrev main_v49 : Ref sig .tc := ⟨.hbm, 106, rfl⟩
abbrev main_v50 : Ref sig .tc := ⟨.hbm, 107, rfl⟩
abbrev main_c_10 : Ref sig .tc := ⟨.hbm, 108, rfl⟩
abbrev main_v51 : Ref sig .tc := ⟨.hbm, 109, rfl⟩
abbrev main_v52 : Ref sig .tc := ⟨.hbm, 110, rfl⟩
abbrev main_v53 : Ref sig .tc := ⟨.hbm, 111, rfl⟩
abbrev main_v54 : Ref sig .tc := ⟨.hbm, 112, rfl⟩
abbrev main_v55 : Ref sig .tc := ⟨.hbm, 113, rfl⟩
abbrev main_cst_11 : Ref sig .tc := ⟨.hbm, 114, rfl⟩
abbrev main_v56 : Ref sig .tc := ⟨.hbm, 115, rfl⟩
abbrev main_v57 : Ref sig .tc := ⟨.hbm, 116, rfl⟩
abbrev main_v58 : Ref sig .tc := ⟨.hbm, 117, rfl⟩
abbrev main_cst_12 : Ref sig .tc := ⟨.hbm, 118, rfl⟩
abbrev main_v59 : Ref sig .tc := ⟨.hbm, 119, rfl⟩
abbrev main_cst_13 : Ref sig .tc := ⟨.hbm, 120, rfl⟩
abbrev main_v60 : Ref sig .tc := ⟨.hbm, 121, rfl⟩
abbrev main_v61 : Ref sig .tc := ⟨.hbm, 122, rfl⟩
abbrev main_v62 : Ref sig .tc := ⟨.hbm, 123, rfl⟩
abbrev main_cst_14 : Ref sig .tc := ⟨.hbm, 124, rfl⟩
abbrev main_call2_v0 : Ref sig .tc := ⟨.hbm, 125, rfl⟩
abbrev main_call2_v1 : Ref sig .tc := ⟨.hbm, 126, rfl⟩
abbrev main_v63 : Ref sig .tc := ⟨.hbm, 127, rfl⟩
abbrev main_cst_15 : Ref sig .tc := ⟨.hbm, 128, rfl⟩
abbrev main_v64 : Ref sig .tc := ⟨.hbm, 129, rfl⟩
abbrev main_v65 : Ref sig .tc := ⟨.hbm, 130, rfl⟩
abbrev main_v66 : Ref sig .tc := ⟨.hbm, 131, rfl⟩
abbrev main_v67 : Ref sig .tc := ⟨.hbm, 132, rfl⟩
abbrev main_v68 : Ref sig .tc := ⟨.hbm, 133, rfl⟩
abbrev main_cst_16 : Ref sig .tc := ⟨.hbm, 134, rfl⟩
abbrev main_v69 : Ref sig .tc := ⟨.hbm, 135, rfl⟩
abbrev main_cst_17 : Ref sig .tc := ⟨.hbm, 136, rfl⟩
abbrev main_v70 : Ref sig .tc := ⟨.hbm, 137, rfl⟩
abbrev main_v71 : Ref sig .tc := ⟨.hbm, 138, rfl⟩
abbrev main_c_18 : Ref sig .tc := ⟨.hbm, 139, rfl⟩
abbrev main_call3_cst : Ref sig .tc := ⟨.hbm, 140, rfl⟩
abbrev main_call3_v0 : Ref sig .tc := ⟨.hbm, 141, rfl⟩
abbrev main_call3_v1 : Ref sig .tc := ⟨.hbm, 142, rfl⟩
abbrev main_call3_cst_0 : Ref sig .tc := ⟨.hbm, 143, rfl⟩
abbrev main_call3_v2 : Ref sig .tc := ⟨.hbm, 144, rfl⟩
abbrev main_call3_v3 : Ref sig .tc := ⟨.hbm, 145, rfl⟩
abbrev main_call3_v4 : Ref sig .tc := ⟨.hbm, 146, rfl⟩
abbrev main_call3_v5 : Ref sig .tc := ⟨.hbm, 147, rfl⟩
abbrev main_call3_v6 : Ref sig .tc := ⟨.hbm, 148, rfl⟩
abbrev main_call3_v7 : Ref sig .tc := ⟨.hbm, 149, rfl⟩
abbrev main_call3_cst_1 : Ref sig .tc := ⟨.hbm, 150, rfl⟩
abbrev main_call3_v8 : Ref sig .tc := ⟨.hbm, 151, rfl⟩
abbrev main_call3_cst_2 : Ref sig .tc := ⟨.hbm, 152, rfl⟩
abbrev main_call3_v9 : Ref sig .tc := ⟨.hbm, 153, rfl⟩
abbrev main_call3_v10 : Ref sig .tc := ⟨.hbm, 154, rfl⟩
abbrev main_call3_v11 : Ref sig .tc := ⟨.hbm, 155, rfl⟩
abbrev main_call3_cst_3 : Ref sig .tc := ⟨.hbm, 156, rfl⟩
abbrev main_call3_v12 : Ref sig .tc := ⟨.hbm, 157, rfl⟩
abbrev main_call3_cst_4 : Ref sig .tc := ⟨.hbm, 158, rfl⟩
abbrev main_call3_call0_v0 : Ref sig .tc := ⟨.hbm, 159, rfl⟩
abbrev main_call3_call0_v1 : Ref sig .tc := ⟨.hbm, 160, rfl⟩
abbrev main_v72 : Ref sig .tc := ⟨.hbm, 161, rfl⟩
abbrev main_cst_19 : Ref sig .tc := ⟨.hbm, 162, rfl⟩
abbrev main_v73 : Ref sig .tc := ⟨.hbm, 163, rfl⟩
abbrev main_v74 : Ref sig .tc := ⟨.hbm, 164, rfl⟩
abbrev main_v75 : Ref sig .tc := ⟨.hbm, 165, rfl⟩
abbrev main_v76 : Ref sig .tc := ⟨.hbm, 166, rfl⟩
abbrev main_v77 : Ref sig .tc := ⟨.hbm, 167, rfl⟩
abbrev main_v78 : Ref sig .tc := ⟨.hbm, 168, rfl⟩
abbrev main_v79 : Ref sig .tc := ⟨.hbm, 169, rfl⟩
abbrev main_v80 : Ref sig .tc := ⟨.hbm, 170, rfl⟩
abbrev main_v81 : Ref sig .tc := ⟨.hbm, 171, rfl⟩
abbrev main_v82 : Ref sig .tc := ⟨.hbm, 172, rfl⟩
abbrev main_v83 : Ref sig .tc := ⟨.hbm, 173, rfl⟩
abbrev main_v84 : Ref sig .tc := ⟨.hbm, 174, rfl⟩
abbrev main_v85 : Ref sig .tc := ⟨.hbm, 175, rfl⟩
abbrev main_v86 : Ref sig .tc := ⟨.hbm, 176, rfl⟩
abbrev main_v87 : Ref sig .tc := ⟨.hbm, 177, rfl⟩
abbrev main_v88 : Ref sig .tc := ⟨.hbm, 178, rfl⟩
abbrev main_v89 : Ref sig .tc := ⟨.hbm, 179, rfl⟩
abbrev main_v90 : Ref sig .tc := ⟨.hbm, 180, rfl⟩
abbrev main_v91 : Ref sig .tc := ⟨.hbm, 181, rfl⟩
abbrev main_v92 : Ref sig .tc := ⟨.hbm, 182, rfl⟩
abbrev main_v93 : Ref sig .tc := ⟨.hbm, 183, rfl⟩
abbrev main_c_20 : Ref sig .tc := ⟨.hbm, 184, rfl⟩
abbrev main_v94 : Ref sig .tc := ⟨.hbm, 185, rfl⟩
abbrev main_v95 : Ref sig .tc := ⟨.hbm, 186, rfl⟩
abbrev main_c_21 : Ref sig .tc := ⟨.hbm, 187, rfl⟩
abbrev main_v96 : Ref sig .tc := ⟨.hbm, 188, rfl⟩
abbrev main_v97 : Ref sig .tc := ⟨.hbm, 189, rfl⟩
abbrev main_v98 : Ref sig .tc := ⟨.hbm, 190, rfl⟩
abbrev main_v99 : Ref sig .tc := ⟨.hbm, 191, rfl⟩
abbrev main_v100 : Ref sig .tc := ⟨.hbm, 192, rfl⟩
abbrev main_cst_22 : Ref sig .tc := ⟨.hbm, 193, rfl⟩
abbrev main_v101 : Ref sig .tc := ⟨.hbm, 194, rfl⟩
abbrev main_v102 : Ref sig .tc := ⟨.hbm, 195, rfl⟩
abbrev main_v103 : Ref sig .tc := ⟨.hbm, 196, rfl⟩
abbrev main_cst_23 : Ref sig .tc := ⟨.hbm, 197, rfl⟩
abbrev main_v104 : Ref sig .tc := ⟨.hbm, 198, rfl⟩
abbrev main_cst_24 : Ref sig .tc := ⟨.hbm, 199, rfl⟩
abbrev main_v105 : Ref sig .tc := ⟨.hbm, 200, rfl⟩
abbrev main_v106 : Ref sig .tc := ⟨.hbm, 201, rfl⟩
abbrev main_v107 : Ref sig .tc := ⟨.hbm, 202, rfl⟩
abbrev main_cst_25 : Ref sig .tc := ⟨.hbm, 203, rfl⟩
abbrev main_call4_v0 : Ref sig .tc := ⟨.hbm, 204, rfl⟩
abbrev main_call4_v1 : Ref sig .tc := ⟨.hbm, 205, rfl⟩
abbrev main_v108 : Ref sig .tc := ⟨.hbm, 206, rfl⟩
abbrev main_cst_26 : Ref sig .tc := ⟨.hbm, 207, rfl⟩
abbrev main_v109 : Ref sig .tc := ⟨.hbm, 208, rfl⟩
abbrev main_v110 : Ref sig .tc := ⟨.hbm, 209, rfl⟩
abbrev main_v111 : Ref sig .tc := ⟨.hbm, 210, rfl⟩
abbrev main_v112 : Ref sig .tc := ⟨.hbm, 211, rfl⟩
abbrev main_v113 : Ref sig .tc := ⟨.hbm, 212, rfl⟩
abbrev main_cst_27 : Ref sig .tc := ⟨.hbm, 213, rfl⟩
abbrev main_v114 : Ref sig .tc := ⟨.hbm, 214, rfl⟩
abbrev main_cst_28 : Ref sig .tc := ⟨.hbm, 215, rfl⟩
abbrev main_v115 : Ref sig .tc := ⟨.hbm, 216, rfl⟩
abbrev main_v116 : Ref sig .tc := ⟨.hbm, 217, rfl⟩
abbrev main_c_29 : Ref sig .tc := ⟨.hbm, 218, rfl⟩
abbrev main_call5_cst : Ref sig .tc := ⟨.hbm, 219, rfl⟩
abbrev main_call5_v0 : Ref sig .tc := ⟨.hbm, 220, rfl⟩
abbrev main_call5_v1 : Ref sig .tc := ⟨.hbm, 221, rfl⟩
abbrev main_call5_cst_0 : Ref sig .tc := ⟨.hbm, 222, rfl⟩
abbrev main_call5_v2 : Ref sig .tc := ⟨.hbm, 223, rfl⟩
abbrev main_call5_v3 : Ref sig .tc := ⟨.hbm, 224, rfl⟩
abbrev main_call5_v4 : Ref sig .tc := ⟨.hbm, 225, rfl⟩
abbrev main_call5_v5 : Ref sig .tc := ⟨.hbm, 226, rfl⟩
abbrev main_call5_v6 : Ref sig .tc := ⟨.hbm, 227, rfl⟩
abbrev main_call5_v7 : Ref sig .tc := ⟨.hbm, 228, rfl⟩
abbrev main_call5_cst_1 : Ref sig .tc := ⟨.hbm, 229, rfl⟩
abbrev main_call5_v8 : Ref sig .tc := ⟨.hbm, 230, rfl⟩
abbrev main_call5_cst_2 : Ref sig .tc := ⟨.hbm, 231, rfl⟩
abbrev main_call5_v9 : Ref sig .tc := ⟨.hbm, 232, rfl⟩
abbrev main_call5_v10 : Ref sig .tc := ⟨.hbm, 233, rfl⟩
abbrev main_call5_v11 : Ref sig .tc := ⟨.hbm, 234, rfl⟩
abbrev main_call5_cst_3 : Ref sig .tc := ⟨.hbm, 235, rfl⟩
abbrev main_call5_v12 : Ref sig .tc := ⟨.hbm, 236, rfl⟩
abbrev main_call5_cst_4 : Ref sig .tc := ⟨.hbm, 237, rfl⟩
abbrev main_call5_call0_v0 : Ref sig .tc := ⟨.hbm, 238, rfl⟩
abbrev main_call5_call0_v1 : Ref sig .tc := ⟨.hbm, 239, rfl⟩
abbrev main_v117 : Ref sig .tc := ⟨.hbm, 240, rfl⟩
abbrev main_cst_30 : Ref sig .tc := ⟨.hbm, 241, rfl⟩
abbrev main_v118 : Ref sig .tc := ⟨.hbm, 242, rfl⟩
abbrev main_v119 : Ref sig .tc := ⟨.hbm, 243, rfl⟩
abbrev main_v120 : Ref sig .tc := ⟨.hbm, 244, rfl⟩
abbrev main_v121 : Ref sig .tc := ⟨.hbm, 245, rfl⟩
abbrev main_v122 : Ref sig .tc := ⟨.hbm, 246, rfl⟩
abbrev main_v123 : Ref sig .tc := ⟨.hbm, 247, rfl⟩
abbrev main_v124 : Ref sig .tc := ⟨.hbm, 248, rfl⟩
abbrev main_v125 : Ref sig .tc := ⟨.hbm, 249, rfl⟩
abbrev main_v126 : Ref sig .tc := ⟨.hbm, 250, rfl⟩
abbrev main_v127 : Ref sig .tc := ⟨.hbm, 251, rfl⟩
abbrev main_v128 : Ref sig .tc := ⟨.hbm, 252, rfl⟩
abbrev main_v129 : Ref sig .tc := ⟨.hbm, 253, rfl⟩
abbrev main_v130 : Ref sig .tc := ⟨.hbm, 254, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg5_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg1_1 : Ref sig .tc := ⟨.vmem, 41, rfl⟩
abbrev cc4_stg2_0 : Ref sig .tc := ⟨.vmem, 42, rfl⟩
abbrev cc4_stg2_1 : Ref sig .tc := ⟨.vmem, 43, rfl⟩
abbrev cc4_stg3_0 : Ref sig .tc := ⟨.vmem, 44, rfl⟩
abbrev cc4_stg4_0 : Ref sig .tc := ⟨.vmem, 45, rfl⟩
abbrev cc4_stg5_0 : Ref sig .tc := ⟨.vmem, 46, rfl⟩
abbrev cc4_stg6_0 : Ref sig .tc := ⟨.vmem, 47, rfl⟩
abbrev cc4_stg6_1 : Ref sig .tc := ⟨.vmem, 48, rfl⟩
abbrev cc5_stg0_0 : Ref sig .tc := ⟨.vmem, 49, rfl⟩
abbrev cc5_stg0_1 : Ref sig .tc := ⟨.vmem, 50, rfl⟩
abbrev cc5_stg1_0 : Ref sig .tc := ⟨.vmem, 51, rfl⟩
abbrev cc5_stg2_0 : Ref sig .tc := ⟨.vmem, 52, rfl⟩
abbrev cc5_stg3_0 : Ref sig .tc := ⟨.vmem, 53, rfl⟩
abbrev cc5_stg4_0 : Ref sig .tc := ⟨.vmem, 54, rfl⟩
abbrev cc5_stg5_0 : Ref sig .tc := ⟨.vmem, 55, rfl⟩
abbrev cc5_stg5_1 : Ref sig .tc := ⟨.vmem, 56, rfl⟩
abbrev cc5_stg6_0 : Ref sig .tc := ⟨.vmem, 57, rfl⟩
abbrev cc5_stg7_0 : Ref sig .tc := ⟨.vmem, 58, rfl⟩
abbrev cc5_stg8_0 : Ref sig .tc := ⟨.vmem, 59, rfl⟩
abbrev cc5_stg9_0 : Ref sig .tc := ⟨.vmem, 60, rfl⟩
abbrev cc5_stg10_0 : Ref sig .tc := ⟨.vmem, 61, rfl⟩
abbrev cc5_stg11_0 : Ref sig .tc := ⟨.vmem, 62, rfl⟩
abbrev cc5_stg11_1 : Ref sig .tc := ⟨.vmem, 63, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem5_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem4_0 : DmaSem sig := 35
abbrev cc3_sem5_0 : DmaSem sig := 36
abbrev cc3_sem5_1 : DmaSem sig := 37
abbrev cc4_sem0_0 : DmaSem sig := 38
abbrev cc4_sem0_1 : DmaSem sig := 39
abbrev cc4_sem1_0 : DmaSem sig := 40
abbrev cc4_sem1_1 : DmaSem sig := 41
abbrev cc4_sem2_0 : DmaSem sig := 42
abbrev cc4_sem2_1 : DmaSem sig := 43
abbrev cc4_sem3_0 : DmaSem sig := 44
abbrev cc4_sem4_0 : DmaSem sig := 45
abbrev cc4_sem5_0 : DmaSem sig := 46
abbrev cc4_sem6_0 : DmaSem sig := 47
abbrev cc4_sem6_1 : DmaSem sig := 48
abbrev cc5_sem0_0 : DmaSem sig := 49
abbrev cc5_sem0_1 : DmaSem sig := 50
abbrev cc5_sem1_0 : DmaSem sig := 51
abbrev cc5_sem2_0 : DmaSem sig := 52
abbrev cc5_sem3_0 : DmaSem sig := 53
abbrev cc5_sem4_0 : DmaSem sig := 54
abbrev cc5_sem5_0 : DmaSem sig := 55
abbrev cc5_sem5_1 : DmaSem sig := 56
abbrev cc5_sem6_0 : DmaSem sig := 57
abbrev cc5_sem7_0 : DmaSem sig := 58
abbrev cc5_sem8_0 : DmaSem sig := 59
abbrev cc5_sem9_0 : DmaSem sig := 60
abbrev cc5_sem10_0 : DmaSem sig := 61
abbrev cc5_sem11_0 : DmaSem sig := 62
abbrev cc5_sem11_1 : DmaSem sig := 63

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S64x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x64 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_10 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_11 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x1 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 1 → Memref sig .tc .vmem S64x64 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x64 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S1x64 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 1 → Memref sig .tc .vmem S64x1 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev stage5_10 : Fin 1 → Memref sig .tc .vmem S1x1 .f32 := fun | 0 => Memref.whole cc5_stg10_0 | ⟨_ + 1, h⟩ => absurd h (Nat.not_lt.2 (Nat.le_add_left _ _))
abbrev sem5_10 : Fin 1 → DmaSem sig := fun | 0 => cc5_sem10_0 | ⟨_ + 1, h⟩ => absurd h (Nat.not_lt.2 (Nat.le_add_left _ _))
abbrev reads5_10 : Fin grid5.rank → Bool := ![false]

abbrev stage5_11 : Fin 2 → Memref sig .tc .vmem S5000x1 .f32 := fun | 0 => Memref.whole cc5_stg11_0 | 1 => Memref.whole cc5_stg11_1 | ⟨_ + 2, h⟩ => absurd h (Nat.not_lt.2 (Nat.le_add_left _ _))
abbrev sem5_11 : Fin 2 → DmaSem sig := fun | 0 => cc5_sem11_0 | 1 => cc5_sem11_1 | ⟨_ + 2, h⟩ => absurd h (Nat.not_lt.2 (Nat.le_add_left _ _))
abbrev reads5_11 : Fin grid5.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x128 : S_.BroadcastsInDim S100000x128 (![] : Fin 0 → Fin S100000x128.rank)
  bcast_S_S100000 : S_.BroadcastsInDim S100000 (![] : Fin 0 → Fin S100000.rank)
  shapeCasts_S100000_S100000x1 : S100000.ShapeCasts S100000x1
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  reducesTo_S100000x64_S64_d0 : S100000x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S100000x64_0_1 : S1x64.BroadcastsInDim S100000x64 (![0, 1] : Fin 2 → Fin S100000x64.rank)
  shapeCasts_S100000x64_S50000x128 : S100000x64.ShapeCasts S50000x128
  bcast_S1x64_S2x64_0_1 : S1x64.BroadcastsInDim S2x64 (![0, 1] : Fin 2 → Fin S2x64.rank)
  shapeCasts_S2x64_S128 : S2x64.ShapeCasts S128
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S1x128_S2000x128 : S1x128.Broadcasts S2000x128
  shapeCasts_S50000x128_S100000x64 : S50000x128.ShapeCasts S100000x64
  bcast_S_S100000x64 : S_.BroadcastsInDim S100000x64 (![] : Fin 0 → Fin S100000x64.rank)
  shapeCasts_S5000x64_S5000x64 : S5000x64.ShapeCasts S5000x64
  broadcasts_S5000x1_S5000x64 : S5000x1.Broadcasts S5000x64
  inb_S64x64_S64x64_0_0 : ∀ a, (![0, 0] : Fin 2 → Nat) a + S64x64.size a ≤ S64x64.size a
  h_S64x64 : 0 < S64x64.numel
  slices_S65x64_S64x64_0_0 : S65x64.Slices ![0, 0] S64x64
  slices_S65x64_S1x64_64_0 : S65x64.Slices ![64, 0] S1x64
  shapeCasts_S1_S1x1 : S1.ShapeCasts S1x1
  shapeCasts_S64x64_S64x64 : S64x64.ShapeCasts S64x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  shapeCasts_S100000x1_S100000 : S100000x1.ShapeCasts S100000
  gather_S100000x128_S1200000x1_S1200000x128_1_0_n_n_0_1_1128_wf : GatherDims.WF S100000x128 S1200000x1 S1200000x128 [1] [0] [] [0] [] 1 ![1, 128]
  scatter_S100000x128_S1200000x1_S1200000x128_1_0_0_1_wf : ScatterDims.WF S100000x128 S1200000x1 S1200000x128 [1] [0] [0] 1
  scatter_S100000_S1200000x1_S1200000_n_0_0_1_wf : ScatterDims.WF S100000 S1200000x1 S1200000 [] [0] [0] 1
  dot_S5000x128_S128x64_S5000x64_1_0_0_1_n_n_wf : DotDims.WF S5000x128 S128x64 S5000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S5000x64_S64x64_S5000x64_1_0_0_1_n_n_wf : DotDims.WF S5000x64 S64x64 S5000x64 [1] [0] [0] [1] [] []
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S100000x64.size a
  hwx2_6 : ∀ i : grid2.Coords, EltTy.bits .f32 = 32 ∨ (Rect.block (s := S100000x64) S5000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S50000x128.size a
  hwx3_5 : ∀ i : grid3.Coords, EltTy.bits .f32 = 32 ∨ (Rect.block (s := S50000x128) S2000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S100000x1.size a
  hwx4_1 : ∀ i : grid4.Coords, EltTy.bits .f32 = 32 ∨ (Rect.block (s := S100000x1) S5000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S100000x64.size a
  hwx4_2 : ∀ i : grid4.Coords, EltTy.bits .f32 = 32 ∨ (Rect.block (s := S100000x64) S5000x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S64x64.size a ≤ S64x64.size a
  hwx4_5 : ∀ i : grid4.Coords, EltTy.bits .f32 = 32 ∨ (Rect.block (s := S64x64) S64x64.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x64.size a ≤ S100000x64.size a
  hwx4_6 : ∀ i : grid4.Coords, EltTy.bits .f32 = 32 ∨ (Rect.block (s := S100000x64) S5000x64.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x1.size a ≤ S100000x1.size a
  hwx5_5 : ∀ i : grid5.Coords, EltTy.bits .f32 = 32 ∨ (Rect.block (s := S100000x1) S5000x1.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S64x64.size a ≤ S64x64.size a
  hwx5_6 : ∀ i : grid5.Coords, EltTy.bits .f32 = 32 ∨ (Rect.block (s := S64x64) S64x64.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x64.size a ≤ S1x64.size a
  hwx5_7 : ∀ i : grid5.Coords, EltTy.bits .f32 = 32 ∨ (Rect.block (s := S1x64) S1x64.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S1x64.size a ≤ S1x64.size a
  hwx5_8 : ∀ i : grid5.Coords, EltTy.bits .f32 = 32 ∨ (Rect.block (s := S1x64) S1x64.size (cc5_transform_8 i) (hinb5_8 i)).WholeWords (EltTy.packing .f32)
  hstage5_9 : ∀ j, (stage5_9 j).IsWhole
  nbuf5_9 : grid5.bufCount reads5_9 true = 1
  hreads5_9 : ∀ i i' : grid5.Coords, (∀ a, reads5_9 a = true → i a = i' a) → cc5_transform_9 i = cc5_transform_9 i'
  hinb5_9 : ∀ (i : grid5.Coords) a, (cc5_transform_9 i a + 1) * S64x1.size a ≤ S64x1.size a
  hwx5_9 : ∀ i : grid5.Coords, EltTy.bits .f32 = 32 ∨ (Rect.block (s := S64x1) S64x1.size (cc5_transform_9 i) (hinb5_9 i)).WholeWords (EltTy.packing .f32)
  hstage5_10 : ∀ j, (stage5_10 j).IsWhole
  nbuf5_10 : grid5.bufCount reads5_10 true = 1
  hreads5_10 : ∀ i i' : grid5.Coords, (∀ a, reads5_10 a = true → i a = i' a) → cc5_transform_10 i = cc5_transform_10 i'
  hinb5_10 : ∀ (i : grid5.Coords) a, (cc5_transform_10 i a + 1) * S1x1.size a ≤ S1x1.size a
  hwx5_10 : ∀ i : grid5.Coords, EltTy.bits .f32 = 32 ∨ (Rect.block (s := S1x1) S1x1.size (cc5_transform_10 i) (hinb5_10 i)).WholeWords (EltTy.packing .f32)
  hstage5_11 : ∀ j, (stage5_11 j).IsWhole
  nbuf5_11 : grid5.bufCount reads5_11 false = 2
  hreads5_11 : ∀ i i' : grid5.Coords, (∀ a, reads5_11 a = true → i a = i' a) → cc5_transform_11 i = cc5_transform_11 i'
  hinb5_11 : ∀ (i : grid5.Coords) a, (cc5_transform_11 i a + 1) * S5000x1.size a ≤ S100000x1.size a
  hwx5_11 : ∀ i : grid5.Coords, EltTy.bits .f32 = 32 ∨ (Rect.block (s := S100000x1) S5000x1.size (cc5_transform_11 i) (hinb5_11 i)).WholeWords (EltTy.packing .f32)

variable [Facts₀]

def gather_S100000x128_S1200000x1_S1200000x128_1_0_n_n_0_1_1128 : GatherDims S100000x128 S1200000x1 S1200000x128 where
  offsetDims := [1]
  collapsedSliceDims := [0]
  operandBatchingDims := []
  startIndicesBatchingDims := []
  startIndexMap := [0]
  indexVectorDim := 1
  sliceSizes := ![1, 128]
  wf := gather_S100000x128_S1200000x1_S1200000x128_1_0_n_n_0_1_1128_wf
def scatter_S100000x128_S1200000x1_S1200000x128_1_0_0_1 : ScatterDims S100000x128 S1200000x1 S1200000x128 where
  updateWindowDims := [1]
  insertedWindowDims := [0]
  scatterDimsToOperandDims := [0]
  indexVectorDim := 1
  wf := scatter_S100000x128_S1200000x1_S1200000x128_1_0_0_1_wf
def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_v13) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v30) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v38) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v58) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v66) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v67) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg10) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v68) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v75) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v79) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v83) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v87) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v91) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v92) S2000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v103) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v111) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v93) S5000x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_arg13) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v112) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg15) S64x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v113) S5000x64.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v113) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v121) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v122) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v123) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v124) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v120) S5000x1.size cc5_transform_5 reads5_5 false false 2 stage5_5 sem5_5
    hrank5 hreads5_5 hinb5_5 nbuf5_5 (Memref.isWhole_whole _) hwx5_5 hstage5_5

abbrev win5_6 : Pipeline.Window sig grid5 :=
  Pipeline.Window.ofSpec (Memref.whole main_v125) S64x64.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v126) S1x64.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v127) S1x64.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_arg20) S64x1.size cc5_transform_9 reads5_9 false true 1 stage5_9 sem5_9
    hrank5 hreads5_9 hinb5_9 nbuf5_9 (Memref.isWhole_whole _) hwx5_9 hstage5_9

abbrev win5_10 : Pipeline.Window sig grid5 :=
  Pipeline.Window.ofSpec (Memref.whole main_v128) S1x1.size cc5_transform_10 reads5_10 false true 1 stage5_10 sem5_10
    hrank5 hreads5_10 hinb5_10 nbuf5_10 (Memref.isWhole_whole _) hwx5_10 hstage5_10

abbrev win5_11 : Pipeline.Window sig grid5 :=
  Pipeline.Window.ofSpec (Memref.whole main_v129) S5000x1.size cc5_transform_11 reads5_11 true false 2 stage5_11 sem5_11
    hrank5 hreads5_11 hinb5_11 nbuf5_11 (Memref.isWhole_whole _) hwx5_11 hstage5_11

abbrev win5 : Fin 12 → Pipeline.Window sig grid5 := fun | 0 => win5_0 | 1 => win5_1 | 2 => win5_2 | 3 => win5_3 | 4 => win5_4 | 5 => win5_5 | 6 => win5_6 | 7 => win5_7 | 8 => win5_8 | 9 => win5_9 | 10 => win5_10 | 11 => win5_11 | ⟨_ + 12, h⟩ => absurd h (Nat.not_lt.2 (Nat.le_add_left _ _))
abbrev spec5 : Fin 12 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1200000 : Shape := ⟨2, ![2, 1200000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S65x64 : Shape := ⟨2, ![65, 64]⟩
abbrev S64x1 : Shape := ⟨2, ![64, 1]⟩
abbrev S1 : Shape := ⟨1, ![1]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x128 : Shape := ⟨2, ![1200000, 128]⟩
abbrev S100000x1 : Shape := ⟨2, ![100000, 1]⟩
abbrev S100000x64 : Shape := ⟨2, ![100000, 64]⟩
abbrev S1x64 : Shape := ⟨2, ![1, 64]⟩
abbrev S1200000x64 : Shape := ⟨2, ![1200000, 64]⟩
abbrev S100000x65 : Shape := ⟨2, ![100000, 65]⟩
abbrev S1x1 : Shape := ⟨2, ![1, 1]⟩

abbrev nBuf : Space → Nat
  | .hbm => 277
  | .vmem => 0
  | .smem => 0
  | _ => 0

abbrev hbmTy0_0 (i : Nat) : BufTy := match i % 128 with
  | 0 => ⟨S100000x128, .f32⟩
  | 1 => ⟨S2x1200000, .i32⟩
  | 2 => ⟨S100000, .f32⟩
  | 3 => ⟨S128x64, .f32⟩
  | 4 => ⟨S64, .f32⟩
  | 5 => ⟨S128x64, .f32⟩
  | 6 => ⟨S64, .f32⟩
  | 7 => ⟨S64, .f32⟩
  | 8 => ⟨S64x64, .f32⟩
  | 9 => ⟨S64, .f32⟩
  | 10 => ⟨S64x64, .f32⟩
  | 11 => ⟨S64, .f32⟩
  | 12 => ⟨S64, .f32⟩
  | 13 => ⟨S64x64, .f32⟩
  | 14 => ⟨S64, .f32⟩
  | 15 => ⟨S64x64, .f32⟩
  | 16 => ⟨S64, .f32⟩
  | 17 => ⟨S64, .f32⟩
  | 18 => ⟨S65x64, .f32⟩
  | 19 => ⟨S64, .f32⟩
  | 20 => ⟨S64x1, .f32⟩
  | 21 => ⟨S1, .f32⟩
  | 22 => ⟨S1x1200000, .i32⟩
  | 23 => ⟨S1200000, .i32⟩
  | 24 => ⟨S1x1200000, .i32⟩
  | 25 => ⟨S1200000, .i32⟩
  | 26 => ⟨S_, .i32⟩
  | 27 => ⟨S1200000, .i32⟩
  | 28 => ⟨S1200000, .i1⟩
  | 29 => ⟨S_, .i32⟩
  | 30 => ⟨S1200000, .i32⟩
  | 31 => ⟨S1200000, .i32⟩
  | 32 => ⟨S1200000, .i32⟩
  | 33 => ⟨S1200000x1, .i32⟩
  | 34 => ⟨S1200000x128, .f32⟩
  | 35 => ⟨S_, .f32⟩
  | 36 => ⟨S100000x128, .f32⟩
  | 37 => ⟨S1200000x1, .i32⟩
  | 38 => ⟨S100000x128, .f32⟩
  | 39 => ⟨S_, .f32⟩
  | 40 => ⟨S1200000, .f32⟩
  | 41 => ⟨S_, .f32⟩
  | 42 => ⟨S100000, .f32⟩
  | 43 => ⟨S1200000x1, .i32⟩
  | 44 => ⟨S100000, .f32⟩
  | 45 => ⟨S_, .f32⟩
  | 46 => ⟨S_, .f32⟩
  | 47 => ⟨S100000, .f32⟩
  | 48 => ⟨S100000, .f32⟩
  | 49 => ⟨S100000x1, .f32⟩
  | 50 => ⟨S100000x128, .f32⟩
  | 51 => ⟨S100000x128, .f32⟩
  | 52 => ⟨S100000x64, .f32⟩
  | 53 => ⟨S1x64, .f32⟩
  | 54 => ⟨S100000x64, .f32⟩
  | 55 => ⟨S100000x64, .f32⟩
  | 56 => ⟨S100000x64, .f32⟩
  | 57 => ⟨S100000x64, .f32⟩
  | 58 => ⟨S_, .f32⟩
  | 59 => ⟨S64, .f32⟩
  | 60 => ⟨S_, .f32⟩
  | 61 => ⟨S64, .f32⟩
  | 62 => ⟨S64, .f32⟩
  | 63 => ⟨S_, .i32⟩
  | 64 => ⟨S_, .f32⟩
  | 65 => ⟨S64, .f32⟩
  | 66 => ⟨S1x64, .f32⟩
  | 67 => ⟨S_, .f32⟩
  | 68 => ⟨S1x64, .f32⟩
  | 69 => ⟨S1x64, .f32⟩
  | 70 => ⟨S100000x64, .f32⟩
  | 71 => ⟨S100000x64, .f32⟩
  | 72 => ⟨S100000x64, .f32⟩
  | 73 => ⟨S_, .f32⟩
  | 74 => ⟨S_, .f32⟩
  | 75 => ⟨S_, .f32⟩
  | 76 => ⟨S_, .f32⟩
  | 77 => ⟨S64, .f32⟩
  | 78 => ⟨S64, .f32⟩
  | 79 => ⟨S64, .f32⟩
  | 80 => ⟨S_, .f32⟩
  | 81 => ⟨S_, .i1⟩
  | 82 => ⟨S_, .f32⟩
  | 83 => ⟨S_, .f32⟩
  | 84 => ⟨S64, .f32⟩
  | 85 => ⟨S64, .f32⟩
  | 86 => ⟨S1x64, .f32⟩
  | 87 => ⟨S100000x64, .f32⟩
  | 88 => ⟨S100000x64, .f32⟩
  | 89 => ⟨S_, .f32⟩
  | 90 => ⟨S64, .f32⟩
  | 91 => ⟨S64, .f32⟩
  | 92 => ⟨S64, .f32⟩
  | 93 => ⟨S1x64, .f32⟩
  | 94 => ⟨S100000x64, .f32⟩
  | 95 => ⟨S100000x64, .f32⟩
  | 96 => ⟨S1x64, .f32⟩
  | 97 => ⟨S100000x64, .f32⟩
  | 98 => ⟨S100000x64, .f32⟩
  | 99 => ⟨S1x64, .f32⟩
  | 100 => ⟨S100000x64, .f32⟩
  | 101 => ⟨S100000x64, .f32⟩
  | 102 => ⟨S_, .f32⟩
  | 103 => ⟨S100000x64, .f32⟩
  | 104 => ⟨S100000x64, .f32⟩
  | 105 => ⟨S_, .i32⟩
  | 106 => ⟨S1200000, .i32⟩
  | 107 => ⟨S1200000, .i1⟩
  | 108 => ⟨S_, .i32⟩
  | 109 => ⟨S1200000, .i32⟩
  | 110 => ⟨S1200000, .i32⟩
  | 111 => ⟨S1200000, .i32⟩
  | 112 => ⟨S1200000x1, .i32⟩
  | 113 => ⟨S1200000x64, .f32⟩
  | 114 => ⟨S_, .f32⟩
  | 115 => ⟨S100000x64, .f32⟩
  | 116 => ⟨S1200000x1, .i32⟩
  | 117 => ⟨S100000x64, .f32⟩
  | 118 => ⟨S_, .f32⟩
  | 119 => ⟨S1200000, .f32⟩
  | 120 => ⟨S_, .f32⟩
  | 121 => ⟨S100000, .f32⟩
  | 122 => ⟨S1200000x1, .i32⟩
  | 123 => ⟨S100000, .f32⟩
  | 124 => ⟨S_, .f32⟩
  | 125 => ⟨S_, .f32⟩
  | 126 => ⟨S100000, .f32⟩
  | 127 => ⟨S100000, .f32⟩
  | _ => ⟨S100000x128, .f32⟩

abbrev hbmTy0_1 (i : Nat) : BufTy := match i % 128 with
  | 0 => ⟨S100000x1, .f32⟩
  | 1 => ⟨S100000x64, .f32⟩
  | 2 => ⟨S100000x64, .f32⟩
  | 3 => ⟨S100000x64, .f32⟩
  | 4 => ⟨S1x64, .f32⟩
  | 5 => ⟨S100000x64, .f32⟩
  | 6 => ⟨S100000x64, .f32⟩
  | 7 => ⟨S100000x64, .f32⟩
  | 8 => ⟨S100000x64, .f32⟩
  | 9 => ⟨S_, .f32⟩
  | 10 => ⟨S64, .f32⟩
  | 11 => ⟨S_, .f32⟩
  | 12 => ⟨S64, .f32⟩
  | 13 => ⟨S64, .f32⟩
  | 14 => ⟨S_, .i32⟩
  | 15 => ⟨S_, .f32⟩
  | 16 => ⟨S64, .f32⟩
  | 17 => ⟨S1x64, .f32⟩
  | 18 => ⟨S_, .f32⟩
  | 19 => ⟨S1x64, .f32⟩
  | 20 => ⟨S1x64, .f32⟩
  | 21 => ⟨S100000x64, .f32⟩
  | 22 => ⟨S100000x64, .f32⟩
  | 23 => ⟨S100000x64, .f32⟩
  | 24 => ⟨S_, .f32⟩
  | 25 => ⟨S_, .f32⟩
  | 26 => ⟨S_, .f32⟩
  | 27 => ⟨S_, .f32⟩
  | 28 => ⟨S64, .f32⟩
  | 29 => ⟨S64, .f32⟩
  | 30 => ⟨S64, .f32⟩
  | 31 => ⟨S_, .f32⟩
  | 32 => ⟨S_, .i1⟩
  | 33 => ⟨S_, .f32⟩
  | 34 => ⟨S_, .f32⟩
  | 35 => ⟨S64, .f32⟩
  | 36 => ⟨S64, .f32⟩
  | 37 => ⟨S1x64, .f32⟩
  | 38 => ⟨S100000x64, .f32⟩
  | 39 => ⟨S100000x64, .f32⟩
  | 40 => ⟨S_, .f32⟩
  | 41 => ⟨S64, .f32⟩
  | 42 => ⟨S64, .f32⟩
  | 43 => ⟨S64, .f32⟩
  | 44 => ⟨S1x64, .f32⟩
  | 45 => ⟨S100000x64, .f32⟩
  | 46 => ⟨S100000x64, .f32⟩
  | 47 => ⟨S1x64, .f32⟩
  | 48 => ⟨S100000x64, .f32⟩
  | 49 => ⟨S100000x64, .f32⟩
  | 50 => ⟨S1x64, .f32⟩
  | 51 => ⟨S100000x64, .f32⟩
  | 52 => ⟨S100000x64, .f32⟩
  | 53 => ⟨S_, .f32⟩
  | 54 => ⟨S100000x64, .f32⟩
  | 55 => ⟨S100000x64, .f32⟩
  | 56 => ⟨S_, .i32⟩
  | 57 => ⟨S1200000, .i32⟩
  | 58 => ⟨S1200000, .i1⟩
  | 59 => ⟨S_, .i32⟩
  | 60 => ⟨S1200000, .i32⟩
  | 61 => ⟨S1200000, .i32⟩
  | 62 => ⟨S1200000, .i32⟩
  | 63 => ⟨S1200000x1, .i32⟩
  | 64 => ⟨S1200000x64, .f32⟩
  | 65 => ⟨S_, .f32⟩
  | 66 => ⟨S100000x64, .f32⟩
  | 67 => ⟨S1200000x1, .i32⟩
  | 68 => ⟨S100000x64, .f32⟩
  | 69 => ⟨S_, .f32⟩
  | 70 => ⟨S1200000, .f32⟩
  | 71 => ⟨S_, .f32⟩
  | 72 => ⟨S100000, .f32⟩
  | 73 => ⟨S1200000x1, .i32⟩
  | 74 => ⟨S100000, .f32⟩
  | 75 => ⟨S_, .f32⟩
  | 76 => ⟨S_, .f32⟩
  | 77 => ⟨S100000, .f32⟩
  | 78 => ⟨S100000, .f32⟩
  | 79 => ⟨S100000x1, .f32⟩
  | 80 => ⟨S100000x64, .f32⟩
  | 81 => ⟨S100000x64, .f32⟩
  | 82 => ⟨S100000x64, .f32⟩
  | 83 => ⟨S1x64, .f32⟩
  | 84 => ⟨S100000x64, .f32⟩
  | 85 => ⟨S100000x64, .f32⟩
  | 86 => ⟨S100000x64, .f32⟩
  | 87 => ⟨S100000x64, .f32⟩
  | 88 => ⟨S_, .f32⟩
  | 89 => ⟨S64, .f32⟩
  | 90 => ⟨S_, .f32⟩
  | 91 => ⟨S64, .f32⟩
  | 92 => ⟨S64, .f32⟩
  | 93 => ⟨S_, .i32⟩
  | 94 => ⟨S_, .f32⟩
  | 95 => ⟨S64, .f32⟩
  | 96 => ⟨S1x64, .f32⟩
  | 97 => ⟨S_, .f32⟩
  | 98 => ⟨S1x64, .f32⟩
  | 99 => ⟨S1x64, .f32⟩
  | 100 => ⟨S100000x64, .f32⟩
  | 101 => ⟨S100000x64, .f32⟩
  | 102 => ⟨S100000x64, .f32⟩
  | 103 => ⟨S_, .f32⟩
  | 104 => ⟨S_, .f32⟩
  | 105 => ⟨S_, .f32⟩
  | 106 => ⟨S_, .f32⟩
  | 107 => ⟨S64, .f32⟩
  | 108 => ⟨S64, .f32⟩
  | 109 => ⟨S64, .f32⟩
  | 110 => ⟨S_, .f32⟩
  | 111 => ⟨S_, .i1⟩
  | 112 => ⟨S_, .f32⟩
  | 113 => ⟨S_, .f32⟩
  | 114 => ⟨S64, .f32⟩
  | 115 => ⟨S64, .f32⟩
  | 116 => ⟨S1x64, .f32⟩
  | 117 => ⟨S100000x64, .f32⟩
  | 118 => ⟨S100000x64, .f32⟩
  | 119 => ⟨S_, .f32⟩
  | 120 => ⟨S64, .f32⟩
  | 121 => ⟨S64, .f32⟩
  | 122 => ⟨S64, .f32⟩
  | 123 => ⟨S1x64, .f32⟩
  | 124 => ⟨S100000x64, .f32⟩
  | 125 => ⟨S100000x64, .f32⟩
  | 126 => ⟨S1x64, .f32⟩
  | 127 => ⟨S100000x64, .f32⟩
  | _ => ⟨S100000x128, .f32⟩

abbrev hbmTy0_2 (i : Nat) : BufTy := match i % 128 with
  | 0 => ⟨S100000x64, .f32⟩
  | 1 => ⟨S1x64, .f32⟩
  | 2 => ⟨S100000x64, .f32⟩
  | 3 => ⟨S100000x64, .f32⟩
  | 4 => ⟨S_, .f32⟩
  | 5 => ⟨S100000x64, .f32⟩
  | 6 => ⟨S100000x64, .f32⟩
  | 7 => ⟨S100000x1, .f32⟩
  | 8 => ⟨S100000x65, .f32⟩
  | 9 => ⟨S100000x64, .f32⟩
  | 10 => ⟨S1x64, .f32⟩
  | 11 => ⟨S100000x64, .f32⟩
  | 12 => ⟨S100000x64, .f32⟩
  | 13 => ⟨S_, .f32⟩
  | 14 => ⟨S100000x64, .f32⟩
  | 15 => ⟨S100000x64, .f32⟩
  | 16 => ⟨S100000x1, .f32⟩
  | 17 => ⟨S1x1, .f32⟩
  | 18 => ⟨S100000x1, .f32⟩
  | 19 => ⟨S100000x1, .f32⟩
  | 20 => ⟨S100000, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_c : Ref sig .tc := ⟨.hbm, 26, rfl⟩
abbrev main_v4 : Ref sig .tc := ⟨.hbm, 27, rfl⟩
abbrev main_v5 : Ref sig .tc := ⟨.hbm, 28, rfl⟩
abbrev main_c_0 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_cst_1 : Ref sig .tc := ⟨.hbm, 39, rfl⟩
abbrev main_v14 : Ref sig .tc := ⟨.hbm, 40, rfl⟩
abbrev main_cst_2 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_cst_3 : Ref sig .tc := ⟨.hbm, 45, rfl⟩
abbrev main_call0_v0 : Ref sig .tc := ⟨.hbm, 46, rfl⟩
abbrev main_call0_v1 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_cst_4 : Ref sig .tc := ⟨.hbm, 58, rfl⟩
abbrev main_v28 : Ref sig .tc := ⟨.hbm, 59, rfl⟩
abbrev main_cst_5 : Ref sig .tc := ⟨.hbm, 60, rfl⟩
abbrev main_v29 : Ref sig .tc := ⟨.hbm, 61, rfl⟩
abbrev main_v30 : Ref sig .tc := ⟨.hbm, 62, rfl⟩
abbrev main_c_6 : Ref sig .tc := ⟨.hbm, 63, rfl⟩
abbrev main_call1_cst : Ref sig .tc := ⟨.hbm, 64, rfl⟩
abbrev main_call1_v0 : Ref sig .tc := ⟨.hbm, 65, rfl⟩
abbrev main_call1_v1 : Ref sig .tc := ⟨.hbm, 66, rfl⟩
abbrev main_call1_cst_0 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_call1_v5 : Ref sig .tc := ⟨.hbm, 71, rfl⟩
abbrev main_call1_v6 : Ref sig .tc := ⟨.hbm, 72, rfl⟩
abbrev main_call1_v7 : Ref sig .tc := ⟨.hbm, 73, rfl⟩
abbrev main_call1_cst_1 : Ref sig .tc := ⟨.hbm, 74, rfl⟩
abbrev main_call1_v8 : Ref sig .tc := ⟨.hbm, 75, rfl⟩
abbrev main_call1_cst_2 : Ref sig .tc := ⟨.hbm, 76, rfl⟩
abbrev main_call1_v9 : Ref sig .tc := ⟨.hbm, 77, rfl⟩
abbrev main_call1_v10 : Ref sig .tc := ⟨.hbm, 78, rfl⟩
abbrev main_call1_v11 : Ref sig .tc := ⟨.hbm, 79, rfl⟩
abbrev main_call1_cst_3 : Ref sig .tc := ⟨.hbm, 80, rfl⟩
abbrev main_call1_v12 : Ref sig .tc := ⟨.hbm, 81, rfl⟩
abbrev main_call1_cst_4 : Ref sig .tc := ⟨.hbm, 82, rfl⟩
abbrev main_call1_call0_v0 : Ref sig .tc := ⟨.hbm, 83, rfl⟩
abbrev main_call1_call0_v1 : Ref sig .tc := ⟨.hbm, 84, rfl⟩
abbrev main_v31 : Ref sig .tc := ⟨.hbm, 85, rfl⟩
abbrev main_v32 : Ref sig .tc := ⟨.hbm, 86, rfl⟩
abbrev main_v33 : Ref sig .tc := ⟨.hbm, 87, rfl⟩
abbrev main_v34 : Ref sig .tc := ⟨.hbm, 88, rfl⟩
abbrev main_cst_7 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩
abbrev main_v43 : Ref sig .tc := ⟨.hbm, 98, rfl⟩
abbrev main_v44 : Ref sig .tc := ⟨.hbm, 99, rfl⟩
abbrev main_v45 : Ref sig .tc := ⟨.hbm, 100, rfl⟩
abbrev main_v46 : Ref sig .tc := ⟨.hbm, 101, rfl⟩
abbrev main_call2_cst : Ref sig .tc := ⟨.hbm, 102, rfl⟩
abbrev main_call2_v0 : Ref sig .tc := ⟨.hbm, 103, rfl⟩
abbrev main_v47 : Ref sig .tc := ⟨.hbm, 104, rfl⟩
abbrev main_c_8 : Ref sig .tc := ⟨.hbm, 105, rfl⟩
abbrev main_v48 : Ref sig .tc := ⟨.hbm, 106, rfl⟩
abbrev main_v49 : Ref sig .tc := ⟨.hbm, 107, rfl⟩
abbrev main_c_9 : Ref sig .tc := ⟨.hbm, 108, rfl⟩
abbrev main_v50 : Ref sig .tc := ⟨.hbm, 109, rfl⟩
abbrev main_v51 : Ref sig .tc := ⟨.hbm, 110, rfl⟩
abbrev main_v52 : Ref sig .tc := ⟨.hbm, 111, rfl⟩
abbrev main_v53 : Ref sig .tc := ⟨.hbm, 112, rfl⟩
abbrev main_v54 : Ref sig .tc := ⟨.hbm, 113, rfl⟩
abbrev main_cst_10 : Ref sig .tc := ⟨.hbm, 114, rfl⟩
abbrev main_v55 : Ref sig .tc := ⟨.hbm, 115, rfl⟩
abbrev main_v56 : Ref sig .tc := ⟨.hbm, 116, rfl⟩
abbrev main_v57 : Ref sig .tc := ⟨.hbm, 117, rfl⟩
abbrev main_cst_11 : Ref sig .tc := ⟨.hbm, 118, rfl⟩
abbrev main_v58 : Ref sig .tc := ⟨.hbm, 119, rfl⟩
abbrev main_cst_12 : Ref sig .tc := ⟨.hbm, 120, rfl⟩
abbrev main_v59 : Ref sig .tc := ⟨.hbm, 121, rfl⟩
abbrev main_v60 : Ref sig .tc := ⟨.hbm, 122, rfl⟩
abbrev main_v61 : Ref sig .tc := ⟨.hbm, 123, rfl⟩
abbrev main_cst_13 : Ref sig .tc := ⟨.hbm, 124, rfl⟩
abbrev main_call3_v0 : Ref sig .tc := ⟨.hbm, 125, rfl⟩
abbrev main_call3_v1 : Ref sig .tc := ⟨.hbm, 126, rfl⟩
abbrev main_v62 : Ref sig .tc := ⟨.hbm, 127, rfl⟩
abbrev main_v63 : Ref sig .tc := ⟨.hbm, 128, rfl⟩
abbrev main_v64 : Ref sig .tc := ⟨.hbm, 129, rfl⟩
abbrev main_v65 : Ref sig .tc := ⟨.hbm, 130, rfl⟩
abbrev main_v66 : Ref sig .tc := ⟨.hbm, 131, rfl⟩
abbrev main_v67 : Ref sig .tc := ⟨.hbm, 132, rfl⟩
abbrev main_v68 : Ref sig .tc := ⟨.hbm, 133, rfl⟩
abbrev main_v69 : Ref sig .tc := ⟨.hbm, 134, rfl⟩
abbrev main_v70 : Ref sig .tc := ⟨.hbm, 135, rfl⟩
abbrev main_v71 : Ref sig .tc := ⟨.hbm, 136, rfl⟩
abbrev main_cst_14 : Ref sig .tc := ⟨.hbm, 137, rfl⟩
abbrev main_v72 : Ref sig .tc := ⟨.hbm, 138, rfl⟩
abbrev main_cst_15 : Ref sig .tc := ⟨.hbm, 139, rfl⟩
abbrev main_v73 : Ref sig .tc := ⟨.hbm, 140, rfl⟩
abbrev main_v74 : Ref sig .tc := ⟨.hbm, 141, rfl⟩
abbrev main_c_16 : Ref sig .tc := ⟨.hbm, 142, rfl⟩
abbrev main_call4_cst : Ref sig .tc := ⟨.hbm, 143, rfl⟩
abbrev main_call4_v0 : Ref sig .tc := ⟨.hbm, 144, rfl⟩
abbrev main_call4_v1 : Ref sig .tc := ⟨.hbm, 145, rfl⟩
abbrev main_call4_cst_0 : Ref sig .tc := ⟨.hbm, 146, rfl⟩
abbrev main_call4_v2 : Ref sig .tc := ⟨.hbm, 147, rfl⟩
abbrev main_call4_v3 : Ref sig .tc := ⟨.hbm, 148, rfl⟩
abbrev main_call4_v4 : Ref sig .tc := ⟨.hbm, 149, rfl⟩
abbrev main_call4_v5 : Ref sig .tc := ⟨.hbm, 150, rfl⟩
abbrev main_call4_v6 : Ref sig .tc := ⟨.hbm, 151, rfl⟩
abbrev main_call4_v7 : Ref sig .tc := ⟨.hbm, 152, rfl⟩
abbrev main_call4_cst_1 : Ref sig .tc := ⟨.hbm, 153, rfl⟩
abbrev main_call4_v8 : Ref sig .tc := ⟨.hbm, 154, rfl⟩
abbrev main_call4_cst_2 : Ref sig .tc := ⟨.hbm, 155, rfl⟩
abbrev main_call4_v9 : Ref sig .tc := ⟨.hbm, 156, rfl⟩
abbrev main_call4_v10 : Ref sig .tc := ⟨.hbm, 157, rfl⟩
abbrev main_call4_v11 : Ref sig .tc := ⟨.hbm, 158, rfl⟩
abbrev main_call4_cst_3 : Ref sig .tc := ⟨.hbm, 159, rfl⟩
abbrev main_call4_v12 : Ref sig .tc := ⟨.hbm, 160, rfl⟩
abbrev main_call4_cst_4 : Ref sig .tc := ⟨.hbm, 161, rfl⟩
abbrev main_call4_call0_v0 : Ref sig .tc := ⟨.hbm, 162, rfl⟩
abbrev main_call4_call0_v1 : Ref sig .tc := ⟨.hbm, 163, rfl⟩
abbrev main_v75 : Ref sig .tc := ⟨.hbm, 164, rfl⟩
abbrev main_v76 : Ref sig .tc := ⟨.hbm, 165, rfl⟩
abbrev main_v77 : Ref sig .tc := ⟨.hbm, 166, rfl⟩
abbrev main_v78 : Ref sig .tc := ⟨.hbm, 167, rfl⟩
abbrev main_cst_17 : Ref sig .tc := ⟨.hbm, 168, rfl⟩
abbrev main_v79 : Ref sig .tc := ⟨.hbm, 169, rfl⟩
abbrev main_v80 : Ref sig .tc := ⟨.hbm, 170, rfl⟩
abbrev main_v81 : Ref sig .tc := ⟨.hbm, 171, rfl⟩
abbrev main_v82 : Ref sig .tc := ⟨.hbm, 172, rfl⟩
abbrev main_v83 : Ref sig .tc := ⟨.hbm, 173, rfl⟩
abbrev main_v84 : Ref sig .tc := ⟨.hbm, 174, rfl⟩
abbrev main_v85 : Ref sig .tc := ⟨.hbm, 175, rfl⟩
abbrev main_v86 : Ref sig .tc := ⟨.hbm, 176, rfl⟩
abbrev main_v87 : Ref sig .tc := ⟨.hbm, 177, rfl⟩
abbrev main_v88 : Ref sig .tc := ⟨.hbm, 178, rfl⟩
abbrev main_v89 : Ref sig .tc := ⟨.hbm, 179, rfl⟩
abbrev main_v90 : Ref sig .tc := ⟨.hbm, 180, rfl⟩
abbrev main_call5_cst : Ref sig .tc := ⟨.hbm, 181, rfl⟩
abbrev main_call5_v0 : Ref sig .tc := ⟨.hbm, 182, rfl⟩
abbrev main_v91 : Ref sig .tc := ⟨.hbm, 183, rfl⟩
abbrev main_c_18 : Ref sig .tc := ⟨.hbm, 184, rfl⟩
abbrev main_v92 : Ref sig .tc := ⟨.hbm, 185, rfl⟩
abbrev main_v93 : Ref sig .tc := ⟨.hbm, 186, rfl⟩
abbrev main_c_19 : Ref sig .tc := ⟨.hbm, 187, rfl⟩
abbrev main_v94 : Ref sig .tc := ⟨.hbm, 188, rfl⟩
abbrev main_v95 : Ref sig .tc := ⟨.hbm, 189, rfl⟩
abbrev main_v96 : Ref sig .tc := ⟨.hbm, 190, rfl⟩
abbrev main_v97 : Ref sig .tc := ⟨.hbm, 191, rfl⟩
abbrev main_v98 : Ref sig .tc := ⟨.hbm, 192, rfl⟩
abbrev main_cst_20 : Ref sig .tc := ⟨.hbm, 193, rfl⟩
abbrev main_v99 : Ref sig .tc := ⟨.hbm, 194, rfl⟩
abbrev main_v100 : Ref sig .tc := ⟨.hbm, 195, rfl⟩
abbrev main_v101 : Ref sig .tc := ⟨.hbm, 196, rfl⟩
abbrev main_cst_21 : Ref sig .tc := ⟨.hbm, 197, rfl⟩
abbrev main_v102 : Ref sig .tc := ⟨.hbm, 198, rfl⟩
abbrev main_cst_22 : Ref sig .tc := ⟨.hbm, 199, rfl⟩
abbrev main_v103 : Ref sig .tc := ⟨.hbm, 200, rfl⟩
abbrev main_v104 : Ref sig .tc := ⟨.hbm, 201, rfl⟩
abbrev main_v105 : Ref sig .tc := ⟨.hbm, 202, rfl⟩
abbrev main_cst_23 : Ref sig .tc := ⟨.hbm, 203, rfl⟩
abbrev main_call6_v0 : Ref sig .tc := ⟨.hbm, 204, rfl⟩
abbrev main_call6_v1 : Ref sig .tc := ⟨.hbm, 205, rfl⟩
abbrev main_v106 : Ref sig .tc := ⟨.hbm, 206, rfl⟩
abbrev main_v107 : Ref sig .tc := ⟨.hbm, 207, rfl⟩
abbrev main_v108 : Ref sig .tc := ⟨.hbm, 208, rfl⟩
abbrev main_v109 : Ref sig .tc := ⟨.hbm, 209, rfl⟩
abbrev main_v110 : Ref sig .tc := ⟨.hbm, 210, rfl⟩
abbrev main_v111 : Ref sig .tc := ⟨.hbm, 211, rfl⟩
abbrev main_v112 : Ref sig .tc := ⟨.hbm, 212, rfl⟩
abbrev main_v113 : Ref sig .tc := ⟨.hbm, 213, rfl⟩
abbrev main_v114 : Ref sig .tc := ⟨.hbm, 214, rfl⟩
abbrev main_v115 : Ref sig .tc := ⟨.hbm, 215, rfl⟩
abbrev main_cst_24 : Ref sig .tc := ⟨.hbm, 216, rfl⟩
abbrev main_v116 : Ref sig .tc := ⟨.hbm, 217, rfl⟩
abbrev main_cst_25 : Ref sig .tc := ⟨.hbm, 218, rfl⟩
abbrev main_v117 : Ref sig .tc := ⟨.hbm, 219, rfl⟩
abbrev main_v118 : Ref sig .tc := ⟨.hbm, 220, rfl⟩
abbrev main_c_26 : Ref sig .tc := ⟨.hbm, 221, rfl⟩
abbrev main_call7_cst : Ref sig .tc := ⟨.hbm, 222, rfl⟩
abbrev main_call7_v0 : Ref sig .tc := ⟨.hbm, 223, rfl⟩
abbrev main_call7_v1 : Ref sig .tc := ⟨.hbm, 224, rfl⟩
abbrev main_call7_cst_0 : Ref sig .tc := ⟨.hbm, 225, rfl⟩
abbrev main_call7_v2 : Ref sig .tc := ⟨.hbm, 226, rfl⟩
abbrev main_call7_v3 : Ref sig .tc := ⟨.hbm, 227, rfl⟩
abbrev main_call7_v4 : Ref sig .tc := ⟨.hbm, 228, rfl⟩
abbrev main_call7_v5 : Ref sig .tc := ⟨.hbm, 229, rfl⟩
abbrev main_call7_v6 : Ref sig .tc := ⟨.hbm, 230, rfl⟩
abbrev main_call7_v7 : Ref sig .tc := ⟨.hbm, 231, rfl⟩
abbrev main_call7_cst_1 : Ref sig .tc := ⟨.hbm, 232, rfl⟩
abbrev main_call7_v8 : Ref sig .tc := ⟨.hbm, 233, rfl⟩
abbrev main_call7_cst_2 : Ref sig .tc := ⟨.hbm, 234, rfl⟩
abbrev main_call7_v9 : Ref sig .tc := ⟨.hbm, 235, rfl⟩
abbrev main_call7_v10 : Ref sig .tc := ⟨.hbm, 236, rfl⟩
abbrev main_call7_v11 : Ref sig .tc := ⟨.hbm, 237, rfl⟩
abbrev main_call7_cst_3 : Ref sig .tc := ⟨.hbm, 238, rfl⟩
abbrev main_call7_v12 : Ref sig .tc := ⟨.hbm, 239, rfl⟩
abbrev main_call7_cst_4 : Ref sig .tc := ⟨.hbm, 240, rfl⟩
abbrev main_call7_call0_v0 : Ref sig .tc := ⟨.hbm, 241, rfl⟩
abbrev main_call7_call0_v1 : Ref sig .tc := ⟨.hbm, 242, rfl⟩
abbrev main_v119 : Ref sig .tc := ⟨.hbm, 243, rfl⟩
abbrev main_v120 : Ref sig .tc := ⟨.hbm, 244, rfl⟩
abbrev main_v121 : Ref sig .tc := ⟨.hbm, 245, rfl⟩
abbrev main_v122 : Ref sig .tc := ⟨.hbm, 246, rfl⟩
abbrev main_cst_27 : Ref sig .tc := ⟨.hbm, 247, rfl⟩
abbrev main_v123 : Ref sig .tc := ⟨.hbm, 248, rfl⟩
abbrev main_v124 : Ref sig .tc := ⟨.hbm, 249, rfl⟩
abbrev main_v125 : Ref sig .tc := ⟨.hbm, 250, rfl⟩
abbrev main_v126 : Ref sig .tc := ⟨.hbm, 251, rfl⟩
abbrev main_v127 : Ref sig .tc := ⟨.hbm, 252, rfl⟩
abbrev main_v128 : Ref sig .tc := ⟨.hbm, 253, rfl⟩
abbrev main_v129 : Ref sig .tc := ⟨.hbm, 254, rfl⟩
abbrev main_v130 : Ref sig .tc := ⟨.hbm, 255, rfl⟩
abbrev main_v131 : Ref sig .tc := ⟨.hbm, 256, rfl⟩
abbrev main_v132 : Ref sig .tc := ⟨.hbm, 257, rfl⟩
abbrev main_v133 : Ref sig .tc := ⟨.hbm, 258, rfl⟩
abbrev main_v134 : Ref sig .tc := ⟨.hbm, 259, rfl⟩
abbrev main_call8_cst : Ref sig .tc := ⟨.hbm, 260, rfl⟩
abbrev main_call8_v0 : Ref sig .tc := ⟨.hbm, 261, rfl⟩
abbrev main_v135 : Ref sig .tc := ⟨.hbm, 262, rfl⟩
abbrev main_v136 : Ref sig .tc := ⟨.hbm, 263, rfl⟩
abbrev main_v137 : Ref sig .tc := ⟨.hbm, 264, rfl⟩
abbrev main_v138 : Ref sig .tc := ⟨.hbm, 265, rfl⟩
abbrev main_v139 : Ref sig .tc := ⟨.hbm, 266, rfl⟩
abbrev main_v140 : Ref sig .tc := ⟨.hbm, 267, rfl⟩
abbrev main_v141 : Ref sig .tc := ⟨.hbm, 268, rfl⟩
abbrev main_call9_cst : Ref sig .tc := ⟨.hbm, 269, rfl⟩
abbrev main_call9_v0 : Ref sig .tc := ⟨.hbm, 270, rfl⟩
abbrev main_v142 : Ref sig .tc := ⟨.hbm, 271, rfl⟩
abbrev main_v143 : Ref sig .tc := ⟨.hbm, 272, rfl⟩
abbrev main_v144 : Ref sig .tc := ⟨.hbm, 273, rfl⟩
abbrev main_v145 : Ref sig .tc := ⟨.hbm, 274, rfl⟩
abbrev main_v146 : Ref sig .tc := ⟨.hbm, 275, rfl⟩
abbrev main_v147 : Ref sig .tc := ⟨.hbm, 276, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  concatenates_S100000x64_S100000x1_S100000x65_d1 : Shape.Concatenates [S100000x64, S100000x1] S100000x65 1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  gather_S100000x128_S1200000x1_S1200000x128_1_0_n_n_0_1_1128_wf : GatherDims.WF S100000x128 S1200000x1 S1200000x128 [1] [0] [] [0] [] 1 ![1, 128]
  scatter_S100000x128_S1200000x1_S1200000x128_1_0_0_1_wf : ScatterDims.WF S100000x128 S1200000x1 S1200000x128 [1] [0] [0] 1
  scatter_S100000_S1200000x1_S1200000_n_0_0_1_wf : ScatterDims.WF S100000 S1200000x1 S1200000 [] [0] [0] 1
  dot_S100000x128_S128x64_S100000x64_1_0_0_1_n_n_wf : DotDims.WF S100000x128 S128x64 S100000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S100000x64_S64x64_S100000x64_1_0_0_1_n_n_wf : DotDims.WF S100000x64 S64x64 S100000x64 [1] [0] [0] [1] [] []
  dot_S100000x65_S65x64_S100000x64_1_0_0_1_n_n_wf : DotDims.WF S100000x65 S65x64 S100000x64 [1] [0] [0] [1] [] []
  dot_S100000x64_S64x1_S100000x1_1_0_0_1_n_n_wf : DotDims.WF S100000x64 S64x1 S100000x1 [1] [0] [0] [1] [] []

variable [Facts₀]

def gather_S100000x128_S1200000x1_S1200000x128_1_0_n_n_0_1_1128 : GatherDims S100000x128 S1200000x1 S1200000x128 where
  offsetDims := [1]
  collapsedSliceDims := [0]
  operandBatchingDims := []
  startIndicesBatchingDims := []
  startIndexMap := [0]
  indexVectorDim := 1
  sliceSizes := ![1, 128]
  wf := gather_S100000x128_S1200000x1_S1200000x128_1_0_n_n_0_1_1128_wf
def scatter_S100000x128_S1200000x1_S1200000x128_1_0_0_1 : ScatterDims S100000x128 S1200000x1 S1200000x128 where
  updateWindowDims := [1]
  insertedWindowDims := [0]
  scatterDimsToOperandDims := [0]
  indexVectorDim := 1
  wf := scatter_S100000x128_S1200000x1_S1200000x128_1_0_0_1_wf
def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x65_S65x64_S100000x64_1_0_0_1_n_n : DotDims S100000x65 S65x64 S100000x64 where
  lhsContracting := [1]
  rhsContracting := [0]
  lhsNonContracting := [0]
  rhsNonContracting := [1]
  lhsBatch := []
  rhsBatch := []
  wf := dot_S100000x65_S65x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.KerRun.lean ====
import proofs.«136404_j80470507258311_2_alg».proof.Proof.Gen.KernelIdeal.Frame

set_option maxRecDepth 16384

noncomputable section

namespace Cert.KernelIdeal.KerRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main with its value: at the compiled mesh, from any memory with zero counters, every weakly fair
    execution of @main on the TensorCores terminates, nothing faulting, and in every final state the result buffer
    holds what the last boundary's valuation gives it, while every argument array is as launched. The launch over the
    segments ends with every unscoped buffer at the last boundary's contents; the result buffer is one of them, and
    each argument's contents there are its launch contents. -/
theorem run_value : θ_run defs (onTc (τ := τ) (main (F := F))) ⟨m, fun _ => 0, ρ⟩ (fun r => ∀ c : Dev nD,
      r.2.mem ((c.tc : Thread nD τ).loc main_v130) = Gen.W25 m ρ c (Proc.devRef .tc main_v130)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  Pipeline.θ_run_regions_kit (pcfgs (F := F)) Gen.adm (Gen.pdats m ρ) () Gen.cellOf_inj emb₁ defs₀ Gen.𝒱₀ Gen.L Gen.lv m ρ main (Gen.segs m ρ)
    (fun c Q => by rw [Gen.main_run m ρ c])
    (by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs Gen.cellOf_inj) (Pipeline.launchToks cfgs Gen.cellOf_inj))
    (hu₀ := by
      iintro Hu; imodintro
      isplitl [Hu]
      · iapply (show (ownU (initOf (Pipeline.cells cfgs Gen.cellOf_inj) (Pipeline.launchToks cfgs Gen.cellOf_inj)) : sProp 𝕄)
            ⊢ BI.own (emb₁ (initOf (Pipeline.cells cfgs Gen.cellOf_inj) (Pipeline.launchToks cfgs Gen.cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.W0 m ρ c) ∗ Gen.R c)) (Tₙ := Gen.Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, Gen.hseg, Pipeline.HostSeg.ofOps]
      iintro ⟨Hh, Hp, HO⟩
      isplitl [Hh Hp]
      · isplitl [Hh]; · iexact Hh
        iexact Hp
      iexact HO⟩)
    (hinit := by
      refine Pipeline.initEach Gen.L Gen.lv fun c => ?_
      rw [show unscopedBufs c (fun b => m ((c : Thread nD τ).loc b)) = StableHlo.held (c : Thread nD τ) (Pipeline.ucRefs τ sig) (Gen.W0 m ρ c)
        from Pipeline.unscopedBufs_held c (Gen.W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.W25 m ρ c b)
    (hfin := fun c s' => by
      iintro ⟨⟨Hh, -⟩, HSI⟩
      unfold StableHlo.held
      imodintro
      iapply (pointsTo_read_all (Pipeline.ucRefs τ sig) (fun b => (((c : Thread nD τ)).1, b)) (Gen.W25 m ρ c) s')
      isplitl [Hh] <;> iassumption)
    (hQ := fun s h c =>
      ⟨h c _ (Gen.mem_uc main_v130 (by decide)),
       (h c _ (Gen.mem_uc main_arg0 (by decide))).trans (Gen.W25_main_arg0 m ρ c),
       (h c _ (Gen.mem_uc main_arg1 (by decide))).trans (Gen.W25_main_arg1 m ρ c),
       (h c _ (Gen.mem_uc main_arg2 (by decide))).trans (Gen.W25_main_arg2 m ρ c),
       (h c _ (Gen.mem_uc main_arg3 (by decide))).trans (Gen.W25_main_arg3 m ρ c),
       (h c _ (Gen.mem_uc main_arg4 (by decide))).trans (Gen.W25_main_arg4 m ρ c),
       (h c _ (Gen.mem_uc main_arg5 (by decide))).trans (Gen.W25_main_arg5 m ρ c),
       (h c _ (Gen.mem_uc main_arg6 (by decide))).trans (Gen.W25_main_arg6 m ρ c),
       (h c _ (Gen.mem_uc main_arg7 (by decide))).trans (Gen.W25_main_arg7 m ρ c),
       (h c _ (Gen.mem_uc main_arg8 (by decide))).trans (Gen.W25_main_arg8 m ρ c),
       (h c _ (Gen.mem_uc main_arg9 (by decide))).trans (Gen.W25_main_arg9 m ρ c),
       (h c _ (Gen.mem_uc main_arg10 (by decide))).trans (Gen.W25_main_arg10 m ρ c),
       (h c _ (Gen.mem_uc main_arg11 (by decide))).trans (Gen.W25_main_arg11 m ρ c),
       (h c _ (Gen.mem_uc main_arg12 (by decide))).trans (Gen.W25_main_arg12 m ρ c),
       (h c _ (Gen.mem_uc main_arg13 (by decide))).trans (Gen.W25_main_arg13 m ρ c),
       (h c _ (Gen.mem_uc main_arg14 (by decide))).trans (Gen.W25_main_arg14 m ρ c),
       (h c _ (Gen.mem_uc main_arg15 (by decide))).trans (Gen.W25_main_arg15 m ρ c),
       (h c _ (Gen.mem_uc main_arg16 (by decide))).trans (Gen.W25_main_arg16 m ρ c),
       (h c _ (Gen.mem_uc main_arg17 (by decide))).trans (Gen.W25_main_arg17 m ρ c),
       (h c _ (Gen.mem_uc main_arg18 (by decide))).trans (Gen.W25_main_arg18 m ρ c),
       (h c _ (Gen.mem_uc main_arg19 (by decide))).trans (Gen.W25_main_arg19 m ρ c),
       (h c _ (Gen.mem_uc main_arg20 (by decide))).trans (Gen.W25_main_arg20 m ρ c),
       (h c _ (Gen.mem_uc main_arg21 (by decide))).trans (Gen.W25_main_arg21 m ρ c)⟩)

end Cert.KernelIdeal.KerRun

end
-- ==== Proof.Spec.lean ====
/-
  The stretches of host arithmetic that the kernel program and the reference share, and each program's result
  as a composition of them, all as functions of whole arrays at any float instance.

  A SAGE layer takes node features `h` (100000 rows) and an edge list `ei` (row 0: sources, row 1: destinations):
  `agg h ei` is the sum, at each destination node, of the source rows of its incoming edges (a gather by the
  sources, negative indices wrapped by +100000, then an accumulating scatter by the destinations onto zeros);
  `cntClip ei` is the number of incoming edges of each node, at least 1. The layer's linear part is
  `(agg / cnt) · Wl + b + h · Wr`; batch normalisation uses the column mean `meanF` and the biased column
  variance `varF` (mean of squared deviations), then a ReLU.
-/
import proofs.«136404_j80470507258311_2_alg».proof.KernelIdeal
import proofs.«136404_j80470507258311_2_alg».proof.ReferenceIdeal
import proofs.«136404_j80470507258311_2_alg».proof.Proof.Gen.KernelIdeal
import proofs.«136404_j80470507258311_2_alg».proof.Proof.Gen.ReferenceIdeal
import Idealize.ShloMosaic.PureOps.Ideal

noncomputable section

open Idealize.ShloMosaic Idealize.ShloMosaic.TcCoe

namespace Cert.Spec

variable {F : FTy → Type} [FloatOps F]

/-- The contents type of a tensor buffer of shape `S` and element type `e`. -/
abbrev Arr (F : FTy → Type) (S : Shape) (e : EltTy) := (⟨S, e⟩ : BufTy).Contents (Elt F)

section Shared
open Cert.KernelIdeal Cert.KernelIdeal.Facts₀

/-- Row `r` of the edge list as a flat vector of 1200000 node ids. -/
def edgeRow0 (ei : Arr F S2x1200000 .i32) : Arr F S1200000 .i32 :=
  shapeCast S1200000 (extractStridedSlice S1x1200000 ![0, 0] ei slices_S2x1200000_S1x1200000_0_0) shapeCasts_S1x1200000_S1200000
def edgeRow1 (ei : Arr F S2x1200000 .i32) : Arr F S1200000 .i32 :=
  shapeCast S1200000 (extractStridedSlice S1x1200000 ![1, 0] ei slices_S2x1200000_S1x1200000_1_0) shapeCasts_S1x1200000_S1200000

/-- The gather indices: the sources, a negative id wrapped by adding 100000, as a column. -/
def srcIdx (ei : Arr F S2x1200000 .i32) : Arr F S1200000x1 .i32 :=
  broadcastInDim S1200000x1 ![0] bcast_S1200000_S1200000x1_0
    (select (cmpi .slt (edgeRow0 ei) (broadcastInDim S1200000 ![] bcast_S_S1200000 (constantI S_ 32 0#32)))
      (addi (edgeRow0 ei) (broadcastInDim S1200000 ![] bcast_S_S1200000 (constantI S_ 32 100000#32)))
      (edgeRow0 ei))

/-- The scatter indices: the destinations as a column. -/
def dstIdx (ei : Arr F S2x1200000 .i32) : Arr F S1200000x1 .i32 :=
  broadcastInDim S1200000x1 ![0] bcast_S1200000_S1200000x1_0 (edgeRow1 ei)

/-- Neighbour sums of 128-wide rows. -/
def agg128 (x : Arr F S100000x128 .f32) (ei : Arr F S2x1200000 .i32) : Arr F S100000x128 .f32 :=
  Host.scatterAdd scatter_S100000x128_S1200000x1_S1200000x128_1_0_0_1
    (broadcastInDim S100000x128 ![] bcast_S_S100000x128 (constant S_ .f32 0x00000000#32))
    (dstIdx ei)
    (Host.gather gather_S100000x128_S1200000x1_S1200000x128_1_0_n_n_0_1_1128 x (srcIdx ei))

/-- Neighbour sums of 64-wide rows. -/
def agg64 (h : Arr F S100000x64 .f32) (ei : Arr F S2x1200000 .i32) : Arr F S100000x64 .f32 :=
  Host.scatterAdd scatter_S100000x64_S1200000x1_S1200000x64_1_0_0_1
    (broadcastInDim S100000x64 ![] bcast_S_S100000x64 (constant S_ .f32 0x00000000#32))
    (dstIdx ei)
    (Host.gather gather_S100000x64_S1200000x1_S1200000x64_1_0_n_n_0_1_164 h (srcIdx ei))

/-- In-degrees: ones scattered by the destinations onto zeros. -/
def cnt (ei : Arr F S2x1200000 .i32) : Arr F S100000 .f32 :=
  Host.scatterAdd scatter_S100000_S1200000x1_S1200000_n_0_0_1
    (broadcastInDim S100000 ![] bcast_S_S100000 (constant S_ .f32 0x00000000#32))
    (dstIdx ei)
    (broadcastInDim S1200000 ![] bcast_S_S1200000 (constant S_ .f32 0x3F800000#32))

/-- In-degrees, at least one: the maximum of the constant 1 and the count. -/
def cntClip (ei : Arr F S2x1200000 .i32) : Arr F S100000 .f32 :=
  maximumf (broadcastInDim S100000 ![] bcast_S_S100000 (id (constant S_ .f32 0x3F800000#32))) (cnt ei)

/-- The column sums of a 100000×64 array. -/
def colSum (l : Arr F S100000x64 .f32) : Arr F S64 .f32 :=
  Host.reduceAdd l (constant S_ .f32 0x00000000#32) reducesTo_S100000x64_S64_d0 h_S_

/-- The column means: column sums divided by 100000. -/
def meanF (l : Arr F S100000x64 .f32) : Arr F S64 .f32 :=
  Host.divf (colSum l) (broadcastInDim S64 ![] bcast_S_S64 (constant S_ .f32 0x47C35000#32))

/-- The deviations from the column means (the means kept as a row and spread over the rows). -/
def dev (l : Arr F S100000x64 .f32) : Arr F S100000x64 .f32 :=
  subf l (broadcastInDim S100000x64 ![0, 1] bcast_S1x64_S100000x64_0_1
    (Host.divf (broadcastInDim S1x64 ![1] bcast_S64_S1x64_1 (colSum l))
      (broadcastInDim S1x64 ![] bcast_S_S1x64 (constant S_ .f32 0x47C35000#32))))

/-- The divisor of the variance: 100000 minus the (zero) degrees-of-freedom correction. -/
def varDen : Arr F S_ .f32 :=
  subf (constant S_ .f32 0x47C35000#32) (sitofp .f32 (constantI S_ 32 0#32))

/-- The biased column variances: the column sums of the squared deviations over `varDen`, selected when
    `varDen > 0` (else the junk constant). -/
def varF (l : Arr F S100000x64 .f32) : Arr F S64 .f32 :=
  select (broadcastInDim S64 ![] bcast_S_S64 (cmpf .ogt (varDen (F := F)) (constant S_ .f32 0x00000000#32)))
    (Host.divf (colSum (mulf (dev l) (dev l))) (broadcastInDim S64 ![] bcast_S_S64 (varDen (F := F))))
    (broadcastInDim S64 ![] bcast_S_S64 (id (constant S_ .f32 0x7FC00000#32)))

end Shared

/-- The 22 argument arrays, in the programs' order: node features, edge list, the extra score column, then per
    layer the two weight matrices, the bias and the normalisation's scale and shift, then the two-layer head. -/
structure Args (F : FTy → Type) where
  x : Arr F Cert.KernelIdeal.S100000x128 .f32
  ei : Arr F Cert.KernelIdeal.S2x1200000 .i32
  xgb : Arr F Cert.KernelIdeal.S100000 .f32
  W1l : Arr F Cert.KernelIdeal.S128x64 .f32
  b1 : Arr F Cert.KernelIdeal.S64 .f32
  W1r : Arr F Cert.KernelIdeal.S128x64 .f32
  g1 : Arr F Cert.KernelIdeal.S64 .f32
  be1 : Arr F Cert.KernelIdeal.S64 .f32
  W2l : Arr F Cert.KernelIdeal.S64x64 .f32
  b2 : Arr F Cert.KernelIdeal.S64 .f32
  W2r : Arr F Cert.KernelIdeal.S64x64 .f32
  g2 : Arr F Cert.KernelIdeal.S64 .f32
  be2 : Arr F Cert.KernelIdeal.S64 .f32
  W3l : Arr F Cert.KernelIdeal.S64x64 .f32
  b3 : Arr F Cert.KernelIdeal.S64 .f32
  W3r : Arr F Cert.KernelIdeal.S64x64 .f32
  g3 : Arr F Cert.KernelIdeal.S64 .f32
  be3 : Arr F Cert.KernelIdeal.S64 .f32
  Wf1 : Arr F Cert.KernelIdeal.S65x64 .f32
  bf1 : Arr F Cert.KernelIdeal.S64 .f32
  Wf2 : Arr F Cert.KernelIdeal.S64x1 .f32
  bf2 : Arr F Cert.KernelIdeal.S1 .f32

section Reference
open Cert.ReferenceIdeal Cert.ReferenceIdeal.Facts₀

/-- A per-node column spread over 128 (64) feature columns. -/
def spreadCol128 (c : Arr F S100000 .f32) : Arr F S100000x128 .f32 :=
  broadcastInDim S100000x128 ![0, 1] bcast_S100000x1_S100000x128_0_1 (broadcastInDim S100000x1 ![0] bcast_S100000_S100000x1_0 c)
def spreadCol64 (c : Arr F S100000 .f32) : Arr F S100000x64 .f32 :=
  broadcastInDim S100000x64 ![0, 1] bcast_S100000x1_S100000x64_0_1 (broadcastInDim S100000x1 ![0] bcast_S100000_S100000x1_0 c)

/-- A per-feature vector spread over the 100000 rows. -/
def spreadRow (p : Arr F S64 .f32) : Arr F S100000x64 .f32 :=
  broadcastInDim S100000x64 ![0, 1] bcast_S1x64_S100000x64_0_1 (broadcastInDim S1x64 ![1] bcast_S64_S1x64_1 p)

/-- The reference's linear part of a layer: `(a / c) · wl + b + x · wr`. -/
def linR128 (a : Arr F S100000x128 .f32) (c : Arr F S100000 .f32) (x : Arr F S100000x128 .f32) (wl : Arr F S128x64 .f32)
    (b : Arr F S64 .f32) (wr : Arr F S128x64 .f32) : Arr F S100000x64 .f32 :=
  addf (addf (Host.dotGeneral dot_S100000x128_S128x64_S100000x64_1_0_0_1_n_n none (Host.divf a (spreadCol128 c)) wl) (spreadRow b))
    (Host.dotGeneral dot_S100000x128_S128x64_S100000x64_1_0_0_1_n_n none x wr)
def linR64 (a : Arr F S100000x64 .f32) (c : Arr F S100000 .f32) (x : Arr F S100000x64 .f32) (wl : Arr F S64x64 .f32)
    (b : Arr F S64 .f32) (wr : Arr F S64x64 .f32) : Arr F S100000x64 .f32 :=
  addf (addf (Host.dotGeneral dot_S100000x64_S64x64_S100000x64_1_0_0_1_n_n none (Host.divf a (spreadCol64 c)) wl) (spreadRow b))
    (Host.dotGeneral dot_S100000x64_S64x64_S100000x64_1_0_0_1_n_n none x wr)

/-- The positive part. -/
def relu (l : Arr F S100000x64 .f32) : Arr F S100000x64 .f32 :=
  maximumf l (broadcastInDim S100000x64 ![] bcast_S_S100000x64 (constant S_ .f32 0x00000000#32))

/-- The normalisation: `(l − mu) · rsqrt(var + ε) · g + be`, the per-feature vectors spread over the rows. -/
def bnAffine (l : Arr F S100000x64 .f32) (g be mu var : Arr F S64 .f32) : Arr F S100000x64 .f32 :=
  addf (mulf (mulf (subf l (spreadRow mu))
      (spreadRow (Host.rsqrt (addf var (broadcastInDim S64 ![] bcast_S_S64 (constant S_ .f32 0x3727C5AC#32))))))
    (spreadRow g)) (spreadRow be)

/-- Normalisation by the array's own column statistics, then the positive part. -/
def bnR (l : Arr F S100000x64 .f32) (g be : Arr F S64 .f32) : Arr F S100000x64 .f32 :=
  relu (bnAffine l g be (meanF l) (varF l))

def lin1R (a : Args F) : Arr F S100000x64 .f32 := linR128 (agg128 a.x a.ei) (cntClip a.ei) a.x a.W1l a.b1 a.W1r
def h1R (a : Args F) : Arr F S100000x64 .f32 := bnR (lin1R a) a.g1 a.be1
def lin2R (a : Args F) : Arr F S100000x64 .f32 := linR64 (agg64 (h1R a) a.ei) (cntClip a.ei) (h1R a) a.W2l a.b2 a.W2r
def h2R (a : Args F) : Arr F S100000x64 .f32 := bnR (lin2R a) a.g2 a.be2
def lin3R (a : Args F) : Arr F S100000x64 .f32 := linR64 (agg64 (h2R a) a.ei) (cntClip a.ei) (h2R a) a.W3l a.b3 a.W3r
def h3R (a : Args F) : Arr F S100000x64 .f32 := bnR (lin3R a) a.g3 a.be3

/-- The head on the 64 features and the extra score column: `relu([h, s] · Wf1 + bf1) · Wf2 + bf2`, as a column. -/
def headR (h : Arr F S100000x64 .f32) (s : Arr F S100000 .f32) (Wf1 : Arr F S65x64 .f32) (bf1 : Arr F S64 .f32)
    (Wf2 : Arr F S64x1 .f32) (bf2 : Arr F S1 .f32) : Arr F S100000x1 .f32 :=
  addf (Host.dotGeneral dot_S100000x64_S64x1_S100000x1_1_0_0_1_n_n none
      (relu (addf (Host.dotGeneral dot_S100000x65_S65x64_S100000x64_1_0_0_1_n_n none
          (concatenate S100000x65 1 [⟨S100000x64, h⟩, ⟨S100000x1, broadcastInDim S100000x1 ![0] bcast_S100000_S100000x1_0 s⟩]
            concatenates_S100000x64_S100000x1_S100000x65_d1) Wf1) (spreadRow bf1))) Wf2)
    (broadcastInDim S100000x1 ![0, 1] bcast_S1x1_S100000x1_0_1 (broadcastInDim S1x1 ![1] bcast_S1_S1x1_1 bf2))

/-- The reference's result. -/
def outR (a : Args F) : Arr F S100000 .f32 :=
  shapeCast S100000 (headR (h3R a) a.xgb a.Wf1 a.bf1 a.Wf2 a.bf2) shapeCasts_S100000x1_S100000

end Reference

end Cert.Spec

end
-- ==== Proof.RegSpec.lean ====
import proofs.«136404_j80470507258311_2_alg».proof.KernelIdeal
import Idealize.ShloMosaic.PureOps.Ideal
import Idealize.ShloMosaic.Lib.ValueIdx

noncomputable section

open scoped BigOperators

namespace Cert.RegSpec

open Idealize.ShloMosaic Idealize.ShloMosaic.TcCoe Idealize.SL.Sem
open Idealize.ShloMosaic.ValueIdx
open Cert.KernelIdeal

/-! # The six regions as whole-array functions on the extended reals

Each definition gives one element of a region's output array from the region's input arrays, with
the association and operand order of the region body's arithmetic. -/

/-- The SAGE linear layer on 128 input features, at row `j 0` and output feature `j 1`:
    `((Σ_k (a[r,k] · ic[r,0]) · wl[k,c]) + b[0,c]) + Σ_k x[r,k] · wr[k,c]`. -/
def sageLin128 (a : FVec Ideal S100000x128 .f32) (ic : FVec Ideal S100000x1 .f32)
    (x : FVec Ideal S100000x128 .f32) (wl : FVec Ideal S128x64 .f32) (b : FVec Ideal S1x64 .f32)
    (wr : FVec Ideal S128x64 .f32) : FVec Ideal S100000x64 .f32 :=
  fun j =>
    ((∑ k : Fin 128, (a (ix2 (j 0) k) * ic (ix2 (j 0) (0 : Fin 1))) * wl (ix2 k (j 1)))
        + b (ix2 (0 : Fin 1) (j 1)))
      + ∑ k : Fin 128, x (ix2 (j 0) k) * wr (ix2 k (j 1))

/-- The SAGE linear layer on 64 input features: the same expression with sums over 64 terms. -/
def sageLin64 (a : FVec Ideal S100000x64 .f32) (ic : FVec Ideal S100000x1 .f32)
    (x : FVec Ideal S100000x64 .f32) (wl : FVec Ideal S64x64 .f32) (b : FVec Ideal S1x64 .f32)
    (wr : FVec Ideal S64x64 .f32) : FVec Ideal S100000x64 .f32 :=
  fun j =>
    ((∑ k : Fin 64, (a (ix2 (j 0) k) * ic (ix2 (j 0) (0 : Fin 1))) * wl (ix2 k (j 1)))
        + b (ix2 (0 : Fin 1) (j 1)))
      + ∑ k : Fin 64, x (ix2 (j 0) k) * wr (ix2 k (j 1))

/-- Batch normalisation followed by the rectifier, on the lane-packed layout (each of the 128 lanes
    has its own scale, shift, mean and variance):
    `max ((((lin[r,c] - mu[0,c]) · rsqrt (var[0,c] + ε)) · g[0,c]) + be[0,c]) 0`. -/
def bnPacked (lin : FVec Ideal S50000x128 .f32) (g be mu var : FVec Ideal S1x128 .f32) :
    FVec Ideal S50000x128 .f32 :=
  fun j =>
    max ((((lin (ix2 (j 0) (j 1)) - mu (ix2 (0 : Fin 1) (j 1)))
              * Ideal.rsqrt (var (ix2 (0 : Fin 1) (j 1)) + Ideal.ofBits .f32 0x3727C5AC#32))
            * g (ix2 (0 : Fin 1) (j 1)))
          + be (ix2 (0 : Fin 1) (j 1)))
      (Ideal.ofBits .f32 0x00000000#32)

/-- The normalised and rectified hidden feature `k` of row `r` that the fusion head starts from. -/
def fusionHidden (lin : FVec Ideal S100000x64 .f32) (g be mu var : FVec Ideal S1x64 .f32)
    (r : Fin 100000) (k : Fin 64) : EReal :=
  max ((((lin (ix2 r k) - mu (ix2 (0 : Fin 1) k))
            * Ideal.rsqrt (var (ix2 (0 : Fin 1) k) + Ideal.ofBits .f32 0x3727C5AC#32))
          * g (ix2 (0 : Fin 1) k))
        + be (ix2 (0 : Fin 1) k))
    (Ideal.ofBits .f32 0x00000000#32)

/-- The first fusion layer's output feature `m` of row `r`, after its bias and rectifier:
    `max (((Σ_k h[r,k] · wh[k,m]) + xgb[r,0] · wx[0,m]) + bf1[0,m]) 0`. -/
def fusionMid (lin : FVec Ideal S100000x64 .f32) (g be mu var : FVec Ideal S1x64 .f32)
    (xgb : FVec Ideal S100000x1 .f32) (wh : FVec Ideal S64x64 .f32) (wx bf1 : FVec Ideal S1x64 .f32)
    (r : Fin 100000) (m : Fin 64) : EReal :=
  max (((∑ k : Fin 64, fusionHidden lin g be mu var r k * wh (ix2 k m))
          + xgb (ix2 r (0 : Fin 1)) * wx (ix2 (0 : Fin 1) m))
        + bf1 (ix2 (0 : Fin 1) m))
    (Ideal.ofBits .f32 0x00000000#32)

/-- The fusion head: `(Σ_m mid[r,m] · wf2[m,0]) + bf2[0,0]`. -/
def fusion (lin : FVec Ideal S100000x64 .f32) (g be mu var : FVec Ideal S1x64 .f32)
    (xgb : FVec Ideal S100000x1 .f32) (wh : FVec Ideal S64x64 .f32) (wx bf1 : FVec Ideal S1x64 .f32)
    (wf2 : FVec Ideal S64x1 .f32) (bf2 : FVec Ideal S1x1 .f32) : FVec Ideal S100000x1 .f32 :=
  fun j =>
    (∑ m : Fin 64, fusionMid lin g be mu var xgb wh wx bf1 (j 0) m * wf2 (ix2 m (j 1)))
      + bf2 (ix2 (0 : Fin 1) (0 : Fin 1))

end Cert.RegSpec

end
-- ==== Proof.SpecK.lean ====
/-
  The kernel program's result as a composition: per layer the linear part is one region's whole-array function of
  the neighbour sums, the reciprocal in-degrees (as a column), the features and the weights; the first two layers'
  normalisation runs on the lane-packed layout (two consecutive 64-wide rows as one 128-wide row, the per-feature
  vectors repeated twice); the third layer's normalisation is fused with the head.
-/
import proofs.«136404_j80470507258311_2_alg».proof.Proof.Spec
import proofs.«136404_j80470507258311_2_alg».proof.Proof.RegSpec

noncomputable section

open Idealize.ShloMosaic Idealize.ShloMosaic.TcCoe

namespace Cert.Spec

open Cert.KernelIdeal Cert.KernelIdeal.Facts₀

/-- The reciprocal in-degrees, `1 / max(1, cnt)`, as a column. -/
def invCnt (ei : Arr Ideal S2x1200000 .i32) : Arr Ideal S100000x1 .f32 :=
  shapeCast S100000x1 (Host.divf (broadcastInDim S100000 ![] bcast_S_S100000 (constant S_ .f32 0x3F800000#32)) (cntClip ei))
    shapeCasts_S100000_S100000x1

/-- A per-feature vector as one row. -/
def row64 (p : Arr Ideal S64 .f32) : Arr Ideal S1x64 .f32 := shapeCast S1x64 p shapeCasts_S64_S1x64

/-- A per-feature vector repeated twice, as one 128-wide row. -/
def tile2 (p : Arr Ideal S64 .f32) : Arr Ideal S1x128 .f32 :=
  shapeCast S1x128 (shapeCast S128 (broadcastInDim S2x64 ![0, 1] bcast_S1x64_S2x64_0_1 (row64 p)) shapeCasts_S2x64_S128)
    shapeCasts_S128_S1x128

/-- The column variances clamped below at zero. -/
def varK (l : Arr Ideal S100000x64 .f32) : Arr Ideal S64 .f32 :=
  maximumf (varF l) (broadcastInDim S64 ![] bcast_S_S64 (constant S_ .f32 0x00000000#32))

/-- Two consecutive rows as one, and back. -/
def pack (l : Arr Ideal S100000x64 .f32) : Arr Ideal S50000x128 .f32 := shapeCast S50000x128 l shapeCasts_S100000x64_S50000x128
def unpack (l : Arr Ideal S50000x128 .f32) : Arr Ideal S100000x64 .f32 := shapeCast S100000x64 l shapeCasts_S50000x128_S100000x64

/-- Normalisation and positive part on the packed layout. -/
def bnK (l : Arr Ideal S100000x64 .f32) (g be : Arr Ideal S64 .f32) : Arr Ideal S100000x64 .f32 :=
  unpack (Cert.RegSpec.bnPacked (pack l) (tile2 g) (tile2 be) (tile2 (meanF l)) (tile2 (varK l)))

def lin1K (a : Args Ideal) : Arr Ideal S100000x64 .f32 :=
  Cert.RegSpec.sageLin128 (agg128 a.x a.ei) (invCnt a.ei) a.x a.W1l (row64 a.b1) a.W1r
def h1K (a : Args Ideal) : Arr Ideal S100000x64 .f32 := bnK (lin1K a) a.g1 a.be1
def lin2K (a : Args Ideal) : Arr Ideal S100000x64 .f32 :=
  Cert.RegSpec.sageLin64 (agg64 (h1K a) a.ei) (invCnt a.ei) (h1K a) a.W2l (row64 a.b2) a.W2r
def h2K (a : Args Ideal) : Arr Ideal S100000x64 .f32 := bnK (lin2K a) a.g2 a.be2
def lin3K (a : Args Ideal) : Arr Ideal S100000x64 .f32 :=
  Cert.RegSpec.sageLin64 (agg64 (h2K a) a.ei) (invCnt a.ei) (h2K a) a.W3l (row64 a.b3) a.W3r

/-- The fused third normalisation and head, as a column. -/
def headK (l : Arr Ideal S100000x64 .f32) (g be : Arr Ideal S64 .f32) (s : Arr Ideal S100000 .f32) (Wf1 : Arr Ideal S65x64 .f32)
    (bf1 : Arr Ideal S64 .f32) (Wf2 : Arr Ideal S64x1 .f32) (bf2 : Arr Ideal S1 .f32) : Arr Ideal S100000x1 .f32 :=
  Cert.RegSpec.fusion l (row64 g) (row64 be) (row64 (meanF l)) (row64 (varK l))
    (shapeCast S100000x1 s shapeCasts_S100000_S100000x1)
    (extractStridedSlice S64x64 ![0, 0] Wf1 slices_S65x64_S64x64_0_0)
    (extractStridedSlice S1x64 ![64, 0] Wf1 slices_S65x64_S1x64_64_0)
    (row64 bf1) Wf2 (shapeCast S1x1 bf2 shapeCasts_S1_S1x1)

/-- The kernel program's result. -/
def outK (a : Args Ideal) : Arr Ideal S100000 .f32 :=
  shapeCast S100000 (headK (lin3K a) a.g3 a.be3 a.xgb a.Wf1 a.bf1 a.Wf2 a.bf2) shapeCasts_S100000x1_S100000

end Cert.Spec

end
-- ==== Proof.KerBase.lean ====
import proofs.«136404_j80470507258311_2_alg».proof.Proof.Gen.KernelIdeal.Frame
import proofs.«136404_j80470507258311_2_alg».proof.Proof.SpecK

set_option maxRecDepth 16384

noncomputable section

namespace Cert.KernelIdeal.KerHost

open Idealize.ShloMosaic Idealize.ShloMosaic.TcCoe Idealize.SL.Sem
open Idealize.ShloMosaic.StableHlo
open Cert.Spec (Arr)

variable (m : (ℓ : Loc nD τ sig) → Buf (Elt Ideal) ℓ) (ρ : Dev nD → PrngReg) (c : Dev nD)

/-- The 22 argument arrays of core `c` at launch. -/
def argsOf : Cert.Spec.Args Ideal :=
  ⟨m ((c : Thread nD τ).loc main_arg0),
   m ((c : Thread nD τ).loc main_arg1),
   m ((c : Thread nD τ).loc main_arg2),
   m ((c : Thread nD τ).loc main_arg3),
   m ((c : Thread nD τ).loc main_arg4),
   m ((c : Thread nD τ).loc main_arg5),
   m ((c : Thread nD τ).loc main_arg6),
   m ((c : Thread nD τ).loc main_arg7),
   m ((c : Thread nD τ).loc main_arg8),
   m ((c : Thread nD τ).loc main_arg9),
   m ((c : Thread nD τ).loc main_arg10),
   m ((c : Thread nD τ).loc main_arg11),
   m ((c : Thread nD τ).loc main_arg12),
   m ((c : Thread nD τ).loc main_arg13),
   m ((c : Thread nD τ).loc main_arg14),
   m ((c : Thread nD τ).loc main_arg15),
   m ((c : Thread nD τ).loc main_arg16),
   m ((c : Thread nD τ).loc main_arg17),
   m ((c : Thread nD τ).loc main_arg18),
   m ((c : Thread nD τ).loc main_arg19),
   m ((c : Thread nD τ).loc main_arg20),
   m ((c : Thread nD τ).loc main_arg21)⟩

/-- One region boundary down: a buffer that is none of the region's arrays holds at the region's exit what it held at
    its entry. -/
macro "hop" : tactic => `(tactic| first
  | (rw [Gen.W24_of_ne]; rotate_left; decide)
  | (rw [Gen.W20_of_ne]; rotate_left; decide)
  | (rw [Gen.W16_of_ne]; rotate_left; decide)
  | (rw [Gen.W12_of_ne]; rotate_left; decide)
  | (rw [Gen.W8_of_ne]; rotate_left; decide)
  | (rw [Gen.W4_of_ne]; rotate_left; decide))
/-- Through the host stretches down to the region boundary before them: each operation's result at its own buffer
    is its function's value, at any other buffer what was there. -/
macro "down" : tactic => `(tactic| (dsimp only [Gen.W1, Gen.W2, Gen.W3, Gen.W5, Gen.W6, Gen.W7, Gen.W9, Gen.W10, Gen.W11, Gen.W13, Gen.W14, Gen.W15, Gen.W17, Gen.W18, Gen.W19, Gen.W21, Gen.W22, Gen.W23, Gen.W25]; after_results))
/-- Down to the launch memory. -/
macro "read_down" : tactic => `(tactic| repeat (first | hop | down))

end Cert.KernelIdeal.KerHost
end
-- ==== Proof.BlockOps.lean ====
import proofs.«136404_j80470507258311_2_alg».proof.Proof.Gen.KernelIdeal
import Idealize.ShloMosaic.PureOps.Ideal.Laws
import Idealize.ShloMosaic.Lib.ValueLayout

noncomputable section

open scoped BigOperators

namespace Cert.KernelIdeal.Reg

open Idealize.ShloMosaic Idealize.ShloMosaic.TcCoe Idealize.SL.Sem
open Idealize.ShloMosaic.ValueIdx

/-! # The region bodies' non-pointwise operations, read at an index

A column broadcast and the three matrix products the bodies use, each at a row and a column. -/

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The product of a `[5000, 128]` block with a `[128, 64]` matrix -/

/-- The left operand's row coordinate is the output's. -/
theorem lhs0_128x64 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl

/-- The left operand's column coordinate is the contraction position. -/
theorem lhs1_128x64 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q

/-- The right operand's row coordinate is the contraction position. -/
theorem rhs0_128x64 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q

/-- The right operand's column coordinate is the output's. -/
theorem rhs1_128x64 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The matrix product into the zero accumulator, at row `p` and column `q`: the sum over the 128 inner positions. -/
theorem matmul_128x64 {φ₁ φ₂ : FTy} (l : FVec Ideal S5000x128 φ₁) (r : FVec Ideal S128x64 φ₂) (p : Fin 5000) (q : Fin 64) :
    matmul dot_S5000x128_S128x64_S5000x64_1_0_0_1_n_n none l r (constant (F := Ideal) S5000x64 .f32 0x00000000#32) (ix2 p q)
      = ∑ k : Fin 128, l (ix2 p k) * r (ix2 k q) := by
  refine (Ideal.matmul_constant_zero_apply dot_S5000x128_S128x64_S5000x64_1_0_0_1_n_n none l r (ix2 p q)).trans ?_
  rw [← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p q) ((ValueIdx.contrEquiv1 dot_S5000x128_S128x64_S5000x64_1_0_0_1_n_n 128 rfl rfl).symm k) = ix2 p k := funext fun a => Fin.ext (by
    match a with
    | ⟨0, _⟩ => exact lhs0_128x64 _ _
    | ⟨1, _⟩ => exact (lhs1_128x64 _ _).trans hk)
  have er : dot_S5000x128_S128x64_S5000x64_1_0_0_1_n_n.rhsIdx (ix2 p q) ((ValueIdx.contrEquiv1 dot_S5000x128_S128x64_S5000x64_1_0_0_1_n_n 128 rfl rfl).symm k) = ix2 k q := funext fun a => Fin.ext (by
    match a with
    | ⟨0, _⟩ => exact (rhs0_128x64 _ _).trans hk
    | ⟨1, _⟩ => exact rhs1_128x64 _ _)
  rw [el, er]

/-! ## The product of a `[5000, 64]` block with a `[64, 64]` matrix -/

/-- The left operand's row coordinate is the output's. -/
theorem lhs0_64x64 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl

/-- The left operand's column coordinate is the contraction position. -/
theorem lhs1_64x64 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q

/-- The right operand's row coordinate is the contraction position. -/
theorem rhs0_64x64 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q

/-- The right operand's column coordinate is the output's. -/
theorem rhs1_64x64 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The matrix product into the zero accumulator, at row `p` and column `q`: the sum over the 64 inner positions. -/
theorem matmul_64x64 {φ₁ φ₂ : FTy} (l : FVec Ideal S5000x64 φ₁) (r : FVec Ideal S64x64 φ₂) (p : Fin 5000) (q : Fin 64) :
    matmul dot_S5000x64_S64x64_S5000x64_1_0_0_1_n_n none l r (constant (F := Ideal) S5000x64 .f32 0x00000000#32) (ix2 p q)
      = ∑ k : Fin 64, l (ix2 p k) * r (ix2 k q) := by
  refine (Ideal.matmul_constant_zero_apply dot_S5000x64_S64x64_S5000x64_1_0_0_1_n_n none l r (ix2 p q)).trans ?_
  rw [← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact lhs0_64x64 _ _
    | ⟨1, _⟩ => exact (lhs1_64x64 _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (rhs0_64x64 _ _).trans hk
    | ⟨1, _⟩ => exact rhs1_64x64 _ _)
  rw [el, er]

/-! ## The product of a `[5000, 64]` block with a `[64, 1]` matrix -/

/-- The left operand's row coordinate is the output's. -/
theorem lhs0_64x1 (i : S5000x1.Idx) (q : dot_S5000x64_S64x1_S5000x1_1_0_0_1_n_n.contr.Idx) :
    (dot_S5000x64_S64x1_S5000x1_1_0_0_1_n_n.lhsIdx i q 0).val = (i 0).val := by
  unfold DotDims.lhsIdx
  rw [dif_neg (show ¬(0 : Fin S5000x64.rank) ∈ dot_S5000x64_S64x1_S5000x1_1_0_0_1_n_n.lhsBatch by decide), dif_pos (show (0 : Fin S5000x64.rank) ∈ dot_S5000x64_S64x1_S5000x1_1_0_0_1_n_n.lhsNonContracting by decide)]
  rfl

/-- The left operand's column coordinate is the contraction position. -/
theorem lhs1_64x1 (i : S5000x1.Idx) (q : dot_S5000x64_S64x1_S5000x1_1_0_0_1_n_n.contr.Idx) :
    (dot_S5000x64_S64x1_S5000x1_1_0_0_1_n_n.lhsIdx i q 1).val = (q ⟨0, by decide⟩).val :=
  dot_S5000x64_S64x1_S5000x1_1_0_0_1_n_n.lhsIdx_val_of_single rfl i q

/-- The right operand's row coordinate is the contraction position. -/
theorem rhs0_64x1 (i : S5000x1.Idx) (q : dot_S5000x64_S64x1_S5000x1_1_0_0_1_n_n.contr.Idx) :
    (dot_S5000x64_S64x1_S5000x1_1_0_0_1_n_n.rhsIdx i q 0).val = (q ⟨0, by decide⟩).val :=
  dot_S5000x64_S64x1_S5000x1_1_0_0_1_n_n.rhsIdx_val_of_single rfl i q

/-- The right operand's column coordinate is the output's. -/
theorem rhs1_64x1 (i : S5000x1.Idx) (q : dot_S5000x64_S64x1_S5000x1_1_0_0_1_n_n.contr.Idx) :
    (dot_S5000x64_S64x1_S5000x1_1_0_0_1_n_n.rhsIdx i q 1).val = (i 1).val := by
  unfold DotDims.rhsIdx
  rw [dif_neg (show ¬(1 : Fin S64x1.rank) ∈ dot_S5000x64_S64x1_S5000x1_1_0_0_1_n_n.rhsBatch by decide), dif_pos (show (1 : Fin S64x1.rank) ∈ dot_S5000x64_S64x1_S5000x1_1_0_0_1_n_n.rhsNonContracting by decide)]
  rfl

/-- The matrix product into the zero accumulator, at row `p` and column `q`: the sum over the 64 inner positions. -/
theorem matmul_64x1 {φ₁ φ₂ : FTy} (l : FVec Ideal S5000x64 φ₁) (r : FVec Ideal S64x1 φ₂) (p : Fin 5000) (q : Fin 1) :
    matmul dot_S5000x64_S64x1_S5000x1_1_0_0_1_n_n none l r (constant (F := Ideal) S5000x1 .f32 0x00000000#32) (ix2 p q)
      = ∑ k : Fin 64, l (ix2 p k) * r (ix2 k q) := by
  refine (Ideal.matmul_constant_zero_apply dot_S5000x64_S64x1_S5000x1_1_0_0_1_n_n none l r (ix2 p q)).trans ?_
  rw [← Equiv.sum_comp (ValueIdx.contrEquiv1 dot_S5000x64_S64x1_S5000x1_1_0_0_1_n_n 64 rfl rfl).symm]
  refine Finset.sum_congr rfl fun k _ => ?_
  have hk := ValueIdx.contrEquiv1_symm_val dot_S5000x64_S64x1_S5000x1_1_0_0_1_n_n 64 rfl rfl k
  have el : dot_S5000x64_S64x1_S5000x1_1_0_0_1_n_n.lhsIdx (ix2 p q) ((ValueIdx.contrEquiv1 dot_S5000x64_S64x1_S5000x1_1_0_0_1_n_n 64 rfl rfl).symm k) = ix2 p k := funext fun a => Fin.ext (by
    match a with
    | ⟨0, _⟩ => exact lhs0_64x1 _ _
    | ⟨1, _⟩ => exact (lhs1_64x1 _ _).trans hk)
  have er : dot_S5000x64_S64x1_S5000x1_1_0_0_1_n_n.rhsIdx (ix2 p q) ((ValueIdx.contrEquiv1 dot_S5000x64_S64x1_S5000x1_1_0_0_1_n_n 64 rfl rfl).symm k) = ix2 k q := funext fun a => Fin.ext (by
    match a with
    | ⟨0, _⟩ => exact (rhs0_64x1 _ _).trans hk
    | ⟨1, _⟩ => exact rhs1_64x1 _ _)
  rw [el, er]

end Cert.KernelIdeal.Reg

end
-- ==== Proof.Reg0.lean ====
import proofs.«136404_j80470507258311_2_alg».proof.Proof.RegSpec
import proofs.«136404_j80470507258311_2_alg».proof.Proof.BlockOps
import proofs.«136404_j80470507258311_2_alg».proof.Proof.Gen.KernelIdeal.Frame

set_option maxRecDepth 16384

noncomputable section

open scoped BigOperators

namespace Cert.KernelIdeal.Reg

open Idealize.ShloMosaic Idealize.ShloMosaic.TcCoe Idealize.SL.Sem
open Idealize.ShloMosaic.ValueIdx
open Idealize.ShloMosaic.Pipeline (Dat Cfg Window)
open Cert.RegSpec

/-! # Region 0: the SAGE linear layer on 128 input features, as one whole-array function -/

variable (V : (c : Dev nD) → (b : Ref sig .tc) → Buf (Elt Ideal) ((c : Thread nD τ).loc b))

theorem zeroOffsets0 : (![0, 0] : Fin 2 → Nat) = fun _ => 0 := funext fun a => by fin_cases a <;> rfl

/-- The body's result at row `p` and column `q` of its block, from the six loaded blocks. -/
theorem body0_apply (x0 : Vec Ideal S5000x128 .f32) (x1 : Vec Ideal S5000x1 .f32) (x2 : Vec Ideal S5000x128 .f32)
    (x3 : Vec Ideal S128x64 .f32) (x4 : Vec Ideal S1x64 .f32) (x5 : Vec Ideal S128x64 .f32) (p : Fin 5000) (q : Fin 64) :
    Gen.k0_pay1 x0 x1 x2 x3 x5 x4 (ix2 p q)
      = ((∑ k : Fin 128, (x0 (ix2 p k) * x1 (ix2 p (0 : Fin 1))) * x3 (ix2 k q)) + x4 (ix2 (0 : Fin 1) q))
        + ∑ k : Fin 128, x2 (ix2 p k) * x5 (ix2 k q) := by
  unfold Gen.k0_pay1
  simp only [shapeCast_self]
  rw [addf_apply, addf_apply, matmul_128x64, matmul_128x64, broadcastTo_1b_ab_apply]
  simp only [truncf_apply, mulf_apply, broadcastTo_a1_ab_apply]

/-- The windows' index maps over the grid: the row-blocked windows' block index is the point's number; the weight and
    bias windows stay at block 0. -/
theorem indexMaps0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Window 0's block at point `t` is rows `5000 t … 5000 t + 4999` of its array. -/
theorem block0_0 (c : Dev nD) (t : Fin cfg0.N) (y : S5000x128.Idx) (k : S100000x128.Idx)
    (h0 : (k 0).val = t.val * 5000 + (y 0).val) (h1 : (k 1).val = (y 1).val) :
    (Gen.iblk0 V c 0 t : Vec Ideal S5000x128 .f32) y = (V c (Pipeline.arrRef spec0 0) : S100000x128.Idx → EReal) k := by
  have e := indexMaps0 t
  unfold Gen.iblk0
  rw [View.read_apply]
  show V c (Pipeline.arrRef spec0 0) _ = V c (Pipeline.arrRef spec0 0) _
  congr 1
  funext a
  apply Fin.ext
  match a with
  | ⟨0, _⟩ => show win0_0.index t (0 : Fin 2) * 5000 + 1 * (y 0).val = (k 0).val; omega
  | ⟨1, _⟩ => show win0_0.index t (1 : Fin 2) * 128 + 1 * (y 1).val = (k 1).val; omega

/-- Window 1's block at point `t` is rows `5000 t … 5000 t + 4999` of its array. -/
theorem block0_1 (c : Dev nD) (t : Fin cfg0.N) (y : S5000x1.Idx) (k : S100000x1.Idx)
    (h0 : (k 0).val = t.val * 5000 + (y 0).val) (h1 : (k 1).val = (y 1).val) :
    (Gen.iblk0 V c 1 t : Vec Ideal S5000x1 .f32) y = (V c (Pipeline.arrRef spec0 1) : S100000x1.Idx → EReal) k := by
  have e := indexMaps0 t
  unfold Gen.iblk0
  rw [View.read_apply]
  show V c (Pipeline.arrRef spec0 1) _ = V c (Pipeline.arrRef spec0 1) _
  congr 1
  funext a
  apply Fin.ext
  match a with
  | ⟨0, _⟩ => show win0_1.index t (0 : Fin 2) * 5000 + 1 * (y 0).val = (k 0).val; omega
  | ⟨1, _⟩ => show win0_1.index t (1 : Fin 2) * 1 + 1 * (y 1).val = (k 1).val; omega

/-- Window 2's block at point `t` is rows `5000 t … 5000 t + 4999` of its array. -/
theorem block0_2 (c : Dev nD) (t : Fin cfg0.N) (y : S5000x128.Idx) (k : S100000x128.Idx)
    (h0 : (k 0).val = t.val * 5000 + (y 0).val) (h1 : (k 1).val = (y 1).val) :
    (Gen.iblk0 V c 2 t : Vec Ideal S5000x128 .f32) y = (V c (Pipeline.arrRef spec0 2) : S100000x128.Idx → EReal) k := by
  have e := indexMaps0 t
  unfold Gen.iblk0
  rw [View.read_apply]
  show V c (Pipeline.arrRef spec0 2) _ = V c (Pipeline.arrRef spec0 2) _
  congr 1
  funext a
  apply Fin.ext
  match a with
  | ⟨0, _⟩ => show win0_2.index t (0 : Fin 2) * 5000 + 1 * (y 0).val = (k 0).val; omega
  | ⟨1, _⟩ => show win0_2.index t (1 : Fin 2) * 128 + 1 * (y 1).val = (k 1).val; omega

/-- Window 3's block at every point is its whole array. -/
theorem block0_3 (c : Dev nD) (t : Fin cfg0.N) :
    (Gen.iblk0 V c 3 t : Vec Ideal S128x64 .f32) = (V c (Pipeline.arrRef spec0 3) : S128x64.Idx → EReal) := by
  have e := indexMaps0 t
  funext y
  unfold Gen.iblk0
  rw [View.read_apply]
  show V c (Pipeline.arrRef spec0 3) _ = V c (Pipeline.arrRef spec0 3) _
  congr 1
  funext a
  apply Fin.ext
  match a with
  | ⟨0, _⟩ => show win0_3.index t (0 : Fin 2) * 128 + 1 * (y 0).val = (y 0).val; omega
  | ⟨1, _⟩ => show win0_3.index t (1 : Fin 2) * 64 + 1 * (y 1).val = (y 1).val; omega

/-- Window 4's block at every point is its whole array. -/
theorem block0_4 (c : Dev nD) (t : Fin cfg0.N) :
    (Gen.iblk0 V c 4 t : Vec Ideal S1x64 .f32) = (V c (Pipeline.arrRef spec0 4) : S1x64.Idx → EReal) := by
  have e := indexMaps0 t
  funext y
  unfold Gen.iblk0
  rw [View.read_apply]
  show V c (Pipeline.arrRef spec0 4) _ = V c (Pipeline.arrRef spec0 4) _
  congr 1
  funext a
  apply Fin.ext
  match a with
  | ⟨0, _⟩ => show win0_4.index t (0 : Fin 2) * 1 + 1 * (y 0).val = (y 0).val; omega
  | ⟨1, _⟩ => show win0_4.index t (1 : Fin 2) * 64 + 1 * (y 1).val = (y 1).val; omega

/-- Window 5's block at every point is its whole array. -/
theorem block0_5 (c : Dev nD) (t : Fin cfg0.N) :
    (Gen.iblk0 V c 5 t : Vec Ideal S128x64 .f32) = (V c (Pipeline.arrRef spec0 5) : S128x64.Idx → EReal) := by
  have e := indexMaps0 t
  funext y
  unfold Gen.iblk0
  rw [View.read_apply]
  show V c (Pipeline.arrRef spec0 5) _ = V c (Pipeline.arrRef spec0 5) _
  congr 1
  funext a
  apply Fin.ext
  match a with
  | ⟨0, _⟩ => show win0_5.index t (0 : Fin 2) * 128 + 1 * (y 0).val = (y 0).val; omega
  | ⟨1, _⟩ => show win0_5.index t (1 : Fin 2) * 64 + 1 * (y 1).val = (y 1).val; omega

/-- The body's result on blocks that are the restrictions of whole arrays is the restriction of the layer's
    whole-array function: at row `T · 5000 + p`. -/
theorem body0_restrict (A : FVec Ideal S100000x128 .f32) (IC : FVec Ideal S100000x1 .f32) (X : FVec Ideal S100000x128 .f32)
    (WL : FVec Ideal S128x64 .f32) (B : FVec Ideal S1x64 .f32) (WR : FVec Ideal S128x64 .f32)
    (x0 : Vec Ideal S5000x128 .f32) (x1 : Vec Ideal S5000x1 .f32) (x2 : Vec Ideal S5000x128 .f32) (T : Nat)
    (h0 : ∀ (y : S5000x128.Idx) (k : S100000x128.Idx), (k 0).val = T * 5000 + (y 0).val → (k 1).val = (y 1).val → x0 y = A k)
    (h1 : ∀ (y : S5000x1.Idx) (k : S100000x1.Idx), (k 0).val = T * 5000 + (y 0).val → (k 1).val = (y 1).val → x1 y = IC k)
    (h2 : ∀ (y : S5000x128.Idx) (k : S100000x128.Idx), (k 0).val = T * 5000 + (y 0).val → (k 1).val = (y 1).val → x2 y = X k)
    (p : Fin 5000) (q : Fin 64) (i : S100000x64.Idx) (hi0 : (i 0).val = T * 5000 + p.val) (hi1 : (i 1).val = q.val) :
    Gen.k0_pay1 x0 x1 x2 WL WR B (ix2 p q) = sageLin128 A IC X WL B WR i := by
  have hq : i 1 = q := Fin.ext hi1
  rw [body0_apply]
  unfold sageLin128
  rw [hq]
  refine congrArg₂ (· + ·) (congrArg₂ (· + ·) (Finset.sum_congr rfl fun k _ => ?_) rfl) (Finset.sum_congr rfl fun k _ => ?_)
  · rw [h0 (ix2 p k) (ix2 (i 0) k) hi0 rfl, h1 (ix2 p (0 : Fin 1)) (ix2 (i 0) (0 : Fin 1)) hi0 rfl]
  · rw [h2 (ix2 p k) (ix2 (i 0) k) hi0 rfl]

/-- What point `t` writes back is block `t` of the layer's whole-array function of the arrays as the region finds them. -/
theorem flushed0 (c : Dev nD) (t : Fin cfg0.N) :
    (Gen.dat0 (F := Ideal) V c).flushed 6 t
      = ((cfg0.win 6).blk t).view.read (Elt Ideal)
          (sageLin128 (V c (Pipeline.arrRef spec0 0)) (V c (Pipeline.arrRef spec0 1)) (V c (Pipeline.arrRef spec0 2))
            (V c (Pipeline.arrRef spec0 3)) (V c (Pipeline.arrRef spec0 4)) (V c (Pipeline.arrRef spec0 5))) := by
  show (cfg0.win 6).cut (grid0.coords t) ((Gen.dat0 V c).after 6 t) = _
  rw [Gen.after0_6]
  unfold Gen.out0_6
  rw [View.canon_unit_zero zeroOffsets0]
  simp only [View.ld_unit_zero (S := S5000x128) zeroOffsets0, View.ld_unit_zero (S := S5000x1) zeroOffsets0,
    View.ld_unit_zero (S := S128x64) zeroOffsets0, View.ld_unit_zero (S := S1x64) zeroOffsets0]
  rw [block0_3 V c t, block0_4 V c t, block0_5 V c t]
  have e := indexMaps0 t
  funext j
  have hj : j = ix2 (j 0) (j 1) := eq_ix2 (n0 := 5000) (n1 := 64) j
  rw [View.read_apply]
  refine (congrArg _ hj).trans ?_
  refine body0_restrict _ _ _ _ _ _ _ _ _ t.val (block0_0 V c t) (block0_1 V c t) (block0_2 V c t) (j 0) (j 1) _ ?_ ?_
  · show win0_6.index t (0 : Fin 2) * 5000 + 1 * (j 0).val = t.val * 5000 + (j 0).val; omega
  · show win0_6.index t (1 : Fin 2) * 64 + 1 * (j 1).val = (j 1).val; omega

/-- Row `r` of the output lies in the block of point `r / 5000`. -/
theorem cover0 (i : S100000x64.Idx) :
    ∃ t : Fin cfg0.N, (cfg0.win 6).flush t = true ∧ i ∈ ((cfg0.win 6).blk t).view.set := by
  have hN : grid0.N = 20 := Gen.N_0
  have hi0 : (i 0).val < 100000 := (i 0).isLt
  have hi1 : (i 1).val < 64 := (i 1).isLt
  have hlt : (i 0).val / 5000 < cfg0.N := by show (i 0).val / 5000 < grid0.N; omega
  have e := indexMaps0 ⟨(i 0).val / 5000, hlt⟩
  have ht : (⟨(i 0).val / 5000, hlt⟩ : Fin cfg0.N).val = (i 0).val / 5000 := rfl
  refine ⟨⟨(i 0).val / 5000, hlt⟩, Gen.flush0_6 _, ?_⟩
  show i ∈ ((View.whole main_v23).slice (win0_6.rect ⟨(i 0).val / 5000, hlt⟩)).set
  rw [View.set_slice_whole, Rect.mem_set_unit]
  intro a
  match a with
  | ⟨0, _⟩ =>
    show win0_6.index ⟨(i 0).val / 5000, hlt⟩ (0 : Fin 2) * 5000 ≤ (i 0).val
      ∧ (i 0).val < win0_6.index ⟨(i 0).val / 5000, hlt⟩ (0 : Fin 2) * 5000 + 5000
    omega
  | ⟨1, _⟩ =>
    show win0_6.index ⟨(i 0).val / 5000, hlt⟩ (1 : Fin 2) * 64 ≤ (i 1).val
      ∧ (i 1).val < win0_6.index ⟨(i 0).val / 5000, hlt⟩ (1 : Fin 2) * 64 + 64
    omega

/-- After the region's run its output array is the layer's whole-array function of the arrays as the region finds them. -/
theorem arr0 (c : Dev nD) :
    (Gen.dat0 (F := Ideal) V c).arrAt 6 cfg0.N
      = sageLin128 (V c (Pipeline.arrRef spec0 0)) (V c (Pipeline.arrRef spec0 1)) (V c (Pipeline.arrRef spec0 2))
          (V c (Pipeline.arrRef spec0 3)) (V c (Pipeline.arrRef spec0 4)) (V c (Pipeline.arrRef spec0 5)) :=
  (Gen.dat0 V c).arrAt_eq_of_cover 6 _ (fun t _ => flushed0 V c t) (fun i => cover0 i)

end Cert.KernelIdeal.Reg

end
-- ==== Proof.Reg1.lean ====
import proofs.«136404_j80470507258311_2_alg».proof.Proof.RegSpec
import proofs.«136404_j80470507258311_2_alg».proof.Proof.BlockOps
import proofs.«136404_j80470507258311_2_alg».proof.Proof.Gen.KernelIdeal.Frame

set_option maxRecDepth 16384

noncomputable section

open scoped BigOperators

namespace Cert.KernelIdeal.Reg

open Idealize.ShloMosaic Idealize.ShloMosaic.TcCoe Idealize.SL.Sem
open Idealize.ShloMosaic.ValueIdx
open Idealize.ShloMosaic.Pipeline (Dat Cfg Window)
open Cert.RegSpec

/-! # Region 1: batch normalisation and rectifier on the lane-packed layout, as one whole-array function -/

variable (V : (c : Dev nD) → (b : Ref sig .tc) → Buf (Elt Ideal) ((c : Thread nD τ).loc b))

theorem zeroOffsets1 : (![0, 0] : Fin 2 → Nat) = fun _ => 0 := funext fun a => by fin_cases a <;> rfl

/-- The reciprocal square root of a vector, at an index. -/
private theorem rsqrt_at {s : Shape} {φ : FTy} (a : FVec Ideal s φ) (i : s.Idx) : rsqrt a i = Ideal.rsqrt (a i) := rfl

/-- The body's result at row `p` and lane `q` of its block, from the five loaded blocks. -/
theorem body1_apply (x0 : Vec Ideal S2000x128 .f32) (x1 x2 x3 x4 : Vec Ideal S1x128 .f32) (p : Fin 2000) (q : Fin 128) :
    Gen.k1_pay1 x4 x0 x3 x1 x2 (ix2 p q)
      = max ((((x0 (ix2 p q) - x3 (ix2 (0 : Fin 1) q))
                * Ideal.rsqrt (x4 (ix2 (0 : Fin 1) q) + Ideal.ofBits .f32 0x3727C5AC#32))
              * x1 (ix2 (0 : Fin 1) q))
            + x2 (ix2 (0 : Fin 1) q))
          (Ideal.ofBits .f32 0x00000000#32) := by
  unfold Gen.k1_pay1
  simp only [shapeCast_self]
  simp only [maximumf_apply, addf_apply, mulf_apply, subf_apply, broadcastTo_1b_ab_apply, broadcast_apply, rsqrt_at]
  rfl

/-- The windows' index maps over the grid: the row-blocked windows' block index is the point's number; the per-lane
    parameter windows stay at block 0. -/
theorem indexMaps1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Window 0's block at point `t` is rows `2000 t … 2000 t + 1999` of its array. -/
theorem block1_0 (c : Dev nD) (t : Fin cfg1.N) (y : S2000x128.Idx) (k : S50000x128.Idx)
    (h0 : (k 0).val = t.val * 2000 + (y 0).val) (h1 : (k 1).val = (y 1).val) :
    (Gen.iblk1 V c 0 t : Vec Ideal S2000x128 .f32) y = (V c (Pipeline.arrRef spec1 0) : S50000x128.Idx → EReal) k := by
  have e := indexMaps1 t
  unfold Gen.iblk1
  rw [View.read_apply]
  show V c (Pipeline.arrRef spec1 0) _ = V c (Pipeline.arrRef spec1 0) _
  congr 1
  funext a
  apply Fin.ext
  match a with
  | ⟨0, _⟩ => show win1_0.index t (0 : Fin 2) * 2000 + 1 * (y 0).val = (k 0).val; omega
  | ⟨1, _⟩ => show win1_0.index t (1 : Fin 2) * 128 + 1 * (y 1).val = (k 1).val; omega

/-- Window 1's block at every point is its whole array. -/
theorem block1_1 (c : Dev nD) (t : Fin cfg1.N) :
    (Gen.iblk1 V c 1 t : Vec Ideal S1x128 .f32) = (V c (Pipeline.arrRef spec1 1) : S1x128.Idx → EReal) := by
  have e := indexMaps1 t
  funext y
  unfold Gen.iblk1
  rw [View.read_apply]
  show V c (Pipeline.arrRef spec1 1) _ = V c (Pipeline.arrRef spec1 1) _
  congr 1
  funext a
  apply Fin.ext
  match a with
  | ⟨0, _⟩ => show win1_1.index t (0 : Fin 2) * 1 + 1 * (y 0).val = (y 0).val; omega
  | ⟨1, _⟩ => show win1_1.index t (1 : Fin 2) * 128 + 1 * (y 1).val = (y 1).val; omega

/-- Window 2's block at every point is its whole array. -/
theorem block1_2 (c : Dev nD) (t : Fin cfg1.N) :
    (Gen.iblk1 V c 2 t : Vec Ideal S1x128 .f32) = (V c (Pipeline.arrRef spec1 2) : S1x128.Idx → EReal) := by
  have e := indexMaps1 t
  funext y
  unfold Gen.iblk1
  rw [View.read_apply]
  show V c (Pipeline.arrRef spec1 2) _ = V c (Pipeline.arrRef spec1 2) _
  congr 1
  funext a
  apply Fin.ext
  match a with
  | ⟨0, _⟩ => show win1_2.index t (0 : Fin 2) * 1 + 1 * (y 0).val = (y 0).val; omega
  | ⟨1, _⟩ => show win1_2.index t (1 : Fin 2) * 128 + 1 * (y 1).val = (y 1).val; omega

/-- Window 3's block at every point is its whole array. -/
theorem block1_3 (c : Dev nD) (t : Fin cfg1.N) :
    (Gen.iblk1 V c 3 t : Vec Ideal S1x128 .f32) = (V c (Pipeline.arrRef spec1 3) : S1x128.Idx → EReal) := by
  have e := indexMaps1 t
  funext y
  unfold Gen.iblk1
  rw [View.read_apply]
  show V c (Pipeline.arrRef spec1 3) _ = V c (Pipeline.arrRef spec1 3) _
  congr 1
  funext a
  apply Fin.ext
  match a with
  | ⟨0, _⟩ => show win1_3.index t (0 : Fin 2) * 1 + 1 * (y 0).val = (y 0).val; omega
  | ⟨1, _⟩ => show win1_3.index t (1 : Fin 2) * 128 + 1 * (y 1).val = (y 1).val; omega

/-- Window 4's block at every point is its whole array. -/
theorem block1_4 (c : Dev nD) (t : Fin cfg1.N) :
    (Gen.iblk1 V c 4 t : Vec Ideal S1x128 .f32) = (V c (Pipeline.arrRef spec1 4) : S1x128.Idx → EReal) := by
  have e := indexMaps1 t
  funext y
  unfold Gen.iblk1
  rw [View.read_apply]
  show V c (Pipeline.arrRef spec1 4) _ = V c (Pipeline.arrRef spec1 4) _
  congr 1
  funext a
  apply Fin.ext
  match a with
  | ⟨0, _⟩ => show win1_4.index t (0 : Fin 2) * 1 + 1 * (y 0).val = (y 0).val; omega
  | ⟨1, _⟩ => show win1_4.index t (1 : Fin 2) * 128 + 1 * (y 1).val = (y 1).val; omega

/-- The body's result on a block that is the restriction of the whole array is the restriction of the whole-array
    function: at row `T · 2000 + p`. -/
theorem body1_restrict (LIN : FVec Ideal S50000x128 .f32) (G BE MU VAR : FVec Ideal S1x128 .f32)
    (x0 : Vec Ideal S2000x128 .f32) (T : Nat)
    (h0 : ∀ (y : S2000x128.Idx) (k : S50000x128.Idx), (k 0).val = T * 2000 + (y 0).val → (k 1).val = (y 1).val → x0 y = LIN k)
    (p : Fin 2000) (q : Fin 128) (i : S50000x128.Idx) (hi0 : (i 0).val = T * 2000 + p.val) (hi1 : (i 1).val = q.val) :
    Gen.k1_pay1 VAR x0 MU G BE (ix2 p q) = bnPacked LIN G BE MU VAR i := by
  have hq : i 1 = q := Fin.ext hi1
  rw [body1_apply]
  unfold bnPacked
  rw [hq, h0 (ix2 p q) (ix2 (i 0) q) hi0 rfl]

/-- The output window's staging buffer after the body at point `t`: the body's result on the row block of point `t` and
    the whole per-lane parameter arrays. -/
theorem written1 (c : Dev nD) (t : Fin cfg1.N) :
    (Gen.dat1 (F := Ideal) V c).after 5 t
      = Gen.k1_pay1 (V c (Pipeline.arrRef spec1 4)) (Gen.iblk1 V c 0 t) (V c (Pipeline.arrRef spec1 3))
          (V c (Pipeline.arrRef spec1 1)) (V c (Pipeline.arrRef spec1 2)) := by
  rw [Gen.after1_5]
  unfold Gen.out1_5
  rw [View.canon_unit_zero zeroOffsets1]
  simp only [View.ld_unit_zero (S := S2000x128) zeroOffsets1, View.ld_unit_zero (S := S1x128) zeroOffsets1]
  rw [block1_1 V c t, block1_2 V c t, block1_3 V c t, block1_4 V c t]

/-- What point `t` writes back is block `t` of the whole-array function of the arrays as the region finds them. -/
theorem flushed1 (c : Dev nD) (t : Fin cfg1.N) :
    (Gen.dat1 (F := Ideal) V c).flushed 5 t
      = ((cfg1.win 5).blk t).view.read (Elt Ideal)
          (bnPacked (V c (Pipeline.arrRef spec1 0)) (V c (Pipeline.arrRef spec1 1)) (V c (Pipeline.arrRef spec1 2))
            (V c (Pipeline.arrRef spec1 3)) (V c (Pipeline.arrRef spec1 4))) := by
  show (cfg1.win 5).cut (grid1.coords t) ((Gen.dat1 V c).after 5 t) = _
  rw [written1]
  have e := indexMaps1 t
  funext j
  have hj : j = ix2 (j 0) (j 1) := eq_ix2 (n0 := 2000) (n1 := 128) j
  refine Eq.trans ?_ (View.read_apply _ _).symm
  refine (congrArg _ hj).trans ?_
  refine body1_restrict _ _ _ _ _ _ t.val (block1_0 V c t) (j 0) (j 1) _ ?_ ?_
  · show win1_5.index t (0 : Fin 2) * 2000 + 1 * (j 0).val = t.val * 2000 + (j 0).val; omega
  · show win1_5.index t (1 : Fin 2) * 128 + 1 * (j 1).val = (j 1).val; omega

/-- Row `r` of the output lies in the block of point `r / 2000`. -/
theorem cover1 (i : S50000x128.Idx) :
    ∃ t : Fin cfg1.N, (cfg1.win 5).flush t = true ∧ i ∈ ((cfg1.win 5).blk t).view.set := by
  have hN : grid1.N = 25 := Gen.N_1
  have hi0 : (i 0).val < 50000 := (i 0).isLt
  have hi1 : (i 1).val < 128 := (i 1).isLt
  have hlt : (i 0).val / 2000 < cfg1.N := by show (i 0).val / 2000 < grid1.N; omega
  have e := indexMaps1 ⟨(i 0).val / 2000, hlt⟩
  have ht : (⟨(i 0).val / 2000, hlt⟩ : Fin cfg1.N).val = (i 0).val / 2000 := rfl
  refine ⟨⟨(i 0).val / 2000, hlt⟩, Gen.flush1_5 _, ?_⟩
  show i ∈ ((View.whole main_v47).slice (win1_5.rect ⟨(i 0).val / 2000, hlt⟩)).set
  rw [View.set_slice_whole, Rect.mem_set_unit]
  intro a
  match a with
  | ⟨0, _⟩ =>
    show win1_5.index ⟨(i 0).val / 2000, hlt⟩ (0 : Fin 2) * 2000 ≤ (i 0).val
      ∧ (i 0).val < win1_5.index ⟨(i 0).val / 2000, hlt⟩ (0 : Fin 2) * 2000 + 2000
    omega
  | ⟨1, _⟩ =>
    show win1_5.index ⟨(i 0).val / 2000, hlt⟩ (1 : Fin 2) * 128 ≤ (i 1).val
      ∧ (i 1).val < win1_5.index ⟨(i 0).val / 2000, hlt⟩ (1 : Fin 2) * 128 + 128
    omega

/-- After the region's run its output array is the whole-array function of the arrays as the region finds them. -/
theorem arr1 (c : Dev nD) :
    (Gen.dat1 (F := Ideal) V c).arrAt 5 cfg1.N
      = bnPacked (V c (Pipeline.arrRef spec1 0)) (V c (Pipeline.arrRef spec1 1)) (V c (Pipeline.arrRef spec1 2))
          (V c (Pipeline.arrRef spec1 3)) (V c (Pipeline.arrRef spec1 4)) :=
  (Gen.dat1 V c).arrAt_eq_of_cover 5 _ (fun t _ => flushed1 V c t) (fun i => cover1 i)

end Cert.KernelIdeal.Reg

end
-- ==== Proof.KerL1.lean ====
import proofs.«136404_j80470507258311_2_alg».proof.Proof.KerBase
import proofs.«136404_j80470507258311_2_alg».proof.Proof.Reg0
import proofs.«136404_j80470507258311_2_alg».proof.Proof.Reg1

set_option maxRecDepth 16384

noncomputable section

namespace Cert.KernelIdeal.KerRun

open Idealize.ShloMosaic Idealize.ShloMosaic.TcCoe Idealize.SL.Sem
open Idealize.ShloMosaic.StableHlo
open Cert.Spec (Arr)

attribute [local irreducible] Host.gather Host.scatterAdd Host.reduceAdd Host.divf maximumf select cmpf cmpi addi subf mulf sitofp broadcastInDim constant constantI extractStridedSlice shapeCast Host.rsqrt

/-! ## The clip, the reciprocal and the clamped variance as functions of their inputs -/

section Stages
open Cert.KernelIdeal.Facts₀
variable {F : FTy → Type} [FloatOps F]

/-- The maximum of a constant (spread over the nodes) and a per-node vector. -/
def clipOf (one : Arr F S_ .f32) (cn : Arr F S100000 .f32) : Arr F S100000 .f32 :=
  maximumf (broadcastInDim S100000 ![] bcast_S_S100000 (id one)) cn

/-- The reciprocals of a per-node vector, as a column. -/
def invOf (cl : Arr F S100000 .f32) : Arr F S100000x1 .f32 :=
  shapeCast S100000x1 (Host.divf (broadcastInDim S100000 ![] bcast_S_S100000 (constant S_ .f32 0x3F800000#32)) cl)
    shapeCasts_S100000_S100000x1

/-- A per-feature vector clamped below at zero. -/
def clampOf (vr : Arr F S64 .f32) : Arr F S64 .f32 :=
  maximumf vr (broadcastInDim S64 ![] bcast_S_S64 (constant S_ .f32 0x00000000#32))

/-- The constant one and the integer zero, as scalars. -/
def oneS : Arr F S_ .f32 := constant S_ .f32 0x3F800000#32
def zeroI : Arr F S_ .i32 := constantI S_ 32 0#32

theorem cntClip_eq (ei : Arr Ideal S2x1200000 .i32) :
    Cert.Spec.cntClip ei = clipOf oneS (Cert.Spec.cnt ei) := rfl
theorem invCnt_eq (ei : Arr Ideal S2x1200000 .i32) : Cert.Spec.invCnt ei = invOf (Cert.Spec.cntClip ei) := rfl
theorem varK_eq (l : Arr Ideal S100000x64 .f32) : Cert.Spec.varK l = clampOf (Cert.Spec.varF l) := rfl

end Stages

variable (V : Valuation τ sig (Elt Ideal))

/-! ## The host stretches before region 0, each at any contents `V` of the buffers it starts from -/

set_option maxHeartbeats 4000000 in
theorem A0_v1 :
    (after Gen.hostOps0 V (Proc.devRef .tc main_v1) : Arr Ideal S1200000 .i32) = Cert.Spec.edgeRow0 (V (Proc.devRef .tc main_arg1)) := by
  after_results <;> rfl
set_option maxHeartbeats 4000000 in
theorem A0_v3 :
    (after Gen.hostOps0 V (Proc.devRef .tc main_v3) : Arr Ideal S1200000 .i32) = Cert.Spec.edgeRow1 (V (Proc.devRef .tc main_arg1)) := by
  after_results <;> rfl
set_option maxHeartbeats 4000000 in
theorem A0_v13 :
    (after Gen.hostOps0 V (Proc.devRef .tc main_v13) : Arr Ideal S100000x128 .f32) = Cert.Spec.agg128 (V (Proc.devRef .tc main_arg0)) (V (Proc.devRef .tc main_arg1)) := by
  after_results <;> rfl
set_option maxHeartbeats 4000000 in
theorem A0_v17 :
    (after Gen.hostOps0 V (Proc.devRef .tc main_v17) : Arr Ideal S100000 .f32) = Cert.Spec.cnt (V (Proc.devRef .tc main_arg1)) := by
  after_results <;> rfl
set_option maxHeartbeats 4000000 in
theorem A0_cst3 :
    (after Gen.hostOps0 V (Proc.devRef .tc main_cst_3) : Arr Ideal S_ .f32) = oneS := by
  after_results <;> rfl
set_option maxHeartbeats 4000000 in
theorem B0_k13 : after Gen.hostOps0_1 V (Proc.devRef .tc main_v13) = (V (Proc.devRef .tc main_v13)) := by
  after_results
set_option maxHeartbeats 4000000 in
theorem B0_v18 :
    (after Gen.hostOps0_1 V (Proc.devRef .tc main_v18) : Arr Ideal S100000 .f32) = clipOf (V (Proc.devRef .tc main_cst_3)) (V (Proc.devRef .tc main_v17)) := by
  after_results
  unfold clipOf
  rfl
set_option maxHeartbeats 4000000 in
theorem C0_k13 : after Gen.hostOps0_2 V (Proc.devRef .tc main_v13) = (V (Proc.devRef .tc main_v13)) := by
  after_results
set_option maxHeartbeats 4000000 in
theorem C0_v21 :
    (after Gen.hostOps0_2 V (Proc.devRef .tc main_v21) : Arr Ideal S100000x1 .f32) = invOf (V (Proc.devRef .tc main_v18)) := by
  after_results
  unfold invOf
  rfl

/-! ## The host stretches between region 0 and region 1 -/

set_option maxHeartbeats 4000000 in
theorem D0_v26 :
    (after Gen.hostOps1 V (Proc.devRef .tc main_v26) : Arr Ideal S64 .f32) = Cert.Spec.meanF (V (Proc.devRef .tc main_v23)) := by
  after_results
  unfold Cert.Spec.meanF Cert.Spec.colSum
  rfl
set_option maxHeartbeats 4000000 in
theorem D0_c7 :
    (after Gen.hostOps1 V (Proc.devRef .tc main_c_7) : Arr Ideal S_ .i32) = zeroI := by
  after_results <;> rfl
set_option maxHeartbeats 4000000 in
theorem D0_k23 : after Gen.hostOps1 V (Proc.devRef .tc main_v23) = (V (Proc.devRef .tc main_v23)) := by
  after_results
set_option maxHeartbeats 4000000 in
theorem E0_v27 (hc : (V (Proc.devRef .tc main_c_7)) = (zeroI : Arr Ideal S_ .i32)) :
    (after Gen.hostOps1_1 V (Proc.devRef .tc main_v27) : Arr Ideal S64 .f32) = Cert.Spec.varF (V (Proc.devRef .tc main_v23)) := by
  after_results
  rw [hc]
  unfold zeroI Cert.Spec.varF Cert.Spec.varDen Cert.Spec.dev Cert.Spec.colSum
  rfl
set_option maxHeartbeats 4000000 in
theorem E0_k23 : after Gen.hostOps1_1 V (Proc.devRef .tc main_v23) = (V (Proc.devRef .tc main_v23)) := by
  after_results
set_option maxHeartbeats 4000000 in
theorem E0_k26 : after Gen.hostOps1_1 V (Proc.devRef .tc main_v26) = (V (Proc.devRef .tc main_v26)) := by
  after_results
set_option maxHeartbeats 4000000 in
theorem F0_v30 :
    (after Gen.hostOps1_2 V (Proc.devRef .tc main_v30) : Arr Ideal S50000x128 .f32) = Cert.Spec.pack (V (Proc.devRef .tc main_v23)) := by
  after_results
  unfold Cert.Spec.pack
  rfl
set_option maxHeartbeats 4000000 in
theorem F0_v34 :
    (after Gen.hostOps1_2 V (Proc.devRef .tc main_v34) : Arr Ideal S1x128 .f32) = Cert.Spec.tile2 (V (Proc.devRef .tc main_arg6)) := by
  after_results
  unfold Cert.Spec.tile2 Cert.Spec.row64
  rfl
set_option maxHeartbeats 4000000 in
theorem F0_v38 :
    (after Gen.hostOps1_2 V (Proc.devRef .tc main_v38) : Arr Ideal S1x128 .f32) = Cert.Spec.tile2 (V (Proc.devRef .tc main_arg7)) := by
  after_results
  unfold Cert.Spec.tile2 Cert.Spec.row64
  rfl
set_option maxHeartbeats 4000000 in
theorem F0_v42 :
    (after Gen.hostOps1_2 V (Proc.devRef .tc main_v42) : Arr Ideal S1x128 .f32) = Cert.Spec.tile2 (V (Proc.devRef .tc main_v26)) := by
  after_results
  unfold Cert.Spec.tile2 Cert.Spec.row64
  rfl
set_option maxHeartbeats 4000000 in
theorem F0_v46 :
    (after Gen.hostOps1_2 V (Proc.devRef .tc main_v46) : Arr Ideal S1x128 .f32) = Cert.Spec.tile2 (clampOf (V (Proc.devRef .tc main_v27))) := by
  after_results
  unfold Cert.Spec.tile2 Cert.Spec.row64 clampOf
  rfl

/-! ## The run down to region 1's exit -/

section Run

variable (m : (ℓ : Loc nD τ sig) → Buf (Elt Ideal) ℓ) (ρ : Dev nD → PrngReg) (c : Dev nD)

/-- The six arrays region 0 is entered with. -/
theorem e3_0 :
    (Gen.W3 m ρ c (Proc.devRef .tc main_v13) : Arr Ideal S100000x128 .f32) = Cert.Spec.agg128 (KerHost.argsOf m c).x (KerHost.argsOf m c).ei :=
  (C0_k13 (Gen.W2 m ρ c)).trans ((B0_k13 (Gen.W1 m ρ c)).trans (A0_v13 (Gen.W0 m ρ c)))
theorem w1_v17 :
    (Gen.W1 m ρ c (Proc.devRef .tc main_v17) : Arr Ideal S100000 .f32) = Cert.Spec.cnt (KerHost.argsOf m c).ei :=
  A0_v17 (Gen.W0 m ρ c)
theorem w1_cst3 :
    (Gen.W1 m ρ c (Proc.devRef .tc main_cst_3) : Arr Ideal S_ .f32) = oneS :=
  A0_cst3 (Gen.W0 m ρ c)
theorem w2_v18 :
    (Gen.W2 m ρ c (Proc.devRef .tc main_v18) : Arr Ideal S100000 .f32) = Cert.Spec.cntClip (KerHost.argsOf m c).ei := by
  refine (B0_v18 (Gen.W1 m ρ c)).trans ?_
  rw [w1_v17 m ρ c, w1_cst3 m ρ c, cntClip_eq]
theorem e3_1 :
    (Gen.W3 m ρ c (Proc.devRef .tc main_v21) : Arr Ideal S100000x1 .f32) = Cert.Spec.invCnt (KerHost.argsOf m c).ei := by
  refine (C0_v21 (Gen.W2 m ρ c)).trans ?_
  rw [w2_v18 m ρ c, invCnt_eq]
set_option maxHeartbeats 2000000 in
theorem e3_2 :
    (Gen.W3 m ρ c (Proc.devRef .tc main_arg0) : Arr Ideal S100000x128 .f32) = (KerHost.argsOf m c).x := by
  read_down <;> rfl
set_option maxHeartbeats 2000000 in
theorem e3_3 :
    (Gen.W3 m ρ c (Proc.devRef .tc main_arg3) : Arr Ideal S128x64 .f32) = (KerHost.argsOf m c).W1l := by
  read_down <;> rfl
set_option maxHeartbeats 2000000 in
theorem e3_4 :
    (Gen.W3 m ρ c (Proc.devRef .tc main_v22) : Arr Ideal S1x64 .f32) = Cert.Spec.row64 (KerHost.argsOf m c).b1 := by
  read_down <;> rfl
set_option maxHeartbeats 2000000 in
theorem e3_5 :
    (Gen.W3 m ρ c (Proc.devRef .tc main_arg5) : Arr Ideal S128x64 .f32) = (KerHost.argsOf m c).W1r := by
  read_down <;> rfl

/-- Region 0 leaves the first layer's linear part in its output array. -/
theorem r4 :
    (Gen.W4 m ρ c (Proc.devRef .tc main_v23) : Arr Ideal S100000x64 .f32) = Cert.Spec.lin1K (KerHost.argsOf m c) := by
  refine ((Gen.W4_arr m ρ c 6).trans (Reg.arr0 (Gen.V3 m ρ) c)).trans ?_
  unfold Cert.Spec.lin1K
  rw [show Gen.V3 m ρ c (Pipeline.arrRef spec0 0) = _ from e3_0 m ρ c, show Gen.V3 m ρ c (Pipeline.arrRef spec0 1) = _ from e3_1 m ρ c,
    show Gen.V3 m ρ c (Pipeline.arrRef spec0 2) = _ from e3_2 m ρ c, show Gen.V3 m ρ c (Pipeline.arrRef spec0 3) = _ from e3_3 m ρ c,
    show Gen.V3 m ρ c (Pipeline.arrRef spec0 4) = _ from e3_4 m ρ c, show Gen.V3 m ρ c (Pipeline.arrRef spec0 5) = _ from e3_5 m ρ c]

/-- The five arrays region 1 is entered with. -/
theorem w5_v23 :
    (Gen.W5 m ρ c (Proc.devRef .tc main_v23) : Arr Ideal S100000x64 .f32) = Cert.Spec.lin1K (KerHost.argsOf m c) :=
  (D0_k23 (Gen.W4 m ρ c)).trans (r4 m ρ c)
theorem w5_v26 :
    (Gen.W5 m ρ c (Proc.devRef .tc main_v26) : Arr Ideal S64 .f32) = Cert.Spec.meanF (Cert.Spec.lin1K (KerHost.argsOf m c)) :=
  (D0_v26 (Gen.W4 m ρ c)).trans (congrArg Cert.Spec.meanF (r4 m ρ c))
theorem w5_c7 :
    (Gen.W5 m ρ c (Proc.devRef .tc main_c_7) : Arr Ideal S_ .i32) = zeroI :=
  D0_c7 (Gen.W4 m ρ c)
theorem w6_v23 :
    (Gen.W6 m ρ c (Proc.devRef .tc main_v23) : Arr Ideal S100000x64 .f32) = Cert.Spec.lin1K (KerHost.argsOf m c) :=
  (E0_k23 (Gen.W5 m ρ c)).trans (w5_v23 m ρ c)
theorem w6_v26 :
    (Gen.W6 m ρ c (Proc.devRef .tc main_v26) : Arr Ideal S64 .f32) = Cert.Spec.meanF (Cert.Spec.lin1K (KerHost.argsOf m c)) :=
  (E0_k26 (Gen.W5 m ρ c)).trans (w5_v26 m ρ c)
theorem w6_v27 :
    (Gen.W6 m ρ c (Proc.devRef .tc main_v27) : Arr Ideal S64 .f32) = Cert.Spec.varF (Cert.Spec.lin1K (KerHost.argsOf m c)) :=
  (E0_v27 (Gen.W5 m ρ c) (w5_c7 m ρ c)).trans (congrArg Cert.Spec.varF (w5_v23 m ρ c))
set_option maxHeartbeats 2000000 in
theorem w6_arg6 :
    (Gen.W6 m ρ c (Proc.devRef .tc main_arg6) : Arr Ideal S64 .f32) = (KerHost.argsOf m c).g1 := by
  read_down <;> rfl
set_option maxHeartbeats 2000000 in
theorem w6_arg7 :
    (Gen.W6 m ρ c (Proc.devRef .tc main_arg7) : Arr Ideal S64 .f32) = (KerHost.argsOf m c).be1 := by
  read_down <;> rfl
theorem e7_0 :
    (Gen.W7 m ρ c (Proc.devRef .tc main_v30) : Arr Ideal S50000x128 .f32) = Cert.Spec.pack (Cert.Spec.lin1K (KerHost.argsOf m c)) :=
  (F0_v30 (Gen.W6 m ρ c)).trans (congrArg Cert.Spec.pack (w6_v23 m ρ c))
theorem e7_1 :
    (Gen.W7 m ρ c (Proc.devRef .tc main_v34) : Arr Ideal S1x128 .f32) = Cert.Spec.tile2 (KerHost.argsOf m c).g1 :=
  (F0_v34 (Gen.W6 m ρ c)).trans (congrArg Cert.Spec.tile2 (w6_arg6 m ρ c))
theorem e7_2 :
    (Gen.W7 m ρ c (Proc.devRef .tc main_v38) : Arr Ideal S1x128 .f32) = Cert.Spec.tile2 (KerHost.argsOf m c).be1 :=
  (F0_v38 (Gen.W6 m ρ c)).trans (congrArg Cert.Spec.tile2 (w6_arg7 m ρ c))
theorem e7_3 :
    (Gen.W7 m ρ c (Proc.devRef .tc main_v42) : Arr Ideal S1x128 .f32) = Cert.Spec.tile2 (Cert.Spec.meanF (Cert.Spec.lin1K (KerHost.argsOf m c))) :=
  (F0_v42 (Gen.W6 m ρ c)).trans (congrArg Cert.Spec.tile2 (w6_v26 m ρ c))
theorem e7_4 :
    (Gen.W7 m ρ c (Proc.devRef .tc main_v46) : Arr Ideal S1x128 .f32) = Cert.Spec.tile2 (Cert.Spec.varK (Cert.Spec.lin1K (KerHost.argsOf m c))) := by
  refine (F0_v46 (Gen.W6 m ρ c)).trans ?_
  rw [w6_v27 m ρ c, varK_eq]

/-- Region 1 leaves the normalised, rectified first layer in its output array, on the packed layout. -/
theorem r8 :
    (Gen.W8 m ρ c (Proc.devRef .tc main_v47) : Arr Ideal S50000x128 .f32)
      = Cert.RegSpec.bnPacked (Cert.Spec.pack (Cert.Spec.lin1K (KerHost.argsOf m c))) (Cert.Spec.tile2 (KerHost.argsOf m c).g1) (Cert.Spec.tile2 (KerHost.argsOf m c).be1)
          (Cert.Spec.tile2 (Cert.Spec.meanF (Cert.Spec.lin1K (KerHost.argsOf m c)))) (Cert.Spec.tile2 (Cert.Spec.varK (Cert.Spec.lin1K (KerHost.argsOf m c)))) := by
  refine ((Gen.W8_arr m ρ c 5).trans (Reg.arr1 (Gen.V7 m ρ) c)).trans ?_
  rw [show Gen.V7 m ρ c (Pipeline.arrRef spec1 0) = _ from e7_0 m ρ c, show Gen.V7 m ρ c (Pipeline.arrRef spec1 1) = _ from e7_1 m ρ c,
    show Gen.V7 m ρ c (Pipeline.arrRef spec1 2) = _ from e7_2 m ρ c, show Gen.V7 m ρ c (Pipeline.arrRef spec1 3) = _ from e7_3 m ρ c,
    show Gen.V7 m ρ c (Pipeline.arrRef spec1 4) = _ from e7_4 m ρ c]

/-- The first layer: region 1's output array, unpacked, is the layer's result. -/
theorem layer1 :
    Cert.Spec.unpack (Gen.W8 m ρ c (Proc.devRef .tc main_v47) : Arr Ideal S50000x128 .f32) = Cert.Spec.h1K (KerHost.argsOf m c) := by
  rw [r8 m ρ c]
  rfl

-- The edge sources and destinations, computed before region 0, are in place at region 1's exit.
set_option maxHeartbeats 2000000 in
theorem v1_8 :
    (Gen.W8 m ρ c (Proc.devRef .tc main_v1) : Arr Ideal S1200000 .i32) = Cert.Spec.edgeRow0 (KerHost.argsOf m c).ei := by
  read_down <;> rfl
set_option maxHeartbeats 2000000 in
theorem v3_8 :
    (Gen.W8 m ρ c (Proc.devRef .tc main_v3) : Arr Ideal S1200000 .i32) = Cert.Spec.edgeRow1 (KerHost.argsOf m c).ei := by
  read_down <;> rfl

end Run

end Cert.KernelIdeal.KerRun
end
-- ==== Proof.Reg2.lean ====
import proofs.«136404_j80470507258311_2_alg».proof.Proof.RegSpec
import proofs.«136404_j80470507258311_2_alg».proof.Proof.BlockOps
import proofs.«136404_j80470507258311_2_alg».proof.Proof.Gen.KernelIdeal.Frame

set_option maxRecDepth 16384

noncomputable section

open scoped BigOperators

namespace Cert.KernelIdeal.Reg

open Idealize.ShloMosaic Idealize.ShloMosaic.TcCoe Idealize.SL.Sem
open Idealize.ShloMosaic.ValueIdx
open Idealize.ShloMosaic.Pipeline (Dat Cfg Window)
open Cert.RegSpec

/-! # Region 2: the SAGE linear layer on 64 input features, as one whole-array function -/

variable (V : (c : Dev nD) → (b : Ref sig .tc) → Buf (Elt Ideal) ((c : Thread nD τ).loc b))

theorem zeroOffsets2 : (![0, 0] : Fin 2 → Nat) = fun _ => 0 := funext fun a => by fin_cases a <;> rfl

/-- The body's result at row `p` and column `q` of its block, from the six loaded blocks. -/
theorem body2_apply (x0 : Vec Ideal S5000x64 .f32) (x1 : Vec Ideal S5000x1 .f32) (x2 : Vec Ideal S5000x64 .f32)
    (x3 : Vec Ideal S64x64 .f32) (x4 : Vec Ideal S1x64 .f32) (x5 : Vec Ideal S64x64 .f32) (p : Fin 5000) (q : Fin 64) :
    Gen.k2_pay1 x0 x1 x2 x3 x5 x4 (ix2 p q)
      = ((∑ k : Fin 64, (x0 (ix2 p k) * x1 (ix2 p (0 : Fin 1))) * x3 (ix2 k q)) + x4 (ix2 (0 : Fin 1) q))
        + ∑ k : Fin 64, x2 (ix2 p k) * x5 (ix2 k q) := by
  unfold Gen.k2_pay1
  simp only [shapeCast_self]
  rw [addf_apply, addf_apply, matmul_64x64, matmul_64x64, broadcastTo_1b_ab_apply]
  simp only [truncf_apply, mulf_apply, broadcastTo_a1_ab_apply]

/-- The windows' index maps over the grid: the row-blocked windows' block index is the point's number; the weight and
    bias windows stay at block 0. -/
theorem indexMaps2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Window 0's block at point `t` is rows `5000 t … 5000 t + 4999` of its array. -/
theorem block2_0 (c : Dev nD) (t : Fin cfg2.N) (y : S5000x64.Idx) (k : S100000x64.Idx)
    (h0 : (k 0).val = t.val * 5000 + (y 0).val) (h1 : (k 1).val = (y 1).val) :
    (Gen.iblk2 V c 0 t : Vec Ideal S5000x64 .f32) y = (V c (Pipeline.arrRef spec2 0) : S100000x64.Idx → EReal) k := by
  have e := indexMaps2 t
  unfold Gen.iblk2
  rw [View.read_apply]
  show V c (Pipeline.arrRef spec2 0) _ = V c (Pipeline.arrRef spec2 0) _
  congr 1
  funext a
  apply Fin.ext
  match a with
  | ⟨0, _⟩ => show win2_0.index t (0 : Fin 2) * 5000 + 1 * (y 0).val = (k 0).val; omega
  | ⟨1, _⟩ => show win2_0.index t (1 : Fin 2) * 64 + 1 * (y 1).val = (k 1).val; omega

/-- Window 1's block at point `t` is rows `5000 t … 5000 t + 4999` of its array. -/
theorem block2_1 (c : Dev nD) (t : Fin cfg2.N) (y : S5000x1.Idx) (k : S100000x1.Idx)
    (h0 : (k 0).val = t.val * 5000 + (y 0).val) (h1 : (k 1).val = (y 1).val) :
    (Gen.iblk2 V c 1 t : Vec Ideal S5000x1 .f32) y = (V c (Pipeline.arrRef spec2 1) : S100000x1.Idx → EReal) k := by
  have e := indexMaps2 t
  unfold Gen.iblk2
  rw [View.read_apply]
  show V c (Pipeline.arrRef spec2 1) _ = V c (Pipeline.arrRef spec2 1) _
  congr 1
  funext a
  apply Fin.ext
  match a with
  | ⟨0, _⟩ => show win2_1.index t (0 : Fin 2) * 5000 + 1 * (y 0).val = (k 0).val; omega
  | ⟨1, _⟩ => show win2_1.index t (1 : Fin 2) * 1 + 1 * (y 1).val = (k 1).val; omega

/-- Window 2's block at point `t` is rows `5000 t … 5000 t + 4999` of its array. -/
theorem block2_2 (c : Dev nD) (t : Fin cfg2.N) (y : S5000x64.Idx) (k : S100000x64.Idx)
    (h0 : (k 0).val = t.val * 5000 + (y 0).val) (h1 : (k 1).val = (y 1).val) :
    (Gen.iblk2 V c 2 t : Vec Ideal S5000x64 .f32) y = (V c (Pipeline.arrRef spec2 2) : S100000x64.Idx → EReal) k := by
  have e := indexMaps2 t
  unfold Gen.iblk2
  rw [View.read_apply]
  show V c (Pipeline.arrRef spec2 2) _ = V c (Pipeline.arrRef spec2 2) _
  congr 1
  funext a
  apply Fin.ext
  match a with
  | ⟨0, _⟩ => show win2_2.index t (0 : Fin 2) * 5000 + 1 * (y 0).val = (k 0).val; omega
  | ⟨1, _⟩ => show win2_2.index t (1 : Fin 2) * 64 + 1 * (y 1).val = (k 1).val; omega

/-- Window 3's block at every point is its whole array. -/
theorem block2_3 (c : Dev nD) (t : Fin cfg2.N) :
    (Gen.iblk2 V c 3 t : Vec Ideal S64x64 .f32) = (V c (Pipeline.arrRef spec2 3) : S64x64.Idx → EReal) := by
  have e := indexMaps2 t
  funext y
  unfold Gen.iblk2
  rw [View.read_apply]
  show V c (Pipeline.arrRef spec2 3) _ = V c (Pipeline.arrRef spec2 3) _
  congr 1
  funext a
  apply Fin.ext
  match a with
  | ⟨0, _⟩ => show win2_3.index t (0 : Fin 2) * 64 + 1 * (y 0).val = (y 0).val; omega
  | ⟨1, _⟩ => show win2_3.index t (1 : Fin 2) * 64 + 1 * (y 1).val = (y 1).val; omega

/-- Window 4's block at every point is its whole array. -/
theorem block2_4 (c : Dev nD) (t : Fin cfg2.N) :
    (Gen.iblk2 V c 4 t : Vec Ideal S1x64 .f32) = (V c (Pipeline.arrRef spec2 4) : S1x64.Idx → EReal) := by
  have e := indexMaps2 t
  funext y
  unfold Gen.iblk2
  rw [View.read_apply]
  show V c (Pipeline.arrRef spec2 4) _ = V c (Pipeline.arrRef spec2 4) _
  congr 1
  funext a
  apply Fin.ext
  match a with
  | ⟨0, _⟩ => show win2_4.index t (0 : Fin 2) * 1 + 1 * (y 0).val = (y 0).val; omega
  | ⟨1, _⟩ => show win2_4.index t (1 : Fin 2) * 64 + 1 * (y 1).val = (y 1).val; omega

/-- Window 5's block at every point is its whole array. -/
theorem block2_5 (c : Dev nD) (t : Fin cfg2.N) :
    (Gen.iblk2 V c 5 t : Vec Ideal S64x64 .f32) = (V c (Pipeline.arrRef spec2 5) : S64x64.Idx → EReal) := by
  have e := indexMaps2 t
  funext y
  unfold Gen.iblk2
  rw [View.read_apply]
  show V c (Pipeline.arrRef spec2 5) _ = V c (Pipeline.arrRef spec2 5) _
  congr 1
  funext a
  apply Fin.ext
  match a with
  | ⟨0, _⟩ => show win2_5.index t (0 : Fin 2) * 64 + 1 * (y 0).val = (y 0).val; omega
  | ⟨1, _⟩ => show win2_5.index t (1 : Fin 2) * 64 + 1 * (y 1).val = (y 1).val; omega

/-- The body's result on blocks that are the restrictions of whole arrays is the restriction of the layer's
    whole-array function: at row `T · 5000 + p`. -/
theorem body2_restrict (A : FVec Ideal S100000x64 .f32) (IC : FVec Ideal S100000x1 .f32) (X : FVec Ideal S100000x64 .f32)
    (WL : FVec Ideal S64x64 .f32) (B : FVec Ideal S1x64 .f32) (WR : FVec Ideal S64x64 .f32)
    (x0 : Vec Ideal S5000x64 .f32) (x1 : Vec Ideal S5000x1 .f32) (x2 : Vec Ideal S5000x64 .f32) (T : Nat)
    (h0 : ∀ (y : S5000x64.Idx) (k : S100000x64.Idx), (k 0).val = T * 5000 + (y 0).val → (k 1).val = (y 1).val → x0 y = A k)
    (h1 : ∀ (y : S5000x1.Idx) (k : S100000x1.Idx), (k 0).val = T * 5000 + (y 0).val → (k 1).val = (y 1).val → x1 y = IC k)
    (h2 : ∀ (y : S5000x64.Idx) (k : S100000x64.Idx), (k 0).val = T * 5000 + (y 0).val → (k 1).val = (y 1).val → x2 y = X k)
    (p : Fin 5000) (q : Fin 64) (i : S100000x64.Idx) (hi0 : (i 0).val = T * 5000 + p.val) (hi1 : (i 1).val = q.val) :
    Gen.k2_pay1 x0 x1 x2 WL WR B (ix2 p q) = sageLin64 A IC X WL B WR i := by
  have hq : i 1 = q := Fin.ext hi1
  rw [body2_apply]
  unfold sageLin64
  rw [hq]
  refine congrArg₂ (· + ·) (congrArg₂ (· + ·) (Finset.sum_congr rfl fun k _ => ?_) rfl) (Finset.sum_congr rfl fun k _ => ?_)
  · rw [h0 (ix2 p k) (ix2 (i 0) k) hi0 rfl, h1 (ix2 p (0 : Fin 1)) (ix2 (i 0) (0 : Fin 1)) hi0 rfl]
  · rw [h2 (ix2 p k) (ix2 (i 0) k) hi0 rfl]

/-- What point `t` writes back is block `t` of the layer's whole-array function of the arrays as the region finds them. -/
theorem flushed2 (c : Dev nD) (t : Fin cfg2.N) :
    (Gen.dat2 (F := Ideal) V c).flushed 6 t
      = ((cfg2.win 6).blk t).view.read (Elt Ideal)
          (sageLin64 (V c (Pipeline.arrRef spec2 0)) (V c (Pipeline.arrRef spec2 1)) (V c (Pipeline.arrRef spec2 2))
            (V c (Pipeline.arrRef spec2 3)) (V c (Pipeline.arrRef spec2 4)) (V c (Pipeline.arrRef spec2 5))) := by
  show (cfg2.win 6).cut (grid2.coords t) ((Gen.dat2 V c).after 6 t) = _
  rw [Gen.after2_6]
  unfold Gen.out2_6
  rw [View.canon_unit_zero zeroOffsets2]
  simp only [View.ld_unit_zero (S := S5000x64) zeroOffsets2, View.ld_unit_zero (S := S5000x1) zeroOffsets2, View.ld_unit_zero (S := S64x64) zeroOffsets2, View.ld_unit_zero (S := S1x64) zeroOffsets2]
  rw [block2_3 V c t, block2_4 V c t, block2_5 V c t]
  have e := indexMaps2 t
  funext j
  have hj : j = ix2 (j 0) (j 1) := eq_ix2 (n0 := 5000) (n1 := 64) j
  rw [View.read_apply]
  refine (congrArg _ hj).trans ?_
  refine body2_restrict _ _ _ _ _ _ _ _ _ t.val (block2_0 V c t) (block2_1 V c t) (block2_2 V c t) (j 0) (j 1) _ ?_ ?_
  · show win2_6.index t (0 : Fin 2) * 5000 + 1 * (j 0).val = t.val * 5000 + (j 0).val; omega
  · show win2_6.index t (1 : Fin 2) * 64 + 1 * (j 1).val = (j 1).val; omega

/-- Row `r` of the output lies in the block of point `r / 5000`. -/
theorem cover2 (i : S100000x64.Idx) :
    ∃ t : Fin cfg2.N, (cfg2.win 6).flush t = true ∧ i ∈ ((cfg2.win 6).blk t).view.set := by
  have hN : grid2.N = 20 := Gen.N_2
  have hi0 : (i 0).val < 100000 := (i 0).isLt
  have hi1 : (i 1).val < 64 := (i 1).isLt
  have hlt : (i 0).val / 5000 < cfg2.N := by show (i 0).val / 5000 < grid2.N; omega
  have e := indexMaps2 ⟨(i 0).val / 5000, hlt⟩
  have ht : (⟨(i 0).val / 5000, hlt⟩ : Fin cfg2.N).val = (i 0).val / 5000 := rfl
  refine ⟨⟨(i 0).val / 5000, hlt⟩, Gen.flush2_6 _, ?_⟩
  show i ∈ ((View.whole main_v68).slice (win2_6.rect ⟨(i 0).val / 5000, hlt⟩)).set
  rw [View.set_slice_whole, Rect.mem_set_unit]
  intro a
  match a with
  | ⟨0, _⟩ =>
    show win2_6.index ⟨(i 0).val / 5000, hlt⟩ (0 : Fin 2) * 5000 ≤ (i 0).val
      ∧ (i 0).val < win2_6.index ⟨(i 0).val / 5000, hlt⟩ (0 : Fin 2) * 5000 + 5000
    omega
  | ⟨1, _⟩ =>
    show win2_6.index ⟨(i 0).val / 5000, hlt⟩ (1 : Fin 2) * 64 ≤ (i 1).val
      ∧ (i 1).val < win2_6.index ⟨(i 0).val / 5000, hlt⟩ (1 : Fin 2) * 64 + 64
    omega

/-- After the region's run its output array is the layer's whole-array function of the arrays as the region finds them. -/
theorem arr2 (c : Dev nD) :
    (Gen.dat2 (F := Ideal) V c).arrAt 6 cfg2.N
      = sageLin64 (V c (Pipeline.arrRef spec2 0)) (V c (Pipeline.arrRef spec2 1)) (V c (Pipeline.arrRef spec2 2))
          (V c (Pipeline.arrRef spec2 3)) (V c (Pipeline.arrRef spec2 4)) (V c (Pipeline.arrRef spec2 5)) :=
  (Gen.dat2 V c).arrAt_eq_of_cover 6 _ (fun t _ => flushed2 V c t) (fun i => cover2 i)

end Cert.KernelIdeal.Reg

end
-- ==== Proof.Reg3.lean ====
import proofs.«136404_j80470507258311_2_alg».proof.Proof.RegSpec
import proofs.«136404_j80470507258311_2_alg».proof.Proof.BlockOps
import proofs.«136404_j80470507258311_2_alg».proof.Proof.Gen.KernelIdeal.Frame

set_option maxRecDepth 16384

noncomputable section

open scoped BigOperators

namespace Cert.KernelIdeal.Reg

open Idealize.ShloMosaic Idealize.ShloMosaic.TcCoe Idealize.SL.Sem
open Idealize.ShloMosaic.ValueIdx
open Idealize.ShloMosaic.Pipeline (Dat Cfg Window)
open Cert.RegSpec

/-! # Region 3: batch normalisation and rectifier on the lane-packed layout, as one whole-array function -/

variable (V : (c : Dev nD) → (b : Ref sig .tc) → Buf (Elt Ideal) ((c : Thread nD τ).loc b))

theorem zeroOffsets3 : (![0, 0] : Fin 2 → Nat) = fun _ => 0 := funext fun a => by fin_cases a <;> rfl

/-- The reciprocal square root of a vector, at an index. -/
private theorem rsqrt_at {s : Shape} {φ : FTy} (a : FVec Ideal s φ) (i : s.Idx) : rsqrt a i = Ideal.rsqrt (a i) := rfl

/-- The body's result at row `p` and lane `q` of its block, from the five loaded blocks. -/
theorem body3_apply (x0 : Vec Ideal S2000x128 .f32) (x1 x2 x3 x4 : Vec Ideal S1x128 .f32) (p : Fin 2000) (q : Fin 128) :
    Gen.k3_pay1 x4 x0 x3 x1 x2 (ix2 p q)
      = max ((((x0 (ix2 p q) - x3 (ix2 (0 : Fin 1) q))
                * Ideal.rsqrt (x4 (ix2 (0 : Fin 1) q) + Ideal.ofBits .f32 0x3727C5AC#32))
              * x1 (ix2 (0 : Fin 1) q))
            + x2 (ix2 (0 : Fin 1) q))
          (Ideal.ofBits .f32 0x00000000#32) := by
  unfold Gen.k3_pay1
  simp only [shapeCast_self]
  simp only [maximumf_apply, addf_apply, mulf_apply, subf_apply, broadcastTo_1b_ab_apply, broadcast_apply, rsqrt_at]
  rfl

/-- The windows' index maps over the grid: the row-blocked windows' block index is the point's number; the per-lane
    parameter windows stay at block 0. -/
theorem indexMaps3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Window 0's block at point `t` is rows `2000 t … 2000 t + 1999` of its array. -/
theorem block3_0 (c : Dev nD) (t : Fin cfg3.N) (y : S2000x128.Idx) (k : S50000x128.Idx)
    (h0 : (k 0).val = t.val * 2000 + (y 0).val) (h1 : (k 1).val = (y 1).val) :
    (Gen.iblk3 V c 0 t : Vec Ideal S2000x128 .f32) y = (V c (Pipeline.arrRef spec3 0) : S50000x128.Idx → EReal) k := by
  have e := indexMaps3 t
  unfold Gen.iblk3
  rw [View.read_apply]
  show V c (Pipeline.arrRef spec3 0) _ = V c (Pipeline.arrRef spec3 0) _
  congr 1
  funext a
  apply Fin.ext
  match a with
  | ⟨0, _⟩ => show win3_0.index t (0 : Fin 2) * 2000 + 1 * (y 0).val = (k 0).val; omega
  | ⟨1, _⟩ => show win3_0.index t (1 : Fin 2) * 128 + 1 * (y 1).val = (k 1).val; omega

/-- Window 1's block at every point is its whole array. -/
theorem block3_1 (c : Dev nD) (t : Fin cfg3.N) :
    (Gen.iblk3 V c 1 t : Vec Ideal S1x128 .f32) = (V c (Pipeline.arrRef spec3 1) : S1x128.Idx → EReal) := by
  have e := indexMaps3 t
  funext y
  unfold Gen.iblk3
  rw [View.read_apply]
  show V c (Pipeline.arrRef spec3 1) _ = V c (Pipeline.arrRef spec3 1) _
  congr 1
  funext a
  apply Fin.ext
  match a with
  | ⟨0, _⟩ => show win3_1.index t (0 : Fin 2) * 1 + 1 * (y 0).val = (y 0).val; omega
  | ⟨1, _⟩ => show win3_1.index t (1 : Fin 2) * 128 + 1 * (y 1).val = (y 1).val; omega

/-- Window 2's block at every point is its whole array. -/
theorem block3_2 (c : Dev nD) (t : Fin cfg3.N) :
    (Gen.iblk3 V c 2 t : Vec Ideal S1x128 .f32) = (V c (Pipeline.arrRef spec3 2) : S1x128.Idx → EReal) := by
  have e := indexMaps3 t
  funext y
  unfold Gen.iblk3
  rw [View.read_apply]
  show V c (Pipeline.arrRef spec3 2) _ = V c (Pipeline.arrRef spec3 2) _
  congr 1
  funext a
  apply Fin.ext
  match a with
  | ⟨0, _⟩ => show win3_2.index t (0 : Fin 2) * 1 + 1 * (y 0).val = (y 0).val; omega
  | ⟨1, _⟩ => show win3_2.index t (1 : Fin 2) * 128 + 1 * (y 1).val = (y 1).val; omega

/-- Window 3's block at every point is its whole array. -/
theorem block3_3 (c : Dev nD) (t : Fin cfg3.N) :
    (Gen.iblk3 V c 3 t : Vec Ideal S1x128 .f32) = (V c (Pipeline.arrRef spec3 3) : S1x128.Idx → EReal) := by
  have e := indexMaps3 t
  funext y
  unfold Gen.iblk3
  rw [View.read_apply]
  show V c (Pipeline.arrRef spec3 3) _ = V c (Pipeline.arrRef spec3 3) _
  congr 1
  funext a
  apply Fin.ext
  match a with
  | ⟨0, _⟩ => show win3_3.index t (0 : Fin 2) * 1 + 1 * (y 0).val = (y 0).val; omega
  | ⟨1, _⟩ => show win3_3.index t (1 : Fin 2) * 128 + 1 * (y 1).val = (y 1).val; omega

/-- Window 4's block at every point is its whole array. -/
theorem block3_4 (c : Dev nD) (t : Fin cfg3.N) :
    (Gen.iblk3 V c 4 t : Vec Ideal S1x128 .f32) = (V c (Pipeline.arrRef spec3 4) : S1x128.Idx → EReal) := by
  have e := indexMaps3 t
  funext y
  unfold Gen.iblk3
  rw [View.read_apply]
  show V c (Pipeline.arrRef spec3 4) _ = V c (Pipeline.arrRef spec3 4) _
  congr 1
  funext a
  apply Fin.ext
  match a with
  | ⟨0, _⟩ => show win3_4.index t (0 : Fin 2) * 1 + 1 * (y 0).val = (y 0).val; omega
  | ⟨1, _⟩ => show win3_4.index t (1 : Fin 2) * 128 + 1 * (y 1).val = (y 1).val; omega

/-- The body's result on a block that is the restriction of the whole array is the restriction of the whole-array
    function: at row `T · 2000 + p`. -/
theorem body3_restrict (LIN : FVec Ideal S50000x128 .f32) (G BE MU VAR : FVec Ideal S1x128 .f32)
    (x0 : Vec Ideal S2000x128 .f32) (T : Nat)
    (h0 : ∀ (y : S2000x128.Idx) (k : S50000x128.Idx), (k 0).val = T * 2000 + (y 0).val → (k 1).val = (y 1).val → x0 y = LIN k)
    (p : Fin 2000) (q : Fin 128) (i : S50000x128.Idx) (hi0 : (i 0).val = T * 2000 + p.val) (hi1 : (i 1).val = q.val) :
    Gen.k3_pay1 VAR x0 MU G BE (ix2 p q) = bnPacked LIN G BE MU VAR i := by
  have hq : i 1 = q := Fin.ext hi1
  rw [body3_apply]
  unfold bnPacked
  rw [hq, h0 (ix2 p q) (ix2 (i 0) q) hi0 rfl]

/-- The output window's staging buffer after the body at point `t`: the body's result on the row block of point `t` and
    the whole per-lane parameter arrays. -/
theorem written3 (c : Dev nD) (t : Fin cfg3.N) :
    (Gen.dat3 (F := Ideal) V c).after 5 t
      = Gen.k3_pay1 (V c (Pipeline.arrRef spec3 4)) (Gen.iblk3 V c 0 t) (V c (Pipeline.arrRef spec3 3))
          (V c (Pipeline.arrRef spec3 1)) (V c (Pipeline.arrRef spec3 2)) := by
  rw [Gen.after3_5]
  unfold Gen.out3_5
  rw [View.canon_unit_zero zeroOffsets3]
  simp only [View.ld_unit_zero (S := S2000x128) zeroOffsets3, View.ld_unit_zero (S := S1x128) zeroOffsets3]
  rw [block3_1 V c t, block3_2 V c t, block3_3 V c t, block3_4 V c t]

/-- What point `t` writes back is block `t` of the whole-array function of the arrays as the region finds them. -/
theorem flushed3 (c : Dev nD) (t : Fin cfg3.N) :
    (Gen.dat3 (F := Ideal) V c).flushed 5 t
      = ((cfg3.win 5).blk t).view.read (Elt Ideal)
          (bnPacked (V c (Pipeline.arrRef spec3 0)) (V c (Pipeline.arrRef spec3 1)) (V c (Pipeline.arrRef spec3 2))
            (V c (Pipeline.arrRef spec3 3)) (V c (Pipeline.arrRef spec3 4))) := by
  show (cfg3.win 5).cut (grid3.coords t) ((Gen.dat3 V c).after 5 t) = _
  rw [written3]
  have e := indexMaps3 t
  funext j
  have hj : j = ix2 (j 0) (j 1) := eq_ix2 (n0 := 2000) (n1 := 128) j
  refine Eq.trans ?_ (View.read_apply _ _).symm
  refine (congrArg _ hj).trans ?_
  refine body3_restrict _ _ _ _ _ _ t.val (block3_0 V c t) (j 0) (j 1) _ ?_ ?_
  · show win3_5.index t (0 : Fin 2) * 2000 + 1 * (j 0).val = t.val * 2000 + (j 0).val; omega
  · show win3_5.index t (1 : Fin 2) * 128 + 1 * (j 1).val = (j 1).val; omega

/-- Row `r` of the output lies in the block of point `r / 2000`. -/
theorem cover3 (i : S50000x128.Idx) :
    ∃ t : Fin cfg3.N, (cfg3.win 5).flush t = true ∧ i ∈ ((cfg3.win 5).blk t).view.set := by
  have hN : grid3.N = 25 := Gen.N_3
  have hi0 : (i 0).val < 50000 := (i 0).isLt
  have hi1 : (i 1).val < 128 := (i 1).isLt
  have hlt : (i 0).val / 2000 < cfg3.N := by show (i 0).val / 2000 < grid3.N; omega
  have e := indexMaps3 ⟨(i 0).val / 2000, hlt⟩
  have ht : (⟨(i 0).val / 2000, hlt⟩ : Fin cfg3.N).val = (i 0).val / 2000 := rfl
  refine ⟨⟨(i 0).val / 2000, hlt⟩, Gen.flush3_5 _, ?_⟩
  show i ∈ ((View.whole main_v92).slice (win3_5.rect ⟨(i 0).val / 2000, hlt⟩)).set
  rw [View.set_slice_whole, Rect.mem_set_unit]
  intro a
  match a with
  | ⟨0, _⟩ =>
    show win3_5.index ⟨(i 0).val / 2000, hlt⟩ (0 : Fin 2) * 2000 ≤ (i 0).val
      ∧ (i 0).val < win3_5.index ⟨(i 0).val / 2000, hlt⟩ (0 : Fin 2) * 2000 + 2000
    omega
  | ⟨1, _⟩ =>
    show win3_5.index ⟨(i 0).val / 2000, hlt⟩ (1 : Fin 2) * 128 ≤ (i 1).val
      ∧ (i 1).val < win3_5.index ⟨(i 0).val / 2000, hlt⟩ (1 : Fin 2) * 128 + 128
    omega

/-- After the region's run its output array is the whole-array function of the arrays as the region finds them. -/
theorem arr3 (c : Dev nD) :
    (Gen.dat3 (F := Ideal) V c).arrAt 5 cfg3.N
      = bnPacked (V c (Pipeline.arrRef spec3 0)) (V c (Pipeline.arrRef spec3 1)) (V c (Pipeline.arrRef spec3 2))
          (V c (Pipeline.arrRef spec3 3)) (V c (Pipeline.arrRef spec3 4)) :=
  (Gen.dat3 V c).arrAt_eq_of_cover 5 _ (fun t _ => flushed3 V c t) (fun i => cover3 i)

end Cert.KernelIdeal.Reg

end
-- ==== Proof.KerL2a.lean ====
import proofs.«136404_j80470507258311_2_alg».proof.Proof.KerBase

set_option maxRecDepth 16384

noncomputable section

namespace Cert.KernelIdeal.KerL2

open Idealize.ShloMosaic Idealize.ShloMosaic.TcCoe Idealize.SL.Sem
open Idealize.ShloMosaic.StableHlo
open Cert.Spec (Arr)

attribute [local irreducible] Host.gather Host.scatterAdd Host.reduceAdd Host.divf maximumf select cmpf cmpi addi subf mulf sitofp broadcastInDim constant constantI extractStridedSlice shapeCast Host.rsqrt

variable (V : Valuation τ sig (Elt Ideal))

/-! # The host operations between regions 1 and 2, at any buffer contents -/

/-- The packed output of the first normalisation, unpacked. -/
theorem s2_v48 :
    (after Gen.hostOps2 V (Proc.devRef .tc main_v48) : Arr Ideal S100000x64 .f32) = Cert.Spec.unpack (V (Proc.devRef .tc main_v47)) := by
  after_results
  rfl

set_option maxHeartbeats 2000000 in
/-- The neighbour sums of the unpacked features. -/
theorem s2_v58 (ei : Arr Ideal S2x1200000 .i32) (h1 : V (Proc.devRef .tc main_v1) = Cert.Spec.edgeRow0 ei)
    (h3 : V (Proc.devRef .tc main_v3) = Cert.Spec.edgeRow1 ei) :
    (after Gen.hostOps2 V (Proc.devRef .tc main_v58) : Arr Ideal S100000x64 .f32)
      = Cert.Spec.agg64 (Cert.Spec.unpack (V (Proc.devRef .tc main_v47))) ei := by
  after_results
  rw [h1, h3]
  unfold Cert.Spec.agg64 Cert.Spec.dstIdx Cert.Spec.srcIdx Cert.Spec.unpack
  rfl

set_option maxHeartbeats 2000000 in
/-- The in-degrees. -/
theorem s2_v62 (ei : Arr Ideal S2x1200000 .i32) (h3 : V (Proc.devRef .tc main_v3) = Cert.Spec.edgeRow1 ei) :
    (after Gen.hostOps2 V (Proc.devRef .tc main_v62) : Arr Ideal S100000 .f32) = Cert.Spec.cnt ei := by
  after_results
  rw [h3]
  unfold Cert.Spec.cnt Cert.Spec.dstIdx
  rfl

set_option maxHeartbeats 2000000 in
/-- The constant one the clamp reads. -/
theorem s2_cst14 :
    (after Gen.hostOps2 V (Proc.devRef .tc main_cst_14) : Arr Ideal S_ .f32) = (constant (F := Ideal) S_ .f32 0x3F800000#32 : Arr Ideal S_ .f32) := by
  after_results

set_option maxHeartbeats 1000000 in
/-- The clamp: the maximum of the constant and the in-degrees. -/
theorem s21_v63 :
    (after Gen.hostOps2_1 V (Proc.devRef .tc main_v63) : Arr Ideal S100000 .f32)
      = (maximumf (F := Ideal) (s := S100000) (φ := .f32) (broadcastInDim S100000 ![] Facts₀.bcast_S_S100000 (id (V (Proc.devRef .tc main_cst_14) : Arr Ideal S_ .f32)))
          (V (Proc.devRef .tc main_v62) : Arr Ideal S100000 .f32) : Arr Ideal S100000 .f32) := by
  after_results
  rfl

set_option maxHeartbeats 1000000 in
/-- The reciprocal of the clamped in-degrees, as a column. -/
theorem s22_v66 :
    (after Gen.hostOps2_2 V (Proc.devRef .tc main_v66) : Arr Ideal S100000x1 .f32)
      = (shapeCast S100000x1 (Host.divf (F := Ideal) (broadcastInDim S100000 ![] Facts₀.bcast_S_S100000 (constant (F := Ideal) S_ .f32 0x3F800000#32))
          (V (Proc.devRef .tc main_v63) : Arr Ideal S100000 .f32)) Facts₀.shapeCasts_S100000_S100000x1 : Arr Ideal S100000x1 .f32) := by
  after_results
  rfl

set_option maxHeartbeats 1000000 in
/-- The second layer's bias as a row. -/
theorem s22_v67 :
    (after Gen.hostOps2_2 V (Proc.devRef .tc main_v67) : Arr Ideal S1x64 .f32) = Cert.Spec.row64 (V (Proc.devRef .tc main_arg9)) := by
  after_results
  rfl

end Cert.KernelIdeal.KerL2
end
-- ==== Proof.KerL2b.lean ====
import proofs.«136404_j80470507258311_2_alg».proof.Proof.KerBase

set_option maxRecDepth 16384

noncomputable section

namespace Cert.KernelIdeal.KerL2

open Idealize.ShloMosaic Idealize.ShloMosaic.TcCoe Idealize.SL.Sem
open Idealize.ShloMosaic.StableHlo
open Cert.Spec (Arr)

attribute [local irreducible] Host.gather Host.scatterAdd Host.reduceAdd Host.divf maximumf select cmpf cmpi addi subf mulf sitofp broadcastInDim constant constantI extractStridedSlice shapeCast Host.rsqrt

variable (V : Valuation τ sig (Elt Ideal))

/-! # The host operations between regions 2 and 3, at any buffer contents -/

set_option maxHeartbeats 1000000 in
/-- The column means of the second layer's linear part. -/
theorem s3_v71 :
    (after Gen.hostOps3 V (Proc.devRef .tc main_v71) : Arr Ideal S64 .f32) = Cert.Spec.meanF (V (Proc.devRef .tc main_v68)) := by
  after_results
  unfold Cert.Spec.meanF Cert.Spec.colSum
  rfl

set_option maxHeartbeats 1000000 in
/-- The degrees-of-freedom correction the variance is called with: zero. -/
theorem s3_c18 :
    (after Gen.hostOps3 V (Proc.devRef .tc main_c_18) : Arr Ideal S_ .i32) = (constantI S_ 32 0#32 : Arr Ideal S_ .i32) := by
  after_results

set_option maxHeartbeats 2000000 in
/-- The column variances. -/
theorem s31_v72 (hc : V (Proc.devRef .tc main_c_18) = (constantI S_ 32 0#32 : Arr Ideal S_ .i32)) :
    (after Gen.hostOps3_1 V (Proc.devRef .tc main_v72) : Arr Ideal S64 .f32) = Cert.Spec.varF (V (Proc.devRef .tc main_v68)) := by
  after_results
  rw [hc]
  unfold Cert.Spec.varF Cert.Spec.varDen Cert.Spec.dev Cert.Spec.colSum
  rfl

set_option maxHeartbeats 2000000 in
/-- The linear part on the packed layout. -/
theorem s32_v75 :
    (after Gen.hostOps3_2 V (Proc.devRef .tc main_v75) : Arr Ideal S50000x128 .f32) = Cert.Spec.pack (V (Proc.devRef .tc main_v68)) := by
  after_results
  rfl

set_option maxHeartbeats 2000000 in
/-- The scale, repeated over the two halves of a packed row. -/
theorem s32_v79 :
    (after Gen.hostOps3_2 V (Proc.devRef .tc main_v79) : Arr Ideal S1x128 .f32) = Cert.Spec.tile2 (V (Proc.devRef .tc main_arg11)) := by
  after_results
  rfl

set_option maxHeartbeats 2000000 in
/-- The shift, repeated. -/
theorem s32_v83 :
    (after Gen.hostOps3_2 V (Proc.devRef .tc main_v83) : Arr Ideal S1x128 .f32) = Cert.Spec.tile2 (V (Proc.devRef .tc main_arg12)) := by
  after_results
  rfl

set_option maxHeartbeats 2000000 in
/-- The means, repeated. -/
theorem s32_v87 :
    (after Gen.hostOps3_2 V (Proc.devRef .tc main_v87) : Arr Ideal S1x128 .f32) = Cert.Spec.tile2 (V (Proc.devRef .tc main_v71)) := by
  after_results
  rfl

set_option maxHeartbeats 2000000 in
/-- The variances clamped below at zero, repeated. -/
theorem s32_v91 :
    (after Gen.hostOps3_2 V (Proc.devRef .tc main_v91) : Arr Ideal S1x128 .f32)
      = Cert.Spec.tile2 (maximumf (F := Ideal) (s := S64) (φ := .f32) (V (Proc.devRef .tc main_v72) : Arr Ideal S64 .f32) (broadcastInDim S64 ![] Facts₀.bcast_S_S64 (constant (F := Ideal) S_ .f32 0x00000000#32))) := by
  after_results
  rfl

end Cert.KernelIdeal.KerL2
end
-- ==== Proof.KerL2.lean ====
import proofs.«136404_j80470507258311_2_alg».proof.Proof.KerBase
import proofs.«136404_j80470507258311_2_alg».proof.Proof.Reg2
import proofs.«136404_j80470507258311_2_alg».proof.Proof.Reg3
import proofs.«136404_j80470507258311_2_alg».proof.Proof.KerL2a
import proofs.«136404_j80470507258311_2_alg».proof.Proof.KerL2b

set_option maxRecDepth 16384

noncomputable section

namespace Cert.KernelIdeal.KerRun

open Idealize.ShloMosaic Idealize.ShloMosaic.TcCoe Idealize.SL.Sem
open Idealize.ShloMosaic.StableHlo
open Cert.Spec (Arr)
open Cert.KernelIdeal.KerHost Cert.KernelIdeal.KerL2

variable (m : (ℓ : Loc nD τ sig) → Buf (Elt Ideal) ℓ) (ρ : Dev nD → PrngReg) (c : Dev nD)

/-! # The second layer: from region 1's exit to region 3's exit -/

/-! ## The edge rows and the arguments at region 1's exit -/

set_option maxHeartbeats 4000000 in
theorem l2_v1 : (Gen.W8 m ρ c (Proc.devRef .tc main_v1) : Arr Ideal S1200000 .i32) = Cert.Spec.edgeRow0 (argsOf m c).ei := by
  read_down <;> rfl

set_option maxHeartbeats 4000000 in
theorem l2_v3 : (Gen.W8 m ρ c (Proc.devRef .tc main_v3) : Arr Ideal S1200000 .i32) = Cert.Spec.edgeRow1 (argsOf m c).ei := by
  read_down <;> rfl

/-! ## Region 2's input arrays at its entry -/

set_option maxHeartbeats 4000000 in
theorem l2_v48 : (Gen.W11 m ρ c (Proc.devRef .tc main_v48) : Arr Ideal S100000x64 .f32) = Cert.Spec.unpack (Gen.W8 m ρ c (Proc.devRef .tc main_v47)) := by
  have p : Gen.W11 m ρ c (Proc.devRef .tc main_v48) = Gen.W9 m ρ c (Proc.devRef .tc main_v48) := by
    dsimp only [Gen.W11, Gen.W10]; after_results
  exact p.trans (s2_v48 (Gen.W8 m ρ c))

set_option maxHeartbeats 4000000 in
theorem l2_v58 : (Gen.W11 m ρ c (Proc.devRef .tc main_v58) : Arr Ideal S100000x64 .f32)
    = Cert.Spec.agg64 (Cert.Spec.unpack (Gen.W8 m ρ c (Proc.devRef .tc main_v47))) (argsOf m c).ei := by
  have p : Gen.W11 m ρ c (Proc.devRef .tc main_v58) = Gen.W9 m ρ c (Proc.devRef .tc main_v58) := by
    dsimp only [Gen.W11, Gen.W10]; after_results
  exact p.trans (s2_v58 (Gen.W8 m ρ c) (argsOf m c).ei (l2_v1 m ρ c) (l2_v3 m ρ c))

set_option maxHeartbeats 4000000 in
theorem l2_v66 : (Gen.W11 m ρ c (Proc.devRef .tc main_v66) : Arr Ideal S100000x1 .f32) = Cert.Spec.invCnt (argsOf m c).ei := by
  have e : (Gen.W11 m ρ c (Proc.devRef .tc main_v66) : Arr Ideal S100000x1 .f32) = _ := s22_v66 (Gen.W10 m ρ c)
  have p63 : (Gen.W10 m ρ c (Proc.devRef .tc main_v63) : Arr Ideal S100000 .f32) = _ := s21_v63 (Gen.W9 m ρ c)
  have p14 : (Gen.W9 m ρ c (Proc.devRef .tc main_cst_14) : Arr Ideal S_ .f32) = _ := s2_cst14 (Gen.W8 m ρ c)
  have p62 : (Gen.W9 m ρ c (Proc.devRef .tc main_v62) : Arr Ideal S100000 .f32) = _ := s2_v62 (Gen.W8 m ρ c) (argsOf m c).ei (l2_v3 m ρ c)
  rw [e, p63, p14, p62]
  unfold Cert.Spec.invCnt Cert.Spec.cntClip
  rfl

set_option maxHeartbeats 4000000 in
theorem l2_v67 : (Gen.W11 m ρ c (Proc.devRef .tc main_v67) : Arr Ideal S1x64 .f32) = Cert.Spec.row64 (argsOf m c).b2 := by
  have e : (Gen.W11 m ρ c (Proc.devRef .tc main_v67) : Arr Ideal S1x64 .f32) = _ := s22_v67 (Gen.W10 m ρ c)
  have p : Gen.W10 m ρ c (Proc.devRef .tc main_arg9) = m ((c : Thread nD τ).loc main_arg9) := by read_down
  rw [e, p]
  rfl

set_option maxHeartbeats 4000000 in
theorem l2_arg8 : Gen.W11 m ρ c (Proc.devRef .tc main_arg8) = m ((c : Thread nD τ).loc main_arg8) := by read_down

set_option maxHeartbeats 4000000 in
theorem l2_arg10 : Gen.W11 m ρ c (Proc.devRef .tc main_arg10) = m ((c : Thread nD τ).loc main_arg10) := by read_down

/-! ## Region 2's output at its exit -/

set_option maxHeartbeats 4000000 in
/-- The second layer's linear part. -/
theorem l2_v68 (H : Arr Ideal S100000x64 .f32) (hH : Cert.Spec.unpack (Gen.W8 m ρ c (Proc.devRef .tc main_v47)) = H) :
    (Gen.W12 m ρ c (Proc.devRef .tc main_v68) : Arr Ideal S100000x64 .f32) = (Cert.RegSpec.sageLin64 (Cert.Spec.agg64 H (argsOf m c).ei) (Cert.Spec.invCnt (argsOf m c).ei) H (argsOf m c).W2l (Cert.Spec.row64 (argsOf m c).b2) (argsOf m c).W2r) := by
  have h := (Gen.W12_arr m ρ c 6).trans (Cert.KernelIdeal.Reg.arr2 (Gen.V11 m ρ) c)
  refine h.trans ?_
  rw [show (Gen.V11 m ρ c (Pipeline.arrRef spec2 0) : Arr Ideal S100000x64 .f32) = _ from l2_v58 m ρ c,
    show (Gen.V11 m ρ c (Pipeline.arrRef spec2 1) : Arr Ideal S100000x1 .f32) = _ from l2_v66 m ρ c,
    show (Gen.V11 m ρ c (Pipeline.arrRef spec2 2) : Arr Ideal S100000x64 .f32) = _ from l2_v48 m ρ c,
    show (Gen.V11 m ρ c (Pipeline.arrRef spec2 3) : Arr Ideal S64x64 .f32) = _ from l2_arg8 m ρ c,
    show (Gen.V11 m ρ c (Pipeline.arrRef spec2 4) : Arr Ideal S1x64 .f32) = _ from l2_v67 m ρ c,
    show (Gen.V11 m ρ c (Pipeline.arrRef spec2 5) : Arr Ideal S64x64 .f32) = _ from l2_arg10 m ρ c, hH]
  rfl

/-! ## Region 3's input arrays at its entry -/

set_option maxHeartbeats 4000000 in
theorem l2_p68 : Gen.W15 m ρ c (Proc.devRef .tc main_v68) = Gen.W12 m ρ c (Proc.devRef .tc main_v68) := by
  dsimp only [Gen.W15, Gen.W14, Gen.W13]; after_results

set_option maxHeartbeats 4000000 in
theorem l2_v75 : (Gen.W15 m ρ c (Proc.devRef .tc main_v75) : Arr Ideal S50000x128 .f32) = Cert.Spec.pack (Gen.W12 m ρ c (Proc.devRef .tc main_v68)) := by
  have e : (Gen.W15 m ρ c (Proc.devRef .tc main_v75) : Arr Ideal S50000x128 .f32) = _ := s32_v75 (Gen.W14 m ρ c)
  have p : Gen.W14 m ρ c (Proc.devRef .tc main_v68) = Gen.W12 m ρ c (Proc.devRef .tc main_v68) := by
    dsimp only [Gen.W14, Gen.W13]; after_results
  rw [e, p]

set_option maxHeartbeats 4000000 in
theorem l2_v79 : (Gen.W15 m ρ c (Proc.devRef .tc main_v79) : Arr Ideal S1x128 .f32) = Cert.Spec.tile2 (argsOf m c).g2 := by
  have e : (Gen.W15 m ρ c (Proc.devRef .tc main_v79) : Arr Ideal S1x128 .f32) = _ := s32_v79 (Gen.W14 m ρ c)
  have p : Gen.W14 m ρ c (Proc.devRef .tc main_arg11) = m ((c : Thread nD τ).loc main_arg11) := by read_down
  rw [e, p]
  rfl

set_option maxHeartbeats 4000000 in
theorem l2_v83 : (Gen.W15 m ρ c (Proc.devRef .tc main_v83) : Arr Ideal S1x128 .f32) = Cert.Spec.tile2 (argsOf m c).be2 := by
  have e : (Gen.W15 m ρ c (Proc.devRef .tc main_v83) : Arr Ideal S1x128 .f32) = _ := s32_v83 (Gen.W14 m ρ c)
  have p : Gen.W14 m ρ c (Proc.devRef .tc main_arg12) = m ((c : Thread nD τ).loc main_arg12) := by read_down
  rw [e, p]
  rfl

set_option maxHeartbeats 4000000 in
theorem l2_v87 : (Gen.W15 m ρ c (Proc.devRef .tc main_v87) : Arr Ideal S1x128 .f32) = Cert.Spec.tile2 (Cert.Spec.meanF (Gen.W12 m ρ c (Proc.devRef .tc main_v68))) := by
  have e : (Gen.W15 m ρ c (Proc.devRef .tc main_v87) : Arr Ideal S1x128 .f32) = _ := s32_v87 (Gen.W14 m ρ c)
  have p : Gen.W14 m ρ c (Proc.devRef .tc main_v71) = Gen.W13 m ρ c (Proc.devRef .tc main_v71) := by
    dsimp only [Gen.W14]; after_results
  have q : (Gen.W13 m ρ c (Proc.devRef .tc main_v71) : Arr Ideal S64 .f32) = _ := s3_v71 (Gen.W12 m ρ c)
  rw [e, p, q]

set_option maxHeartbeats 4000000 in
theorem l2_v91 : (Gen.W15 m ρ c (Proc.devRef .tc main_v91) : Arr Ideal S1x128 .f32) = Cert.Spec.tile2 (Cert.Spec.varK (Gen.W12 m ρ c (Proc.devRef .tc main_v68))) := by
  have e : (Gen.W15 m ρ c (Proc.devRef .tc main_v91) : Arr Ideal S1x128 .f32) = _ := s32_v91 (Gen.W14 m ρ c)
  have hc : (Gen.W13 m ρ c (Proc.devRef .tc main_c_18) : Arr Ideal S_ .i32) = _ := s3_c18 (Gen.W12 m ρ c)
  have q : (Gen.W14 m ρ c (Proc.devRef .tc main_v72) : Arr Ideal S64 .f32) = _ := s31_v72 (Gen.W13 m ρ c) hc
  have p : Gen.W13 m ρ c (Proc.devRef .tc main_v68) = Gen.W12 m ρ c (Proc.devRef .tc main_v68) := by
    dsimp only [Gen.W13]; after_results
  rw [e, q, p]
  rfl

/-! ## The layer -/

set_option maxHeartbeats 4000000 in
/-- Region 3's output, unpacked, is the normalised and rectified second layer of the region-1 output `H`. -/
theorem layer2 (H : Arr Ideal S100000x64 .f32) (hH : Cert.Spec.unpack (Gen.W8 m ρ c (Proc.devRef .tc main_v47)) = H) :
    Cert.Spec.unpack (Gen.W16 m ρ c (Proc.devRef .tc main_v92) : Arr Ideal S50000x128 .f32)
      = Cert.Spec.bnK (Cert.RegSpec.sageLin64 (Cert.Spec.agg64 H (argsOf m c).ei) (Cert.Spec.invCnt (argsOf m c).ei) H (argsOf m c).W2l (Cert.Spec.row64 (argsOf m c).b2) (argsOf m c).W2r) (argsOf m c).g2 (argsOf m c).be2 := by
  have h := (Gen.W16_arr m ρ c 5).trans (Cert.KernelIdeal.Reg.arr3 (Gen.V15 m ρ) c)
  refine (congrArg Cert.Spec.unpack h).trans ?_
  rw [show (Gen.V15 m ρ c (Pipeline.arrRef spec3 0) : Arr Ideal S50000x128 .f32) = _ from l2_v75 m ρ c,
    show (Gen.V15 m ρ c (Pipeline.arrRef spec3 1) : Arr Ideal S1x128 .f32) = _ from l2_v79 m ρ c,
    show (Gen.V15 m ρ c (Pipeline.arrRef spec3 2) : Arr Ideal S1x128 .f32) = _ from l2_v83 m ρ c,
    show (Gen.V15 m ρ c (Pipeline.arrRef spec3 3) : Arr Ideal S1x128 .f32) = _ from l2_v87 m ρ c,
    show (Gen.V15 m ρ c (Pipeline.arrRef spec3 4) : Arr Ideal S1x128 .f32) = _ from l2_v91 m ρ c,
    l2_v68 m ρ c H hH]
  rfl

end Cert.KernelIdeal.KerRun
end
-- ==== Proof.Reg4.lean ====
import proofs.«136404_j80470507258311_2_alg».proof.Proof.RegSpec
import proofs.«136404_j80470507258311_2_alg».proof.Proof.BlockOps
import proofs.«136404_j80470507258311_2_alg».proof.Proof.Gen.KernelIdeal.Frame

set_option maxRecDepth 16384

noncomputable section

open scoped BigOperators

namespace Cert.KernelIdeal.Reg

open Idealize.ShloMosaic Idealize.ShloMosaic.TcCoe Idealize.SL.Sem
open Idealize.ShloMosaic.ValueIdx
open Idealize.ShloMosaic.Pipeline (Dat Cfg Window)
open Cert.RegSpec

/-! # Region 4: the SAGE linear layer on 64 input features, as one whole-array function -/

variable (V : (c : Dev nD) → (b : Ref sig .tc) → Buf (Elt Ideal) ((c : Thread nD τ).loc b))

theorem zeroOffsets4 : (![0, 0] : Fin 2 → Nat) = fun _ => 0 := funext fun a => by fin_cases a <;> rfl

/-- The body's result at row `p` and column `q` of its block, from the six loaded blocks. -/
theorem body4_apply (x0 : Vec Ideal S5000x64 .f32) (x1 : Vec Ideal S5000x1 .f32) (x2 : Vec Ideal S5000x64 .f32)
    (x3 : Vec Ideal S64x64 .f32) (x4 : Vec Ideal S1x64 .f32) (x5 : Vec Ideal S64x64 .f32) (p : Fin 5000) (q : Fin 64) :
    Gen.k4_pay1 x0 x1 x2 x3 x5 x4 (ix2 p q)
      = ((∑ k : Fin 64, (x0 (ix2 p k) * x1 (ix2 p (0 : Fin 1))) * x3 (ix2 k q)) + x4 (ix2 (0 : Fin 1) q))
        + ∑ k : Fin 64, x2 (ix2 p k) * x5 (ix2 k q) := by
  unfold Gen.k4_pay1
  simp only [shapeCast_self]
  rw [addf_apply, addf_apply, matmul_64x64, matmul_64x64, broadcastTo_1b_ab_apply]
  simp only [truncf_apply, mulf_apply, broadcastTo_a1_ab_apply]

/-- The windows' index maps over the grid: the row-blocked windows' block index is the point's number; the weight and
    bias windows stay at block 0. -/
theorem indexMaps4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

/-- Window 0's block at point `t` is rows `5000 t … 5000 t + 4999` of its array. -/
theorem block4_0 (c : Dev nD) (t : Fin cfg4.N) (y : S5000x64.Idx) (k : S100000x64.Idx)
    (h0 : (k 0).val = t.val * 5000 + (y 0).val) (h1 : (k 1).val = (y 1).val) :
    (Gen.iblk4 V c 0 t : Vec Ideal S5000x64 .f32) y = (V c (Pipeline.arrRef spec4 0) : S100000x64.Idx → EReal) k := by
  have e := indexMaps4 t
  unfold Gen.iblk4
  rw [View.read_apply]
  show V c (Pipeline.arrRef spec4 0) _ = V c (Pipeline.arrRef spec4 0) _
  congr 1
  funext a
  apply Fin.ext
  match a with
  | ⟨0, _⟩ => show win4_0.index t (0 : Fin 2) * 5000 + 1 * (y 0).val = (k 0).val; omega
  | ⟨1, _⟩ => show win4_0.index t (1 : Fin 2) * 64 + 1 * (y 1).val = (k 1).val; omega

/-- Window 1's block at point `t` is rows `5000 t … 5000 t + 4999` of its array. -/
theorem block4_1 (c : Dev nD) (t : Fin cfg4.N) (y : S5000x1.Idx) (k : S100000x1.Idx)
    (h0 : (k 0).val = t.val * 5000 + (y 0).val) (h1 : (k 1).val = (y 1).val) :
    (Gen.iblk4 V c 1 t : Vec Ideal S5000x1 .f32) y = (V c (Pipeline.arrRef spec4 1) : S100000x1.Idx → EReal) k := by
  have e := indexMaps4 t
  unfold Gen.iblk4
  rw [View.read_apply]
  show V c (Pipeline.arrRef spec4 1) _ = V c (Pipeline.arrRef spec4 1) _
  congr 1
  funext a
  apply Fin.ext
  match a with
  | ⟨0, _⟩ => show win4_1.index t (0 : Fin 2) * 5000 + 1 * (y 0).val = (k 0).val; omega
  | ⟨1, _⟩ => show win4_1.index t (1 : Fin 2) * 1 + 1 * (y 1).val = (k 1).val; omega

/-- Window 2's block at point `t` is rows `5000 t … 5000 t + 4999` of its array. -/
theorem block4_2 (c : Dev nD) (t : Fin cfg4.N) (y : S5000x64.Idx) (k : S100000x64.Idx)
    (h0 : (k 0).val = t.val * 5000 + (y 0).val) (h1 : (k 1).val = (y 1).val) :
    (Gen.iblk4 V c 2 t : Vec Ideal S5000x64 .f32) y = (V c (Pipeline.arrRef spec4 2) : S100000x64.Idx → EReal) k := by
  have e := indexMaps4 t
  unfold Gen.iblk4
  rw [View.read_apply]
  show V c (Pipeline.arrRef spec4 2) _ = V c (Pipeline.arrRef spec4 2) _
  congr 1
  funext a
  apply Fin.ext
  match a with
  | ⟨0, _⟩ => show win4_2.index t (0 : Fin 2) * 5000 + 1 * (y 0).val = (k 0).val; omega
  | ⟨1, _⟩ => show win4_2.index t (1 : Fin 2) * 64 + 1 * (y 1).val = (k 1).val; omega

/-- Window 3's block at every point is its whole array. -/
theorem block4_3 (c : Dev nD) (t : Fin cfg4.N) :
    (Gen.iblk4 V c 3 t : Vec Ideal S64x64 .f32) = (V c (Pipeline.arrRef spec4 3) : S64x64.Idx → EReal) := by
  have e := indexMaps4 t
  funext y
  unfold Gen.iblk4
  rw [View.read_apply]
  show V c (Pipeline.arrRef spec4 3) _ = V c (Pipeline.arrRef spec4 3) _
  congr 1
  funext a
  apply Fin.ext
  match a with
  | ⟨0, _⟩ => show win4_3.index t (0 : Fin 2) * 64 + 1 * (y 0).val = (y 0).val; omega
  | ⟨1, _⟩ => show win4_3.index t (1 : Fin 2) * 64 + 1 * (y 1).val = (y 1).val; omega

/-- Window 4's block at every point is its whole array. -/
theorem block4_4 (c : Dev nD) (t : Fin cfg4.N) :
    (Gen.iblk4 V c 4 t : Vec Ideal S1x64 .f32) = (V c (Pipeline.arrRef spec4 4) : S1x64.Idx → EReal) := by
  have e := indexMaps4 t
  funext y
  unfold Gen.iblk4
  rw [View.read_apply]
  show V c (Pipeline.arrRef spec4 4) _ = V c (Pipeline.arrRef spec4 4) _
  congr 1
  funext a
  apply Fin.ext
  match a with
  | ⟨0, _⟩ => show win4_4.index t (0 : Fin 2) * 1 + 1 * (y 0).val = (y 0).val; omega
  | ⟨1, _⟩ => show win4_4.index t (1 : Fin 2) * 64 + 1 * (y 1).val = (y 1).val; omega

/-- Window 5's block at every point is its whole array. -/
theorem block4_5 (c : Dev nD) (t : Fin cfg4.N) :
    (Gen.iblk4 V c 5 t : Vec Ideal S64x64 .f32) = (V c (Pipeline.arrRef spec4 5) : S64x64.Idx → EReal) := by
  have e := indexMaps4 t
  funext y
  unfold Gen.iblk4
  rw [View.read_apply]
  show V c (Pipeline.arrRef spec4 5) _ = V c (Pipeline.arrRef spec4 5) _
  congr 1
  funext a
  apply Fin.ext
  match a with
  | ⟨0, _⟩ => show win4_5.index t (0 : Fin 2) * 64 + 1 * (y 0).val = (y 0).val; omega
  | ⟨1, _⟩ => show win4_5.index t (1 : Fin 2) * 64 + 1 * (y 1).val = (y 1).val; omega

/-- The body's result on blocks that are the restrictions of whole arrays is the restriction of the layer's
    whole-array function: at row `T · 5000 + p`. -/
theorem body4_restrict (A : FVec Ideal S100000x64 .f32) (IC : FVec Ideal S100000x1 .f32) (X : FVec Ideal S100000x64 .f32)
    (WL : FVec Ideal S64x64 .f32) (B : FVec Ideal S1x64 .f32) (WR : FVec Ideal S64x64 .f32)
    (x0 : Vec Ideal S5000x64 .f32) (x1 : Vec Ideal S5000x1 .f32) (x2 : Vec Ideal S5000x64 .f32) (T : Nat)
    (h0 : ∀ (y : S5000x64.Idx) (k : S100000x64.Idx), (k 0).val = T * 5000 + (y 0).val → (k 1).val = (y 1).val → x0 y = A k)
    (h1 : ∀ (y : S5000x1.Idx) (k : S100000x1.Idx), (k 0).val = T * 5000 + (y 0).val → (k 1).val = (y 1).val → x1 y = IC k)
    (h2 : ∀ (y : S5000x64.Idx) (k : S100000x64.Idx), (k 0).val = T * 5000 + (y 0).val → (k 1).val = (y 1).val → x2 y = X k)
    (p : Fin 5000) (q : Fin 64) (i : S100000x64.Idx) (hi0 : (i 0).val = T * 5000 + p.val) (hi1 : (i 1).val = q.val) :
    Gen.k4_pay1 x0 x1 x2 WL WR B (ix2 p q) = sageLin64 A IC X WL B WR i := by
  have hq : i 1 = q := Fin.ext hi1
  rw [body4_apply]
  unfold sageLin64
  rw [hq]
  refine congrArg₂ (· + ·) (congrArg₂ (· + ·) (Finset.sum_congr rfl fun k _ => ?_) rfl) (Finset.sum_congr rfl fun k _ => ?_)
  · rw [h0 (ix2 p k) (ix2 (i 0) k) hi0 rfl, h1 (ix2 p (0 : Fin 1)) (ix2 (i 0) (0 : Fin 1)) hi0 rfl]
  · rw [h2 (ix2 p k) (ix2 (i 0) k) hi0 rfl]

/-- The output window's staging buffer after the body at point `t`: the body's result on the row blocks of point `t`
    and the whole weight and bias arrays. -/
theorem written4 (c : Dev nD) (t : Fin cfg4.N) :
    (Gen.dat4 (F := Ideal) V c).after 6 t
      = Gen.k4_pay1 (Gen.iblk4 V c 0 t) (Gen.iblk4 V c 1 t) (Gen.iblk4 V c 2 t) (V c (Pipeline.arrRef spec4 3))
          (V c (Pipeline.arrRef spec4 5)) (V c (Pipeline.arrRef spec4 4)) := by
  rw [Gen.after4_6]
  unfold Gen.out4_6
  rw [View.canon_unit_zero zeroOffsets4]
  simp only [View.ld_unit_zero (S := S5000x64) zeroOffsets4, View.ld_unit_zero (S := S5000x1) zeroOffsets4, View.ld_unit_zero (S := S64x64) zeroOffsets4, View.ld_unit_zero (S := S1x64) zeroOffsets4]
  rw [block4_3 V c t, block4_4 V c t, block4_5 V c t]

/-- What point `t` writes back is block `t` of the layer's whole-array function of the arrays as the region finds them. -/
theorem flushed4 (c : Dev nD) (t : Fin cfg4.N) :
    (Gen.dat4 (F := Ideal) V c).flushed 6 t
      = ((cfg4.win 6).blk t).view.read (Elt Ideal)
          (sageLin64 (V c (Pipeline.arrRef spec4 0)) (V c (Pipeline.arrRef spec4 1)) (V c (Pipeline.arrRef spec4 2))
            (V c (Pipeline.arrRef spec4 3)) (V c (Pipeline.arrRef spec4 4)) (V c (Pipeline.arrRef spec4 5))) := by
  show (cfg4.win 6).cut (grid4.coords t) ((Gen.dat4 V c).after 6 t) = _
  rw [written4]
  have e := indexMaps4 t
  funext j
  have hj : j = ix2 (j 0) (j 1) := eq_ix2 (n0 := 5000) (n1 := 64) j
  refine Eq.trans ?_ (View.read_apply _ _).symm
  refine (congrArg _ hj).trans ?_
  refine body4_restrict _ _ _ _ _ _ _ _ _ t.val (block4_0 V c t) (block4_1 V c t) (block4_2 V c t) (j 0) (j 1) _ ?_ ?_
  · show win4_6.index t (0 : Fin 2) * 5000 + 1 * (j 0).val = t.val * 5000 + (j 0).val; omega
  · show win4_6.index t (1 : Fin 2) * 64 + 1 * (j 1).val = (j 1).val; omega

/-- Row `r` of the output lies in the block of point `r / 5000`. -/
theorem cover4 (i : S100000x64.Idx) :
    ∃ t : Fin cfg4.N, (cfg4.win 6).flush t = true ∧ i ∈ ((cfg4.win 6).blk t).view.set := by
  have hN : grid4.N = 20 := Gen.N_4
  have hi0 : (i 0).val < 100000 := (i 0).isLt
  have hi1 : (i 1).val < 64 := (i 1).isLt
  have hlt : (i 0).val / 5000 < cfg4.N := by show (i 0).val / 5000 < grid4.N; omega
  have e := indexMaps4 ⟨(i 0).val / 5000, hlt⟩
  have ht : (⟨(i 0).val / 5000, hlt⟩ : Fin cfg4.N).val = (i 0).val / 5000 := rfl
  refine ⟨⟨(i 0).val / 5000, hlt⟩, Gen.flush4_6 _, ?_⟩
  show i ∈ ((View.whole main_v113).slice (win4_6.rect ⟨(i 0).val / 5000, hlt⟩)).set
  rw [View.set_slice_whole, Rect.mem_set_unit]
  intro a
  match a with
  | ⟨0, _⟩ =>
    show win4_6.index ⟨(i 0).val / 5000, hlt⟩ (0 : Fin 2) * 5000 ≤ (i 0).val
      ∧ (i 0).val < win4_6.index ⟨(i 0).val / 5000, hlt⟩ (0 : Fin 2) * 5000 + 5000
    omega
  | ⟨1, _⟩ =>
    show win4_6.index ⟨(i 0).val / 5000, hlt⟩ (1 : Fin 2) * 64 ≤ (i 1).val
      ∧ (i 1).val < win4_6.index ⟨(i 0).val / 5000, hlt⟩ (1 : Fin 2) * 64 + 64
    omega

/-- After the region's run its output array is the layer's whole-array function of the arrays as the region finds them. -/
theorem arr4 (c : Dev nD) :
    (Gen.dat4 (F := Ideal) V c).arrAt 6 cfg4.N
      = sageLin64 (V c (Pipeline.arrRef spec4 0)) (V c (Pipeline.arrRef spec4 1)) (V c (Pipeline.arrRef spec4 2))
          (V c (Pipeline.arrRef spec4 3)) (V c (Pipeline.arrRef spec4 4)) (V c (Pipeline.arrRef spec4 5)) :=
  (Gen.dat4 V c).arrAt_eq_of_cover 6 _ (fun t _ => flushed4 V c t) (fun i => cover4 i)

end Cert.KernelIdeal.Reg

end
-- ==== Proof.KerL3.lean ====
import proofs.«136404_j80470507258311_2_alg».proof.Proof.KerBase
import proofs.«136404_j80470507258311_2_alg».proof.Proof.SpecK
import proofs.«136404_j80470507258311_2_alg».proof.Proof.Reg4

/-! The kernel program's third layer, from the boundary after the second normalisation region to the boundary after the
    third linear region: the host stretches between them compute the neighbour sums of the unpacked hidden features,
    the reciprocal clipped in-degrees as a column and the bias as a row, and the region is the layer's whole-array
    function of these and the weights. -/

set_option maxRecDepth 16384

noncomputable section

namespace Cert.KernelIdeal.KerRun

open Idealize.ShloMosaic Idealize.ShloMosaic.TcCoe Idealize.SL.Sem
open Idealize.ShloMosaic.StableHlo
open Cert.Spec (Arr)
open Cert.KernelIdeal.KerHost

/-! ## The three host stretches, each from any contents `V` before it -/

section Stretches

variable (V : Valuation τ sig (Elt Ideal))

attribute [local irreducible] Host.gather Host.scatterAdd Host.reduceAdd Host.divf maximumf select cmpf cmpi addi subf mulf
  sitofp broadcastInDim constant constantI extractStridedSlice shapeCast Host.rsqrt

section Clip
open Cert.KernelIdeal.Facts₀
variable {F : FTy → Type} [FloatOps F]

/-- The maximum of a scalar (spread over the nodes) and a per-node vector. -/
def clip3 (one : Arr F S_ .f32) (cn : Arr F S100000 .f32) : Arr F S100000 .f32 :=
  maximumf (broadcastInDim S100000 ![] bcast_S_S100000 (id one)) cn

/-- The clipped in-degrees are that maximum of the constant 1 and the in-degrees. -/
theorem cntClip_eq3 (ei : Arr Ideal S2x1200000 .i32) :
    Cert.Spec.cntClip ei = clip3 (constant (F := Ideal) S_ .f32 0x3F800000#32) (Cert.Spec.cnt ei) := rfl

end Clip

/-- The hidden features unpacked: two 64-wide rows out of each 128-wide one. -/
theorem ops4_v93 :
    (after Gen.hostOps4 V (Proc.devRef .tc main_v93) : Arr Ideal S100000x64 .f32) = Cert.Spec.unpack (V (Proc.devRef .tc main_v92)) := by
  after_results <;> (unfold Cert.Spec.unpack; rfl)

set_option maxHeartbeats 2000000 in
/-- The neighbour sums of the unpacked hidden features. -/
theorem ops4_v103 (ei : Arr Ideal S2x1200000 .i32)
    (h1 : (V (Proc.devRef .tc main_v1) : Arr Ideal S1200000 .i32) = Cert.Spec.edgeRow0 ei)
    (h3 : (V (Proc.devRef .tc main_v3) : Arr Ideal S1200000 .i32) = Cert.Spec.edgeRow1 ei) :
    (after Gen.hostOps4 V (Proc.devRef .tc main_v103) : Arr Ideal S100000x64 .f32)
      = Cert.Spec.agg64 (Cert.Spec.unpack (V (Proc.devRef .tc main_v92))) ei := by
  after_results_simp
  rw [h1, h3]
  unfold Cert.Spec.agg64 Cert.Spec.srcIdx Cert.Spec.dstIdx Cert.Spec.unpack
  rfl

/-- The in-degrees. -/
theorem ops4_v107 (ei : Arr Ideal S2x1200000 .i32)
    (h3 : (V (Proc.devRef .tc main_v3) : Arr Ideal S1200000 .i32) = Cert.Spec.edgeRow1 ei) :
    (after Gen.hostOps4 V (Proc.devRef .tc main_v107) : Arr Ideal S100000 .f32) = Cert.Spec.cnt ei := by
  after_results
  rw [h3]
  unfold Cert.Spec.cnt Cert.Spec.dstIdx
  rfl

/-- The constant 1 the clip takes. -/
theorem ops4_cst25 :
    (after Gen.hostOps4 V (Proc.devRef .tc main_cst_25) : Arr Ideal S_ .f32) = constant (F := Ideal) S_ .f32 0x3F800000#32 := by
  after_results <;> rfl

set_option maxHeartbeats 4000000 in
/-- The clip's result, from whatever the scalar and the vector it takes hold. -/
theorem ops4_1_v108 :
    (after Gen.hostOps4_1 V (Proc.devRef .tc main_v108) : Arr Ideal S100000 .f32)
      = clip3 (V (Proc.devRef .tc main_cst_25)) (V (Proc.devRef .tc main_v107)) := by
  after_results
  unfold clip3
  rfl

theorem ops4_1_v103 : after Gen.hostOps4_1 V (Proc.devRef .tc main_v103) = V (Proc.devRef .tc main_v103) := by after_results
theorem ops4_1_v93 : after Gen.hostOps4_1 V (Proc.devRef .tc main_v93) = V (Proc.devRef .tc main_v93) := by after_results

/-- The reciprocal clipped in-degrees, as a column. -/
theorem ops4_2_v111 (ei : Arr Ideal S2x1200000 .i32)
    (h108 : (V (Proc.devRef .tc main_v108) : Arr Ideal S100000 .f32) = Cert.Spec.cntClip ei) :
    (after Gen.hostOps4_2 V (Proc.devRef .tc main_v111) : Arr Ideal S100000x1 .f32) = Cert.Spec.invCnt ei := by
  after_results
  rw [h108]
  unfold Cert.Spec.invCnt
  rfl

/-- The bias as a row. -/
theorem ops4_2_v112 :
    (after Gen.hostOps4_2 V (Proc.devRef .tc main_v112) : Arr Ideal S1x64 .f32) = Cert.Spec.row64 (V (Proc.devRef .tc main_arg14)) := by
  after_results <;> (unfold Cert.Spec.row64; rfl)

theorem ops4_2_v103 : after Gen.hostOps4_2 V (Proc.devRef .tc main_v103) = V (Proc.devRef .tc main_v103) := by after_results
theorem ops4_2_v93 : after Gen.hostOps4_2 V (Proc.devRef .tc main_v93) = V (Proc.devRef .tc main_v93) := by after_results

end Stretches

/-! ## The region's arrays at its entry -/

variable (m : (ℓ : Loc nD τ sig) → Buf (Elt Ideal) ℓ) (ρ : Dev nD → PrngReg) (c : Dev nD)

/-- The edge rows, computed once in the first stretch, are still there. -/
theorem W16_v1 :
    (Gen.W16 m ρ c (Proc.devRef .tc main_v1) : Arr Ideal S1200000 .i32) = Cert.Spec.edgeRow0 (argsOf m c).ei := by
  read_down <;> rfl
theorem W16_v3 :
    (Gen.W16 m ρ c (Proc.devRef .tc main_v3) : Arr Ideal S1200000 .i32) = Cert.Spec.edgeRow1 (argsOf m c).ei := by
  read_down <;> rfl

theorem W19_arg13 : (Gen.W19 m ρ c (Proc.devRef .tc main_arg13) : Arr Ideal S64x64 .f32) = (argsOf m c).W3l := by
  read_down <;> rfl
theorem W18_arg14 : (Gen.W18 m ρ c (Proc.devRef .tc main_arg14) : Arr Ideal S64 .f32) = (argsOf m c).b3 := by
  read_down <;> rfl
theorem W19_arg15 : (Gen.W19 m ρ c (Proc.devRef .tc main_arg15) : Arr Ideal S64x64 .f32) = (argsOf m c).W3r := by
  read_down <;> rfl

theorem W19_v93 (H : Arr Ideal S100000x64 .f32)
    (hH : Cert.Spec.unpack (Gen.W16 m ρ c (Proc.devRef .tc main_v92) : Arr Ideal S50000x128 .f32) = H) :
    (Gen.W19 m ρ c (Proc.devRef .tc main_v93) : Arr Ideal S100000x64 .f32) = H := by
  show after Gen.hostOps4_2 (Gen.W18 m ρ c) (Proc.devRef .tc main_v93) = _
  rw [ops4_2_v93]
  show after Gen.hostOps4_1 (Gen.W17 m ρ c) (Proc.devRef .tc main_v93) = _
  rw [ops4_1_v93]
  show after Gen.hostOps4 (Gen.W16 m ρ c) (Proc.devRef .tc main_v93) = _
  rw [ops4_v93, hH]

theorem W19_v103 (H : Arr Ideal S100000x64 .f32)
    (hH : Cert.Spec.unpack (Gen.W16 m ρ c (Proc.devRef .tc main_v92) : Arr Ideal S50000x128 .f32) = H) :
    (Gen.W19 m ρ c (Proc.devRef .tc main_v103) : Arr Ideal S100000x64 .f32) = Cert.Spec.agg64 H (argsOf m c).ei := by
  show after Gen.hostOps4_2 (Gen.W18 m ρ c) (Proc.devRef .tc main_v103) = _
  rw [ops4_2_v103]
  show after Gen.hostOps4_1 (Gen.W17 m ρ c) (Proc.devRef .tc main_v103) = _
  rw [ops4_1_v103]
  show after Gen.hostOps4 (Gen.W16 m ρ c) (Proc.devRef .tc main_v103) = _
  rw [ops4_v103 _ (argsOf m c).ei (W16_v1 m ρ c) (W16_v3 m ρ c), hH]

theorem W18_v108 :
    (Gen.W18 m ρ c (Proc.devRef .tc main_v108) : Arr Ideal S100000 .f32) = Cert.Spec.cntClip (argsOf m c).ei := by
  show after Gen.hostOps4_1 (Gen.W17 m ρ c) (Proc.devRef .tc main_v108) = _
  rw [ops4_1_v108]
  show clip3 (after Gen.hostOps4 (Gen.W16 m ρ c) (Proc.devRef .tc main_cst_25)) (after Gen.hostOps4 (Gen.W16 m ρ c) (Proc.devRef .tc main_v107)) = _
  rw [ops4_cst25, ops4_v107 _ (argsOf m c).ei (W16_v3 m ρ c), cntClip_eq3]

theorem W19_v111 :
    (Gen.W19 m ρ c (Proc.devRef .tc main_v111) : Arr Ideal S100000x1 .f32) = Cert.Spec.invCnt (argsOf m c).ei :=
  ops4_2_v111 (Gen.W18 m ρ c) _ (W18_v108 m ρ c)

theorem W19_v112 :
    (Gen.W19 m ρ c (Proc.devRef .tc main_v112) : Arr Ideal S1x64 .f32) = Cert.Spec.row64 (argsOf m c).b3 := by
  show after Gen.hostOps4_2 (Gen.W18 m ρ c) (Proc.devRef .tc main_v112) = _
  rw [ops4_2_v112, W18_arg14]

/-! ## The layer -/

/-- From hidden features `H` (the second normalisation's output, unpacked) the third linear region leaves the layer's
    whole-array function of their neighbour sums, the reciprocal clipped in-degrees, `H` itself and the third layer's
    weights and bias. -/
theorem layer3 (H : Arr Ideal S100000x64 .f32)
    (hH : Cert.Spec.unpack (Gen.W16 m ρ c (Proc.devRef .tc main_v92) : Arr Ideal S50000x128 .f32) = H) :
    (Gen.W20 m ρ c (Proc.devRef .tc main_v113) : Arr Ideal S100000x64 .f32)
      = Cert.RegSpec.sageLin64 (Cert.Spec.agg64 H (argsOf m c).ei) (Cert.Spec.invCnt (argsOf m c).ei) H (argsOf m c).W3l
          (Cert.Spec.row64 (argsOf m c).b3) (argsOf m c).W3r := by
  refine (Gen.W20_arr m ρ c 6).trans ?_
  rw [Cert.KernelIdeal.Reg.arr4 (Gen.V19 m ρ) c]
  show Cert.RegSpec.sageLin64 (Gen.W19 m ρ c (Proc.devRef .tc main_v103)) (Gen.W19 m ρ c (Proc.devRef .tc main_v111))
      (Gen.W19 m ρ c (Proc.devRef .tc main_v93)) (Gen.W19 m ρ c (Proc.devRef .tc main_arg13)) (Gen.W19 m ρ c (Proc.devRef .tc main_v112))
      (Gen.W19 m ρ c (Proc.devRef .tc main_arg15)) = _
  rw [W19_v103 m ρ c H hH, W19_v111 m ρ c, W19_v93 m ρ c H hH, W19_arg13 m ρ c, W19_v112 m ρ c, W19_arg15 m ρ c]

end Cert.KernelIdeal.KerRun

end
-- ==== Proof.Reg5.lean ====
import proofs.«136404_j80470507258311_2_alg».proof.Proof.RegSpec
import proofs.«136404_j80470507258311_2_alg».proof.Proof.BlockOps
import proofs.«136404_j80470507258311_2_alg».proof.Proof.Gen.KernelIdeal.Frame

set_option maxRecDepth 16384

noncomputable section

open scoped BigOperators

namespace Cert.KernelIdeal.Reg

open Idealize.ShloMosaic Idealize.ShloMosaic.TcCoe Idealize.SL.Sem
open Idealize.ShloMosaic.ValueIdx
open Idealize.ShloMosaic.Pipeline (Dat Cfg Window)
open Cert.RegSpec

/-! # Region 5: the fusion head, as one whole-array function -/

variable (V : (c : Dev nD) → (b : Ref sig .tc) → Buf (Elt Ideal) ((c : Thread nD τ).loc b))

theorem zeroOffsets5 : (![0, 0] : Fin 2 → Nat) = fun _ => 0 := funext fun a => by fin_cases a <;> rfl

/-- The reciprocal square root of a vector, at an index. -/
private theorem rsqrt_at {s : Shape} {φ : FTy} (a : FVec Ideal s φ) (i : s.Idx) : rsqrt a i = Ideal.rsqrt (a i) := rfl

/-- The first layer before its bias, at row `p` and feature `m` of the block: the normalised and rectified hidden
    features times the weights, plus the extra input column times its weight row. -/
theorem mid5_apply (x0 : Vec Ideal S5000x64 .f32) (x1 x2 x3 x4 : Vec Ideal S1x64 .f32) (x5 : Vec Ideal S5000x1 .f32)
    (x6 : Vec Ideal S64x64 .f32) (x7 : Vec Ideal S1x64 .f32) (p : Fin 5000) (m : Fin 64) :
    Gen.k5_pay2 x4 x0 x3 x1 x2 x6 x5 x7 (ix2 p m)
      = (∑ k : Fin 64,
            max ((((x0 (ix2 p k) - x3 (ix2 (0 : Fin 1) k))
                      * Ideal.rsqrt (x4 (ix2 (0 : Fin 1) k) + Ideal.ofBits .f32 0x3727C5AC#32))
                    * x1 (ix2 (0 : Fin 1) k))
                  + x2 (ix2 (0 : Fin 1) k))
                (Ideal.ofBits .f32 0x00000000#32)
              * x6 (ix2 k m))
          + x5 (ix2 p (0 : Fin 1)) * x7 (ix2 (0 : Fin 1) m) := by
  unfold Gen.k5_pay2
  simp only [shapeCast_self]
  rw [addf_apply, matmul_64x64]
  simp only [truncf_apply, maximumf_apply, addf_apply, mulf_apply, subf_apply, broadcastTo_1b_ab_apply,
    broadcastTo_a1_ab_apply, broadcast_apply, rsqrt_at]
  rfl

/-- The head's result at row `p` of the block, from the first layer before its bias, the bias, the second layer's
    weights and its bias. -/
theorem top5_apply (u : FVec Ideal S5000x64 .f32) (b1 : FVec Ideal S1x64 .f32) (x9 : Vec Ideal S64x1 .f32)
    (x10 : Vec Ideal S1x1 .f32) (p : Fin 5000) (q : Fin 1) :
    Gen.k5_pay1 u b1 x9 x10 (ix2 p q)
      = (∑ m : Fin 64, max (u (ix2 p m) + b1 (ix2 (0 : Fin 1) m)) (Ideal.ofBits .f32 0x00000000#32) * x9 (ix2 m q))
          + x10 (ix2 (0 : Fin 1) q) := by
  unfold Gen.k5_pay1
  simp only [shapeCast_self]
  rw [addf_apply, matmul_64x1, broadcastTo_1b_ab_apply]
  simp only [truncf_apply, maximumf_apply, addf_apply, broadcastTo_1b_ab_apply, broadcast_apply]
  rfl

/-- The bias block passes through unchanged. -/
theorem bias5_eq (x8 : Vec Ideal S1x64 .f32) : Gen.k5_pay3 x8 = x8 := by
  unfold Gen.k5_pay3
  exact shapeCast_self _ _

/-- The windows' index maps over the grid: the row-blocked windows' block index is the point's number; the parameter
    windows stay at block 0. -/
theorem indexMaps5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0
    ∧ win5_6.index t (0 : Fin 2) = 0 ∧ win5_6.index t (1 : Fin 2) = 0
    ∧ win5_7.index t (0 : Fin 2) = 0 ∧ win5_7.index t (1 : Fin 2) = 0
    ∧ win5_8.index t (0 : Fin 2) = 0 ∧ win5_8.index t (1 : Fin 2) = 0
    ∧ win5_9.index t (0 : Fin 2) = 0 ∧ win5_9.index t (1 : Fin 2) = 0
    ∧ win5_10.index t (0 : Fin 2) = 0 ∧ win5_10.index t (1 : Fin 2) = 0
    ∧ win5_11.index t (0 : Fin 2) = t.val ∧ win5_11.index t (1 : Fin 2) = 0 :=
  (by decide +kernel : ∀ t : Fin grid5.N, _)

/-- Window 0's block at point `t` is rows `5000 t … 5000 t + 4999` of its array. -/
theorem block5_0 (c : Dev nD) (t : Fin cfg5.N) (y : S5000x64.Idx) (k : S100000x64.Idx)
    (h0 : (k 0).val = t.val * 5000 + (y 0).val) (h1 : (k 1).val = (y 1).val) :
    (Gen.iblk5 V c 0 t : Vec Ideal S5000x64 .f32) y = (V c (Pipeline.arrRef spec5 0) : S100000x64.Idx → EReal) k := by
  have e := indexMaps5 t
  unfold Gen.iblk5
  rw [View.read_apply]
  show V c (Pipeline.arrRef spec5 0) _ = V c (Pipeline.arrRef spec5 0) _
  congr 1
  funext a
  apply Fin.ext
  match a with
  | ⟨0, _⟩ => show win5_0.index t (0 : Fin 2) * 5000 + 1 * (y 0).val = (k 0).val; omega
  | ⟨1, _⟩ => show win5_0.index t (1 : Fin 2) * 64 + 1 * (y 1).val = (k 1).val; omega

/-- Window 5's block at point `t` is rows `5000 t … 5000 t + 4999` of its array. -/
theorem block5_5 (c : Dev nD) (t : Fin cfg5.N) (y : S5000x1.Idx) (k : S100000x1.Idx)
    (h0 : (k 0).val = t.val * 5000 + (y 0).val) (h1 : (k 1).val = (y 1).val) :
    (Gen.iblk5 V c 5 t : Vec Ideal S5000x1 .f32) y = (V c (Pipeline.arrRef spec5 5) : S100000x1.Idx → EReal) k := by
  have e := indexMaps5 t
  unfold Gen.iblk5
  rw [View.read_apply]
  show V c (Pipeline.arrRef spec5 5) _ = V c (Pipeline.arrRef spec5 5) _
  congr 1
  funext a
  apply Fin.ext
  match a with
  | ⟨0, _⟩ => show win5_5.index t (0 : Fin 2) * 5000 + 1 * (y 0).val = (k 0).val; omega
  | ⟨1, _⟩ => show win5_5.index t (1 : Fin 2) * 1 + 1 * (y 1).val = (k 1).val; omega

/-- Window 1's block at every point is its whole array. -/
theorem block5_1 (c : Dev nD) (t : Fin cfg5.N) :
    (Gen.iblk5 V c 1 t : Vec Ideal S1x64 .f32) = (V c (Pipeline.arrRef spec5 1) : S1x64.Idx → EReal) := by
  have e := indexMaps5 t
  funext y
  unfold Gen.iblk5
  rw [View.read_apply]
  show V c (Pipeline.arrRef spec5 1) _ = V c (Pipeline.arrRef spec5 1) _
  congr 1
  funext a
  apply Fin.ext
  match a with
  | ⟨0, _⟩ => show win5_1.index t (0 : Fin 2) * 1 + 1 * (y 0).val = (y 0).val; omega
  | ⟨1, _⟩ => show win5_1.index t (1 : Fin 2) * 64 + 1 * (y 1).val = (y 1).val; omega

/-- Window 2's block at every point is its whole array. -/
theorem block5_2 (c : Dev nD) (t : Fin cfg5.N) :
    (Gen.iblk5 V c 2 t : Vec Ideal S1x64 .f32) = (V c (Pipeline.arrRef spec5 2) : S1x64.Idx → EReal) := by
  have e := indexMaps5 t
  funext y
  unfold Gen.iblk5
  rw [View.read_apply]
  show V c (Pipeline.arrRef spec5 2) _ = V c (Pipeline.arrRef spec5 2) _
  congr 1
  funext a
  apply Fin.ext
  match a with
  | ⟨0, _⟩ => show win5_2.index t (0 : Fin 2) * 1 + 1 * (y 0).val = (y 0).val; omega
  | ⟨1, _⟩ => show win5_2.index t (1 : Fin 2) * 64 + 1 * (y 1).val = (y 1).val; omega

/-- Window 3's block at every point is its whole array. -/
theorem block5_3 (c : Dev nD) (t : Fin cfg5.N) :
    (Gen.iblk5 V c 3 t : Vec Ideal S1x64 .f32) = (V c (Pipeline.arrRef spec5 3) : S1x64.Idx → EReal) := by
  have e := indexMaps5 t
  funext y
  unfold Gen.iblk5
  rw [View.read_apply]
  show V c (Pipeline.arrRef spec5 3) _ = V c (Pipeline.arrRef spec5 3) _
  congr 1
  funext a
  apply Fin.ext
  match a with
  | ⟨0, _⟩ => show win5_3.index t (0 : Fin 2) * 1 + 1 * (y 0).val = (y 0).val; omega
  | ⟨1, _⟩ => show win5_3.index t (1 : Fin 2) * 64 + 1 * (y 1).val = (y 1).val; omega

/-- Window 4's block at every point is its whole array. -/
theorem block5_4 (c : Dev nD) (t : Fin cfg5.N) :
    (Gen.iblk5 V c 4 t : Vec Ideal S1x64 .f32) = (V c (Pipeline.arrRef spec5 4) : S1x64.Idx → EReal) := by
  have e := indexMaps5 t
  funext y
  unfold Gen.iblk5
  rw [View.read_apply]
  show V c (Pipeline.arrRef spec5 4) _ = V c (Pipeline.arrRef spec5 4) _
  congr 1
  funext a
  apply Fin.ext
  match a with
  | ⟨0, _⟩ => show win5_4.index t (0 : Fin 2) * 1 + 1 * (y 0).val = (y 0).val; omega
  | ⟨1, _⟩ => show win5_4.index t (1 : Fin 2) * 64 + 1 * (y 1).val = (y 1).val; omega

/-- Window 6's block at every point is its whole array. -/
theorem block5_6 (c : Dev nD) (t : Fin cfg5.N) :
    (Gen.iblk5 V c 6 t : Vec Ideal S64x64 .f32) = (V c (Pipeline.arrRef spec5 6) : S64x64.Idx → EReal) := by
  have e := indexMaps5 t
  funext y
  unfold Gen.iblk5
  rw [View.read_apply]
  show V c (Pipeline.arrRef spec5 6) _ = V c (Pipeline.arrRef spec5 6) _
  congr 1
  funext a
  apply Fin.ext
  match a with
  | ⟨0, _⟩ => show win5_6.index t (0 : Fin 2) * 64 + 1 * (y 0).val = (y 0).val; omega
  | ⟨1, _⟩ => show win5_6.index t (1 : Fin 2) * 64 + 1 * (y 1).val = (y 1).val; omega

/-- Window 7's block at every point is its whole array. -/
theorem block5_7 (c : Dev nD) (t : Fin cfg5.N) :
    (Gen.iblk5 V c 7 t : Vec Ideal S1x64 .f32) = (V c (Pipeline.arrRef spec5 7) : S1x64.Idx → EReal) := by
  have e := indexMaps5 t
  funext y
  unfold Gen.iblk5
  rw [View.read_apply]
  show V c (Pipeline.arrRef spec5 7) _ = V c (Pipeline.arrRef spec5 7) _
  congr 1
  funext a
  apply Fin.ext
  match a with
  | ⟨0, _⟩ => show win5_7.index t (0 : Fin 2) * 1 + 1 * (y 0).val = (y 0).val; omega
  | ⟨1, _⟩ => show win5_7.index t (1 : Fin 2) * 64 + 1 * (y 1).val = (y 1).val; omega

/-- Window 8's block at every point is its whole array. -/
theorem block5_8 (c : Dev nD) (t : Fin cfg5.N) :
    (Gen.iblk5 V c 8 t : Vec Ideal S1x64 .f32) = (V c (Pipeline.arrRef spec5 8) : S1x64.Idx → EReal) := by
  have e := indexMaps5 t
  funext y
  unfold Gen.iblk5
  rw [View.read_apply]
  show V c (Pipeline.arrRef spec5 8) _ = V c (Pipeline.arrRef spec5 8) _
  congr 1
  funext a
  apply Fin.ext
  match a with
  | ⟨0, _⟩ => show win5_8.index t (0 : Fin 2) * 1 + 1 * (y 0).val = (y 0).val; omega
  | ⟨1, _⟩ => show win5_8.index t (1 : Fin 2) * 64 + 1 * (y 1).val = (y 1).val; omega

/-- Window 9's block at every point is its whole array. -/
theorem block5_9 (c : Dev nD) (t : Fin cfg5.N) :
    (Gen.iblk5 V c 9 t : Vec Ideal S64x1 .f32) = (V c (Pipeline.arrRef spec5 9) : S64x1.Idx → EReal) := by
  have e := indexMaps5 t
  funext y
  unfold Gen.iblk5
  rw [View.read_apply]
  show V c (Pipeline.arrRef spec5 9) _ = V c (Pipeline.arrRef spec5 9) _
  congr 1
  funext a
  apply Fin.ext
  match a with
  | ⟨0, _⟩ => show win5_9.index t (0 : Fin 2) * 64 + 1 * (y 0).val = (y 0).val; omega
  | ⟨1, _⟩ => show win5_9.index t (1 : Fin 2) * 1 + 1 * (y 1).val = (y 1).val; omega

/-- Window 10's block at every point is its whole array. -/
theorem block5_10 (c : Dev nD) (t : Fin cfg5.N) :
    (Gen.iblk5 V c 10 t : Vec Ideal S1x1 .f32) = (V c (Pipeline.arrRef spec5 10) : S1x1.Idx → EReal) := by
  have e := indexMaps5 t
  funext y
  unfold Gen.iblk5
  rw [View.read_apply]
  show V c (Pipeline.arrRef spec5 10) _ = V c (Pipeline.arrRef spec5 10) _
  congr 1
  funext a
  apply Fin.ext
  match a with
  | ⟨0, _⟩ => show win5_10.index t (0 : Fin 2) * 1 + 1 * (y 0).val = (y 0).val; omega
  | ⟨1, _⟩ => show win5_10.index t (1 : Fin 2) * 1 + 1 * (y 1).val = (y 1).val; omega

/-- The body's result on blocks that are the restrictions of whole arrays is the restriction of the head's whole-array
    function: at row `T · 5000 + p`. -/
theorem body5_restrict (LIN : FVec Ideal S100000x64 .f32) (G BE MU VAR : FVec Ideal S1x64 .f32)
    (XGB : FVec Ideal S100000x1 .f32) (WH : FVec Ideal S64x64 .f32) (WX BF1 : FVec Ideal S1x64 .f32)
    (WF2 : FVec Ideal S64x1 .f32) (BF2 : FVec Ideal S1x1 .f32)
    (x0 : Vec Ideal S5000x64 .f32) (x5 : Vec Ideal S5000x1 .f32) (T : Nat)
    (h0 : ∀ (y : S5000x64.Idx) (k : S100000x64.Idx), (k 0).val = T * 5000 + (y 0).val → (k 1).val = (y 1).val → x0 y = LIN k)
    (h5 : ∀ (y : S5000x1.Idx) (k : S100000x1.Idx), (k 0).val = T * 5000 + (y 0).val → (k 1).val = (y 1).val → x5 y = XGB k)
    (p : Fin 5000) (q : Fin 1) (i : S100000x1.Idx) (hi0 : (i 0).val = T * 5000 + p.val) (hi1 : (i 1).val = q.val) :
    Gen.k5_pay1 (Gen.k5_pay2 VAR x0 MU G BE WH x5 WX) (Gen.k5_pay3 BF1) WF2 BF2 (ix2 p q)
      = fusion LIN G BE MU VAR XGB WH WX BF1 WF2 BF2 i := by
  have hq0 : q = (0 : Fin 1) := Fin.ext (by have := q.isLt; omega)
  subst hq0
  have hq : i 1 = (0 : Fin 1) := Fin.ext hi1
  have e0 : ∀ k : Fin 64, x0 (ix2 p k) = LIN (ix2 (i 0) k) := fun k => h0 _ _ hi0 rfl
  have e5 : x5 (ix2 p (0 : Fin 1)) = XGB (ix2 (i 0) (0 : Fin 1)) := h5 _ _ hi0 rfl
  rw [top5_apply]
  unfold fusion fusionMid fusionHidden
  simp only [bias5_eq, mid5_apply, e0, e5, hq]

set_option maxHeartbeats 2000000 in
/-- What point `t` writes back is block `t` of the head's whole-array function of the arrays as the region finds them. -/
theorem flushed5 (c : Dev nD) (t : Fin cfg5.N) :
    (Gen.dat5 (F := Ideal) V c).flushed 11 t
      = ((cfg5.win 11).blk t).view.read (Elt Ideal)
          (fusion (V c (Pipeline.arrRef spec5 0)) (V c (Pipeline.arrRef spec5 1)) (V c (Pipeline.arrRef spec5 2))
            (V c (Pipeline.arrRef spec5 3)) (V c (Pipeline.arrRef spec5 4)) (V c (Pipeline.arrRef spec5 5))
            (V c (Pipeline.arrRef spec5 6)) (V c (Pipeline.arrRef spec5 7)) (V c (Pipeline.arrRef spec5 8))
            (V c (Pipeline.arrRef spec5 9)) (V c (Pipeline.arrRef spec5 10))) := by
  show (cfg5.win 11).cut (grid5.coords t) ((Gen.dat5 V c).after 11 t) = _
  rw [Gen.after5_11]
  unfold Gen.out5_11
  rw [View.canon_unit_zero zeroOffsets5]
  simp only [View.ld_unit_zero (S := S5000x64) zeroOffsets5, View.ld_unit_zero (S := S5000x1) zeroOffsets5,
    View.ld_unit_zero (S := S64x64) zeroOffsets5, View.ld_unit_zero (S := S1x64) zeroOffsets5,
    View.ld_unit_zero (S := S64x1) zeroOffsets5, View.ld_unit_zero (S := S1x1) zeroOffsets5]
  rw [block5_1 V c t, block5_2 V c t, block5_3 V c t, block5_4 V c t, block5_6 V c t, block5_7 V c t, block5_8 V c t,
    block5_9 V c t, block5_10 V c t]
  have e := indexMaps5 t
  funext j
  have hj : j = ix2 (j 0) (j 1) := eq_ix2 (n0 := 5000) (n1 := 1) j
  rw [View.read_apply]
  refine (congrArg _ hj).trans ?_
  refine body5_restrict _ _ _ _ _ _ _ _ _ _ _ _ _ t.val (block5_0 V c t) (block5_5 V c t) (j 0) (j 1) _ ?_ ?_
  · show win5_11.index t (0 : Fin 2) * 5000 + 1 * (j 0).val = t.val * 5000 + (j 0).val; omega
  · show win5_11.index t (1 : Fin 2) * 1 + 1 * (j 1).val = (j 1).val; omega

/-- Row `r` of the output lies in the block of point `r / 5000`. -/
theorem cover5 (i : S100000x1.Idx) :
    ∃ t : Fin cfg5.N, (cfg5.win 11).flush t = true ∧ i ∈ ((cfg5.win 11).blk t).view.set := by
  have hN : grid5.N = 20 := Gen.N_5
  have hi0 : (i 0).val < 100000 := (i 0).isLt
  have hi1 : (i 1).val < 1 := (i 1).isLt
  have hlt : (i 0).val / 5000 < cfg5.N := by show (i 0).val / 5000 < grid5.N; omega
  have e := indexMaps5 ⟨(i 0).val / 5000, hlt⟩
  have ht : (⟨(i 0).val / 5000, hlt⟩ : Fin cfg5.N).val = (i 0).val / 5000 := rfl
  refine ⟨⟨(i 0).val / 5000, hlt⟩, Gen.flush5_11 _, ?_⟩
  show i ∈ ((View.whole main_v129).slice (win5_11.rect ⟨(i 0).val / 5000, hlt⟩)).set
  rw [View.set_slice_whole, Rect.mem_set_unit]
  intro a
  match a with
  | ⟨0, _⟩ =>
    show win5_11.index ⟨(i 0).val / 5000, hlt⟩ (0 : Fin 2) * 5000 ≤ (i 0).val
      ∧ (i 0).val < win5_11.index ⟨(i 0).val / 5000, hlt⟩ (0 : Fin 2) * 5000 + 5000
    omega
  | ⟨1, _⟩ =>
    show win5_11.index ⟨(i 0).val / 5000, hlt⟩ (1 : Fin 2) * 1 ≤ (i 1).val
      ∧ (i 1).val < win5_11.index ⟨(i 0).val / 5000, hlt⟩ (1 : Fin 2) * 1 + 1
    omega

/-- After the region's run its output array is the head's whole-array function of the arrays as the region finds them. -/
theorem arr5 (c : Dev nD) :
    (Gen.dat5 (F := Ideal) V c).arrAt 11 cfg5.N
      = fusion (V c (Pipeline.arrRef spec5 0)) (V c (Pipeline.arrRef spec5 1)) (V c (Pipeline.arrRef spec5 2))
          (V c (Pipeline.arrRef spec5 3)) (V c (Pipeline.arrRef spec5 4)) (V c (Pipeline.arrRef spec5 5))
          (V c (Pipeline.arrRef spec5 6)) (V c (Pipeline.arrRef spec5 7)) (V c (Pipeline.arrRef spec5 8))
          (V c (Pipeline.arrRef spec5 9)) (V c (Pipeline.arrRef spec5 10)) :=
  (Gen.dat5 V c).arrAt_eq_of_cover 11 _ (fun t _ => flushed5 V c t) (fun i => cover5 i)

end Cert.KernelIdeal.Reg

end
-- ==== Proof.KerTail.lean ====
import proofs.«136404_j80470507258311_2_alg».proof.Proof.KerBase
import proofs.«136404_j80470507258311_2_alg».proof.Proof.SpecK
import proofs.«136404_j80470507258311_2_alg».proof.Proof.Reg5

set_option maxRecDepth 16384

noncomputable section

/-! The last stretch of the kernel program: from the third layer's linear part `L` (the output array of the fifth
    region) the host computes the column mean and the clamped column variance of `L`, lays the per-feature vectors
    out as rows, the score vector as a column, cuts the head matrix into its first 64 rows and its last row; the
    sixth region is the fused normalisation and head on these; the result column is read back as a vector. -/

namespace Cert.KernelIdeal.KerRun

open Idealize.ShloMosaic Idealize.ShloMosaic.TcCoe Idealize.SL.Sem
open Idealize.ShloMosaic.StableHlo
open Cert.Spec (Arr)
open Cert.KernelIdeal.Facts₀

section Stretch
attribute [local irreducible] Host.gather Host.scatterAdd Host.reduceAdd Host.divf maximumf select cmpf cmpi addi subf mulf
  sitofp broadcastInDim constant constantI extractStridedSlice shapeCast Host.rsqrt

variable (V : Valuation τ sig (Elt Ideal))

/-- The contents after the three host stretches before the sixth region, from contents `V`. -/
abbrev tailEntry : Valuation τ sig (Elt Ideal) := after Gen.hostOps5_2 (after Gen.hostOps5_1 (after Gen.hostOps5 V))

theorem tail_w0 : (tailEntry V (Proc.devRef .tc main_v113) : Arr Ideal S100000x64 .f32) = V (Proc.devRef .tc main_v113) := by
  after_results
theorem tail_w1 : (tailEntry V (Proc.devRef .tc main_v121) : Arr Ideal S1x64 .f32) = Cert.Spec.row64 (V (Proc.devRef .tc main_arg16)) := by
  after_results; rfl
theorem tail_w3 : (tailEntry V (Proc.devRef .tc main_v123) : Arr Ideal S1x64 .f32)
    = Cert.Spec.row64 (Cert.Spec.meanF (V (Proc.devRef .tc main_v113))) := by
  after_results; rfl
set_option maxHeartbeats 4000000 in
theorem tail_w4 : (tailEntry V (Proc.devRef .tc main_v124) : Arr Ideal S1x64 .f32)
    = Cert.Spec.row64 (Cert.Spec.varK (V (Proc.devRef .tc main_v113))) := by
  after_results
  unfold Cert.Spec.varK Cert.Spec.varF Cert.Spec.varDen Cert.Spec.dev Cert.Spec.colSum
  rfl

theorem tail_w2 : (tailEntry V (Proc.devRef .tc main_v122) : Arr Ideal S1x64 .f32) = Cert.Spec.row64 (V (Proc.devRef .tc main_arg17)) := by
  after_results; rfl
theorem tail_w5 : (tailEntry V (Proc.devRef .tc main_v120) : Arr Ideal S100000x1 .f32)
    = shapeCast S100000x1 (V (Proc.devRef .tc main_arg2) : Arr Ideal S100000 .f32) shapeCasts_S100000_S100000x1 := by
  after_results; rfl
theorem tail_w6 : (tailEntry V (Proc.devRef .tc main_v125) : Arr Ideal S64x64 .f32)
    = extractStridedSlice S64x64 ![0, 0] (V (Proc.devRef .tc main_arg18) : Arr Ideal S65x64 .f32) slices_S65x64_S64x64_0_0 := by
  after_results
theorem tail_w7 : (tailEntry V (Proc.devRef .tc main_v126) : Arr Ideal S1x64 .f32)
    = extractStridedSlice S1x64 ![64, 0] (V (Proc.devRef .tc main_arg18) : Arr Ideal S65x64 .f32) slices_S65x64_S1x64_64_0 := by
  after_results
theorem tail_w8 : (tailEntry V (Proc.devRef .tc main_v127) : Arr Ideal S1x64 .f32) = Cert.Spec.row64 (V (Proc.devRef .tc main_arg19)) := by
  after_results; rfl
theorem tail_w9 : (tailEntry V (Proc.devRef .tc main_arg20) : Arr Ideal S64x1 .f32) = V (Proc.devRef .tc main_arg20) := by
  after_results
theorem tail_w10 : (tailEntry V (Proc.devRef .tc main_v128) : Arr Ideal S1x1 .f32)
    = shapeCast S1x1 (V (Proc.devRef .tc main_arg21) : Arr Ideal S1 .f32) shapeCasts_S1_S1x1 := by
  after_results; rfl

/-- The result vector is the sixth region's output column read back as a vector. -/
theorem tail_out (V : Valuation τ sig (Elt Ideal)) : (after Gen.hostOps6 V (Proc.devRef .tc main_v130) : Arr Ideal S100000 .f32)
    = shapeCast S100000 (V (Proc.devRef .tc main_v129) : Arr Ideal S100000x1 .f32) shapeCasts_S100000x1_S100000 := by
  after_results; rfl

end Stretch

variable (m : (ℓ : Loc nD τ sig) → Buf (Elt Ideal) ℓ) (ρ : Dev nD → PrngReg) (c : Dev nD)

/-- No operation after the fifth region writes an argument array. -/
theorem arg2_at20 : Gen.W20 m ρ c (Proc.devRef .tc main_arg2) = m ((c : Thread nD τ).loc main_arg2) := by
  have h : Gen.W25 m ρ c (Proc.devRef .tc main_arg2) = Gen.W20 m ρ c (Proc.devRef .tc main_arg2) := by
    down; hop; down
  exact h.symm.trans (Gen.W25_main_arg2 m ρ c)
theorem arg16_at20 : Gen.W20 m ρ c (Proc.devRef .tc main_arg16) = m ((c : Thread nD τ).loc main_arg16) := by
  have h : Gen.W25 m ρ c (Proc.devRef .tc main_arg16) = Gen.W20 m ρ c (Proc.devRef .tc main_arg16) := by
    down; hop; down
  exact h.symm.trans (Gen.W25_main_arg16 m ρ c)
theorem arg17_at20 : Gen.W20 m ρ c (Proc.devRef .tc main_arg17) = m ((c : Thread nD τ).loc main_arg17) := by
  have h : Gen.W25 m ρ c (Proc.devRef .tc main_arg17) = Gen.W20 m ρ c (Proc.devRef .tc main_arg17) := by
    down; hop; down
  exact h.symm.trans (Gen.W25_main_arg17 m ρ c)
theorem arg18_at20 : Gen.W20 m ρ c (Proc.devRef .tc main_arg18) = m ((c : Thread nD τ).loc main_arg18) := by
  have h : Gen.W25 m ρ c (Proc.devRef .tc main_arg18) = Gen.W20 m ρ c (Proc.devRef .tc main_arg18) := by
    down; hop; down
  exact h.symm.trans (Gen.W25_main_arg18 m ρ c)
theorem arg19_at20 : Gen.W20 m ρ c (Proc.devRef .tc main_arg19) = m ((c : Thread nD τ).loc main_arg19) := by
  have h : Gen.W25 m ρ c (Proc.devRef .tc main_arg19) = Gen.W20 m ρ c (Proc.devRef .tc main_arg19) := by
    down; hop; down
  exact h.symm.trans (Gen.W25_main_arg19 m ρ c)
set_option maxHeartbeats 2000000 in
theorem arg20_at20 : Gen.W20 m ρ c (Proc.devRef .tc main_arg20) = m ((c : Thread nD τ).loc main_arg20) := by
  read_down
theorem arg21_at20 : Gen.W20 m ρ c (Proc.devRef .tc main_arg21) = m ((c : Thread nD τ).loc main_arg21) := by
  have h : Gen.W25 m ρ c (Proc.devRef .tc main_arg21) = Gen.W20 m ρ c (Proc.devRef .tc main_arg21) := by
    down; hop; down
  exact h.symm.trans (Gen.W25_main_arg21 m ρ c)

/-- From the third layer's linear part at the fifth region's exit to the program's result. -/
theorem tail (L : Arr Ideal S100000x64 .f32) (hL : (Gen.W20 m ρ c (Proc.devRef .tc main_v113) : Arr Ideal S100000x64 .f32) = L) :
    (Gen.W25 m ρ c (Proc.devRef .tc main_v130) : Arr Ideal S100000 .f32)
      = shapeCast S100000 (Cert.Spec.headK L (KerHost.argsOf m c).g3 (KerHost.argsOf m c).be3 (KerHost.argsOf m c).xgb
          (KerHost.argsOf m c).Wf1 (KerHost.argsOf m c).bf1 (KerHost.argsOf m c).Wf2 (KerHost.argsOf m c).bf2) shapeCasts_S100000x1_S100000 := by
  have hreg : Gen.W24 m ρ c (Proc.devRef .tc main_v129)
      = Cert.RegSpec.fusion (tailEntry (Gen.W20 m ρ c) (Proc.devRef .tc main_v113)) (tailEntry (Gen.W20 m ρ c) (Proc.devRef .tc main_v121))
          (tailEntry (Gen.W20 m ρ c) (Proc.devRef .tc main_v122)) (tailEntry (Gen.W20 m ρ c) (Proc.devRef .tc main_v123))
          (tailEntry (Gen.W20 m ρ c) (Proc.devRef .tc main_v124)) (tailEntry (Gen.W20 m ρ c) (Proc.devRef .tc main_v120))
          (tailEntry (Gen.W20 m ρ c) (Proc.devRef .tc main_v125)) (tailEntry (Gen.W20 m ρ c) (Proc.devRef .tc main_v126))
          (tailEntry (Gen.W20 m ρ c) (Proc.devRef .tc main_v127)) (tailEntry (Gen.W20 m ρ c) (Proc.devRef .tc main_arg20))
          (tailEntry (Gen.W20 m ρ c) (Proc.devRef .tc main_v128)) :=
    (Gen.W24_arr m ρ c 11).trans (Cert.KernelIdeal.Reg.arr5 (Gen.V23 m ρ) c)
  show (after Gen.hostOps6 (Gen.W24 m ρ c) (Proc.devRef .tc main_v130) : Arr Ideal S100000 .f32) = _
  rw [tail_out, hreg, tail_w0, tail_w1, tail_w2, tail_w3, tail_w4, tail_w5, tail_w6, tail_w7, tail_w8, tail_w9, tail_w10,
    hL, arg2_at20, arg16_at20, arg17_at20, arg18_at20, arg19_at20, arg20_at20, arg21_at20]
  rfl

end Cert.KernelIdeal.KerRun

end
-- ==== Proof.KerRead.lean ====
import proofs.«136404_j80470507258311_2_alg».proof.Proof.KerL1
import proofs.«136404_j80470507258311_2_alg».proof.Proof.KerL2
import proofs.«136404_j80470507258311_2_alg».proof.Proof.KerL3
import proofs.«136404_j80470507258311_2_alg».proof.Proof.KerTail

noncomputable section

/-! The kernel program's result read back through every boundary of its run: the four stages (first layer with its
    normalisation; second layer with its normalisation; third layer's linear part; statistics and fused head)
    composed, each stage's input being the previous stage's output array. -/

namespace Cert.KernelIdeal.KerRun

open Idealize.ShloMosaic Idealize.ShloMosaic.TcCoe Idealize.SL.Sem

variable (m : (ℓ : Loc nD τ sig) → Buf (Elt Ideal) ℓ) (ρ : Dev nD → PrngReg) (c : Dev nD)

/-- At the last boundary the result buffer holds the kernel's composition of the launch arguments. -/
theorem ker_value :
    Gen.W25 m ρ c (Proc.devRef .tc main_v130) = Cert.Spec.outK (KerHost.argsOf m c) :=
  (tail m ρ c _ (layer3 m ρ c _ (layer2 m ρ c _ (layer1 m ρ c)))).trans (by
    unfold Cert.Spec.outK Cert.Spec.lin3K Cert.Spec.h2K Cert.Spec.lin2K
    rfl)

end Cert.KernelIdeal.KerRun

end
-- ==== Proof.RefOpsTable.lean ====
import proofs.«136404_j80470507258311_2_alg».proof.Proof.Gen.ReferenceIdeal
import Idealize.ShloMosaic.Lib.StableHlo.Run

/-! The reference program's @main as lists of host operations in program order: one list per printed window, each the
    concatenation of shorter segments (a segment ends where a stretch of the computation ends, and at a window's end).
    A call of a module-local function (clip, _var with its inner _where, relu) stands as that function's own lines, its
    parameters replaced by the call's operands and its buffer record by the call's record. Beside each segment segK,
    wrK lists the buffer each of its operations writes, in the same order. A table: nothing is proved here. -/

noncomputable section

namespace Cert.ReferenceIdeal.RefRun

open Cert.ReferenceIdeal Cert.ReferenceIdeal.Gen Idealize.ShloMosaic Idealize.ShloMosaic.TcCoe Idealize.SL.Sem

variable {F : FTy → Type} [FloatOps F]

/-- @main's operations 0 … 3 (counted from 0), in window main_part0. -/
abbrev seg00 : List (HloOp τ sig (Elt F)) :=
  [ StableHlo.unary main_arg1 main_v0 ((extractStridedSlice S1x1200000 ![0, 0] · slices_S2x1200000_S1x1200000_0_0) : (⟨S2x1200000, .i32⟩ : BufTy).Contents (Elt F) → (⟨S1x1200000, .i32⟩ : BufTy).Contents (Elt F)),
    StableHlo.reshape main_v0 main_v1 rfl shapeCasts_S1x1200000_S1200000,
    StableHlo.unary main_arg1 main_v2 ((extractStridedSlice S1x1200000 ![1, 0] · slices_S2x1200000_S1x1200000_1_0) : (⟨S2x1200000, .i32⟩ : BufTy).Contents (Elt F) → (⟨S1x1200000, .i32⟩ : BufTy).Contents (Elt F)),
    StableHlo.reshape main_v2 main_v3 rfl shapeCasts_S1x1200000_S1200000 ]
/-- The buffers that the operations of seg00 write, in order. -/
abbrev wr00 : List (Ref sig .tc) := [main_v0, main_v1, main_v2, main_v3]

/-- @main's operations 4 … 11 (counted from 0), in window main_part0. -/
abbrev seg01 : List (HloOp τ sig (Elt F)) :=
  [ StableHlo.nullary main_c (constantI S_ 32 0#32),
    StableHlo.unary main_c main_v4 (broadcastInDim S1200000 ![] bcast_S_S1200000 : (⟨S_, .i32⟩ : BufTy).Contents (Elt F) → (⟨S1200000, .i32⟩ : BufTy).Contents (Elt F)),
    StableHlo.binary main_v1 main_v4 main_v5 (cmpi .slt : (⟨S1200000, .i32⟩ : BufTy).Contents (Elt F) → (⟨S1200000, .i32⟩ : BufTy).Contents (Elt F) → (⟨S1200000, .i1⟩ : BufTy).Contents (Elt F)),
    StableHlo.nullary main_c_0 (constantI S_ 32 100000#32),
    StableHlo.unary main_c_0 main_v6 (broadcastInDim S1200000 ![] bcast_S_S1200000 : (⟨S_, .i32⟩ : BufTy).Contents (Elt F) → (⟨S1200000, .i32⟩ : BufTy).Contents (Elt F)),
    StableHlo.binary main_v1 main_v6 main_v7 (addi : (⟨S1200000, .i32⟩ : BufTy).Contents (Elt F) → (⟨S1200000, .i32⟩ : BufTy).Contents (Elt F) → (⟨S1200000, .i32⟩ : BufTy).Contents (Elt F)),
    StableHlo.ternary main_v5 main_v7 main_v1 main_v8 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    StableHlo.unary main_v8 main_v9 (broadcastInDim S1200000x1 ![0] bcast_S1200000_S1200000x1_0 : (⟨S1200000, .i32⟩ : BufTy).Contents (Elt F) → (⟨S1200000x1, .i32⟩ : BufTy).Contents (Elt F)) ]
/-- The buffers that the operations of seg01 write, in order. -/
abbrev wr01 : List (Ref sig .tc) := [main_c, main_v4, main_v5, main_c_0, main_v6, main_v7, main_v8, main_v9]

/-- @main's operations 12 … 16 (counted from 0), in window main_part0. -/
abbrev seg02 : List (HloOp τ sig (Elt F)) :=
  [ StableHlo.binary main_arg0 main_v9 main_v10 ((fun x i => Host.gather gather_S100000x128_S1200000x1_S1200000x128_1_0_n_n_0_1_1128 x i) : (⟨S100000x128, .f32⟩ : BufTy).Contents (Elt F) → (⟨S1200000x1, .i32⟩ : BufTy).Contents (Elt F) → (⟨S1200000x128, .f32⟩ : BufTy).Contents (Elt F)),
    StableHlo.nullary main_cst (constant S_ .f32 0x00000000#32),
    StableHlo.unary main_cst main_v11 (broadcastInDim S100000x128 ![] bcast_S_S100000x128 : (⟨S_, .f32⟩ : BufTy).Contents (Elt F) → (⟨S100000x128, .f32⟩ : BufTy).Contents (Elt F)),
    StableHlo.unary main_v3 main_v12 (broadcastInDim S1200000x1 ![0] bcast_S1200000_S1200000x1_0 : (⟨S1200000, .i32⟩ : BufTy).Contents (Elt F) → (⟨S1200000x1, .i32⟩ : BufTy).Contents (Elt F)),
    StableHlo.ternary main_v11 main_v12 main_v10 main_v13 ((fun x i u => Host.scatterAdd scatter_S100000x128_S1200000x1_S1200000x128_1_0_0_1 x i u) : (⟨S100000x128, .f32⟩ : BufTy).Contents (Elt F) → (⟨S1200000x1, .i32⟩ : BufTy).Contents (Elt F) → (⟨S1200000x128, .f32⟩ : BufTy).Contents (Elt F) → (⟨S100000x128, .f32⟩ : BufTy).Contents (Elt F)) ]
/-- The buffers that the operations of seg02 write, in order. -/
abbrev wr02 : List (Ref sig .tc) := [main_v10, main_cst, main_v11, main_v12, main_v13]

/-- @main's operations 17 … 26 (counted from 0), in window main_part0. -/
abbrev seg03 : List (HloOp τ sig (Elt F)) :=
  [ StableHlo.nullary main_cst_1 (constant S_ .f32 0x3F800000#32),
    StableHlo.unary main_cst_1 main_v14 (broadcastInDim S1200000 ![] bcast_S_S1200000 : (⟨S_, .f32⟩ : BufTy).Contents (Elt F) → (⟨S1200000, .f32⟩ : BufTy).Contents (Elt F)),
    StableHlo.nullary main_cst_2 (constant S_ .f32 0x00000000#32),
    StableHlo.unary main_cst_2 main_v15 (broadcastInDim S100000 ![] bcast_S_S100000 : (⟨S_, .f32⟩ : BufTy).Contents (Elt F) → (⟨S100000, .f32⟩ : BufTy).Contents (Elt F)),
    StableHlo.unary main_v3 main_v16 (broadcastInDim S1200000x1 ![0] bcast_S1200000_S1200000x1_0 : (⟨S1200000, .i32⟩ : BufTy).Contents (Elt F) → (⟨S1200000x1, .i32⟩ : BufTy).Contents (Elt F)),
    StableHlo.ternary main_v15 main_v16 main_v14 main_v17 ((fun x i u => Host.scatterAdd scatter_S100000_S1200000x1_S1200000_n_0_0_1 x i u) : (⟨S100000, .f32⟩ : BufTy).Contents (Elt F) → (⟨S1200000x1, .i32⟩ : BufTy).Contents (Elt F) → (⟨S1200000, .f32⟩ : BufTy).Contents (Elt F) → (⟨S100000, .f32⟩ : BufTy).Contents (Elt F)),
    StableHlo.nullary main_cst_3 (constant S_ .f32 0x3F800000#32),
    StableHlo.TRef.unary (.of main_cst_3) main_call0.v0 id,
    StableHlo.TRef.unary main_call0.v0 main_call0.v1 (broadcastInDim S100000 ![] bcast_S_S100000),
    StableHlo.TRef.binary main_call0.v1 (.of main_v17) main_call0.v2 maximumf ]
/-- The buffers that the operations of seg03 write, in order. -/
abbrev wr03 : List (Ref sig .tc) := [main_cst_1, main_v14, main_cst_2, main_v15, main_v16, main_v17, main_cst_3, main_call0.v0.ref, main_call0.v1.ref, main_call0.v2.ref]

/-- @main's operations 27 … 35 (counted from 0), in window main_part0. -/
abbrev seg04 : List (HloOp τ sig (Elt F)) :=
  [ StableHlo.unary main_v18 main_v19 (broadcastInDim S100000x1 ![0] bcast_S100000_S100000x1_0 : (⟨S100000, .f32⟩ : BufTy).Contents (Elt F) → (⟨S100000x1, .f32⟩ : BufTy).Contents (Elt F)),
    StableHlo.unary main_v19 main_v20 (broadcastInDim S100000x128 ![0, 1] bcast_S100000x1_S100000x128_0_1 : (⟨S100000x1, .f32⟩ : BufTy).Contents (Elt F) → (⟨S100000x128, .f32⟩ : BufTy).Contents (Elt F)),
    StableHlo.binary main_v13 main_v20 main_v21 (Host.divf : (⟨S100000x128, .f32⟩ : BufTy).Contents (Elt F) → (⟨S100000x128, .f32⟩ : BufTy).Contents (Elt F) → (⟨S100000x128, .f32⟩ : BufTy).Contents (Elt F)),
    StableHlo.binary main_v21 main_arg3 main_v22 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg4 main_v23 (broadcastInDim S1x64 ![1] bcast_S64_S1x64_1 : (⟨S64, .f32⟩ : BufTy).Contents (Elt F) → (⟨S1x64, .f32⟩ : BufTy).Contents (Elt F)),
    StableHlo.unary main_v23 main_v24 (broadcastInDim S100000x64 ![0, 1] bcast_S1x64_S100000x64_0_1 : (⟨S1x64, .f32⟩ : BufTy).Contents (Elt F) → (⟨S100000x64, .f32⟩ : BufTy).Contents (Elt F)),
    StableHlo.binary main_v22 main_v24 main_v25 (addf : (⟨S100000x64, .f32⟩ : BufTy).Contents (Elt F) → (⟨S100000x64, .f32⟩ : BufTy).Contents (Elt F) → (⟨S100000x64, .f32⟩ : BufTy).Contents (Elt F)),
    StableHlo.binary main_arg0 main_arg5 main_v26 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.binary main_v25 main_v26 main_v27 (addf : (⟨S100000x64, .f32⟩ : BufTy).Contents (Elt F) → (⟨S100000x64, .f32⟩ : BufTy).Contents (Elt F) → (⟨S100000x64, .f32⟩ : BufTy).Contents (Elt F)) ]
/-- The buffers that the operations of seg04 write, in order. -/
abbrev wr04 : List (Ref sig .tc) := [main_v19, main_v20, main_v21, main_v22, main_v23, main_v24, main_v25, main_v26, main_v27]

/-- @main's operations 36 … 40 (counted from 0), in window main_part0. -/
abbrev seg05 : List (HloOp τ sig (Elt F)) :=
  [ StableHlo.nullary main_cst_4 (constant S_ .f32 0x00000000#32),
    StableHlo.binary main_v27 main_cst_4 main_v28 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_5 (constant S_ .f32 0x47C35000#32),
    StableHlo.unary main_cst_5 main_v29 (broadcastInDim S64 ![] bcast_S_S64 : (⟨S_, .f32⟩ : BufTy).Contents (Elt F) → (⟨S64, .f32⟩ : BufTy).Contents (Elt F)),
    StableHlo.binary main_v28 main_v29 main_v30 (Host.divf : (⟨S64, .f32⟩ : BufTy).Contents (Elt F) → (⟨S64, .f32⟩ : BufTy).Contents (Elt F) → (⟨S64, .f32⟩ : BufTy).Contents (Elt F)) ]
/-- The buffers that the operations of seg05 write, in order. -/
abbrev wr05 : List (Ref sig .tc) := [main_cst_4, main_v28, main_cst_5, main_v29, main_v30]

/-- @main's operations 41 … 63 (counted from 0), in window main_part0. -/
abbrev seg06 : List (HloOp τ sig (Elt F)) :=
  [ StableHlo.nullary main_c_6 (constantI S_ 32 0#32),
    StableHlo.TRef.nullary main_call1.cst (constant S_ .f32 0x00000000#32),
    StableHlo.TRef.binary (.of main_v27) main_call1.cst main_call1.v0 (fun x v => Host.reduceAdd x v reducesTo_S100000x64_S64_d0 h_S_),
    StableHlo.TRef.unary main_call1.v0 main_call1.v1 (broadcastInDim S1x64 ![1] bcast_S64_S1x64_1),
    StableHlo.TRef.nullary main_call1.cst_0 (constant S_ .f32 0x47C35000#32),
    StableHlo.TRef.unary main_call1.cst_0 main_call1.v2 (broadcastInDim S1x64 ![] bcast_S_S1x64),
    StableHlo.TRef.binary main_call1.v1 main_call1.v2 main_call1.v3 Host.divf,
    StableHlo.TRef.unary main_call1.v3 main_call1.v4 (broadcastInDim S100000x64 ![0, 1] bcast_S1x64_S100000x64_0_1),
    StableHlo.TRef.binary (.of main_v27) main_call1.v4 main_call1.v5 subf,
    StableHlo.TRef.binary main_call1.v5 main_call1.v5 main_call1.v6 mulf,
    StableHlo.TRef.unary (.of main_c_6) main_call1.v7 (sitofp .f32),
    StableHlo.TRef.nullary main_call1.cst_1 (constant S_ .f32 0x47C35000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S100000x64_S64_d0 h_S_),
    StableHlo.TRef.unary main_call1.v8 main_call1.v10 (broadcastInDim S64 ![] bcast_S_S64),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S64 ![] bcast_S_S64),
    StableHlo.TRef.ternary main_call1.v12 main_call1.v11 main_call1.call0.v1 main_call1.call0.v2 (fun p a b => select (broadcastInDim S64 ![] bcast_S_S64 p) a b) ]
/-- The buffers that the operations of seg06 write, in order. -/
abbrev wr06 : List (Ref sig .tc) := [main_c_6, main_call1.cst.ref, main_call1.v0.ref, main_call1.v1.ref, main_call1.cst_0.ref, main_call1.v2.ref, main_call1.v3.ref, main_call1.v4.ref, main_call1.v5.ref, main_call1.v6.ref, main_call1.v7.ref, main_call1.cst_1.ref, main_call1.v8.ref, main_call1.cst_2.ref, main_call1.v9.ref, main_call1.v10.ref, main_call1.v11.ref, main_call1.cst_3.ref, main_call1.v12.ref, main_call1.cst_4.ref, main_call1.call0.v0.ref, main_call1.call0.v1.ref, main_call1.call0.v2.ref]

/-- @main's operations 64 … 82 (counted from 0), in window main_part0. -/
abbrev seg07 : List (HloOp τ sig (Elt F)) :=
  [ StableHlo.unary main_v30 main_v32 (broadcastInDim S1x64 ![1] bcast_S64_S1x64_1 : (⟨S64, .f32⟩ : BufTy).Contents (Elt F) → (⟨S1x64, .f32⟩ : BufTy).Contents (Elt F)),
    StableHlo.unary main_v32 main_v33 (broadcastInDim S100000x64 ![0, 1] bcast_S1x64_S100000x64_0_1 : (⟨S1x64, .f32⟩ : BufTy).Contents (Elt F) → (⟨S100000x64, .f32⟩ : BufTy).Contents (Elt F)),
    StableHlo.binary main_v27 main_v33 main_v34 (subf : (⟨S100000x64, .f32⟩ : BufTy).Contents (Elt F) → (⟨S100000x64, .f32⟩ : BufTy).Contents (Elt F) → (⟨S100000x64, .f32⟩ : BufTy).Contents (Elt F)),
    StableHlo.nullary main_cst_7 (constant S_ .f32 0x3727C5AC#32),
    StableHlo.unary main_cst_7 main_v35 (broadcastInDim S64 ![] bcast_S_S64 : (⟨S_, .f32⟩ : BufTy).Contents (Elt F) → (⟨S64, .f32⟩ : BufTy).Contents (Elt F)),
    StableHlo.binary main_v31 main_v35 main_v36 (addf : (⟨S64, .f32⟩ : BufTy).Contents (Elt F) → (⟨S64, .f32⟩ : BufTy).Contents (Elt F) → (⟨S64, .f32⟩ : BufTy).Contents (Elt F)),
    StableHlo.unary main_v36 main_v37 (Host.rsqrt : (⟨S64, .f32⟩ : BufTy).Contents (Elt F) → (⟨S64, .f32⟩ : BufTy).Contents (Elt F)),
    StableHlo.unary main_v37 main_v38 (broadcastInDim S1x64 ![1] bcast_S64_S1x64_1 : (⟨S64, .f32⟩ : BufTy).Contents (Elt F) → (⟨S1x64, .f32⟩ : BufTy).Contents (Elt F)),
    StableHlo.unary main_v38 main_v39 (broadcastInDim S100000x64 ![0, 1] bcast_S1x64_S100000x64_0_1 : (⟨S1x64, .f32⟩ : BufTy).Contents (Elt F) → (⟨S100000x64, .f32⟩ : BufTy).Contents (Elt F)),
    StableHlo.binary main_v34 main_v39 main_v40 (mulf : (⟨S100000x64, .f32⟩ : BufTy).Contents (Elt F) → (⟨S100000x64, .f32⟩ : BufTy).Contents (Elt F) → (⟨S100000x64, .f32⟩ : BufTy).Contents (Elt F)),
    StableHlo.unary main_arg6 main_v41 (broadcastInDim S1x64 ![1] bcast_S64_S1x64_1 : (⟨S64, .f32⟩ : BufTy).Contents (Elt F) → (⟨S1x64, .f32⟩ : BufTy).Contents (Elt F)),
    StableHlo.unary main_v41 main_v42 (broadcastInDim S100000x64 ![0, 1] bcast_S1x64_S100000x64_0_1 : (⟨S1x64, .f32⟩ : BufTy).Contents (Elt F) → (⟨S100000x64, .f32⟩ : BufTy).Contents (Elt F)),
    StableHlo.binary main_v40 main_v42 main_v43 (mulf : (⟨S100000x64, .f32⟩ : BufTy).Contents (Elt F) → (⟨S100000x64, .f32⟩ : BufTy).Contents (Elt F) → (⟨S100000x64, .f32⟩ : BufTy).Contents (Elt F)),
    StableHlo.unary main_arg7 main_v44 (broadcastInDim S1x64 ![1] bcast_S64_S1x64_1 : (⟨S64, .f32⟩ : BufTy).Contents (Elt F) → (⟨S1x64, .f32⟩ : BufTy).Contents (Elt F)),
    StableHlo.unary main_v44 main_v45 (broadcastInDim S100000x64 ![0, 1] bcast_S1x64_S100000x64_0_1 : (⟨S1x64, .f32⟩ : BufTy).Contents (Elt F) → (⟨S100000x64, .f32⟩ : BufTy).Contents (Elt F)),
    StableHlo.binary main_v43 main_v45 main_v46 (addf : (⟨S100000x64, .f32⟩ : BufTy).Contents (Elt F) → (⟨S100000x64, .f32⟩ : BufTy).Contents (Elt F) → (⟨S100000x64, .f32⟩ : BufTy).Contents (Elt F)),
    StableHlo.TRef.nullary main_call2.cst (constant S_ .f32 0x00000000#32),
    StableHlo.TRef.unary main_call2.cst main_call2.v0 (broadcastInDim S100000x64 ![] bcast_S_S100000x64),
    StableHlo.TRef.binary (.of main_v46) main_call2.v0 main_call2.v1 maximumf ]
/-- The buffers that the operations of seg07 write, in order. -/
abbrev wr07 : List (Ref sig .tc) := [main_v32, main_v33, main_v34, main_cst_7, main_v35, main_v36, main_v37, main_v38, main_v39, main_v40, main_v41, main_v42, main_v43, main_v44, main_v45, main_v46, main_call2.cst.ref, main_call2.v0.ref, main_call2.v1.ref]

/-- @main's operations 83 … 84 (counted from 0), in window main_part0. -/
abbrev seg08 : List (HloOp τ sig (Elt F)) :=
  [ StableHlo.nullary main_c_8 (constantI S_ 32 0#32),
    StableHlo.unary main_c_8 main_v48 (broadcastInDim S1200000 ![] bcast_S_S1200000 : (⟨S_, .i32⟩ : BufTy).Contents (Elt F) → (⟨S1200000, .i32⟩ : BufTy).Contents (Elt F)) ]
/-- The buffers that the operations of seg08 write, in order. -/
abbrev wr08 : List (Ref sig .tc) := [main_c_8, main_v48]

/-- The 85 operations of window main_part0 of @main, in order. -/
abbrev ops0 : List (HloOp τ sig (Elt F)) :=
  seg00 ++ (seg01 ++ (seg02 ++ (seg03 ++ (seg04 ++ (seg05 ++ (seg06 ++ (seg07 ++ (seg08))))))))
/-- The buffers that the operations of ops0 write, in order. -/
abbrev wrs0 : List (Ref sig .tc) :=
  wr00 ++ (wr01 ++ (wr02 ++ (wr03 ++ (wr04 ++ (wr05 ++ (wr06 ++ (wr07 ++ (wr08))))))))

/-- @main's operations 85 … 90 (counted from 0), in window main_part1. -/
abbrev seg09 : List (HloOp τ sig (Elt F)) :=
  [ StableHlo.binary main_v1 main_v48 main_v49 (cmpi .slt : (⟨S1200000, .i32⟩ : BufTy).Contents (Elt F) → (⟨S1200000, .i32⟩ : BufTy).Contents (Elt F) → (⟨S1200000, .i1⟩ : BufTy).Contents (Elt F)),
    StableHlo.nullary main_c_9 (constantI S_ 32 100000#32),
    StableHlo.unary main_c_9 main_v50 (broadcastInDim S1200000 ![] bcast_S_S1200000 : (⟨S_, .i32⟩ : BufTy).Contents (Elt F) → (⟨S1200000, .i32⟩ : BufTy).Contents (Elt F)),
    StableHlo.binary main_v1 main_v50 main_v51 (addi : (⟨S1200000, .i32⟩ : BufTy).Contents (Elt F) → (⟨S1200000, .i32⟩ : BufTy).Contents (Elt F) → (⟨S1200000, .i32⟩ : BufTy).Contents (Elt F)),
    StableHlo.ternary main_v49 main_v51 main_v1 main_v52 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    StableHlo.unary main_v52 main_v53 (broadcastInDim S1200000x1 ![0] bcast_S1200000_S1200000x1_0 : (⟨S1200000, .i32⟩ : BufTy).Contents (Elt F) → (⟨S1200000x1, .i32⟩ : BufTy).Contents (Elt F)) ]
/-- The buffers that the operations of seg09 write, in order. -/
abbrev wr09 : List (Ref sig .tc) := [main_v49, main_c_9, main_v50, main_v51, main_v52, main_v53]

/-- @main's operations 91 … 95 (counted from 0), in window main_part1. -/
abbrev seg10 : List (HloOp τ sig (Elt F)) :=
  [ StableHlo.binary main_v47 main_v53 main_v54 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    StableHlo.nullary main_cst_10 (constant S_ .f32 0x00000000#32),
    StableHlo.unary main_cst_10 main_v55 (broadcastInDim S100000x64 ![] bcast_S_S100000x64 : (⟨S_, .f32⟩ : BufTy).Contents (Elt F) → (⟨S100000x64, .f32⟩ : BufTy).Contents (Elt F)),
    StableHlo.unary main_v3 main_v56 (broadcastInDim S1200000x1 ![0] bcast_S1200000_S1200000x1_0 : (⟨S1200000, .i32⟩ : BufTy).Contents (Elt F) → (⟨S1200000x1, .i32⟩ : BufTy).Contents (Elt F)),
    StableHlo.ternary main_v55 main_v56 main_v54 main_v57 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)) ]
/-- The buffers that the operations of seg10 write, in order. -/
abbrev wr10 : List (Ref sig .tc) := [main_v54, main_cst_10, main_v55, main_v56, main_v57]

/-- @main's operations 96 … 105 (counted from 0), in window main_part1. -/
abbrev seg11 : List (HloOp τ sig (Elt F)) :=
  [ StableHlo.nullary main_cst_11 (constant S_ .f32 0x3F800000#32),
    StableHlo.unary main_cst_11 main_v58 (broadcastInDim S1200000 ![] bcast_S_S1200000 : (⟨S_, .f32⟩ : BufTy).Contents (Elt F) → (⟨S1200000, .f32⟩ : BufTy).Contents (Elt F)),
    StableHlo.nullary main_cst_12 (constant S_ .f32 0x00000000#32),
    StableHlo.unary main_cst_12 main_v59 (broadcastInDim S100000 ![] bcast_S_S100000 : (⟨S_, .f32⟩ : BufTy).Contents (Elt F) → (⟨S100000, .f32⟩ : BufTy).Contents (Elt F)),
    StableHlo.unary main_v3 main_v60 (broadcastInDim S1200000x1 ![0] bcast_S1200000_S1200000x1_0 : (⟨S1200000, .i32⟩ : BufTy).Contents (Elt F) → (⟨S1200000x1, .i32⟩ : BufTy).Contents (Elt F)),
    StableHlo.ternary main_v59 main_v60 main_v58 main_v61 ((fun x i u => Host.scatterAdd scatter_S100000_S1200000x1_S1200000_n_0_0_1 x i u) : (⟨S100000, .f32⟩ : BufTy).Contents (Elt F) → (⟨S1200000x1, .i32⟩ : BufTy).Contents (Elt F) → (⟨S1200000, .f32⟩ : BufTy).Contents (Elt F) → (⟨S100000, .f32⟩ : BufTy).Contents (Elt F)),
    StableHlo.nullary main_cst_13 (constant S_ .f32 0x3F800000#32),
    StableHlo.TRef.unary (.of main_cst_13) main_call3.v0 id,
    StableHlo.TRef.unary main_call3.v0 main_call3.v1 (broadcastInDim S100000 ![] bcast_S_S100000),
    StableHlo.TRef.binary main_call3.v1 (.of main_v61) main_call3.v2 maximumf ]
/-- The buffers that the operations of seg11 write, in order. -/
abbrev wr11 : List (Ref sig .tc) := [main_cst_11, main_v58, main_cst_12, main_v59, main_v60, main_v61, main_cst_13, main_call3.v0.ref, main_call3.v1.ref, main_call3.v2.ref]

/-- @main's operations 106 … 114 (counted from 0), in window main_part1. -/
abbrev seg12 : List (HloOp τ sig (Elt F)) :=
  [ StableHlo.unary main_v62 main_v63 (broadcastInDim S100000x1 ![0] bcast_S100000_S100000x1_0 : (⟨S100000, .f32⟩ : BufTy).Contents (Elt F) → (⟨S100000x1, .f32⟩ : BufTy).Contents (Elt F)),
    StableHlo.unary main_v63 main_v64 (broadcastInDim S100000x64 ![0, 1] bcast_S100000x1_S100000x64_0_1 : (⟨S100000x1, .f32⟩ : BufTy).Contents (Elt F) → (⟨S100000x64, .f32⟩ : BufTy).Contents (Elt F)),
    StableHlo.binary main_v57 main_v64 main_v65 (Host.divf : (⟨S100000x64, .f32⟩ : BufTy).Contents (Elt F) → (⟨S100000x64, .f32⟩ : BufTy).Contents (Elt F) → (⟨S100000x64, .f32⟩ : BufTy).Contents (Elt F)),
    StableHlo.binary main_v65 main_arg8 main_v66 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg9 main_v67 (broadcastInDim S1x64 ![1] bcast_S64_S1x64_1 : (⟨S64, .f32⟩ : BufTy).Contents (Elt F) → (⟨S1x64, .f32⟩ : BufTy).Contents (Elt F)),
    StableHlo.unary main_v67 main_v68 (broadcastInDim S100000x64 ![0, 1] bcast_S1x64_S100000x64_0_1 : (⟨S1x64, .f32⟩ : BufTy).Contents (Elt F) → (⟨S100000x64, .f32⟩ : BufTy).Contents (Elt F)),
    StableHlo.binary main_v66 main_v68 main_v69 (addf : (⟨S100000x64, .f32⟩ : BufTy).Contents (Elt F) → (⟨S100000x64, .f32⟩ : BufTy).Contents (Elt F) → (⟨S100000x64, .f32⟩ : BufTy).Contents (Elt F)),
    StableHlo.binary main_v47 main_arg10 main_v70 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v69 main_v70 main_v71 (addf : (⟨S100000x64, .f32⟩ : BufTy).Contents (Elt F) → (⟨S100000x64, .f32⟩ : BufTy).Contents (Elt F) → (⟨S100000x64, .f32⟩ : BufTy).Contents (Elt F)) ]
/-- The buffers that the operations of seg12 write, in order. -/
abbrev wr12 : List (Ref sig .tc) := [main_v63, main_v64, main_v65, main_v66, main_v67, main_v68, main_v69, main_v70, main_v71]

/-- @main's operations 115 … 119 (counted from 0), in window main_part1. -/
abbrev seg13 : List (HloOp τ sig (Elt F)) :=
  [ StableHlo.nullary main_cst_14 (constant S_ .f32 0x00000000#32),
    StableHlo.binary main_v71 main_cst_14 main_v72 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_15 (constant S_ .f32 0x47C35000#32),
    StableHlo.unary main_cst_15 main_v73 (broadcastInDim S64 ![] bcast_S_S64 : (⟨S_, .f32⟩ : BufTy).Contents (Elt F) → (⟨S64, .f32⟩ : BufTy).Contents (Elt F)),
    StableHlo.binary main_v72 main_v73 main_v74 (Host.divf : (⟨S64, .f32⟩ : BufTy).Contents (Elt F) → (⟨S64, .f32⟩ : BufTy).Contents (Elt F) → (⟨S64, .f32⟩ : BufTy).Contents (Elt F)) ]
/-- The buffers that the operations of seg13 write, in order. -/
abbrev wr13 : List (Ref sig .tc) := [main_cst_14, main_v72, main_cst_15, main_v73, main_v74]

/-- @main's operations 120 … 142 (counted from 0), in window main_part1. -/
abbrev seg14 : List (HloOp τ sig (Elt F)) :=
  [ StableHlo.nullary main_c_16 (constantI S_ 32 0#32),
    StableHlo.TRef.nullary main_call4.cst (constant S_ .f32 0x00000000#32),
    StableHlo.TRef.binary (.of main_v71) main_call4.cst main_call4.v0 (fun x v => Host.reduceAdd x v reducesTo_S100000x64_S64_d0 h_S_),
    StableHlo.TRef.unary main_call4.v0 main_call4.v1 (broadcastInDim S1x64 ![1] bcast_S64_S1x64_1),
    StableHlo.TRef.nullary main_call4.cst_0 (constant S_ .f32 0x47C35000#32),
    StableHlo.TRef.unary main_call4.cst_0 main_call4.v2 (broadcastInDim S1x64 ![] bcast_S_S1x64),
    StableHlo.TRef.binary main_call4.v1 main_call4.v2 main_call4.v3 Host.divf,
    StableHlo.TRef.unary main_call4.v3 main_call4.v4 (broadcastInDim S100000x64 ![0, 1] bcast_S1x64_S100000x64_0_1),
    StableHlo.TRef.binary (.of main_v71) main_call4.v4 main_call4.v5 subf,
    StableHlo.TRef.binary main_call4.v5 main_call4.v5 main_call4.v6 mulf,
    StableHlo.TRef.unary (.of main_c_16) main_call4.v7 (sitofp .f32),
    StableHlo.TRef.nullary main_call4.cst_1 (constant S_ .f32 0x47C35000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S100000x64_S64_d0 h_S_),
    StableHlo.TRef.unary main_call4.v8 main_call4.v10 (broadcastInDim S64 ![] bcast_S_S64),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S64 ![] bcast_S_S64),
    StableHlo.TRef.ternary main_call4.v12 main_call4.v11 main_call4.call0.v1 main_call4.call0.v2 (fun p a b => select (broadcastInDim S64 ![] bcast_S_S64 p) a b) ]
/-- The buffers that the operations of seg14 write, in order. -/
abbrev wr14 : List (Ref sig .tc) := [main_c_16, main_call4.cst.ref, main_call4.v0.ref, main_call4.v1.ref, main_call4.cst_0.ref, main_call4.v2.ref, main_call4.v3.ref, main_call4.v4.ref, main_call4.v5.ref, main_call4.v6.ref, main_call4.v7.ref, main_call4.cst_1.ref, main_call4.v8.ref, main_call4.cst_2.ref, main_call4.v9.ref, main_call4.v10.ref, main_call4.v11.ref, main_call4.cst_3.ref, main_call4.v12.ref, main_call4.cst_4.ref, main_call4.call0.v0.ref, main_call4.call0.v1.ref, main_call4.call0.v2.ref]

/-- @main's operations 143 … 161 (counted from 0), in window main_part1. -/
abbrev seg15 : List (HloOp τ sig (Elt F)) :=
  [ StableHlo.unary main_v74 main_v76 (broadcastInDim S1x64 ![1] bcast_S64_S1x64_1 : (⟨S64, .f32⟩ : BufTy).Contents (Elt F) → (⟨S1x64, .f32⟩ : BufTy).Contents (Elt F)),
    StableHlo.unary main_v76 main_v77 (broadcastInDim S100000x64 ![0, 1] bcast_S1x64_S100000x64_0_1 : (⟨S1x64, .f32⟩ : BufTy).Contents (Elt F) → (⟨S100000x64, .f32⟩ : BufTy).Contents (Elt F)),
    StableHlo.binary main_v71 main_v77 main_v78 (subf : (⟨S100000x64, .f32⟩ : BufTy).Contents (Elt F) → (⟨S100000x64, .f32⟩ : BufTy).Contents (Elt F) → (⟨S100000x64, .f32⟩ : BufTy).Contents (Elt F)),
    StableHlo.nullary main_cst_17 (constant S_ .f32 0x3727C5AC#32),
    StableHlo.unary main_cst_17 main_v79 (broadcastInDim S64 ![] bcast_S_S64 : (⟨S_, .f32⟩ : BufTy).Contents (Elt F) → (⟨S64, .f32⟩ : BufTy).Contents (Elt F)),
    StableHlo.binary main_v75 main_v79 main_v80 (addf : (⟨S64, .f32⟩ : BufTy).Contents (Elt F) → (⟨S64, .f32⟩ : BufTy).Contents (Elt F) → (⟨S64, .f32⟩ : BufTy).Contents (Elt F)),
    StableHlo.unary main_v80 main_v81 (Host.rsqrt : (⟨S64, .f32⟩ : BufTy).Contents (Elt F) → (⟨S64, .f32⟩ : BufTy).Contents (Elt F)),
    StableHlo.unary main_v81 main_v82 (broadcastInDim S1x64 ![1] bcast_S64_S1x64_1 : (⟨S64, .f32⟩ : BufTy).Contents (Elt F) → (⟨S1x64, .f32⟩ : BufTy).Contents (Elt F)),
    StableHlo.unary main_v82 main_v83 (broadcastInDim S100000x64 ![0, 1] bcast_S1x64_S100000x64_0_1 : (⟨S1x64, .f32⟩ : BufTy).Contents (Elt F) → (⟨S100000x64, .f32⟩ : BufTy).Contents (Elt F)),
    StableHlo.binary main_v78 main_v83 main_v84 (mulf : (⟨S100000x64, .f32⟩ : BufTy).Contents (Elt F) → (⟨S100000x64, .f32⟩ : BufTy).Contents (Elt F) → (⟨S100000x64, .f32⟩ : BufTy).Contents (Elt F)),
    StableHlo.unary main_arg11 main_v85 (broadcastInDim S1x64 ![1] bcast_S64_S1x64_1 : (⟨S64, .f32⟩ : BufTy).Contents (Elt F) → (⟨S1x64, .f32⟩ : BufTy).Contents (Elt F)),
    StableHlo.unary main_v85 main_v86 (broadcastInDim S100000x64 ![0, 1] bcast_S1x64_S100000x64_0_1 : (⟨S1x64, .f32⟩ : BufTy).Contents (Elt F) → (⟨S100000x64, .f32⟩ : BufTy).Contents (Elt F)),
    StableHlo.binary main_v84 main_v86 main_v87 (mulf : (⟨S100000x64, .f32⟩ : BufTy).Contents (Elt F) → (⟨S100000x64, .f32⟩ : BufTy).Contents (Elt F) → (⟨S100000x64, .f32⟩ : BufTy).Contents (Elt F)),
    StableHlo.unary main_arg12 main_v88 (broadcastInDim S1x64 ![1] bcast_S64_S1x64_1 : (⟨S64, .f32⟩ : BufTy).Contents (Elt F) → (⟨S1x64, .f32⟩ : BufTy).Contents (Elt F)),
    StableHlo.unary main_v88 main_v89 (broadcastInDim S100000x64 ![0, 1] bcast_S1x64_S100000x64_0_1 : (⟨S1x64, .f32⟩ : BufTy).Contents (Elt F) → (⟨S100000x64, .f32⟩ : BufTy).Contents (Elt F)),
    StableHlo.binary main_v87 main_v89 main_v90 (addf : (⟨S100000x64, .f32⟩ : BufTy).Contents (Elt F) → (⟨S100000x64, .f32⟩ : BufTy).Contents (Elt F) → (⟨S100000x64, .f32⟩ : BufTy).Contents (Elt F)),
    StableHlo.TRef.nullary main_call5.cst (constant S_ .f32 0x00000000#32),
    StableHlo.TRef.unary main_call5.cst main_call5.v0 (broadcastInDim S100000x64 ![] bcast_S_S100000x64),
    StableHlo.TRef.binary (.of main_v90) main_call5.v0 main_call5.v1 maximumf ]
/-- The buffers that the operations of seg15 write, in order. -/
abbrev wr15 : List (Ref sig .tc) := [main_v76, main_v77, main_v78, main_cst_17, main_v79, main_v80, main_v81, main_v82, main_v83, main_v84, main_v85, main_v86, main_v87, main_v88, main_v89, main_v90, main_call5.cst.ref, main_call5.v0.ref, main_call5.v1.ref]

/-- @main's operations 162 … 169 (counted from 0), in window main_part1. -/
abbrev seg16 : List (HloOp τ sig (Elt F)) :=
  [ StableHlo.nullary main_c_18 (constantI S_ 32 0#32),
    StableHlo.unary main_c_18 main_v92 (broadcastInDim S1200000 ![] bcast_S_S1200000 : (⟨S_, .i32⟩ : BufTy).Contents (Elt F) → (⟨S1200000, .i32⟩ : BufTy).Contents (Elt F)),
    StableHlo.binary main_v1 main_v92 main_v93 (cmpi .slt : (⟨S1200000, .i32⟩ : BufTy).Contents (Elt F) → (⟨S1200000, .i32⟩ : BufTy).Contents (Elt F) → (⟨S1200000, .i1⟩ : BufTy).Contents (Elt F)),
    StableHlo.nullary main_c_19 (constantI S_ 32 100000#32),
    StableHlo.unary main_c_19 main_v94 (broadcastInDim S1200000 ![] bcast_S_S1200000 : (⟨S_, .i32⟩ : BufTy).Contents (Elt F) → (⟨S1200000, .i32⟩ : BufTy).Contents (Elt F)),
    StableHlo.binary main_v1 main_v94 main_v95 (addi : (⟨S1200000, .i32⟩ : BufTy).Contents (Elt F) → (⟨S1200000, .i32⟩ : BufTy).Contents (Elt F) → (⟨S1200000, .i32⟩ : BufTy).Contents (Elt F)),
    StableHlo.ternary main_v93 main_v95 main_v1 main_v96 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    StableHlo.unary main_v96 main_v97 (broadcastInDim S1200000x1 ![0] bcast_S1200000_S1200000x1_0 : (⟨S1200000, .i32⟩ : BufTy).Contents (Elt F) → (⟨S1200000x1, .i32⟩ : BufTy).Contents (Elt F)) ]
/-- The buffers that the operations of seg16 write, in order. -/
abbrev wr16 : List (Ref sig .tc) := [main_c_18, main_v92, main_v93, main_c_19, main_v94, main_v95, main_v96, main_v97]

/-- The 85 operations of window main_part1 of @main, in order. -/
abbrev ops1 : List (HloOp τ sig (Elt F)) :=
  seg09 ++ (seg10 ++ (seg11 ++ (seg12 ++ (seg13 ++ (seg14 ++ (seg15 ++ (seg16)))))))
/-- The buffers that the operations of ops1 write, in order. -/
abbrev wrs1 : List (Ref sig .tc) :=
  wr09 ++ (wr10 ++ (wr11 ++ (wr12 ++ (wr13 ++ (wr14 ++ (wr15 ++ (wr16)))))))

/-- @main's operations 170 … 174 (counted from 0), in window main_part2. -/
abbrev seg17 : List (HloOp τ sig (Elt F)) :=
  [ StableHlo.binary main_v91 main_v97 main_v98 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    StableHlo.nullary main_cst_20 (constant S_ .f32 0x00000000#32),
    StableHlo.unary main_cst_20 main_v99 (broadcastInDim S100000x64 ![] bcast_S_S100000x64 : (⟨S_, .f32⟩ : BufTy).Contents (Elt F) → (⟨S100000x64, .f32⟩ : BufTy).Contents (Elt F)),
    StableHlo.unary main_v3 main_v100 (broadcastInDim S1200000x1 ![0] bcast_S1200000_S1200000x1_0 : (⟨S1200000, .i32⟩ : BufTy).Contents (Elt F) → (⟨S1200000x1, .i32⟩ : BufTy).Contents (Elt F)),
    StableHlo.ternary main_v99 main_v100 main_v98 main_v101 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)) ]
/-- The buffers that the operations of seg17 write, in order. -/
abbrev wr17 : List (Ref sig .tc) := [main_v98, main_cst_20, main_v99, main_v100, main_v101]

/-- @main's operations 175 … 184 (counted from 0), in window main_part2. -/
abbrev seg18 : List (HloOp τ sig (Elt F)) :=
  [ StableHlo.nullary main_cst_21 (constant S_ .f32 0x3F800000#32),
    StableHlo.unary main_cst_21 main_v102 (broadcastInDim S1200000 ![] bcast_S_S1200000 : (⟨S_, .f32⟩ : BufTy).Contents (Elt F) → (⟨S1200000, .f32⟩ : BufTy).Contents (Elt F)),
    StableHlo.nullary main_cst_22 (constant S_ .f32 0x00000000#32),
    StableHlo.unary main_cst_22 main_v103 (broadcastInDim S100000 ![] bcast_S_S100000 : (⟨S_, .f32⟩ : BufTy).Contents (Elt F) → (⟨S100000, .f32⟩ : BufTy).Contents (Elt F)),
    StableHlo.unary main_v3 main_v104 (broadcastInDim S1200000x1 ![0] bcast_S1200000_S1200000x1_0 : (⟨S1200000, .i32⟩ : BufTy).Contents (Elt F) → (⟨S1200000x1, .i32⟩ : BufTy).Contents (Elt F)),
    StableHlo.ternary main_v103 main_v104 main_v102 main_v105 ((fun x i u => Host.scatterAdd scatter_S100000_S1200000x1_S1200000_n_0_0_1 x i u) : (⟨S100000, .f32⟩ : BufTy).Contents (Elt F) → (⟨S1200000x1, .i32⟩ : BufTy).Contents (Elt F) → (⟨S1200000, .f32⟩ : BufTy).Contents (Elt F) → (⟨S100000, .f32⟩ : BufTy).Contents (Elt F)),
    StableHlo.nullary main_cst_23 (constant S_ .f32 0x3F800000#32),
    StableHlo.TRef.unary (.of main_cst_23) main_call6.v0 id,
    StableHlo.TRef.unary main_call6.v0 main_call6.v1 (broadcastInDim S100000 ![] bcast_S_S100000),
    StableHlo.TRef.binary main_call6.v1 (.of main_v105) main_call6.v2 maximumf ]
/-- The buffers that the operations of seg18 write, in order. -/
abbrev wr18 : List (Ref sig .tc) := [main_cst_21, main_v102, main_cst_22, main_v103, main_v104, main_v105, main_cst_23, main_call6.v0.ref, main_call6.v1.ref, main_call6.v2.ref]

/-- @main's operations 185 … 193 (counted from 0), in window main_part2. -/
abbrev seg19 : List (HloOp τ sig (Elt F)) :=
  [ StableHlo.unary main_v106 main_v107 (broadcastInDim S100000x1 ![0] bcast_S100000_S100000x1_0 : (⟨S100000, .f32⟩ : BufTy).Contents (Elt F) → (⟨S100000x1, .f32⟩ : BufTy).Contents (Elt F)),
    StableHlo.unary main_v107 main_v108 (broadcastInDim S100000x64 ![0, 1] bcast_S100000x1_S100000x64_0_1 : (⟨S100000x1, .f32⟩ : BufTy).Contents (Elt F) → (⟨S100000x64, .f32⟩ : BufTy).Contents (Elt F)),
    StableHlo.binary main_v101 main_v108 main_v109 (Host.divf : (⟨S100000x64, .f32⟩ : BufTy).Contents (Elt F) → (⟨S100000x64, .f32⟩ : BufTy).Contents (Elt F) → (⟨S100000x64, .f32⟩ : BufTy).Contents (Elt F)),
    StableHlo.binary main_v109 main_arg13 main_v110 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg14 main_v111 (broadcastInDim S1x64 ![1] bcast_S64_S1x64_1 : (⟨S64, .f32⟩ : BufTy).Contents (Elt F) → (⟨S1x64, .f32⟩ : BufTy).Contents (Elt F)),
    StableHlo.unary main_v111 main_v112 (broadcastInDim S100000x64 ![0, 1] bcast_S1x64_S100000x64_0_1 : (⟨S1x64, .f32⟩ : BufTy).Contents (Elt F) → (⟨S100000x64, .f32⟩ : BufTy).Contents (Elt F)),
    StableHlo.binary main_v110 main_v112 main_v113 (addf : (⟨S100000x64, .f32⟩ : BufTy).Contents (Elt F) → (⟨S100000x64, .f32⟩ : BufTy).Contents (Elt F) → (⟨S100000x64, .f32⟩ : BufTy).Contents (Elt F)),
    StableHlo.binary main_v91 main_arg15 main_v114 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v113 main_v114 main_v115 (addf : (⟨S100000x64, .f32⟩ : BufTy).Contents (Elt F) → (⟨S100000x64, .f32⟩ : BufTy).Contents (Elt F) → (⟨S100000x64, .f32⟩ : BufTy).Contents (Elt F)) ]
/-- The buffers that the operations of seg19 write, in order. -/
abbrev wr19 : List (Ref sig .tc) := [main_v107, main_v108, main_v109, main_v110, main_v111, main_v112, main_v113, main_v114, main_v115]

/-- @main's operations 194 … 198 (counted from 0), in window main_part2. -/
abbrev seg20 : List (HloOp τ sig (Elt F)) :=
  [ StableHlo.nullary main_cst_24 (constant S_ .f32 0x00000000#32),
    StableHlo.binary main_v115 main_cst_24 main_v116 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_25 (constant S_ .f32 0x47C35000#32),
    StableHlo.unary main_cst_25 main_v117 (broadcastInDim S64 ![] bcast_S_S64 : (⟨S_, .f32⟩ : BufTy).Contents (Elt F) → (⟨S64, .f32⟩ : BufTy).Contents (Elt F)),
    StableHlo.binary main_v116 main_v117 main_v118 (Host.divf : (⟨S64, .f32⟩ : BufTy).Contents (Elt F) → (⟨S64, .f32⟩ : BufTy).Contents (Elt F) → (⟨S64, .f32⟩ : BufTy).Contents (Elt F)) ]
/-- The buffers that the operations of seg20 write, in order. -/
abbrev wr20 : List (Ref sig .tc) := [main_cst_24, main_v116, main_cst_25, main_v117, main_v118]

/-- @main's operations 199 … 221 (counted from 0), in window main_part2. -/
abbrev seg21 : List (HloOp τ sig (Elt F)) :=
  [ StableHlo.nullary main_c_26 (constantI S_ 32 0#32),
    StableHlo.TRef.nullary main_call7.cst (constant S_ .f32 0x00000000#32),
    StableHlo.TRef.binary (.of main_v115) main_call7.cst main_call7.v0 (fun x v => Host.reduceAdd x v reducesTo_S100000x64_S64_d0 h_S_),
    StableHlo.TRef.unary main_call7.v0 main_call7.v1 (broadcastInDim S1x64 ![1] bcast_S64_S1x64_1),
    StableHlo.TRef.nullary main_call7.cst_0 (constant S_ .f32 0x47C35000#32),
    StableHlo.TRef.unary main_call7.cst_0 main_call7.v2 (broadcastInDim S1x64 ![] bcast_S_S1x64),
    StableHlo.TRef.binary main_call7.v1 main_call7.v2 main_call7.v3 Host.divf,
    StableHlo.TRef.unary main_call7.v3 main_call7.v4 (broadcastInDim S100000x64 ![0, 1] bcast_S1x64_S100000x64_0_1),
    StableHlo.TRef.binary (.of main_v115) main_call7.v4 main_call7.v5 subf,
    StableHlo.TRef.binary main_call7.v5 main_call7.v5 main_call7.v6 mulf,
    StableHlo.TRef.unary (.of main_c_26) main_call7.v7 (sitofp .f32),
    StableHlo.TRef.nullary main_call7.cst_1 (constant S_ .f32 0x47C35000#32),
    StableHlo.TRef.binary main_call7.cst_1 main_call7.v7 main_call7.v8 subf,
    StableHlo.TRef.nullary main_call7.cst_2 (constant S_ .f32 0x00000000#32),
    StableHlo.TRef.binary main_call7.v6 main_call7.cst_2 main_call7.v9 (fun x v => Host.reduceAdd x v reducesTo_S100000x64_S64_d0 h_S_),
    StableHlo.TRef.unary main_call7.v8 main_call7.v10 (broadcastInDim S64 ![] bcast_S_S64),
    StableHlo.TRef.binary main_call7.v9 main_call7.v10 main_call7.v11 Host.divf,
    StableHlo.TRef.nullary main_call7.cst_3 (constant S_ .f32 0x00000000#32),
    StableHlo.TRef.binary main_call7.v8 main_call7.cst_3 main_call7.v12 (cmpf .ogt),
    StableHlo.TRef.nullary main_call7.cst_4 (constant S_ .f32 0x7FC00000#32),
    StableHlo.TRef.unary main_call7.cst_4 main_call7.call0.v0 id,
    StableHlo.TRef.unary main_call7.call0.v0 main_call7.call0.v1 (broadcastInDim S64 ![] bcast_S_S64),
    StableHlo.TRef.ternary main_call7.v12 main_call7.v11 main_call7.call0.v1 main_call7.call0.v2 (fun p a b => select (broadcastInDim S64 ![] bcast_S_S64 p) a b) ]
/-- The buffers that the operations of seg21 write, in order. -/
abbrev wr21 : List (Ref sig .tc) := [main_c_26, main_call7.cst.ref, main_call7.v0.ref, main_call7.v1.ref, main_call7.cst_0.ref, main_call7.v2.ref, main_call7.v3.ref, main_call7.v4.ref, main_call7.v5.ref, main_call7.v6.ref, main_call7.v7.ref, main_call7.cst_1.ref, main_call7.v8.ref, main_call7.cst_2.ref, main_call7.v9.ref, main_call7.v10.ref, main_call7.v11.ref, main_call7.cst_3.ref, main_call7.v12.ref, main_call7.cst_4.ref, main_call7.call0.v0.ref, main_call7.call0.v1.ref, main_call7.call0.v2.ref]

/-- @main's operations 222 … 240 (counted from 0), in window main_part2. -/
abbrev seg22 : List (HloOp τ sig (Elt F)) :=
  [ StableHlo.unary main_v118 main_v120 (broadcastInDim S1x64 ![1] bcast_S64_S1x64_1 : (⟨S64, .f32⟩ : BufTy).Contents (Elt F) → (⟨S1x64, .f32⟩ : BufTy).Contents (Elt F)),
    StableHlo.unary main_v120 main_v121 (broadcastInDim S100000x64 ![0, 1] bcast_S1x64_S100000x64_0_1 : (⟨S1x64, .f32⟩ : BufTy).Contents (Elt F) → (⟨S100000x64, .f32⟩ : BufTy).Contents (Elt F)),
    StableHlo.binary main_v115 main_v121 main_v122 (subf : (⟨S100000x64, .f32⟩ : BufTy).Contents (Elt F) → (⟨S100000x64, .f32⟩ : BufTy).Contents (Elt F) → (⟨S100000x64, .f32⟩ : BufTy).Contents (Elt F)),
    StableHlo.nullary main_cst_27 (constant S_ .f32 0x3727C5AC#32),
    StableHlo.unary main_cst_27 main_v123 (broadcastInDim S64 ![] bcast_S_S64 : (⟨S_, .f32⟩ : BufTy).Contents (Elt F) → (⟨S64, .f32⟩ : BufTy).Contents (Elt F)),
    StableHlo.binary main_v119 main_v123 main_v124 (addf : (⟨S64, .f32⟩ : BufTy).Contents (Elt F) → (⟨S64, .f32⟩ : BufTy).Contents (Elt F) → (⟨S64, .f32⟩ : BufTy).Contents (Elt F)),
    StableHlo.unary main_v124 main_v125 (Host.rsqrt : (⟨S64, .f32⟩ : BufTy).Contents (Elt F) → (⟨S64, .f32⟩ : BufTy).Contents (Elt F)),
    StableHlo.unary main_v125 main_v126 (broadcastInDim S1x64 ![1] bcast_S64_S1x64_1 : (⟨S64, .f32⟩ : BufTy).Contents (Elt F) → (⟨S1x64, .f32⟩ : BufTy).Contents (Elt F)),
    StableHlo.unary main_v126 main_v127 (broadcastInDim S100000x64 ![0, 1] bcast_S1x64_S100000x64_0_1 : (⟨S1x64, .f32⟩ : BufTy).Contents (Elt F) → (⟨S100000x64, .f32⟩ : BufTy).Contents (Elt F)),
    StableHlo.binary main_v122 main_v127 main_v128 (mulf : (⟨S100000x64, .f32⟩ : BufTy).Contents (Elt F) → (⟨S100000x64, .f32⟩ : BufTy).Contents (Elt F) → (⟨S100000x64, .f32⟩ : BufTy).Contents (Elt F)),
    StableHlo.unary main_arg16 main_v129 (broadcastInDim S1x64 ![1] bcast_S64_S1x64_1 : (⟨S64, .f32⟩ : BufTy).Contents (Elt F) → (⟨S1x64, .f32⟩ : BufTy).Contents (Elt F)),
    StableHlo.unary main_v129 main_v130 (broadcastInDim S100000x64 ![0, 1] bcast_S1x64_S100000x64_0_1 : (⟨S1x64, .f32⟩ : BufTy).Contents (Elt F) → (⟨S100000x64, .f32⟩ : BufTy).Contents (Elt F)),
    StableHlo.binary main_v128 main_v130 main_v131 (mulf : (⟨S100000x64, .f32⟩ : BufTy).Contents (Elt F) → (⟨S100000x64, .f32⟩ : BufTy).Contents (Elt F) → (⟨S100000x64, .f32⟩ : BufTy).Contents (Elt F)),
    StableHlo.unary main_arg17 main_v132 (broadcastInDim S1x64 ![1] bcast_S64_S1x64_1 : (⟨S64, .f32⟩ : BufTy).Contents (Elt F) → (⟨S1x64, .f32⟩ : BufTy).Contents (Elt F)),
    StableHlo.unary main_v132 main_v133 (broadcastInDim S100000x64 ![0, 1] bcast_S1x64_S100000x64_0_1 : (⟨S1x64, .f32⟩ : BufTy).Contents (Elt F) → (⟨S100000x64, .f32⟩ : BufTy).Contents (Elt F)),
    StableHlo.binary main_v131 main_v133 main_v134 (addf : (⟨S100000x64, .f32⟩ : BufTy).Contents (Elt F) → (⟨S100000x64, .f32⟩ : BufTy).Contents (Elt F) → (⟨S100000x64, .f32⟩ : BufTy).Contents (Elt F)),
    StableHlo.TRef.nullary main_call8.cst (constant S_ .f32 0x00000000#32),
    StableHlo.TRef.unary main_call8.cst main_call8.v0 (broadcastInDim S100000x64 ![] bcast_S_S100000x64),
    StableHlo.TRef.binary (.of main_v134) main_call8.v0 main_call8.v1 maximumf ]
/-- The buffers that the operations of seg22 write, in order. -/
abbrev wr22 : List (Ref sig .tc) := [main_v120, main_v121, main_v122, main_cst_27, main_v123, main_v124, main_v125, main_v126, main_v127, main_v128, main_v129, main_v130, main_v131, main_v132, main_v133, main_v134, main_call8.cst.ref, main_call8.v0.ref, main_call8.v1.ref]

/-- @main's operations 241 … 254 (counted from 0), in window main_part2. -/
abbrev seg23 : List (HloOp τ sig (Elt F)) :=
  [ StableHlo.unary main_arg2 main_v136 (broadcastInDim S100000x1 ![0] bcast_S100000_S100000x1_0 : (⟨S100000, .f32⟩ : BufTy).Contents (Elt F) → (⟨S100000x1, .f32⟩ : BufTy).Contents (Elt F)),
    StableHlo.binary main_v135 main_v136 main_v137 ((fun a b => concatenate S100000x65 1 [⟨S100000x64, a⟩, ⟨S100000x1, b⟩] concatenates_S100000x64_S100000x1_S100000x65_d1) : (⟨S100000x64, .f32⟩ : BufTy).Contents (Elt F) → (⟨S100000x1, .f32⟩ : BufTy).Contents (Elt F) → (⟨S100000x65, .f32⟩ : BufTy).Contents (Elt F)),
    StableHlo.binary main_v137 main_arg18 main_v138 ((fun l r => Host.dotGeneral dot_S100000x65_S65x64_S100000x64_1_0_0_1_n_n none l r) : (⟨S100000x65, .f32⟩ : BufTy).Contents (Elt F) → (⟨S65x64, .f32⟩ : BufTy).Contents (Elt F) → (⟨S100000x64, .f32⟩ : BufTy).Contents (Elt F)),
    StableHlo.unary main_arg19 main_v139 (broadcastInDim S1x64 ![1] bcast_S64_S1x64_1 : (⟨S64, .f32⟩ : BufTy).Contents (Elt F) → (⟨S1x64, .f32⟩ : BufTy).Contents (Elt F)),
    StableHlo.unary main_v139 main_v140 (broadcastInDim S100000x64 ![0, 1] bcast_S1x64_S100000x64_0_1 : (⟨S1x64, .f32⟩ : BufTy).Contents (Elt F) → (⟨S100000x64, .f32⟩ : BufTy).Contents (Elt F)),
    StableHlo.binary main_v138 main_v140 main_v141 (addf : (⟨S100000x64, .f32⟩ : BufTy).Contents (Elt F) → (⟨S100000x64, .f32⟩ : BufTy).Contents (Elt F) → (⟨S100000x64, .f32⟩ : BufTy).Contents (Elt F)),
    StableHlo.TRef.nullary main_call9.cst (constant S_ .f32 0x00000000#32),
    StableHlo.TRef.unary main_call9.cst main_call9.v0 (broadcastInDim S100000x64 ![] bcast_S_S100000x64),
    StableHlo.TRef.binary (.of main_v141) main_call9.v0 main_call9.v1 maximumf,
    StableHlo.binary main_v142 main_arg20 main_v143 ((fun l r => Host.dotGeneral dot_S100000x64_S64x1_S100000x1_1_0_0_1_n_n none l r) : (⟨S100000x64, .f32⟩ : BufTy).Contents (Elt F) → (⟨S64x1, .f32⟩ : BufTy).Contents (Elt F) → (⟨S100000x1, .f32⟩ : BufTy).Contents (Elt F)),
    StableHlo.unary main_arg21 main_v144 (broadcastInDim S1x1 ![1] bcast_S1_S1x1_1 : (⟨S1, .f32⟩ : BufTy).Contents (Elt F) → (⟨S1x1, .f32⟩ : BufTy).Contents (Elt F)),
    StableHlo.unary main_v144 main_v145 (broadcastInDim S100000x1 ![0, 1] bcast_S1x1_S100000x1_0_1 : (⟨S1x1, .f32⟩ : BufTy).Contents (Elt F) → (⟨S100000x1, .f32⟩ : BufTy).Contents (Elt F)),
    StableHlo.binary main_v143 main_v145 main_v146 (addf : (⟨S100000x1, .f32⟩ : BufTy).Contents (Elt F) → (⟨S100000x1, .f32⟩ : BufTy).Contents (Elt F) → (⟨S100000x1, .f32⟩ : BufTy).Contents (Elt F)),
    StableHlo.reshape main_v146 main_v147 rfl shapeCasts_S100000x1_S100000 ]
/-- The buffers that the operations of seg23 write, in order. -/
abbrev wr23 : List (Ref sig .tc) := [main_v136, main_v137, main_v138, main_v139, main_v140, main_v141, main_call9.cst.ref, main_call9.v0.ref, main_call9.v1.ref, main_v143, main_v144, main_v145, main_v146, main_v147]

/-- The 85 operations of window main_part2 of @main, in order. -/
abbrev ops2 : List (HloOp τ sig (Elt F)) :=
  seg17 ++ (seg18 ++ (seg19 ++ (seg20 ++ (seg21 ++ (seg22 ++ (seg23))))))
/-- The buffers that the operations of ops2 write, in order. -/
abbrev wrs2 : List (Ref sig .tc) :=
  wr17 ++ (wr18 ++ (wr19 ++ (wr20 ++ (wr21 ++ (wr22 ++ (wr23))))))

end Cert.ReferenceIdeal.RefRun

end
-- ==== Proof.RefOps.lean ====
import proofs.«136404_j80470507258311_2_alg».proof.Proof.RefOpsTable

/-! The reference program's run. @main is three printed windows run in turn; each window is a straight line of host
    operations once the module-local functions are unfolded at their calls (clip, _var and the _where it calls, relu),
    so @main is the straight line of the three windows' lists, one after the other. From any memory with zero
    counters every weakly fair execution of it terminates with each TensorCore buffer at the fold of the operations'
    results over the launch contents. -/

noncomputable section

namespace Cert.ReferenceIdeal.RefRun

open Cert.ReferenceIdeal Cert.ReferenceIdeal.Gen Idealize.ShloMosaic Idealize.ShloMosaic.TcCoe Idealize.SL.Sem
open Idealize.ShloMosaic.StableHlo

variable {F : FTy → Type} [FloatOps F]

/-- @main's 255 operations, in order: the three windows' lists. -/
abbrev ops : List (HloOp τ sig (Elt F)) := ops0 ++ (ops1 ++ ops2)

/-! Each window is its list run as a line: the functions' bodies unfold at their calls and the call records at their
    fields, and sequencing re-associates by computation (binding into a step binds into its continuation; a body's
    closing return binds to nothing), so both sides are the same chain of steps. -/

set_option maxRecDepth 8192 in
set_option maxHeartbeats 4000000 in
theorem main_part0_eq (c : Dev nD) : main_part0 (F := F) c = seq ops0 := rfl

set_option maxRecDepth 8192 in
set_option maxHeartbeats 4000000 in
theorem main_part1_eq (c : Dev nD) : main_part1 (F := F) c = seq ops1 := rfl

set_option maxRecDepth 8192 in
set_option maxHeartbeats 4000000 in
theorem main_part2_eq (c : Dev nD) : main_part2 (F := F) c = seq ops2 := rfl

/-- @main is the line of all its operations: the windows in turn are the concatenation run as one. -/
theorem main_eq (c : Dev nD) : main (F := F) c = seq ops := by
  simp only [ops, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

/-! Every operation touches TensorCore references only: per window, one fact per operation in order. -/

set_option maxRecDepth 8192 in
theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., nullary_bufs_sub ..,
    unary_bufs_sub .., nullary_bufs_sub .., unary_bufs_sub .., unary_bufs_sub .., ternary_bufs_sub .., nullary_bufs_sub ..,
    unary_bufs_sub .., unary_bufs_sub .., binary_bufs_sub .., unary_bufs_sub .., unary_bufs_sub .., binary_bufs_sub ..,
    binary_bufs_sub .., unary_bufs_sub .., unary_bufs_sub .., binary_bufs_sub .., binary_bufs_sub .., binary_bufs_sub ..,
    nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub ..,
    unary_bufs_sub .., binary_bufs_sub .., nullary_bufs_sub .., unary_bufs_sub .., binary_bufs_sub .., nullary_bufs_sub ..,
    unary_bufs_sub ..⟩

set_option maxRecDepth 8192 in
theorem ops1_sub : (ops1 : List (HloOp τ sig (Elt F))).Forall fun op => op.bufs ⊆ tcRefs τ sig :=
  ⟨binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., nullary_bufs_sub ..,
    unary_bufs_sub .., nullary_bufs_sub .., unary_bufs_sub .., unary_bufs_sub .., ternary_bufs_sub .., nullary_bufs_sub ..,
    unary_bufs_sub .., unary_bufs_sub .., binary_bufs_sub .., unary_bufs_sub .., unary_bufs_sub .., binary_bufs_sub ..,
    binary_bufs_sub .., unary_bufs_sub .., unary_bufs_sub .., binary_bufs_sub .., binary_bufs_sub .., binary_bufs_sub ..,
    nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub ..,
    unary_bufs_sub .., binary_bufs_sub .., nullary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub ..⟩

set_option maxRecDepth 8192 in
theorem ops2_sub : (ops2 : List (HloOp τ sig (Elt F))).Forall fun op => op.bufs ⊆ tcRefs τ sig :=
  ⟨binary_bufs_sub .., nullary_bufs_sub .., unary_bufs_sub .., unary_bufs_sub .., ternary_bufs_sub .., nullary_bufs_sub ..,
    unary_bufs_sub .., nullary_bufs_sub .., unary_bufs_sub .., unary_bufs_sub .., ternary_bufs_sub .., nullary_bufs_sub ..,
    unary_bufs_sub .., unary_bufs_sub .., binary_bufs_sub .., unary_bufs_sub .., unary_bufs_sub .., binary_bufs_sub ..,
    binary_bufs_sub .., unary_bufs_sub .., unary_bufs_sub .., binary_bufs_sub .., binary_bufs_sub .., binary_bufs_sub ..,
    nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub ..,
    unary_bufs_sub .., binary_bufs_sub .., nullary_bufs_sub .., unary_bufs_sub .., binary_bufs_sub .., unary_bufs_sub ..,
    binary_bufs_sub .., binary_bufs_sub .., unary_bufs_sub .., unary_bufs_sub .., binary_bufs_sub .., nullary_bufs_sub ..,
    unary_bufs_sub .., binary_bufs_sub .., binary_bufs_sub .., unary_bufs_sub .., unary_bufs_sub .., binary_bufs_sub ..,
    reshape_bufs_sub ..⟩

theorem ops_sub : (ops : List (HloOp τ sig (Elt F))).Forall fun op => op.bufs ⊆ tcRefs τ sig :=
  List.forall_iff_forall_mem.mpr fun op h => by
    rcases List.mem_append.mp h with h | h
    · exact List.forall_iff_forall_mem.mp ops0_sub op h
    · rcases List.mem_append.mp h with h | h
      · exact List.forall_iff_forall_mem.mp ops1_sub op h
      · exact List.forall_iff_forall_mem.mp ops2_sub op h

/-! No operation leaves a result undetermined: per window, by computation on the literal list. -/

set_option maxRecDepth 8192 in
theorem ops0_fresh : ∀ op ∈ (ops0 : List (HloOp τ sig (Elt F))), op.fresh = ∅ := by
  intro _ h; (repeat (cases h with | head => rfl | tail _ h => ?_)); exact nomatch h

set_option maxRecDepth 8192 in
theorem ops1_fresh : ∀ op ∈ (ops1 : List (HloOp τ sig (Elt F))), op.fresh = ∅ := by
  intro _ h; (repeat (cases h with | head => rfl | tail _ h => ?_)); exact nomatch h

set_option maxRecDepth 8192 in
theorem ops2_fresh : ∀ op ∈ (ops2 : List (HloOp τ sig (Elt F))), op.fresh = ∅ := by
  intro _ h; (repeat (cases h with | head => rfl | tail _ h => ?_)); exact nomatch h

theorem ops_fresh : ∀ op ∈ (ops : List (HloOp τ sig (Elt F))), op.fresh = ∅ := by
  intro op h
  rcases List.mem_append.mp h with h | h
  · exact ops0_fresh op h
  · rcases List.mem_append.mp h with h | h
    · exact ops1_fresh op h
    · exact ops2_fresh op h

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefRun

end
-- ==== Proof.RefRead.lean ====
import proofs.«136404_j80470507258311_2_alg».proof.Proof.RefOps
import proofs.«136404_j80470507258311_2_alg».proof.Proof.Spec

/-! The reference program's result read back as the composition of the named stretches of arithmetic.

    The run ends with every buffer at the fold `W` of @main's 255 operations over the launch contents. Each operation
    writes one buffer and no buffer is written twice, so a stretch of operations can be read on its own: the value `W`
    has at the stretch's last buffer is the stretch's own fold from the contents before it (no later operation rewrites
    that buffer), and the buffers the stretch reads hold before it what they hold in `W` (no operation from the stretch
    on rewrites them). Stretch by stretch this reads `W` at the edge rows, the gather and scatter indices, the neighbour
    sums, the clipped degrees, each layer's linear part, its column means and variances, its normalised positive part,
    and at last the head. -/

noncomputable section

namespace Cert.ReferenceIdeal.RefRun

open Cert.ReferenceIdeal Cert.ReferenceIdeal.Gen Idealize.ShloMosaic Idealize.ShloMosaic.TcCoe Idealize.SL.Sem
open Idealize.ShloMosaic.StableHlo

variable {F : FTy → Type} [FloatOps F]

/-! ## Which buffer each operation writes -/

/-- Operation `k` of `L` writes at most buffer `k` of `R`. -/
abbrev WritesAt (L : List (HloOp τ sig (Elt F))) (R : List (Ref sig .tc)) : Prop :=
  List.Forall₂ (fun op w => op.writes ⊆ ({Proc.devRef (τ := τ) .tc w} : Finset (DevRef τ sig))) L R

/-- A buffer not among those a line writes keeps its contents through it. -/
theorem keep_of_writesAt {L : List (HloOp τ sig (Elt F))} {R : List (Ref sig .tc)} (h : WritesAt L R)
    (V : Valuation τ sig (Elt F)) {r : Ref sig .tc} (hr : r ∉ R) :
    after L V (Proc.devRef .tc r) = V (Proc.devRef .tc r) := by
  induction h generalizing V with
  | nil => rfl
  | @cons op w L R hop _ ih =>
    rw [after_cons, ih _ (fun h => hr (List.mem_cons_of_mem _ h)),
      op.result_of_not_mem V (fun hb => hr (by
        have e := Proc.devRef_injective _ (Finset.mem_singleton.mp (hop hb))
        rw [e]; exact List.mem_cons_self))]

/-- Reads off, operation by operation, that each writes the buffer listed beside it: every builder's written set is
    the singleton of its result buffer, by definition. -/
macro "writes_at" : tactic =>
  `(tactic| repeat (first | exact List.Forall₂.nil | (refine List.Forall₂.cons ?_ ?_; exact Finset.Subset.refl _)))

set_option maxRecDepth 8192 in
theorem ops0_writes : WritesAt (F := F) ops0 wrs0 := by writes_at
set_option maxRecDepth 8192 in
theorem ops1_writes : WritesAt (F := F) ops1 wrs1 := by writes_at
set_option maxRecDepth 8192 in
theorem ops2_writes : WritesAt (F := F) ops2 wrs2 := by writes_at

/-- The buffers @main's operations write, in order. -/
abbrev wrs : List (Ref sig .tc) := wrs0 ++ (wrs1 ++ wrs2)

theorem ops_writes : WritesAt (F := F) ops wrs :=
  List.rel_append ops0_writes (List.rel_append ops1_writes ops2_writes)

/-! ## Reading one stretch of the line -/

/-- The contents after all of @main, from contents `V`. -/
def W (V : Valuation τ sig (Elt F)) : Valuation τ sig (Elt F) := after ops V

/-- The contents after @main's first `a` operations. -/
def pre (a : ℕ) (V : Valuation τ sig (Elt F)) : Valuation τ sig (Elt F) := after (ops.take a) V

theorem after_app (l₁ l₂ : List (HloOp τ sig (Elt F))) (V : Valuation τ sig (Elt F)) :
    after (l₁ ++ l₂) V = after l₂ (after l₁ V) := by
  induction l₁ generalizing V with
  | nil => rfl
  | cons op l ih => exact ih _

theorem W_eq_drop (a : ℕ) (V : Valuation τ sig (Elt F)) : W V = after (ops.drop a) (pre a V) := by
  unfold W pre
  rw [← after_app, List.take_append_drop]

/-- The stretch `seg` of `n` operations from position `a`: a buffer no later operation writes holds in the end what
    the stretch leaves there. -/
theorem stage (a n : ℕ) (seg : List (HloOp τ sig (Elt F))) (hseg : (ops.drop a).take n = seg)
    (V : Valuation τ sig (Elt F)) {y : Ref sig .tc} (hy : y ∉ wrs.drop (a + n)) :
    W V (Proc.devRef .tc y) = after seg (pre a V) (Proc.devRef .tc y) := by
  subst hseg
  rw [W_eq_drop (a + n) V, keep_of_writesAt (List.forall₂_drop _ ops_writes) _ hy]
  unfold pre
  rw [← after_app, ← List.take_add]

/-- A buffer that no operation from position `a` on writes holds before position `a` what it holds in the end. -/
theorem input (a : ℕ) (V : Valuation τ sig (Elt F)) {x : Ref sig .tc} (hx : x ∉ wrs.drop a) :
    pre a V (Proc.devRef .tc x) = W V (Proc.devRef .tc x) := by
  rw [W_eq_drop a V, keep_of_writesAt (List.forall₂_drop _ ops_writes) _ hx]

/-- A buffer no operation writes (an argument) keeps the launch contents throughout. -/
theorem W_keep (V : Valuation τ sig (Elt F)) {x : Ref sig .tc} (hx : x ∉ wrs) :
    W V (Proc.devRef .tc x) = V (Proc.devRef .tc x) :=
  keep_of_writesAt ops_writes V hx

/-! ## The arguments -/

/-- The 22 argument arrays at contents `V`. -/
def A (V : Valuation τ sig (Elt F)) : Cert.Spec.Args F :=
  ⟨V (main_arg0 : DevRef τ sig),
    V (main_arg1 : DevRef τ sig),
    V (main_arg2 : DevRef τ sig),
    V (main_arg3 : DevRef τ sig),
    V (main_arg4 : DevRef τ sig),
    V (main_arg5 : DevRef τ sig),
    V (main_arg6 : DevRef τ sig),
    V (main_arg7 : DevRef τ sig),
    V (main_arg8 : DevRef τ sig),
    V (main_arg9 : DevRef τ sig),
    V (main_arg10 : DevRef τ sig),
    V (main_arg11 : DevRef τ sig),
    V (main_arg12 : DevRef τ sig),
    V (main_arg13 : DevRef τ sig),
    V (main_arg14 : DevRef τ sig),
    V (main_arg15 : DevRef τ sig),
    V (main_arg16 : DevRef τ sig),
    V (main_arg17 : DevRef τ sig),
    V (main_arg18 : DevRef τ sig),
    V (main_arg19 : DevRef τ sig),
    V (main_arg20 : DevRef τ sig),
    V (main_arg21 : DevRef τ sig)⟩

theorem pre_keep (a : ℕ) (V : Valuation τ sig (Elt F)) {x : Ref sig .tc} (hx : x ∉ wrs) :
    pre a V (Proc.devRef .tc x) = V (Proc.devRef .tc x) :=
  (input a V (fun h => hx (List.mem_of_mem_drop h))).trans (W_keep V hx)

attribute [local irreducible] Host.gather Host.scatterAdd Host.reduceAdd

/-! ## The edge rows and the first layer, each stretch from any contents `U` before it -/

theorem seg00_v1 (U : Valuation τ sig (Elt F)) :
    after seg00 U (main_v1 : DevRef τ sig) = Cert.Spec.edgeRow0 (U (main_arg1 : DevRef τ sig)) := by
  simp only [seg00]; after_results; rfl

theorem seg00_v3 (U : Valuation τ sig (Elt F)) :
    after seg00 U (main_v3 : DevRef τ sig) = Cert.Spec.edgeRow1 (U (main_arg1 : DevRef τ sig)) := by
  simp only [seg00]; after_results; rfl

theorem seg01_v9 (U : Valuation τ sig (Elt F)) (ei : Cert.Spec.Arr F Cert.KernelIdeal.S2x1200000 .i32)
    (h1 : U (main_v1 : DevRef τ sig) = Cert.Spec.edgeRow0 ei) :
    after seg01 U (main_v9 : DevRef τ sig) = Cert.Spec.srcIdx ei := by
  simp only [seg01]; after_results; rw [h1]; rfl

theorem seg02_v13 (U : Valuation τ sig (Elt F)) (ei : Cert.Spec.Arr F Cert.KernelIdeal.S2x1200000 .i32)
    (h9 : U (main_v9 : DevRef τ sig) = Cert.Spec.srcIdx ei) (h3 : U (main_v3 : DevRef τ sig) = Cert.Spec.edgeRow1 ei) :
    after seg02 U (main_v13 : DevRef τ sig) = Cert.Spec.agg128 (U (main_arg0 : DevRef τ sig)) ei := by
  simp only [seg02]; after_results; rw [h9, h3]; rfl

theorem seg03_v18 (U : Valuation τ sig (Elt F)) (ei : Cert.Spec.Arr F Cert.KernelIdeal.S2x1200000 .i32)
    (h3 : U (main_v3 : DevRef τ sig) = Cert.Spec.edgeRow1 ei) :
    after seg03 U (main_v18 : DevRef τ sig) = Cert.Spec.cntClip ei := by
  simp only [seg03]; after_results; rw [h3]; rfl

theorem seg04_v27 (U : Valuation τ sig (Elt F)) :
    after seg04 U (main_v27 : DevRef τ sig) = Cert.Spec.linR128 (U (main_v13 : DevRef τ sig)) (U (main_v18 : DevRef τ sig)) (U (main_arg0 : DevRef τ sig))
      (U (main_arg3 : DevRef τ sig)) (U (main_arg4 : DevRef τ sig)) (U (main_arg5 : DevRef τ sig)) := by
  simp only [seg04]; after_results; rfl

theorem seg05_v30 (U : Valuation τ sig (Elt F)) :
    after seg05 U (main_v30 : DevRef τ sig) = Cert.Spec.meanF (U (main_v27 : DevRef τ sig)) := by
  simp only [seg05]; after_results; rfl

set_option maxHeartbeats 2000000 in
theorem seg06_v31 (U : Valuation τ sig (Elt F)) :
    after seg06 U (main_v31 : DevRef τ sig) = Cert.Spec.varF (U (main_v27 : DevRef τ sig)) := by
  simp only [seg06]; after_results_simp; rfl

set_option maxHeartbeats 2000000 in
theorem seg07_v47 (U : Valuation τ sig (Elt F)) :
    after seg07 U (main_v47 : DevRef τ sig) = Cert.Spec.relu (Cert.Spec.bnAffine (U (main_v27 : DevRef τ sig)) (U (main_arg6 : DevRef τ sig))
      (U (main_arg7 : DevRef τ sig)) (U (main_v30 : DevRef τ sig)) (U (main_v31 : DevRef τ sig))) := by
  simp only [seg07]; after_results_simp; rfl

/-! ## The second layer's stretches (the gather indices are recomputed across the first window's end) -/

theorem seg09_v53 (U : Valuation τ sig (Elt F)) (ei : Cert.Spec.Arr F Cert.KernelIdeal.S2x1200000 .i32)
    (h1 : U (main_v1 : DevRef τ sig) = Cert.Spec.edgeRow0 ei) :
    after (seg08 ++ seg09) U (main_v53 : DevRef τ sig) = Cert.Spec.srcIdx ei := by
  simp only [seg08, seg09, List.cons_append, List.nil_append]; after_results; rw [h1]; rfl

theorem seg10_v57 (U : Valuation τ sig (Elt F)) (ei : Cert.Spec.Arr F Cert.KernelIdeal.S2x1200000 .i32)
    (h9 : U (main_v53 : DevRef τ sig) = Cert.Spec.srcIdx ei) (h3 : U (main_v3 : DevRef τ sig) = Cert.Spec.edgeRow1 ei) :
    after seg10 U (main_v57 : DevRef τ sig) = Cert.Spec.agg64 (U (main_v47 : DevRef τ sig)) ei := by
  simp only [seg10]; after_results; rw [h9, h3]; rfl

theorem seg11_v62 (U : Valuation τ sig (Elt F)) (ei : Cert.Spec.Arr F Cert.KernelIdeal.S2x1200000 .i32)
    (h3 : U (main_v3 : DevRef τ sig) = Cert.Spec.edgeRow1 ei) :
    after seg11 U (main_v62 : DevRef τ sig) = Cert.Spec.cntClip ei := by
  simp only [seg11]; after_results; rw [h3]; rfl

theorem seg12_v71 (U : Valuation τ sig (Elt F)) :
    after seg12 U (main_v71 : DevRef τ sig) = Cert.Spec.linR64 (U (main_v57 : DevRef τ sig)) (U (main_v62 : DevRef τ sig)) (U (main_v47 : DevRef τ sig))
      (U (main_arg8 : DevRef τ sig)) (U (main_arg9 : DevRef τ sig)) (U (main_arg10 : DevRef τ sig)) := by
  simp only [seg12]; after_results; rfl

theorem seg13_v74 (U : Valuation τ sig (Elt F)) :
    after seg13 U (main_v74 : DevRef τ sig) = Cert.Spec.meanF (U (main_v71 : DevRef τ sig)) := by
  simp only [seg13]; after_results; rfl

set_option maxHeartbeats 2000000 in
theorem seg14_v75 (U : Valuation τ sig (Elt F)) :
    after seg14 U (main_v75 : DevRef τ sig) = Cert.Spec.varF (U (main_v71 : DevRef τ sig)) := by
  simp only [seg14]; after_results_simp; rfl

set_option maxHeartbeats 2000000 in
theorem seg15_v91 (U : Valuation τ sig (Elt F)) :
    after seg15 U (main_v91 : DevRef τ sig) = Cert.Spec.relu (Cert.Spec.bnAffine (U (main_v71 : DevRef τ sig)) (U (main_arg11 : DevRef τ sig))
      (U (main_arg12 : DevRef τ sig)) (U (main_v74 : DevRef τ sig)) (U (main_v75 : DevRef τ sig))) := by
  simp only [seg15]; after_results_simp; rfl

/-! ## The third layer's stretches -/

theorem seg16_v97 (U : Valuation τ sig (Elt F)) (ei : Cert.Spec.Arr F Cert.KernelIdeal.S2x1200000 .i32)
    (h1 : U (main_v1 : DevRef τ sig) = Cert.Spec.edgeRow0 ei) :
    after seg16 U (main_v97 : DevRef τ sig) = Cert.Spec.srcIdx ei := by
  simp only [seg16]; after_results; rw [h1]; rfl

theorem seg17_v101 (U : Valuation τ sig (Elt F)) (ei : Cert.Spec.Arr F Cert.KernelIdeal.S2x1200000 .i32)
    (h9 : U (main_v97 : DevRef τ sig) = Cert.Spec.srcIdx ei) (h3 : U (main_v3 : DevRef τ sig) = Cert.Spec.edgeRow1 ei) :
    after seg17 U (main_v101 : DevRef τ sig) = Cert.Spec.agg64 (U (main_v91 : DevRef τ sig)) ei := by
  simp only [seg17]; after_results; rw [h9, h3]; rfl

theorem seg18_v106 (U : Valuation τ sig (Elt F)) (ei : Cert.Spec.Arr F Cert.KernelIdeal.S2x1200000 .i32)
    (h3 : U (main_v3 : DevRef τ sig) = Cert.Spec.edgeRow1 ei) :
    after seg18 U (main_v106 : DevRef τ sig) = Cert.Spec.cntClip ei := by
  simp only [seg18]; after_results; rw [h3]; rfl

theorem seg19_v115 (U : Valuation τ sig (Elt F)) :
    after seg19 U (main_v115 : DevRef τ sig) = Cert.Spec.linR64 (U (main_v101 : DevRef τ sig)) (U (main_v106 : DevRef τ sig)) (U (main_v91 : DevRef τ sig))
      (U (main_arg13 : DevRef τ sig)) (U (main_arg14 : DevRef τ sig)) (U (main_arg15 : DevRef τ sig)) := by
  simp only [seg19]; after_results; rfl

theorem seg20_v118 (U : Valuation τ sig (Elt F)) :
    after seg20 U (main_v118 : DevRef τ sig) = Cert.Spec.meanF (U (main_v115 : DevRef τ sig)) := by
  simp only [seg20]; after_results; rfl

set_option maxHeartbeats 2000000 in
theorem seg21_v119 (U : Valuation τ sig (Elt F)) :
    after seg21 U (main_v119 : DevRef τ sig) = Cert.Spec.varF (U (main_v115 : DevRef τ sig)) := by
  simp only [seg21]; after_results_simp; rfl

set_option maxHeartbeats 2000000 in
theorem seg22_v135 (U : Valuation τ sig (Elt F)) :
    after seg22 U (main_v135 : DevRef τ sig) = Cert.Spec.relu (Cert.Spec.bnAffine (U (main_v115 : DevRef τ sig)) (U (main_arg16 : DevRef τ sig))
      (U (main_arg17 : DevRef τ sig)) (U (main_v118 : DevRef τ sig)) (U (main_v119 : DevRef τ sig))) := by
  simp only [seg22]; after_results_simp; rfl

/-! ## The head -/

set_option maxHeartbeats 2000000 in
theorem seg23_v147 (U : Valuation τ sig (Elt F)) :
    after seg23 U (main_v147 : DevRef τ sig) = shapeCast S100000 (Cert.Spec.headR (U (main_v135 : DevRef τ sig)) (U (main_arg2 : DevRef τ sig)) (U (main_arg18 : DevRef τ sig))
      (U (main_arg19 : DevRef τ sig)) (U (main_arg20 : DevRef τ sig)) (U (main_arg21 : DevRef τ sig))) shapeCasts_S100000x1_S100000 := by
  simp only [seg23]; after_results_simp; rfl

/-! ## The same stretches read in the final contents `W V` -/

theorem W_v1 (V : Valuation τ sig (Elt F)) :
    W V (main_v1 : DevRef τ sig) = Cert.Spec.edgeRow0 (A V).ei := by
  rw [stage 0 4 seg00 rfl V (y := main_v1) (by decide), seg00_v1, pre_keep 0 V (x := main_arg1) (by decide)]
  rfl

theorem W_v3 (V : Valuation τ sig (Elt F)) :
    W V (main_v3 : DevRef τ sig) = Cert.Spec.edgeRow1 (A V).ei := by
  rw [stage 0 4 seg00 rfl V (y := main_v3) (by decide), seg00_v3, pre_keep 0 V (x := main_arg1) (by decide)]
  rfl

theorem W_v9 (V : Valuation τ sig (Elt F)) :
    W V (main_v9 : DevRef τ sig) = Cert.Spec.srcIdx (A V).ei := by
  rw [stage 4 8 seg01 rfl V (y := main_v9) (by decide)]
  exact seg01_v9 _ _ (by rw [input 4 V (x := main_v1) (by decide), W_v1])

theorem W_v13 (V : Valuation τ sig (Elt F)) :
    W V (main_v13 : DevRef τ sig) = Cert.Spec.agg128 (A V).x (A V).ei := by
  rw [stage 12 5 seg02 rfl V (y := main_v13) (by decide),
    seg02_v13 _ (A V).ei (by rw [input 12 V (x := main_v9) (by decide), W_v9]) (by rw [input 12 V (x := main_v3) (by decide), W_v3]),
    pre_keep 12 V (x := main_arg0) (by decide)]
  rfl

theorem W_v18 (V : Valuation τ sig (Elt F)) :
    W V (main_v18 : DevRef τ sig) = Cert.Spec.cntClip (A V).ei := by
  rw [stage 17 10 seg03 rfl V (y := main_v18) (by decide)]
  exact seg03_v18 _ _ (by rw [input 17 V (x := main_v3) (by decide), W_v3])

theorem W_v27 (V : Valuation τ sig (Elt F)) :
    W V (main_v27 : DevRef τ sig) = Cert.Spec.lin1R (A V) := by
  rw [stage 27 9 seg04 rfl V (y := main_v27) (by decide), seg04_v27,
    input 27 V (x := main_v13) (by decide), W_v13, input 27 V (x := main_v18) (by decide), W_v18, pre_keep 27 V (x := main_arg0) (by decide),
    pre_keep 27 V (x := main_arg3) (by decide), pre_keep 27 V (x := main_arg4) (by decide), pre_keep 27 V (x := main_arg5) (by decide)]
  rfl

theorem W_v30 (V : Valuation τ sig (Elt F)) :
    W V (main_v30 : DevRef τ sig) = Cert.Spec.meanF (Cert.Spec.lin1R (A V)) := by
  rw [stage 36 5 seg05 rfl V (y := main_v30) (by decide), seg05_v30, input 36 V (x := main_v27) (by decide), W_v27]

theorem W_v31 (V : Valuation τ sig (Elt F)) :
    W V (main_v31 : DevRef τ sig) = Cert.Spec.varF (Cert.Spec.lin1R (A V)) := by
  rw [stage 41 23 seg06 rfl V (y := main_v31) (by decide), seg06_v31, input 41 V (x := main_v27) (by decide), W_v27]

theorem W_v47 (V : Valuation τ sig (Elt F)) :
    W V (main_v47 : DevRef τ sig) = Cert.Spec.h1R (A V) := by
  rw [stage 64 19 seg07 rfl V (y := main_v47) (by decide), seg07_v47,
    input 64 V (x := main_v27) (by decide), W_v27, input 64 V (x := main_v30) (by decide), W_v30, input 64 V (x := main_v31) (by decide), W_v31,
    pre_keep 64 V (x := main_arg6) (by decide), pre_keep 64 V (x := main_arg7) (by decide)]
  rfl

/-! ## The second and third layers and the head in the final contents -/

theorem W_v53 (V : Valuation τ sig (Elt F)) :
    W V (main_v53 : DevRef τ sig) = Cert.Spec.srcIdx (A V).ei := by
  rw [stage 83 8 (seg08 ++ seg09) rfl V (y := main_v53) (by decide)]
  exact seg09_v53 _ _ (by rw [input 83 V (x := main_v1) (by decide), W_v1])

theorem W_v57 (V : Valuation τ sig (Elt F)) :
    W V (main_v57 : DevRef τ sig) = Cert.Spec.agg64 (Cert.Spec.h1R (A V)) (A V).ei := by
  rw [stage 91 5 seg10 rfl V (y := main_v57) (by decide),
    seg10_v57 _ (A V).ei (by rw [input 91 V (x := main_v53) (by decide), W_v53]) (by rw [input 91 V (x := main_v3) (by decide), W_v3]),
    input 91 V (x := main_v47) (by decide), W_v47]

theorem W_v62 (V : Valuation τ sig (Elt F)) :
    W V (main_v62 : DevRef τ sig) = Cert.Spec.cntClip (A V).ei := by
  rw [stage 96 10 seg11 rfl V (y := main_v62) (by decide)]
  exact seg11_v62 _ _ (by rw [input 96 V (x := main_v3) (by decide), W_v3])

theorem W_v71 (V : Valuation τ sig (Elt F)) :
    W V (main_v71 : DevRef τ sig) = Cert.Spec.lin2R (A V) := by
  rw [stage 106 9 seg12 rfl V (y := main_v71) (by decide), seg12_v71,
    input 106 V (x := main_v57) (by decide), W_v57, input 106 V (x := main_v62) (by decide), W_v62, input 106 V (x := main_v47) (by decide), W_v47,
    pre_keep 106 V (x := main_arg8) (by decide), pre_keep 106 V (x := main_arg9) (by decide), pre_keep 106 V (x := main_arg10) (by decide)]
  rfl

theorem W_v74 (V : Valuation τ sig (Elt F)) :
    W V (main_v74 : DevRef τ sig) = Cert.Spec.meanF (Cert.Spec.lin2R (A V)) := by
  rw [stage 115 5 seg13 rfl V (y := main_v74) (by decide), seg13_v74, input 115 V (x := main_v71) (by decide), W_v71]

theorem W_v75 (V : Valuation τ sig (Elt F)) :
    W V (main_v75 : DevRef τ sig) = Cert.Spec.varF (Cert.Spec.lin2R (A V)) := by
  rw [stage 120 23 seg14 rfl V (y := main_v75) (by decide), seg14_v75, input 120 V (x := main_v71) (by decide), W_v71]

theorem W_v91 (V : Valuation τ sig (Elt F)) :
    W V (main_v91 : DevRef τ sig) = Cert.Spec.h2R (A V) := by
  rw [stage 143 19 seg15 rfl V (y := main_v91) (by decide), seg15_v91,
    input 143 V (x := main_v71) (by decide), W_v71, input 143 V (x := main_v74) (by decide), W_v74, input 143 V (x := main_v75) (by decide), W_v75,
    pre_keep 143 V (x := main_arg11) (by decide), pre_keep 143 V (x := main_arg12) (by decide)]
  rfl

theorem W_v97 (V : Valuation τ sig (Elt F)) :
    W V (main_v97 : DevRef τ sig) = Cert.Spec.srcIdx (A V).ei := by
  rw [stage 162 8 seg16 rfl V (y := main_v97) (by decide)]
  exact seg16_v97 _ _ (by rw [input 162 V (x := main_v1) (by decide), W_v1])

theorem W_v101 (V : Valuation τ sig (Elt F)) :
    W V (main_v101 : DevRef τ sig) = Cert.Spec.agg64 (Cert.Spec.h2R (A V)) (A V).ei := by
  rw [stage 170 5 seg17 rfl V (y := main_v101) (by decide),
    seg17_v101 _ (A V).ei (by rw [input 170 V (x := main_v97) (by decide), W_v97]) (by rw [input 170 V (x := main_v3) (by decide), W_v3]),
    input 170 V (x := main_v91) (by decide), W_v91]

theorem W_v106 (V : Valuation τ sig (Elt F)) :
    W V (main_v106 : DevRef τ sig) = Cert.Spec.cntClip (A V).ei := by
  rw [stage 175 10 seg18 rfl V (y := main_v106) (by decide)]
  exact seg18_v106 _ _ (by rw [input 175 V (x := main_v3) (by decide), W_v3])

theorem W_v115 (V : Valuation τ sig (Elt F)) :
    W V (main_v115 : DevRef τ sig) = Cert.Spec.lin3R (A V) := by
  rw [stage 185 9 seg19 rfl V (y := main_v115) (by decide), seg19_v115,
    input 185 V (x := main_v101) (by decide), W_v101, input 185 V (x := main_v106) (by decide), W_v106, input 185 V (x := main_v91) (by decide), W_v91,
    pre_keep 185 V (x := main_arg13) (by decide), pre_keep 185 V (x := main_arg14) (by decide), pre_keep 185 V (x := main_arg15) (by decide)]
  rfl

theorem W_v118 (V : Valuation τ sig (Elt F)) :
    W V (main_v118 : DevRef τ sig) = Cert.Spec.meanF (Cert.Spec.lin3R (A V)) := by
  rw [stage 194 5 seg20 rfl V (y := main_v118) (by decide), seg20_v118, input 194 V (x := main_v115) (by decide), W_v115]

theorem W_v119 (V : Valuation τ sig (Elt F)) :
    W V (main_v119 : DevRef τ sig) = Cert.Spec.varF (Cert.Spec.lin3R (A V)) := by
  rw [stage 199 23 seg21 rfl V (y := main_v119) (by decide), seg21_v119, input 199 V (x := main_v115) (by decide), W_v115]

theorem W_v135 (V : Valuation τ sig (Elt F)) :
    W V (main_v135 : DevRef τ sig) = Cert.Spec.h3R (A V) := by
  rw [stage 222 19 seg22 rfl V (y := main_v135) (by decide), seg22_v135,
    input 222 V (x := main_v115) (by decide), W_v115, input 222 V (x := main_v118) (by decide), W_v118, input 222 V (x := main_v119) (by decide), W_v119,
    pre_keep 222 V (x := main_arg16) (by decide), pre_keep 222 V (x := main_arg17) (by decide)]
  rfl

theorem W_v147 (V : Valuation τ sig (Elt F)) :
    W V (main_v147 : DevRef τ sig) = Cert.Spec.outR (A V) := by
  rw [stage 241 14 seg23 rfl V (y := main_v147) (by decide), seg23_v147, input 241 V (x := main_v135) (by decide), W_v135,
    pre_keep 241 V (x := main_arg2) (by decide), pre_keep 241 V (x := main_arg18) (by decide), pre_keep 241 V (x := main_arg19) (by decide), pre_keep 241 V (x := main_arg20) (by decide), pre_keep 241 V (x := main_arg21) (by decide)]
  rfl

/-! ## The run's result -/

/-- At the compiled mesh, for any float values, from any memory with zero counters: every weakly fair execution of
    @main terminates with the result buffer at the reference's composition of stretches over the arguments' launch
    contents, and with every argument unchanged. -/
theorem ref_value (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v147) = Cert.Spec.outR
        ⟨m ((c.tc : Thread nD τ).loc main_arg0),
          m ((c.tc : Thread nD τ).loc main_arg1),
          m ((c.tc : Thread nD τ).loc main_arg2),
          m ((c.tc : Thread nD τ).loc main_arg3),
          m ((c.tc : Thread nD τ).loc main_arg4),
          m ((c.tc : Thread nD τ).loc main_arg5),
          m ((c.tc : Thread nD τ).loc main_arg6),
          m ((c.tc : Thread nD τ).loc main_arg7),
          m ((c.tc : Thread nD τ).loc main_arg8),
          m ((c.tc : Thread nD τ).loc main_arg9),
          m ((c.tc : Thread nD τ).loc main_arg10),
          m ((c.tc : Thread nD τ).loc main_arg11),
          m ((c.tc : Thread nD τ).loc main_arg12),
          m ((c.tc : Thread nD τ).loc main_arg13),
          m ((c.tc : Thread nD τ).loc main_arg14),
          m ((c.tc : Thread nD τ).loc main_arg15),
          m ((c.tc : Thread nD τ).loc main_arg16),
          m ((c.tc : Thread nD τ).loc main_arg17),
          m ((c.tc : Thread nD τ).loc main_arg18),
          m ((c.tc : Thread nD τ).loc main_arg19),
          m ((c.tc : Thread nD τ).loc main_arg20),
          m ((c.tc : Thread nD τ).loc main_arg21)⟩
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21) :=
  (θ_run defs _ _).mono (fun _ h c => ⟨(h c main_v147).trans (W_v147 (launchContents m c)),
      (h c main_arg0).trans (W_keep (launchContents m c) (x := main_arg0) (by decide)),
      (h c main_arg1).trans (W_keep (launchContents m c) (x := main_arg1) (by decide)),
      (h c main_arg2).trans (W_keep (launchContents m c) (x := main_arg2) (by decide)),
      (h c main_arg3).trans (W_keep (launchContents m c) (x := main_arg3) (by decide)),
      (h c main_arg4).trans (W_keep (launchContents m c) (x := main_arg4) (by decide)),
      (h c main_arg5).trans (W_keep (launchContents m c) (x := main_arg5) (by decide)),
      (h c main_arg6).trans (W_keep (launchContents m c) (x := main_arg6) (by decide)),
      (h c main_arg7).trans (W_keep (launchContents m c) (x := main_arg7) (by decide)),
      (h c main_arg8).trans (W_keep (launchContents m c) (x := main_arg8) (by decide)),
      (h c main_arg9).trans (W_keep (launchContents m c) (x := main_arg9) (by decide)),
      (h c main_arg10).trans (W_keep (launchContents m c) (x := main_arg10) (by decide)),
      (h c main_arg11).trans (W_keep (launchContents m c) (x := main_arg11) (by decide)),
      (h c main_arg12).trans (W_keep (launchContents m c) (x := main_arg12) (by decide)),
      (h c main_arg13).trans (W_keep (launchContents m c) (x := main_arg13) (by decide)),
      (h c main_arg14).trans (W_keep (launchContents m c) (x := main_arg14) (by decide)),
      (h c main_arg15).trans (W_keep (launchContents m c) (x := main_arg15) (by decide)),
      (h c main_arg16).trans (W_keep (launchContents m c) (x := main_arg16) (by decide)),
      (h c main_arg17).trans (W_keep (launchContents m c) (x := main_arg17) (by decide)),
      (h c main_arg18).trans (W_keep (launchContents m c) (x := main_arg18) (by decide)),
      (h c main_arg19).trans (W_keep (launchContents m c) (x := main_arg19) (by decide)),
      (h c main_arg20).trans (W_keep (launchContents m c) (x := main_arg20) (by decide)),
      (h c main_arg21).trans (W_keep (launchContents m c) (x := main_arg21) (by decide))⟩)
    (run_main m ρ)

end Cert.ReferenceIdeal.RefRun

end
-- ==== Proof.MathDot.lean ====
/-
  The reference's four matrix products read at an output index: each is the plain sum, over the one contracted
  axis, of the products of the operands' entries — row `j 0` of the left operand against column `j 1` of the right.
-/
import proofs.«136404_j80470507258311_2_alg».proof.Proof.Spec
import Idealize.ShloMosaic.Lib.ValueIdx
import Idealize.ShloMosaic.PureOps.Ideal.Laws
import Idealize.ShloMosaic.Lib.IdealHost

noncomputable section

open scoped BigOperators
open Idealize.ShloMosaic Idealize.ShloMosaic.TcCoe Idealize.ShloMosaic.ValueIdx

namespace Cert.Spec.Dot

open Cert.ReferenceIdeal Cert.ReferenceIdeal.Facts₀

theorem dot128_apply (l : FVec Ideal S100000x128 .f32) (r : FVec Ideal S128x64 .f32) (j : S100000x64.Idx) :
    Host.dotGeneral (F := Ideal) dot_S100000x128_S128x64_S100000x64_1_0_0_1_n_n none l r j
      = ∑ k : Fin 128, l (ix2 (j 0) k) * r (ix2 k (j 1)) := by
  simp only [Host.dotGeneral]
  rw [Ideal.dotGeneral_apply, ← Equiv.sum_comp (contrEquiv1 dot_S100000x128_S128x64_S100000x64_1_0_0_1_n_n 128 rfl rfl).symm]
  refine Finset.sum_congr rfl fun k _ => ?_
  have hl : dot_S100000x128_S128x64_S100000x64_1_0_0_1_n_n.lhsIdx j ((contrEquiv1 dot_S100000x128_S128x64_S100000x64_1_0_0_1_n_n 128 rfl rfl).symm k) = ix2 (j 0) k := by
    funext a
    match a with
    | ⟨0, _⟩ => exact Fin.ext (by simp [DotDims.lhsIdx, dot_S100000x128_S128x64_S100000x64_1_0_0_1_n_n]; rfl)
    | ⟨1, _⟩ =>
      exact Fin.ext ((DotDims.lhsIdx_val_of_single (d := dot_S100000x128_S128x64_S100000x64_1_0_0_1_n_n) (cl := 1) rfl j _).trans
        (contrEquiv1_symm_val dot_S100000x128_S128x64_S100000x64_1_0_0_1_n_n 128 rfl rfl k))
  have hr : dot_S100000x128_S128x64_S100000x64_1_0_0_1_n_n.rhsIdx j ((contrEquiv1 dot_S100000x128_S128x64_S100000x64_1_0_0_1_n_n 128 rfl rfl).symm k) = ix2 k (j 1) := by
    funext a
    match a with
    | ⟨0, _⟩ =>
      exact Fin.ext ((DotDims.rhsIdx_val_of_single (d := dot_S100000x128_S128x64_S100000x64_1_0_0_1_n_n) (cr := 0) rfl j _).trans
        (contrEquiv1_symm_val dot_S100000x128_S128x64_S100000x64_1_0_0_1_n_n 128 rfl rfl k))
    | ⟨1, _⟩ => exact Fin.ext (by simp [DotDims.rhsIdx, dot_S100000x128_S128x64_S100000x64_1_0_0_1_n_n]; first | rfl | (show (0 : ℕ) = (j 1).val; have h1 := idx2_lt1 j; omega))
  exact congr (congrArg HMul.hMul (congrArg l hl)) (congrArg r hr)

theorem dot64_apply (l : FVec Ideal S100000x64 .f32) (r : FVec Ideal S64x64 .f32) (j : S100000x64.Idx) :
    Host.dotGeneral (F := Ideal) dot_S100000x64_S64x64_S100000x64_1_0_0_1_n_n none l r j
      = ∑ k : Fin 64, l (ix2 (j 0) k) * r (ix2 k (j 1)) := by
  simp only [Host.dotGeneral]
  rw [Ideal.dotGeneral_apply, ← Equiv.sum_comp (contrEquiv1 dot_S100000x64_S64x64_S100000x64_1_0_0_1_n_n 64 rfl rfl).symm]
  refine Finset.sum_congr rfl fun k _ => ?_
  have hl : dot_S100000x64_S64x64_S100000x64_1_0_0_1_n_n.lhsIdx j ((contrEquiv1 dot_S100000x64_S64x64_S100000x64_1_0_0_1_n_n 64 rfl rfl).symm k) = ix2 (j 0) k := by
    funext a
    match a with
    | ⟨0, _⟩ => exact Fin.ext (by simp [DotDims.lhsIdx, dot_S100000x64_S64x64_S100000x64_1_0_0_1_n_n]; rfl)
    | ⟨1, _⟩ =>
      exact Fin.ext ((DotDims.lhsIdx_val_of_single (d := dot_S100000x64_S64x64_S100000x64_1_0_0_1_n_n) (cl := 1) rfl j _).trans
        (contrEquiv1_symm_val dot_S100000x64_S64x64_S100000x64_1_0_0_1_n_n 64 rfl rfl k))
  have hr : dot_S100000x64_S64x64_S100000x64_1_0_0_1_n_n.rhsIdx j ((contrEquiv1 dot_S100000x64_S64x64_S100000x64_1_0_0_1_n_n 64 rfl rfl).symm k) = ix2 k (j 1) := by
    funext a
    match a with
    | ⟨0, _⟩ =>
      exact Fin.ext ((DotDims.rhsIdx_val_of_single (d := dot_S100000x64_S64x64_S100000x64_1_0_0_1_n_n) (cr := 0) rfl j _).trans
        (contrEquiv1_symm_val dot_S100000x64_S64x64_S100000x64_1_0_0_1_n_n 64 rfl rfl k))
    | ⟨1, _⟩ => exact Fin.ext (by simp [DotDims.rhsIdx, dot_S100000x64_S64x64_S100000x64_1_0_0_1_n_n]; first | rfl | (show (0 : ℕ) = (j 1).val; have h1 := idx2_lt1 j; omega))
  exact congr (congrArg HMul.hMul (congrArg l hl)) (congrArg r hr)

theorem dot65_apply (l : FVec Ideal S100000x65 .f32) (r : FVec Ideal S65x64 .f32) (j : S100000x64.Idx) :
    Host.dotGeneral (F := Ideal) dot_S100000x65_S65x64_S100000x64_1_0_0_1_n_n none l r j
      = ∑ k : Fin 65, l (ix2 (j 0) k) * r (ix2 k (j 1)) := by
  simp only [Host.dotGeneral]
  rw [Ideal.dotGeneral_apply, ← Equiv.sum_comp (contrEquiv1 dot_S100000x65_S65x64_S100000x64_1_0_0_1_n_n 65 rfl rfl).symm]
  refine Finset.sum_congr rfl fun k _ => ?_
  have hl : dot_S100000x65_S65x64_S100000x64_1_0_0_1_n_n.lhsIdx j ((contrEquiv1 dot_S100000x65_S65x64_S100000x64_1_0_0_1_n_n 65 rfl rfl).symm k) = ix2 (j 0) k := by
    funext a
    match a with
    | ⟨0, _⟩ => exact Fin.ext (by simp [DotDims.lhsIdx, dot_S100000x65_S65x64_S100000x64_1_0_0_1_n_n]; rfl)
    | ⟨1, _⟩ =>
      exact Fin.ext ((DotDims.lhsIdx_val_of_single (d := dot_S100000x65_S65x64_S100000x64_1_0_0_1_n_n) (cl := 1) rfl j _).trans
        (contrEquiv1_symm_val dot_S100000x65_S65x64_S100000x64_1_0_0_1_n_n 65 rfl rfl k))
  have hr : dot_S100000x65_S65x64_S100000x64_1_0_0_1_n_n.rhsIdx j ((contrEquiv1 dot_S100000x65_S65x64_S100000x64_1_0_0_1_n_n 65 rfl rfl).symm k) = ix2 k (j 1) := by
    funext a
    match a with
    | ⟨0, _⟩ =>
      exact Fin.ext ((DotDims.rhsIdx_val_of_single (d := dot_S100000x65_S65x64_S100000x64_1_0_0_1_n_n) (cr := 0) rfl j _).trans
        (contrEquiv1_symm_val dot_S100000x65_S65x64_S100000x64_1_0_0_1_n_n 65 rfl rfl k))
    | ⟨1, _⟩ => exact Fin.ext (by simp [DotDims.rhsIdx, dot_S100000x65_S65x64_S100000x64_1_0_0_1_n_n]; first | rfl | (show (0 : ℕ) = (j 1).val; have h1 := idx2_lt1 j; omega))
  exact congr (congrArg HMul.hMul (congrArg l hl)) (congrArg r hr)

theorem dot64x1_apply (l : FVec Ideal S100000x64 .f32) (r : FVec Ideal S64x1 .f32) (j : S100000x1.Idx) :
    Host.dotGeneral (F := Ideal) dot_S100000x64_S64x1_S100000x1_1_0_0_1_n_n none l r j
      = ∑ k : Fin 64, l (ix2 (j 0) k) * r (ix2 k (j 1)) := by
  simp only [Host.dotGeneral]
  rw [Ideal.dotGeneral_apply, ← Equiv.sum_comp (contrEquiv1 dot_S100000x64_S64x1_S100000x1_1_0_0_1_n_n 64 rfl rfl).symm]
  refine Finset.sum_congr rfl fun k _ => ?_
  have hl : dot_S100000x64_S64x1_S100000x1_1_0_0_1_n_n.lhsIdx j ((contrEquiv1 dot_S100000x64_S64x1_S100000x1_1_0_0_1_n_n 64 rfl rfl).symm k) = ix2 (j 0) k := by
    funext a
    match a with
    | ⟨0, _⟩ => exact Fin.ext (by simp [DotDims.lhsIdx, dot_S100000x64_S64x1_S100000x1_1_0_0_1_n_n]; rfl)
    | ⟨1, _⟩ =>
      exact Fin.ext ((DotDims.lhsIdx_val_of_single (d := dot_S100000x64_S64x1_S100000x1_1_0_0_1_n_n) (cl := 1) rfl j _).trans
        (contrEquiv1_symm_val dot_S100000x64_S64x1_S100000x1_1_0_0_1_n_n 64 rfl rfl k))
  have hr : dot_S100000x64_S64x1_S100000x1_1_0_0_1_n_n.rhsIdx j ((contrEquiv1 dot_S100000x64_S64x1_S100000x1_1_0_0_1_n_n 64 rfl rfl).symm k) = ix2 k (j 1) := by
    funext a
    match a with
    | ⟨0, _⟩ =>
      exact Fin.ext ((DotDims.rhsIdx_val_of_single (d := dot_S100000x64_S64x1_S100000x1_1_0_0_1_n_n) (cr := 0) rfl j _).trans
        (contrEquiv1_symm_val dot_S100000x64_S64x1_S100000x1_1_0_0_1_n_n 64 rfl rfl k))
    | ⟨1, _⟩ => exact Fin.ext (by simp [DotDims.rhsIdx, dot_S100000x64_S64x1_S100000x1_1_0_0_1_n_n]; first | rfl | (show (0 : ℕ) = (j 1).val; have h1 := idx2_lt1 j; omega))
  exact congr (congrArg HMul.hMul (congrArg l hl)) (congrArg r hr)

end Cert.Spec.Dot

end
-- ==== Proof.MathLayout.lean ====
/-
  How the layout operations of the two programs read at an index: a per-feature vector spread over rows or laid
  out as a row, a per-node vector spread over columns or laid out as a column, a per-feature vector repeated twice
  along 128 lanes, two consecutive 64-wide rows packed into one 128-wide row (position r·64 + c in row-major order
  on both sides), the two row bands of the 65-row head matrix, and a 64-wide array with one more column appended.
-/
import proofs.«136404_j80470507258311_2_alg».proof.Proof.SpecK
import Idealize.ShloMosaic.Lib.ValueIdx
import Idealize.ShloMosaic.Lib.ValueLayout
import Idealize.ShloMosaic.Lib.Pipeline.Value
import Idealize.ShloMosaic.Lib.IdealHost

noncomputable section

open scoped BigOperators
open Idealize.ShloMosaic Idealize.ShloMosaic.TcCoe Idealize.ShloMosaic.ValueIdx

namespace Cert.Spec.Layout

open Cert.KernelIdeal Cert.KernelIdeal.Facts₀

theorem spreadRow_apply (p : Arr Ideal S64 .f32) (r : Fin 100000) (k : Fin 64) : spreadRow p (ix2 r k) = p (ix1 k) :=
  (broadcastInDim_apply _ _ _ (ix2 r k) (ix2 (0 : Fin 1) k) (fun a => by match a with | ⟨0, _⟩ => rfl | ⟨1, _⟩ => rfl)).trans
    (broadcastInDim_apply _ _ _ (ix2 (0 : Fin 1) k) (ix1 k) (fun a => by match a with | ⟨0, _⟩ => rfl))

theorem spreadCol128_apply (c : Arr Ideal S100000 .f32) (r : Fin 100000) (k : Fin 128) : spreadCol128 c (ix2 r k) = c (ix1 r) :=
  (broadcastInDim_apply _ _ _ (ix2 r k) (ix2 r (0 : Fin 1)) (fun a => by match a with | ⟨0, _⟩ => rfl | ⟨1, _⟩ => rfl)).trans
    (broadcastInDim_apply _ _ _ (ix2 r (0 : Fin 1)) (ix1 r) (fun a => by match a with | ⟨0, _⟩ => rfl))

theorem spreadCol64_apply (c : Arr Ideal S100000 .f32) (r : Fin 100000) (k : Fin 64) : spreadCol64 c (ix2 r k) = c (ix1 r) :=
  (broadcastInDim_apply _ _ _ (ix2 r k) (ix2 r (0 : Fin 1)) (fun a => by match a with | ⟨0, _⟩ => rfl | ⟨1, _⟩ => rfl)).trans
    (broadcastInDim_apply _ _ _ (ix2 r (0 : Fin 1)) (ix1 r) (fun a => by match a with | ⟨0, _⟩ => rfl))

theorem row64_apply (p : Arr Ideal S64 .f32) (u : Fin 1) (k : Fin 64) : row64 p (ix2 u k) = p (ix1 k) :=
  shapeCast_a_1a_apply p _ u k

/-- A vector laid out as a column reads its entry at the row. -/
theorem col_apply (v : Arr Ideal S100000 .f32) (h : S100000.ShapeCasts S100000x1) (r : Fin 100000) (u : Fin 1) :
    shapeCast S100000x1 v h (ix2 r u) = v (ix1 r) :=
  shapeCast_apply v h _ _ (by
    have hu : u.val = 0 := by omega
    rw [Shape.rowMajor_val_two, Shape.rowMajor_val_one]
    show r.val = r.val * 1 + u.val
    omega)

theorem one_apply (v : Arr Ideal S1 .f32) (h : S1.ShapeCasts S1x1) (u w : Fin 1) :
    shapeCast S1x1 v h (ix2 u w) = v (ix1 (0 : Fin 1)) :=
  shapeCast_apply v h _ _ (by
    have hu : u.val = 0 := by omega
    have hw : w.val = 0 := by omega
    rw [Shape.rowMajor_val_two, Shape.rowMajor_val_one]
    show 0 = u.val * 1 + w.val
    omega)

theorem tile2_apply (p : Arr Ideal S64 .f32) (u : Fin 1) (c : Fin 128) :
    tile2 p (ix2 u c) = p (ix1 ⟨c.val % 64, Nat.mod_lt _ (by decide)⟩) := by
  unfold tile2
  rw [shapeCast_a_1a_apply _ _ u c,
    shapeCast_apply _ _ (ix1 c) (ix2 (⟨c.val / 64, by omega⟩ : Fin 2) (⟨c.val % 64, Nat.mod_lt _ (by decide)⟩ : Fin 64)) (by
      rw [Shape.rowMajor_val_two, Shape.rowMajor_val_one]
      show c.val / 64 * 64 + c.val % 64 = c.val
      omega),
    broadcastInDim_apply _ _ _ _ (ix2 (0 : Fin 1) (⟨c.val % 64, Nat.mod_lt _ (by decide)⟩ : Fin 64))
      (fun a => by match a with | ⟨0, _⟩ => rfl | ⟨1, _⟩ => rfl),
    row64_apply]

theorem pack_apply (l : Arr Ideal S100000x64 .f32) (r : Fin 50000) (c : Fin 128) :
    pack l (ix2 r c) = l (ix2 (⟨(r.val * 128 + c.val) / 64, by omega⟩ : Fin 100000) (⟨(r.val * 128 + c.val) % 64, Nat.mod_lt _ (by decide)⟩ : Fin 64)) :=
  shapeCast_apply l _ _ _ (by
    rw [Shape.rowMajor_val_two, Shape.rowMajor_val_two]
    show (r.val * 128 + c.val) / 64 * 64 + (r.val * 128 + c.val) % 64 = r.val * 128 + c.val
    omega)

theorem unpack_apply (v : Arr Ideal S50000x128 .f32) (r : Fin 100000) (k : Fin 64) :
    unpack v (ix2 r k) = v (ix2 (⟨(r.val * 64 + k.val) / 128, by omega⟩ : Fin 50000)
      (⟨(r.val * 64 + k.val) % 128, Nat.mod_lt _ (by decide)⟩ : Fin 128)) :=
  shapeCast_apply v _ _ _ (by
    rw [Shape.rowMajor_val_two, Shape.rowMajor_val_two]
    show (r.val * 64 + k.val) / 128 * 128 + (r.val * 64 + k.val) % 128 = r.val * 64 + k.val
    omega)

/-- The head matrix's first 64 rows. -/
theorem headRows_apply (W : Arr Ideal S65x64 .f32) (k : Fin 64) (m : Fin 64) :
    extractStridedSlice S64x64 ![0, 0] W slices_S65x64_S64x64_0_0 (ix2 k m) = W (ix2 k.castSucc m) :=
  slice2_axis0_apply 0 W _ k m k.castSucc (by simp)

/-- The head matrix's last row. -/
theorem lastRow_apply (W : Arr Ideal S65x64 .f32) (u : Fin 1) (m : Fin 64) :
    extractStridedSlice S1x64 ![64, 0] W slices_S65x64_S1x64_64_0 (ix2 u m) = W (ix2 (Fin.last 64) m) :=
  slice2_axis0_apply 64 W _ u m (Fin.last 64) (by
    have hu : u.val = 0 := by omega
    show 64 = 64 + u.val
    omega)

end Cert.Spec.Layout

end
-- ==== Proof.MathLin.lean ====
/-
  One layer's linear part, `(agg / cnt) · Wl + b + h · Wr`: the region's whole-array function (which multiplies the
  neighbour sums by the reciprocal in-degree `1 / cnt`) against the reference's operations (which divide), equal
  wherever every in-degree is nonzero — division by a nonzero extended real is the product with its inverse.
-/
import proofs.«136404_j80470507258311_2_alg».proof.Proof.MathDot
import proofs.«136404_j80470507258311_2_alg».proof.Proof.MathLayout

noncomputable section

open scoped BigOperators
open Idealize.ShloMosaic Idealize.ShloMosaic.TcCoe Idealize.ShloMosaic.ValueIdx

namespace Cert.Spec

open Cert.KernelIdeal Cert.KernelIdeal.Facts₀ Cert.Spec.Layout

/-- The reciprocals `1 / c` of a per-node vector, as a column. -/
def invCol (c : Arr Ideal S100000 .f32) : Arr Ideal S100000x1 .f32 :=
  shapeCast S100000x1 (Host.divf (F := Ideal) (broadcastInDim S100000 ![] bcast_S_S100000 (constant (F := Ideal) S_ .f32 0x3F800000#32)) c)
    shapeCasts_S100000_S100000x1

theorem invCnt_eq (ei : Arr Ideal S2x1200000 .i32) : invCnt ei = invCol (cntClip ei) := rfl

theorem invCol_apply (c : Arr Ideal S100000 .f32) (r : Fin 100000) (u : Fin 1) :
    invCol c (ix2 r u) = Ideal.div 1 (c (ix1 r)) := by
  unfold invCol
  rw [col_apply, hostDivf_apply, broadcastInDim_scalar_apply, constant_apply, Ideal.ofBits_one_f32]

/-- With nonzero in-degrees, the region's linear layer (neighbour sums times the reciprocal in-degree, then the
    products) is the reference's (neighbour sums divided by the in-degree, then the products): `a · (1 · c⁻¹) = a · c⁻¹`
    entry by entry, both with the same two sums over the 128 input features. -/
theorem sageLin128_eq (a : Arr Ideal S100000x128 .f32) (c : Arr Ideal S100000 .f32) (hc : ∀ r : Fin 100000, c (ix1 r) ≠ 0)
    (x : Arr Ideal S100000x128 .f32) (wl : Arr Ideal S128x64 .f32) (b : Arr Ideal S64 .f32) (wr : Arr Ideal S128x64 .f32) :
    Cert.RegSpec.sageLin128 a (invCol c) x wl (row64 b) wr = linR128 a c x wl b wr := by
  funext j
  obtain ⟨r, q, rfl⟩ : ∃ (r : Fin 100000) (q : Fin 64), j = ix2 r q := ⟨j 0, j 1, eq_ix2 j⟩
  unfold Cert.RegSpec.sageLin128 linR128
  rw [addf_apply, addf_apply, Dot.dot128_apply, Dot.dot128_apply, spreadRow_apply, row64_apply]
  refine congrArg (· + _) (congrArg (· + _) (Finset.sum_congr rfl fun k _ => congrArg (· * _) ?_))
  show a (ix2 r k) * invCol c (ix2 r (0 : Fin 1)) = Host.divf a (spreadCol128 c) (ix2 r k)
  rw [invCol_apply, hostDivf_apply, spreadCol128_apply, Ideal.div, Ideal.div, if_neg (hc r), if_neg (hc r), one_mul]

/-- With nonzero in-degrees, the region's linear layer (neighbour sums times the reciprocal in-degree, then the
    products) is the reference's (neighbour sums divided by the in-degree, then the products): `a · (1 · c⁻¹) = a · c⁻¹`
    entry by entry, both with the same two sums over the 64 input features. -/
theorem sageLin64_eq (a : Arr Ideal S100000x64 .f32) (c : Arr Ideal S100000 .f32) (hc : ∀ r : Fin 100000, c (ix1 r) ≠ 0)
    (x : Arr Ideal S100000x64 .f32) (wl : Arr Ideal S64x64 .f32) (b : Arr Ideal S64 .f32) (wr : Arr Ideal S64x64 .f32) :
    Cert.RegSpec.sageLin64 a (invCol c) x wl (row64 b) wr = linR64 a c x wl b wr := by
  funext j
  obtain ⟨r, q, rfl⟩ : ∃ (r : Fin 100000) (q : Fin 64), j = ix2 r q := ⟨j 0, j 1, eq_ix2 j⟩
  unfold Cert.RegSpec.sageLin64 linR64
  rw [addf_apply, addf_apply, Dot.dot64_apply, Dot.dot64_apply, spreadRow_apply, row64_apply]
  refine congrArg (· + _) (congrArg (· + _) (Finset.sum_congr rfl fun k _ => congrArg (· * _) ?_))
  show a (ix2 r k) * invCol c (ix2 r (0 : Fin 1)) = Host.divf a (spreadCol64 c) (ix2 r k)
  rw [invCol_apply, hostDivf_apply, spreadCol64_apply, Ideal.div, Ideal.div, if_neg (hc r), if_neg (hc r), one_mul]

/-- The clipped in-degrees are at least one, so nonzero. -/
theorem cntClip_ne_zero (ei : Arr Ideal S2x1200000 .i32) (r : Fin 100000) : cntClip ei (ix1 r) ≠ 0 := by
  unfold cntClip
  rw [maximumf_apply, broadcastInDim_scalar_apply]
  show max (Ideal.ofBits .f32 0x3F800000#32) _ ≠ 0
  rw [Ideal.ofBits_one_f32]
  exact ne_of_gt (lt_of_lt_of_le zero_lt_one (le_max_left _ _))

end Cert.Spec

end
-- ==== Proof.MathVar.lean ====
/-
  The biased column variance is a mean of squares, so it is never negative, and clamping it below at zero changes
  nothing: a square of an extended real is ≥ 0 (also at ±∞), a sum of such is ≥ 0, and dividing by the real 100000
  multiplies by a positive real.
-/
import proofs.«136404_j80470507258311_2_alg».proof.Proof.MathLayout
import Idealize.ShloMosaic.PureOps.Ideal.Laws

noncomputable section

open scoped BigOperators
open Idealize.ShloMosaic Idealize.ShloMosaic.TcCoe Idealize.ShloMosaic.ValueIdx

namespace Cert.Spec

open Cert.KernelIdeal Cert.KernelIdeal.Facts₀ Cert.Spec.Layout

/-- The word `0x47C35000` denotes the real 100000. -/
theorem ofBits_1e5 : Ideal.ofBits .f32 0x47C35000#32 = ((100000 : ℝ) : EReal) := by
  simp [Ideal.ofBits, Ideal.ieee, -EReal.coe_mul]; norm_num

/-- The variance's divisor is 100000 − 0. -/
theorem varDen_val : varDen (F := Ideal) ix0 = ((100000 : ℝ) : EReal) := by
  unfold varDen
  rw [subf_apply, constant_apply, sitofp_apply, constantI_apply, ofBits_1e5]
  show ((100000 : ℝ) : EReal) - (((0#32 : BitVec 32).toInt : ℝ) : EReal) = _
  simp

theorem mul_self_nonneg' (x : EReal) : 0 ≤ x * x := by
  induction x using EReal.rec with
  | bot => rw [EReal.bot_mul_bot]; exact le_top
  | coe r => rw [← EReal.coe_mul]; exact EReal.coe_nonneg.mpr (mul_self_nonneg r)
  | top => rw [EReal.top_mul_top]; exact le_top

/-- A column sum of nonnegative entries is nonnegative. -/
theorem colSum_nonneg (l : Arr Ideal S100000x64 .f32) (h : ∀ i, 0 ≤ l i) (q : Fin 64) : 0 ≤ colSum l (ix1 q) := by
  unfold colSum
  rw [hostReduceAdd_apply, Ideal.hostReduceAdd_single _ (by decide : S100000x64.Reduces [0] S64), constant_apply,
    Ideal.ofBits_zero_f32, zero_add]
  exact Finset.sum_nonneg fun k _ => h _

theorem varF_nonneg (l : Arr Ideal S100000x64 .f32) (q : Fin 64) : 0 ≤ varF l (ix1 q) := by
  have hc : FloatOps.cmpf (F := Ideal) (φ := .f32) .ogt ((100000 : ℝ) : EReal) (0 : EReal) = 1#1 := by
    show BitVec.ofBool (decide ((0 : EReal) < ((100000 : ℝ) : EReal))) = 1#1
    rw [decide_eq_true (by exact_mod_cast (by norm_num : (0 : ℝ) < 100000))]; rfl
  unfold varF
  rw [select_apply, broadcastInDim_scalar_apply, cmpf_apply, varDen_val, constant_apply, Ideal.ofBits_zero_f32, hc,
    select_one, hostDivf_apply, broadcastInDim_scalar_apply, varDen_val, Ideal.div_coe (by norm_num)]
  exact EReal.mul_nonneg (colSum_nonneg _ (fun i => by rw [mulf_apply]; exact mul_self_nonneg' _) q)
    (EReal.coe_nonneg.mpr (by norm_num))

/-- Clamping the variance below at zero is the identity. -/
theorem varK_eq (l : Arr Ideal S100000x64 .f32) : varK l = varF l := by
  funext i
  obtain ⟨q, rfl⟩ : ∃ q : Fin 64, i = ix1 q := ⟨i 0, eq_ix1 i⟩
  unfold varK
  rw [maximumf_apply, broadcastInDim_scalar_apply, constant_apply, Ideal.ofBits_zero_f32]
  exact max_eq_left (varF_nonneg l q)

end Cert.Spec

end
-- ==== Proof.MathBn.lean ====
/-
  Normalisation and positive part. On the lane-packed layout, entry (r, k) of the 100000×64 array sits at row-major
  position r·64 + k, that is at row (r·64 + k) / 128 and lane (r·64 + k) % 128 of the 50000×128 array, and a
  per-feature vector repeated twice reads, at lane c, its entry c % 64 = k. So the packed region computes, entry by
  entry, `max ((l − mu) · rsqrt(var + ε) · g + be) 0` with the same operand order as the reference's operations.
-/
import proofs.«136404_j80470507258311_2_alg».proof.Proof.MathLayout

noncomputable section

open scoped BigOperators
open Idealize.ShloMosaic Idealize.ShloMosaic.TcCoe Idealize.ShloMosaic.ValueIdx

namespace Cert.Spec

open Cert.KernelIdeal Cert.KernelIdeal.Facts₀ Cert.Spec.Layout

/-- One normalised entry: `((x − mu) · rsqrt(var + ε)) · g + be`, ε the word `0x3727C5AC`. -/
def bnEntry (x mu var g be : EReal) : EReal :=
  (((x - mu) * Ideal.rsqrt (var + Ideal.ofBits .f32 0x3727C5AC#32)) * g) + be

theorem relu_apply (l : Arr Ideal S100000x64 .f32) (r : Fin 100000) (k : Fin 64) :
    relu l (ix2 r k) = max (l (ix2 r k)) (Ideal.ofBits .f32 0x00000000#32) := by
  unfold relu
  rw [maximumf_apply, broadcastInDim_scalar_apply, constant_apply]

theorem bnAffine_apply (l : Arr Ideal S100000x64 .f32) (g be mu var : Arr Ideal S64 .f32) (r : Fin 100000) (k : Fin 64) :
    bnAffine l g be mu var (ix2 r k) = bnEntry (l (ix2 r k)) (mu (ix1 k)) (var (ix1 k)) (g (ix1 k)) (be (ix1 k)) := by
  have hr : Host.rsqrt (F := Ideal) (addf var (broadcastInDim S64 ![] bcast_S_S64 (constant (F := Ideal) S_ .f32 0x3727C5AC#32))) (ix1 k)
      = Ideal.rsqrt (var (ix1 k) + Ideal.ofBits .f32 0x3727C5AC#32) := by
    show Ideal.rsqrt ((addf (F := Ideal) (φ := .f32) var _) (ix1 k)) = _
    rw [addf_apply, broadcastInDim_scalar_apply, constant_apply]
  unfold bnAffine bnEntry
  rw [addf_apply, mulf_apply, mulf_apply, subf_apply, spreadRow_apply, spreadRow_apply, spreadRow_apply, spreadRow_apply, hr]

/-- The packed region's entry at the packed position of (r, k). -/
theorem bnPacked_entry (l : Arr Ideal S100000x64 .f32) (g be mu var : Arr Ideal S64 .f32) (R : Fin 50000) (C : Fin 128)
    (r : Fin 100000) (k : Fin 64) (h : R.val * 128 + C.val = r.val * 64 + k.val) :
    Cert.RegSpec.bnPacked (pack l) (tile2 g) (tile2 be) (tile2 mu) (tile2 var) (ix2 R C)
      = max (bnEntry (l (ix2 r k)) (mu (ix1 k)) (var (ix1 k)) (g (ix1 k)) (be (ix1 k))) (Ideal.ofBits .f32 0x00000000#32) := by
  have e1 : (⟨(R.val * 128 + C.val) / 64, by omega⟩ : Fin 100000) = r := Fin.ext (by show (R.val * 128 + C.val) / 64 = r.val; omega)
  have e2 : (⟨(R.val * 128 + C.val) % 64, Nat.mod_lt _ (by decide)⟩ : Fin 64) = k :=
    Fin.ext (by show (R.val * 128 + C.val) % 64 = k.val; omega)
  have e3 : (⟨C.val % 64, Nat.mod_lt _ (by decide)⟩ : Fin 64) = k := Fin.ext (by show C.val % 64 = k.val; omega)
  unfold Cert.RegSpec.bnPacked bnEntry
  show max ((((pack l (ix2 R C) - tile2 mu (ix2 (0 : Fin 1) C)) * Ideal.rsqrt (tile2 var (ix2 (0 : Fin 1) C) + Ideal.ofBits .f32 0x3727C5AC#32))
      * tile2 g (ix2 (0 : Fin 1) C)) + tile2 be (ix2 (0 : Fin 1) C)) (Ideal.ofBits .f32 0x00000000#32) = _
  rw [pack_apply, tile2_apply, tile2_apply, tile2_apply, tile2_apply, e1, e2, e3]

/-- Normalisation on the packed layout is the reference's normalisation, for any statistics. -/
theorem bnPacked_eq (l : Arr Ideal S100000x64 .f32) (g be mu var : Arr Ideal S64 .f32) :
    unpack (Cert.RegSpec.bnPacked (pack l) (tile2 g) (tile2 be) (tile2 mu) (tile2 var)) = relu (bnAffine l g be mu var) := by
  funext j
  obtain ⟨r, k, rfl⟩ : ∃ (r : Fin 100000) (k : Fin 64), j = ix2 r k := ⟨j 0, j 1, eq_ix2 j⟩
  rw [unpack_apply, relu_apply, bnAffine_apply]
  exact bnPacked_entry l g be mu var _ _ r k (by show (r.val * 64 + k.val) / 128 * 128 + (r.val * 64 + k.val) % 128 = _; omega)

end Cert.Spec

end
-- ==== Proof.MathHead.lean ====
/-
  The head. The reference appends the score column to the 64 normalised features and multiplies the 100000×65 array
  by the 65×64 matrix; the fused region multiplies the 64 features by the matrix's first 64 rows and adds the score
  times the last row. A sum over 65 indices is the sum over the first 64 plus the last term, so the two agree entry
  by entry; the rest (bias, positive part, second product, second bias) is the same operations in the same order.
-/
import proofs.«136404_j80470507258311_2_alg».proof.Proof.MathDot
import proofs.«136404_j80470507258311_2_alg».proof.Proof.MathBn

noncomputable section

open scoped BigOperators
open Idealize.ShloMosaic Idealize.ShloMosaic.TcCoe Idealize.ShloMosaic.ValueIdx

namespace Cert.Spec

section RefSide
open Cert.ReferenceIdeal Cert.ReferenceIdeal.Facts₀ Cert.Spec.Layout

/-- The reference's hidden layer of the head: `relu([h, s] · Wf1 + bf1)`. -/
def hiddenR {F : FTy → Type} [FloatOps F] (h : Arr F S100000x64 .f32) (s : Arr F S100000 .f32) (Wf1 : Arr F S65x64 .f32)
    (bf1 : Arr F S64 .f32) : Arr F S100000x64 .f32 :=
  relu (addf (Host.dotGeneral dot_S100000x65_S65x64_S100000x64_1_0_0_1_n_n none
      (concatenate S100000x65 1 [⟨S100000x64, h⟩, ⟨S100000x1, broadcastInDim S100000x1 ![0] bcast_S100000_S100000x1_0 s⟩]
        concatenates_S100000x64_S100000x1_S100000x65_d1) Wf1) (spreadRow bf1))

theorem headR_eq {F : FTy → Type} [FloatOps F] (h : Arr F S100000x64 .f32) (s : Arr F S100000 .f32) (Wf1 : Arr F S65x64 .f32)
    (bf1 : Arr F S64 .f32) (Wf2 : Arr F S64x1 .f32) (bf2 : Arr F S1 .f32) :
    headR h s Wf1 bf1 Wf2 bf2
      = addf (Host.dotGeneral dot_S100000x64_S64x1_S100000x1_1_0_0_1_n_n none (hiddenR h s Wf1 bf1) Wf2)
          (broadcastInDim S100000x1 ![0, 1] bcast_S1x1_S100000x1_0_1 (broadcastInDim S1x1 ![1] bcast_S1_S1x1_1 bf2)) := rfl

/-- The appended array at one of the first 64 columns is the feature array. -/
theorem concat_left (h : Arr Ideal S100000x64 .f32) (col : Arr Ideal S100000x1 .f32) (r : Fin 100000) (k : Fin 64) :
    concatenate S100000x65 1 [⟨S100000x64, h⟩, ⟨S100000x1, col⟩]
        concatenates_S100000x64_S100000x1_S100000x65_d1 (ix2 r k.castSucc) = h (ix2 r k) :=
  concatenate_pair_apply_left (1 : Fin 2) h col _ (ix2 r k.castSucc) rfl (ix2 r k)
    (fun b => by match b with | ⟨0, _⟩ => rfl | ⟨1, _⟩ => rfl)

/-- … and at the last column the appended column. -/
theorem concat_right (h : Arr Ideal S100000x64 .f32) (col : Arr Ideal S100000x1 .f32) (r : Fin 100000) :
    concatenate S100000x65 1 [⟨S100000x64, h⟩, ⟨S100000x1, col⟩]
        concatenates_S100000x64_S100000x1_S100000x65_d1 (ix2 r (Fin.last 64)) = col (ix2 r (0 : Fin 1)) :=
  concatenate_pair_apply_right (1 : Fin 2) h col _ (ix2 r (Fin.last 64)) rfl rfl (ix2 r (0 : Fin 1))
    (fun b hb => by match b with | ⟨0, _⟩ => rfl | ⟨1, _⟩ => exact absurd rfl hb) rfl

/-- A per-node vector as a column (the host's broadcast along a new trailing unit axis). -/
theorem hostCol_apply (s : Arr Ideal S100000 .f32) (r : Fin 100000) (u : Fin 1) :
    broadcastInDim S100000x1 ![0] bcast_S100000_S100000x1_0 s (ix2 r u) = s (ix1 r) :=
  broadcastInDim_apply _ _ _ (ix2 r u) (ix1 r) (fun a => by match a with | ⟨0, _⟩ => rfl)

/-- The one-entry bias spread over the column. -/
theorem spreadOne_apply (b : Arr Ideal S1 .f32) (r : Fin 100000) (u : Fin 1) :
    broadcastInDim S100000x1 ![0, 1] bcast_S1x1_S100000x1_0_1 (broadcastInDim S1x1 ![1] bcast_S1_S1x1_1 b) (ix2 r u)
      = b (ix1 (0 : Fin 1)) :=
  (broadcastInDim_apply _ _ _ (ix2 r u) (ix2 (0 : Fin 1) (0 : Fin 1)) (fun a => by match a with | ⟨0, _⟩ => rfl | ⟨1, _⟩ => rfl)).trans
    (broadcastInDim_apply _ _ _ (ix2 (0 : Fin 1) (0 : Fin 1)) (ix1 (0 : Fin 1)) (fun a => by match a with | ⟨0, _⟩ => rfl))

/-- The reference's hidden entry: the sum over the 64 features, plus the score times the matrix's last row, plus the
    bias, then the positive part. -/
theorem hiddenR_apply (h : Arr Ideal S100000x64 .f32) (s : Arr Ideal S100000 .f32) (Wf1 : Arr Ideal S65x64 .f32)
    (bf1 : Arr Ideal S64 .f32) (r : Fin 100000) (m : Fin 64) :
    hiddenR (F := Ideal) h s Wf1 bf1 (ix2 r m)
      = max (((∑ k : Fin 64, h (ix2 r k) * Wf1 (ix2 k.castSucc m)) + s (ix1 r) * Wf1 (ix2 (Fin.last 64) m)) + bf1 (ix1 m))
          (Ideal.ofBits .f32 0x00000000#32) := by
  unfold hiddenR
  rw [relu_apply, addf_apply, Dot.dot65_apply, spreadRow_apply, Fin.sum_univ_castSucc, concat_right, hostCol_apply]
  refine congrArg (max · _) (congrArg (· + _) (congrArg (· + _) (Finset.sum_congr rfl fun k _ => ?_)))
  rw [concat_left]

end RefSide

open Cert.KernelIdeal Cert.KernelIdeal.Facts₀ Cert.Spec.Layout

/-- The fused normalised feature is the reference's. -/
theorem fusionHidden_eq (l : Arr Ideal S100000x64 .f32) (g be mu var : Arr Ideal S64 .f32) (r : Fin 100000) (k : Fin 64) :
    Cert.RegSpec.fusionHidden l (row64 g) (row64 be) (row64 mu) (row64 var) r k = relu (bnAffine l g be mu var) (ix2 r k) := by
  unfold Cert.RegSpec.fusionHidden
  rw [row64_apply, row64_apply, row64_apply, row64_apply, relu_apply, bnAffine_apply]
  rfl

/-- The hidden layer of the head: the fused region's entry is the reference's. -/
theorem fusionMid_eq (l : Arr Ideal S100000x64 .f32) (g be mu var : Arr Ideal S64 .f32) (s : Arr Ideal S100000 .f32)
    (Wf1 : Arr Ideal S65x64 .f32) (bf1 : Arr Ideal S64 .f32) (r : Fin 100000) (m : Fin 64) :
    Cert.RegSpec.fusionMid l (row64 g) (row64 be) (row64 mu) (row64 var)
        (shapeCast S100000x1 s shapeCasts_S100000_S100000x1)
        (extractStridedSlice S64x64 ![0, 0] Wf1 slices_S65x64_S64x64_0_0)
        (extractStridedSlice S1x64 ![64, 0] Wf1 slices_S65x64_S1x64_64_0) (row64 bf1) r m
      = hiddenR (F := Ideal) (relu (bnAffine l g be mu var)) s Wf1 bf1 (ix2 r m) := by
  unfold Cert.RegSpec.fusionMid
  rw [hiddenR_apply, col_apply, lastRow_apply, row64_apply]
  refine congrArg (max · _) (congrArg (· + _) (congrArg (· + _) (Finset.sum_congr rfl fun k _ => ?_)))
  rw [fusionHidden_eq, headRows_apply]

/-- The fused third normalisation and head is the reference's head on the normalised features. -/
theorem headK_eq (l : Arr Ideal S100000x64 .f32) (g be mu var : Arr Ideal S64 .f32) (s : Arr Ideal S100000 .f32)
    (Wf1 : Arr Ideal S65x64 .f32) (bf1 : Arr Ideal S64 .f32) (Wf2 : Arr Ideal S64x1 .f32) (bf2 : Arr Ideal S1 .f32) :
    Cert.RegSpec.fusion l (row64 g) (row64 be) (row64 mu) (row64 var)
        (shapeCast S100000x1 s shapeCasts_S100000_S100000x1)
        (extractStridedSlice S64x64 ![0, 0] Wf1 slices_S65x64_S64x64_0_0)
        (extractStridedSlice S1x64 ![64, 0] Wf1 slices_S65x64_S1x64_64_0) (row64 bf1) Wf2 (shapeCast S1x1 bf2 shapeCasts_S1_S1x1)
      = headR (relu (bnAffine l g be mu var)) s Wf1 bf1 Wf2 bf2 := by
  funext j
  obtain ⟨r, u, rfl⟩ : ∃ (r : Fin 100000) (u : Fin 1), j = ix2 r u := ⟨j 0, j 1, eq_ix2 j⟩
  rw [headR_eq, addf_apply, Dot.dot64x1_apply, spreadOne_apply]
  unfold Cert.RegSpec.fusion
  show (∑ m : Fin 64, Cert.RegSpec.fusionMid l (row64 g) (row64 be) (row64 mu) (row64 var) _ _ _ (row64 bf1) r m * Wf2 (ix2 m u))
      + shapeCast S1x1 bf2 shapeCasts_S1_S1x1 (ix2 (0 : Fin 1) (0 : Fin 1)) = _
  rw [one_apply]
  refine congrArg (· + _) (Finset.sum_congr rfl fun m _ => congrArg (· * _) ?_)
  exact fusionMid_eq l g be mu var s Wf1 bf1 r m

end Cert.Spec

end
-- ==== Proof.Bridge.lean ====
/-
  The two compositions agree on any arguments: layer by layer the linear parts agree (the in-degrees are clipped to
  at least one, so nonzero), the clamped variance is the variance, the packed normalisation is the reference's, so
  the features entering the next layer are the same arrays — and the shared neighbour sums and column statistics
  are the same functions applied to them; last, the fused head is the reference's head.
-/
import proofs.«136404_j80470507258311_2_alg».proof.Proof.MathLin
import proofs.«136404_j80470507258311_2_alg».proof.Proof.MathVar
import proofs.«136404_j80470507258311_2_alg».proof.Proof.MathHead

noncomputable section

open scoped BigOperators
open Idealize.ShloMosaic Idealize.ShloMosaic.TcCoe Idealize.ShloMosaic.ValueIdx

namespace Cert.Spec

theorem bnK_eq (l : Arr Ideal Cert.KernelIdeal.S100000x64 .f32) (g be : Arr Ideal Cert.KernelIdeal.S64 .f32) : bnK l g be = bnR l g be := by
  unfold bnK bnR
  rw [varK_eq]
  exact bnPacked_eq l g be (meanF l) (varF l)

theorem lin1_eq (a : Args Ideal) : lin1K a = lin1R a := by
  unfold lin1K lin1R
  rw [invCnt_eq]
  exact sageLin128_eq _ _ (cntClip_ne_zero a.ei) _ _ _ _

theorem h1_eq (a : Args Ideal) : h1K a = h1R a := by
  unfold h1K h1R
  rw [lin1_eq, bnK_eq]

theorem lin2_eq (a : Args Ideal) : lin2K a = lin2R a := by
  unfold lin2K lin2R
  rw [h1_eq, invCnt_eq]
  exact sageLin64_eq _ _ (cntClip_ne_zero a.ei) _ _ _ _

theorem h2_eq (a : Args Ideal) : h2K a = h2R a := by
  unfold h2K h2R
  rw [lin2_eq, bnK_eq]

theorem lin3_eq (a : Args Ideal) : lin3K a = lin3R a := by
  unfold lin3K lin3R
  rw [h2_eq, invCnt_eq]
  exact sageLin64_eq _ _ (cntClip_ne_zero a.ei) _ _ _ _

/-- The kernel program's composition is the reference's. -/
theorem out_eq (a : Args Ideal) : outK a = outR a := by
  unfold outK outR headK
  rw [lin3_eq, varK_eq, headK_eq]
  rfl

end Cert.Spec

end
-- ==== Proof.lean ====
/-
  The certificate's five claims. Both word-level and idealized kernel programs run and leave their arguments as
  launched (the frames); the idealized kernel's result array is a composition of six whole-array region functions
  and the host's neighbour sums and column statistics; the reference's is the plain composition of the host's
  operations; and the two compositions are one function of the arguments (three layers of
  `(agg / cnt) · Wl + b + h · Wr`, batch normalisation and ReLU, then a two-layer head), so the results agree as
  extended reals. Nothing was rewritten by the ideal pass, so `preserves` asks nothing.
-/
import proofs.«136404_j80470507258311_2_alg».proof.Defs
import proofs.«136404_j80470507258311_2_alg».proof.Proof.Gen.Kernel
import proofs.«136404_j80470507258311_2_alg».proof.Proof.Gen.Kernel.Frame
import proofs.«136404_j80470507258311_2_alg».proof.Proof.Gen.KernelIdeal
import proofs.«136404_j80470507258311_2_alg».proof.Proof.Gen.KernelIdeal.Frame
import proofs.«136404_j80470507258311_2_alg».proof.Proof.Gen.ReferenceIdeal
import proofs.«136404_j80470507258311_2_alg».proof.Proof.Gen.Pre_finite_inputs
import proofs.«136404_j80470507258311_2_alg».proof.Proof.KerRun
import proofs.«136404_j80470507258311_2_alg».proof.Proof.KerRead
import proofs.«136404_j80470507258311_2_alg».proof.Proof.RefRead
import proofs.«136404_j80470507258311_2_alg».proof.Proof.Bridge
import Idealize.ShloMosaic.Adequacy
import Idealize.ShloMosaic.Init

noncomputable section

open Idealize.ShloMosaic Idealize.ShloMosaic.TcCoe Idealize.SL.Sem

namespace Cert.Proof

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.ref_value (F := Ideal) m ρ)

theorem preserves : Cert.preserves_Kernel_KernelIdeal := trivial

/-- Both runs end with the result array at the same composition of the (agreeing) arguments. -/
theorem algebraic : Cert.algebraic_KernelIdeal_ReferenceIdeal := by
  intro m ρ m' ρ' _ hagree
  refine ⟨fun c => Cert.Spec.outK (Cert.KernelIdeal.KerHost.argsOf m c), ?_, ?_⟩
  · exact (θ_run Cert.KernelIdeal.defs _ _).mono
      (fun r h c => ⟨(h c).1.trans (Cert.KernelIdeal.KerRun.ker_value m ρ c), (h c).2⟩)
      (Cert.KernelIdeal.KerRun.run_value (F := Ideal) m ρ)
  · refine (θ_run Cert.ReferenceIdeal.defs _ _).mono (fun r h c => ⟨(h c).1.trans ?_, (h c).2⟩)
      (Cert.ReferenceIdeal.RefRun.ref_value (F := Ideal) m' ρ')
    obtain ⟨h0, h1, h2, h3, h4, h5, h6, h7, h8, h9, h10, h11, h12, h13, h14, h15, h16, h17, h18, h19, h20, h21⟩ := hagree c
    rw [h0, h1, h2, h3, h4, h5, h6, h7, h8, h9, h10, h11, h12, h13, h14, h15, h16, h17, h18, h19, h20, h21]
    exact (Cert.Spec.out_eq _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
